-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v546) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x128 : Shape := ⟨3, ![2, 1024, 128]⟩
abbrev S2x1024x1024 : Shape := ⟨3, ![2, 1024, 1024]⟩
abbrev S128x128 : Shape := ⟨2, ![128, 128]⟩
abbrev S128 : Shape := ⟨1, ![128]⟩
abbrev S_ : Shape := ⟨0, ![]⟩

class Facts : Prop where
  bcast_S_S2x1024x128 : S_.BroadcastsInDim S2x1024x128 (![] : Fin 0 → Fin S2x1024x128.rank)
  reducesTo_S2x1024x128_S_d0_1_2 : S2x1024x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1024x1024 : S_.BroadcastsInDim S2x1024x1024 (![] : Fin 0 → Fin S2x1024x1024.rank)
  reducesTo_S2x1024x1024_S_d0_1_2 : S2x1024x1024.ReducesTo [0, 1, 2] S_

variable [Facts]

def fn_part2 {F : FTy → Type} [FloatOps F] (main_arg1 : IVec S2x1024x1024 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x1024x1024 32 := broadcastInDim S2x1024x1024 ![] bcast_S_S2x1024x1024 main_c_16
  let main_v45 : IVec S2x1024x1024 1 := cmpi .eq main_arg1 main_v44
  let main_c_17 : IVec S_ 32 := constantI S_ 32 1#32
  let main_v46 : IVec S2x1024x1024 32 := broadcastInDim S2x1024x1024 ![] bcast_S_S2x1024x1024 main_c_17
  let main_v47 : IVec S2x1024x1024 1 := cmpi .eq main_arg1 main_v46
  let main_v48 : IVec S2x1024x1024 1 := ori main_v45 main_v47
  let main_c_18 : IVec S_ 1 := constantI S_ 1 1#1
  let main_v49 : IVec S_ 1 := (fun x v => Host.reduce IntOp.andi x v reducesTo_S2x1024x1024_S_d0_1_2 h_S_) main_v48 main_c_18
  let main_v50 : IVec S_ 1 := andi main_v43 main_v49
  main_v50

def fn_part1 {F : FTy → Type} [FloatOps F] (main_arg1 : IVec S2x1024x1024 32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S2x1024x128 .f32) (main_arg1 : IVec S2x1024x1024 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S2x1024x128 .f32 := Host.absf main_arg0
  let main_cst : FVec F S_ .f32 := constant S_ .f32 0x7F800000#32
  let main_v1 : FVec F S2x1024x128 .f32 := broadcastInDim S2x1024x128 ![] bcast_S_S2x1024x128 main_cst
  let main_v2 : IVec S2x1024x128 1 := cmpf .olt main_v0 main_v1
  let main_c : IVec S_ 1 := constantI S_ 1 1#1
  let main_v3 : IVec S_ 1 := (fun x v => Host.reduce IntOp.andi x v reducesTo_S2x1024x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S2x1024x128 : Shape := ⟨3, ![2, 1024, 128]⟩
abbrev S2x1024x1024 : Shape := ⟨3, ![2, 1024, 1024]⟩
abbrev S128x128 : Shape := ⟨2, ![128, 128]⟩
abbrev S128 : Shape := ⟨1, ![128]⟩
abbrev S1x128 : Shape := ⟨2, ![1, 128]⟩
abbrev S1x1024x1024 : Shape := ⟨3, ![1, 1024, 1024]⟩
abbrev S1x1024x128 : Shape := ⟨3, ![1, 1024, 128]⟩
abbrev S1024x1024 : Shape := ⟨2, ![1024, 1024]⟩
abbrev S1x1024 : Shape := ⟨2, ![1, 1024]⟩
abbrev S128x1 : Shape := ⟨2, ![128, 1]⟩
abbrev S1024x128 : Shape := ⟨2, ![1024, 128]⟩
abbrev S128x1024 : Shape := ⟨2, ![128, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x1024x128, .f32⟩
  | .hbm, ⟨1, _⟩ => ⟨S2x1024x1024, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S2x1024x128, .f32⟩
  | .local _ .vmem, ⟨0, _⟩ => ⟨S1x1024x1024, .i32⟩
  | .local _ .vmem, ⟨1, _⟩ => ⟨S1x1024x1024, .i32⟩
  | .local _ .vmem, ⟨2, _⟩ => ⟨S1x1024x128, .f32⟩
  | .local _ .vmem, ⟨3, _⟩ => ⟨S1x1024x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x1024x128, .f32⟩
  | .local _ .vmem, ⟨13, _⟩ => ⟨S1x1024x128, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S128_S1x128 : S128.ShapeCasts S1x128
  iota_S1024x1024_d0_w32 : S1024x1024.Iotas .tc 32 [0]
  iota_S1024x1024_d1_w32 : S1024x1024.Iotas .tc 32 [1]
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S1x128_p1_0_S128x1 : S1x128.Transposes [1, 0] S128x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  inb_S128x128_S128x128_0_0 : ∀ a, (![0, 0] : Fin 2 → Nat) a + S128x128.size a ≤ S128x128.size a
  h_S128x128 : 0 < S128x128.numel
  broadcasts_S1x1024_S128x1024 : S1x1024.Broadcasts S128x1024
  broadcasts_S128x1_S128x1024 : S128x1.Broadcasts S128x1024
  transposes_S128x1024_p1_0_S1024x128 : S128x1024.Transposes [1, 0] S1024x128
  shapeCasts_S1024x128_S1x1024x128 : S1024x128.ShapeCasts S1x1024x128
  dot_S1x1024_S1024x1024_S1x1024_1_0_0_1_n_n_wf : DotDims.WF S1x1024 S1024x1024 S1x1024 [1] [0] [0] [1] [] []
  dot_S128x128_S128x1024_S128x1024_0_0_1_1_n_n_wf : DotDims.WF S128x128 S128x1024 S128x1024 [0] [0] [1] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x1024x1024.size a
  hwx0_0 : ∀ i : grid0.Coords, EltTy.bits .i32 = 32 ∨ (Rect.block (s := S2x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S2x1024x128.size a
  hwx0_1 : ∀ i : grid0.Coords, EltTy.bits .f32 = 32 ∨ (Rect.block (s := S2x1024x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x128.size a ≤ S2x1024x128.size a
  hwx0_10 : ∀ i : grid0.Coords, EltTy.bits .f32 = 32 ∨ (Rect.block (s := S2x1024x128) S1x1024x128.size (cc0_transform_10 i) (hinb0_10 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S128x128_S128x1024_S128x1024_0_0_1_1_n_n : DotDims S128x128 S128x1024 S128x1024 where
  lhsContracting := [0]
  rhsContracting := [0]
  lhsNonContracting := [1]
  rhsNonContracting := [1]
  lhsBatch := []
  rhsBatch := []
  wf := dot_S128x128_S128x1024_S128x1024_0_0_1_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x1024x128 : Shape := ⟨3, ![2, 1024, 128]⟩
abbrev S2x1024x1024 : Shape := ⟨3, ![2, 1024, 1024]⟩
abbrev S128x128 : Shape := ⟨2, ![128, 128]⟩
abbrev S128 : Shape := ⟨1, ![128]⟩
abbrev S1x1024x128 : Shape := ⟨3, ![1, 1024, 128]⟩
abbrev S1024x128 : Shape := ⟨2, ![1024, 128]⟩
abbrev S1x1024x1024 : Shape := ⟨3, ![1, 1024, 1024]⟩
abbrev S1024x1024 : Shape := ⟨2, ![1024, 1024]⟩
abbrev S1048576 : Shape := ⟨1, ![1048576]⟩
abbrev S_ : Shape := ⟨0, ![]⟩
abbrev S1x1048576 : Shape := ⟨2, ![1, 1048576]⟩
abbrev S2x1048576 : Shape := ⟨2, ![2, 1048576]⟩
abbrev S1024 : Shape := ⟨1, ![1024]⟩
abbrev S1049600 : Shape := ⟨1, ![1049600]⟩
abbrev S1049600x1 : Shape := ⟨2, ![1049600, 1]⟩
abbrev S1049600x128 : Shape := ⟨2, ![1049600, 128]⟩
abbrev S1x128 : Shape := ⟨2, ![1, 128]⟩
abbrev S4x1024x128 : Shape := ⟨3, ![4, 1024, 128]⟩

abbrev nBuf : Space → Nat
  | .hbm => 799
  | .vmem => 0
  | .smem => 0
  | _ => 0

abbrev hbmTy0_0 (i : Nat) : BufTy := match i % 128 with
  | 0 => ⟨S2x1024x128, .f32⟩
  | 1 => ⟨S2x1024x1024, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1024x128, .f32⟩
  | 11 => ⟨S1024x128, .f32⟩
  | 12 => ⟨S1x1024x1024, .i32⟩
  | 13 => ⟨S1024x1024, .i32⟩
  | 14 => ⟨S1048576, .i32⟩
  | 15 => ⟨S_, .i32⟩
  | 16 => ⟨S_, .i32⟩
  | 17 => ⟨S1048576, .i32⟩
  | 18 => ⟨S1048576, .i32⟩
  | 19 => ⟨S1048576, .i32⟩
  | 20 => ⟨S_, .i32⟩
  | 21 => ⟨S1048576, .i32⟩
  | 22 => ⟨S1048576, .i1⟩
  | 23 => ⟨S1048576, .i32⟩
  | 24 => ⟨S1048576, .i32⟩
  | 25 => ⟨S_, .i32⟩
  | 26 => ⟨S1048576, .i32⟩
  | 27 => ⟨S1048576, .i1⟩
  | 28 => ⟨S1048576, .i1⟩
  | 29 => ⟨S_, .i32⟩
  | 30 => ⟨S1048576, .i32⟩
  | 31 => ⟨S1048576, .i32⟩
  | 32 => ⟨S1048576, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i1⟩
  | 47 => ⟨S_, .i32⟩
  | 48 => ⟨S_, .i1⟩
  | 49 => ⟨S1048576, .i1⟩
  | 50 => ⟨S1048576, .i1⟩
  | 51 => ⟨S1048576, .i1⟩
  | 52 => ⟨S1048576, .i32⟩
  | 53 => ⟨S1048576, .i32⟩
  | 54 => ⟨S1048576, .i32⟩
  | 55 => ⟨S1x1048576, .i32⟩
  | 56 => ⟨S1x1048576, .i32⟩
  | 57 => ⟨S2x1048576, .i32⟩
  | 58 => ⟨S1048576, .i32⟩
  | 59 => ⟨S_, .i32⟩
  | 60 => ⟨S1048576, .i32⟩
  | 61 => ⟨S1048576, .i1⟩
  | 62 => ⟨S1048576, .i1⟩
  | 63 => ⟨S1048576, .i1⟩
  | 64 => ⟨S1048576, .f32⟩
  | 65 => ⟨S1x1048576, .i32⟩
  | 66 => ⟨S1048576, .i32⟩
  | 67 => ⟨S1x1048576, .i32⟩
  | 68 => ⟨S1048576, .i32⟩
  | 69 => ⟨S1024, .i32⟩
  | 70 => ⟨S1049600, .i32⟩
  | 71 => ⟨S1049600, .i32⟩
  | 72 => ⟨S_, .f32⟩
  | 73 => ⟨S1024, .f32⟩
  | 74 => ⟨S1049600, .f32⟩
  | 75 => ⟨S_, .f32⟩
  | 76 => ⟨S1024, .f32⟩
  | 77 => ⟨S_, .i32⟩
  | 78 => ⟨S1049600, .i32⟩
  | 79 => ⟨S1049600, .i1⟩
  | 80 => ⟨S_, .i32⟩
  | 81 => ⟨S1049600, .i32⟩
  | 82 => ⟨S1049600, .i32⟩
  | 83 => ⟨S1049600, .i32⟩
  | 84 => ⟨S1049600x1, .i32⟩
  | 85 => ⟨S1024, .f32⟩
  | 86 => ⟨S_, .f32⟩
  | 87 => ⟨S1024, .f32⟩
  | 88 => ⟨S1024, .i1⟩
  | 89 => ⟨S1024, .f32⟩
  | 90 => ⟨S_, .f32⟩
  | 91 => ⟨S1024, .f32⟩
  | 92 => ⟨S1024, .f32⟩
  | 93 => ⟨S_, .f32⟩
  | 94 => ⟨S_, .f32⟩
  | 95 => ⟨S1024, .f32⟩
  | 96 => ⟨S1024, .f32⟩
  | 97 => ⟨S_, .i32⟩
  | 98 => ⟨S1049600, .i32⟩
  | 99 => ⟨S1049600, .i1⟩
  | 100 => ⟨S_, .i32⟩
  | 101 => ⟨S1049600, .i32⟩
  | 102 => ⟨S1049600, .i32⟩
  | 103 => ⟨S1049600, .i32⟩
  | 104 => ⟨S1049600x1, .i32⟩
  | 105 => ⟨S1049600, .f32⟩
  | 106 => ⟨S_, .i32⟩
  | 107 => ⟨S1049600, .i32⟩
  | 108 => ⟨S1049600, .i1⟩
  | 109 => ⟨S_, .i32⟩
  | 110 => ⟨S1049600, .i32⟩
  | 111 => ⟨S1049600, .i32⟩
  | 112 => ⟨S1049600, .i32⟩
  | 113 => ⟨S1049600x1, .i32⟩
  | 114 => ⟨S1049600, .f32⟩
  | 115 => ⟨S1049600, .f32⟩
  | 116 => ⟨S1049600, .f32⟩
  | 117 => ⟨S1024x128, .f32⟩
  | 118 => ⟨S_, .i32⟩
  | 119 => ⟨S1049600, .i32⟩
  | 120 => ⟨S1049600, .i1⟩
  | 121 => ⟨S_, .i32⟩
  | 122 => ⟨S1049600, .i32⟩
  | 123 => ⟨S1049600, .i32⟩
  | 124 => ⟨S1049600, .i32⟩
  | 125 => ⟨S1049600x1, .i32⟩
  | 126 => ⟨S1049600x128, .f32⟩
  | 127 => ⟨S1049600x1, .f32⟩
  | _ => ⟨S2x1024x128, .f32⟩

abbrev hbmTy0_1 (i : Nat) : BufTy := match i % 128 with
  | 0 => ⟨S1049600x128, .f32⟩
  | 1 => ⟨S1049600x128, .f32⟩
  | 2 => ⟨S_, .f32⟩
  | 3 => ⟨S1024x128, .f32⟩
  | 4 => ⟨S_, .i32⟩
  | 5 => ⟨S1049600, .i32⟩
  | 6 => ⟨S1049600, .i1⟩
  | 7 => ⟨S_, .i32⟩
  | 8 => ⟨S1049600, .i32⟩
  | 9 => ⟨S1049600, .i32⟩
  | 10 => ⟨S1049600, .i32⟩
  | 11 => ⟨S1049600x1, .i32⟩
  | 12 => ⟨S1024x128, .f32⟩
  | 13 => ⟨S1x128, .f32⟩
  | 14 => ⟨S1024x128, .f32⟩
  | 15 => ⟨S1024x128, .f32⟩
  | 16 => ⟨S_, .f32⟩
  | 17 => ⟨S1024x128, .f32⟩
  | 18 => ⟨S1024x128, .f32⟩
  | 19 => ⟨S1x1048576, .i32⟩
  | 20 => ⟨S1048576, .i32⟩
  | 21 => ⟨S1x1048576, .i32⟩
  | 22 => ⟨S1048576, .i32⟩
  | 23 => ⟨S1024, .i32⟩
  | 24 => ⟨S1049600, .i32⟩
  | 25 => ⟨S1049600, .i32⟩
  | 26 => ⟨S_, .f32⟩
  | 27 => ⟨S1024, .f32⟩
  | 28 => ⟨S1049600, .f32⟩
  | 29 => ⟨S_, .f32⟩
  | 30 => ⟨S1024, .f32⟩
  | 31 => ⟨S_, .i32⟩
  | 32 => ⟨S1049600, .i32⟩
  | 33 => ⟨S1049600, .i1⟩
  | 34 => ⟨S_, .i32⟩
  | 35 => ⟨S1049600, .i32⟩
  | 36 => ⟨S1049600, .i32⟩
  | 37 => ⟨S1049600, .i32⟩
  | 38 => ⟨S1049600x1, .i32⟩
  | 39 => ⟨S1024, .f32⟩
  | 40 => ⟨S_, .f32⟩
  | 41 => ⟨S1024, .f32⟩
  | 42 => ⟨S1024, .i1⟩
  | 43 => ⟨S1024, .f32⟩
  | 44 => ⟨S_, .f32⟩
  | 45 => ⟨S1024, .f32⟩
  | 46 => ⟨S1024, .f32⟩
  | 47 => ⟨S_, .f32⟩
  | 48 => ⟨S_, .f32⟩
  | 49 => ⟨S1024, .f32⟩
  | 50 => ⟨S1024, .f32⟩
  | 51 => ⟨S_, .i32⟩
  | 52 => ⟨S1049600, .i32⟩
  | 53 => ⟨S1049600, .i1⟩
  | 54 => ⟨S_, .i32⟩
  | 55 => ⟨S1049600, .i32⟩
  | 56 => ⟨S1049600, .i32⟩
  | 57 => ⟨S1049600, .i32⟩
  | 58 => ⟨S1049600x1, .i32⟩
  | 59 => ⟨S1049600, .f32⟩
  | 60 => ⟨S_, .i32⟩
  | 61 => ⟨S1049600, .i32⟩
  | 62 => ⟨S1049600, .i1⟩
  | 63 => ⟨S_, .i32⟩
  | 64 => ⟨S1049600, .i32⟩
  | 65 => ⟨S1049600, .i32⟩
  | 66 => ⟨S1049600, .i32⟩
  | 67 => ⟨S1049600x1, .i32⟩
  | 68 => ⟨S1049600, .f32⟩
  | 69 => ⟨S1049600, .f32⟩
  | 70 => ⟨S1049600, .f32⟩
  | 71 => ⟨S1024x128, .f32⟩
  | 72 => ⟨S_, .i32⟩
  | 73 => ⟨S1049600, .i32⟩
  | 74 => ⟨S1049600, .i1⟩
  | 75 => ⟨S_, .i32⟩
  | 76 => ⟨S1049600, .i32⟩
  | 77 => ⟨S1049600, .i32⟩
  | 78 => ⟨S1049600, .i32⟩
  | 79 => ⟨S1049600x1, .i32⟩
  | 80 => ⟨S1049600x128, .f32⟩
  | 81 => ⟨S1049600x1, .f32⟩
  | 82 => ⟨S1049600x128, .f32⟩
  | 83 => ⟨S1049600x128, .f32⟩
  | 84 => ⟨S_, .f32⟩
  | 85 => ⟨S1024x128, .f32⟩
  | 86 => ⟨S_, .i32⟩
  | 87 => ⟨S1049600, .i32⟩
  | 88 => ⟨S1049600, .i1⟩
  | 89 => ⟨S_, .i32⟩
  | 90 => ⟨S1049600, .i32⟩
  | 91 => ⟨S1049600, .i32⟩
  | 92 => ⟨S1049600, .i32⟩
  | 93 => ⟨S1049600x1, .i32⟩
  | 94 => ⟨S1024x128, .f32⟩
  | 95 => ⟨S1x128, .f32⟩
  | 96 => ⟨S1024x128, .f32⟩
  | 97 => ⟨S1024x128, .f32⟩
  | 98 => ⟨S_, .f32⟩
  | 99 => ⟨S1024x128, .f32⟩
  | 100 => ⟨S1024x128, .f32⟩
  | 101 => ⟨S1x1048576, .i32⟩
  | 102 => ⟨S1048576, .i32⟩
  | 103 => ⟨S1x1048576, .i32⟩
  | 104 => ⟨S1048576, .i32⟩
  | 105 => ⟨S1024, .i32⟩
  | 106 => ⟨S1049600, .i32⟩
  | 107 => ⟨S1049600, .i32⟩
  | 108 => ⟨S_, .f32⟩
  | 109 => ⟨S1024, .f32⟩
  | 110 => ⟨S1049600, .f32⟩
  | 111 => ⟨S_, .f32⟩
  | 112 => ⟨S1024, .f32⟩
  | 113 => ⟨S_, .i32⟩
  | 114 => ⟨S1049600, .i32⟩
  | 115 => ⟨S1049600, .i1⟩
  | 116 => ⟨S_, .i32⟩
  | 117 => ⟨S1049600, .i32⟩
  | 118 => ⟨S1049600, .i32⟩
  | 119 => ⟨S1049600, .i32⟩
  | 120 => ⟨S1049600x1, .i32⟩
  | 121 => ⟨S1024, .f32⟩
  | 122 => ⟨S_, .f32⟩
  | 123 => ⟨S1024, .f32⟩
  | 124 => ⟨S1024, .i1⟩
  | 125 => ⟨S1024, .f32⟩
  | 126 => ⟨S_, .f32⟩
  | 127 => ⟨S1024, .f32⟩
  | _ => ⟨S2x1024x128, .f32⟩

abbrev hbmTy0_2 (i : Nat) : BufTy := match i % 128 with
  | 0 => ⟨S1024, .f32⟩
  | 1 => ⟨S_, .f32⟩
  | 2 => ⟨S_, .f32⟩
  | 3 => ⟨S1024, .f32⟩
  | 4 => ⟨S1024, .f32⟩
  | 5 => ⟨S_, .i32⟩
  | 6 => ⟨S1049600, .i32⟩
  | 7 => ⟨S1049600, .i1⟩
  | 8 => ⟨S_, .i32⟩
  | 9 => ⟨S1049600, .i32⟩
  | 10 => ⟨S1049600, .i32⟩
  | 11 => ⟨S1049600, .i32⟩
  | 12 => ⟨S1049600x1, .i32⟩
  | 13 => ⟨S1049600, .f32⟩
  | 14 => ⟨S_, .i32⟩
  | 15 => ⟨S1049600, .i32⟩
  | 16 => ⟨S1049600, .i1⟩
  | 17 => ⟨S_, .i32⟩
  | 18 => ⟨S1049600, .i32⟩
  | 19 => ⟨S1049600, .i32⟩
  | 20 => ⟨S1049600, .i32⟩
  | 21 => ⟨S1049600x1, .i32⟩
  | 22 => ⟨S1049600, .f32⟩
  | 23 => ⟨S1049600, .f32⟩
  | 24 => ⟨S1049600, .f32⟩
  | 25 => ⟨S1024x128, .f32⟩
  | 26 => ⟨S_, .i32⟩
  | 27 => ⟨S1049600, .i32⟩
  | 28 => ⟨S1049600, .i1⟩
  | 29 => ⟨S_, .i32⟩
  | 30 => ⟨S1049600, .i32⟩
  | 31 => ⟨S1049600, .i32⟩
  | 32 => ⟨S1049600, .i32⟩
  | 33 => ⟨S1049600x1, .i32⟩
  | 34 => ⟨S1049600x128, .f32⟩
  | 35 => ⟨S1049600x1, .f32⟩
  | 36 => ⟨S1049600x128, .f32⟩
  | 37 => ⟨S1049600x128, .f32⟩
  | 38 => ⟨S_, .f32⟩
  | 39 => ⟨S1024x128, .f32⟩
  | 40 => ⟨S_, .i32⟩
  | 41 => ⟨S1049600, .i32⟩
  | 42 => ⟨S1049600, .i1⟩
  | 43 => ⟨S_, .i32⟩
  | 44 => ⟨S1049600, .i32⟩
  | 45 => ⟨S1049600, .i32⟩
  | 46 => ⟨S1049600, .i32⟩
  | 47 => ⟨S1049600x1, .i32⟩
  | 48 => ⟨S1024x128, .f32⟩
  | 49 => ⟨S1x128, .f32⟩
  | 50 => ⟨S1024x128, .f32⟩
  | 51 => ⟨S1024x128, .f32⟩
  | 52 => ⟨S_, .f32⟩
  | 53 => ⟨S1024x128, .f32⟩
  | 54 => ⟨S1024x128, .f32⟩
  | 55 => ⟨S1x1048576, .i32⟩
  | 56 => ⟨S1048576, .i32⟩
  | 57 => ⟨S1x1048576, .i32⟩
  | 58 => ⟨S1048576, .i32⟩
  | 59 => ⟨S1024, .i32⟩
  | 60 => ⟨S1049600, .i32⟩
  | 61 => ⟨S1049600, .i32⟩
  | 62 => ⟨S_, .f32⟩
  | 63 => ⟨S1024, .f32⟩
  | 64 => ⟨S1049600, .f32⟩
  | 65 => ⟨S_, .f32⟩
  | 66 => ⟨S1024, .f32⟩
  | 67 => ⟨S_, .i32⟩
  | 68 => ⟨S1049600, .i32⟩
  | 69 => ⟨S1049600, .i1⟩
  | 70 => ⟨S_, .i32⟩
  | 71 => ⟨S1049600, .i32⟩
  | 72 => ⟨S1049600, .i32⟩
  | 73 => ⟨S1049600, .i32⟩
  | 74 => ⟨S1049600x1, .i32⟩
  | 75 => ⟨S1024, .f32⟩
  | 76 => ⟨S_, .f32⟩
  | 77 => ⟨S1024, .f32⟩
  | 78 => ⟨S1024, .i1⟩
  | 79 => ⟨S1024, .f32⟩
  | 80 => ⟨S_, .f32⟩
  | 81 => ⟨S1024, .f32⟩
  | 82 => ⟨S1024, .f32⟩
  | 83 => ⟨S_, .f32⟩
  | 84 => ⟨S_, .f32⟩
  | 85 => ⟨S1024, .f32⟩
  | 86 => ⟨S1024, .f32⟩
  | 87 => ⟨S_, .i32⟩
  | 88 => ⟨S1049600, .i32⟩
  | 89 => ⟨S1049600, .i1⟩
  | 90 => ⟨S_, .i32⟩
  | 91 => ⟨S1049600, .i32⟩
  | 92 => ⟨S1049600, .i32⟩
  | 93 => ⟨S1049600, .i32⟩
  | 94 => ⟨S1049600x1, .i32⟩
  | 95 => ⟨S1049600, .f32⟩
  | 96 => ⟨S_, .i32⟩
  | 97 => ⟨S1049600, .i32⟩
  | 98 => ⟨S1049600, .i1⟩
  | 99 => ⟨S_, .i32⟩
  | 100 => ⟨S1049600, .i32⟩
  | 101 => ⟨S1049600, .i32⟩
  | 102 => ⟨S1049600, .i32⟩
  | 103 => ⟨S1049600x1, .i32⟩
  | 104 => ⟨S1049600, .f32⟩
  | 105 => ⟨S1049600, .f32⟩
  | 106 => ⟨S1049600, .f32⟩
  | 107 => ⟨S1024x128, .f32⟩
  | 108 => ⟨S_, .i32⟩
  | 109 => ⟨S1049600, .i32⟩
  | 110 => ⟨S1049600, .i1⟩
  | 111 => ⟨S_, .i32⟩
  | 112 => ⟨S1049600, .i32⟩
  | 113 => ⟨S1049600, .i32⟩
  | 114 => ⟨S1049600, .i32⟩
  | 115 => ⟨S1049600x1, .i32⟩
  | 116 => ⟨S1049600x128, .f32⟩
  | 117 => ⟨S1049600x1, .f32⟩
  | 118 => ⟨S1049600x128, .f32⟩
  | 119 => ⟨S1049600x128, .f32⟩
  | 120 => ⟨S_, .f32⟩
  | 121 => ⟨S1024x128, .f32⟩
  | 122 => ⟨S_, .i32⟩
  | 123 => ⟨S1049600, .i32⟩
  | 124 => ⟨S1049600, .i1⟩
  | 125 => ⟨S_, .i32⟩
  | 126 => ⟨S1049600, .i32⟩
  | 127 => ⟨S1049600, .i32⟩
  | _ => ⟨S2x1024x128, .f32⟩

abbrev hbmTy0_3 (i : Nat) : BufTy := match i % 128 with
  | 0 => ⟨S1049600, .i32⟩
  | 1 => ⟨S1049600x1, .i32⟩
  | 2 => ⟨S1024x128, .f32⟩
  | 3 => ⟨S1x128, .f32⟩
  | 4 => ⟨S1024x128, .f32⟩
  | 5 => ⟨S1024x128, .f32⟩
  | 6 => ⟨S_, .f32⟩
  | 7 => ⟨S1024x128, .f32⟩
  | 8 => ⟨S1024x128, .f32⟩
  | 9 => ⟨S1x1024x128, .f32⟩
  | 10 => ⟨S1x1024x128, .f32⟩
  | 11 => ⟨S1x1024x128, .f32⟩
  | 12 => ⟨S1x1024x128, .f32⟩
  | 13 => ⟨S4x1024x128, .f32⟩
  | 14 => ⟨S_, .f32⟩
  | 15 => ⟨S1024x128, .f32⟩
  | 16 => ⟨S_, .f32⟩
  | 17 => ⟨S1024x128, .f32⟩
  | 18 => ⟨S1024x128, .f32⟩
  | 19 => ⟨S1x1024x128, .f32⟩
  | 20 => ⟨S1024x128, .f32⟩
  | 21 => ⟨S1x1024x1024, .i32⟩
  | 22 => ⟨S1024x1024, .i32⟩
  | 23 => ⟨S1048576, .i32⟩
  | 24 => ⟨S_, .i32⟩
  | 25 => ⟨S_, .i32⟩
  | 26 => ⟨S1048576, .i32⟩
  | 27 => ⟨S1048576, .i32⟩
  | 28 => ⟨S1048576, .i32⟩
  | 29 => ⟨S_, .i32⟩
  | 30 => ⟨S1048576, .i32⟩
  | 31 => ⟨S1048576, .i1⟩
  | 32 => ⟨S1048576, .i32⟩
  | 33 => ⟨S1048576, .i32⟩
  | 34 => ⟨S_, .i32⟩
  | 35 => ⟨S1048576, .i32⟩
  | 36 => ⟨S1048576, .i1⟩
  | 37 => ⟨S1048576, .i1⟩
  | 38 => ⟨S_, .i32⟩
  | 39 => ⟨S1048576, .i32⟩
  | 40 => ⟨S1048576, .i32⟩
  | 41 => ⟨S1048576, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S1048576, .i32⟩
  | 49 => ⟨S1048576, .i32⟩
  | 50 => ⟨S_, .i32⟩
  | 51 => ⟨S1048576, .i32⟩
  | 52 => ⟨S1048576, .i1⟩
  | 53 => ⟨S_, .i32⟩
  | 54 => ⟨S1048576, .i32⟩
  | 55 => ⟨S1048576, .i1⟩
  | 56 => ⟨S_, .i32⟩
  | 57 => ⟨S_, .i1⟩
  | 58 => ⟨S1048576, .i1⟩
  | 59 => ⟨S1048576, .i1⟩
  | 60 => ⟨S1048576, .i1⟩
  | 61 => ⟨S1048576, .i32⟩
  | 62 => ⟨S1048576, .i32⟩
  | 63 => ⟨S1048576, .i32⟩
  | 64 => ⟨S1x1048576, .i32⟩
  | 65 => ⟨S1x1048576, .i32⟩
  | 66 => ⟨S2x1048576, .i32⟩
  | 67 => ⟨S1048576, .i32⟩
  | 68 => ⟨S_, .i32⟩
  | 69 => ⟨S1048576, .i32⟩
  | 70 => ⟨S1048576, .i1⟩
  | 71 => ⟨S1048576, .i1⟩
  | 72 => ⟨S1048576, .i1⟩
  | 73 => ⟨S1048576, .f32⟩
  | 74 => ⟨S1x1048576, .i32⟩
  | 75 => ⟨S1048576, .i32⟩
  | 76 => ⟨S1x1048576, .i32⟩
  | 77 => ⟨S1048576, .i32⟩
  | 78 => ⟨S1024, .i32⟩
  | 79 => ⟨S1049600, .i32⟩
  | 80 => ⟨S1049600, .i32⟩
  | 81 => ⟨S_, .f32⟩
  | 82 => ⟨S1024, .f32⟩
  | 83 => ⟨S1049600, .f32⟩
  | 84 => ⟨S_, .f32⟩
  | 85 => ⟨S1024, .f32⟩
  | 86 => ⟨S_, .i32⟩
  | 87 => ⟨S1049600, .i32⟩
  | 88 => ⟨S1049600, .i1⟩
  | 89 => ⟨S_, .i32⟩
  | 90 => ⟨S1049600, .i32⟩
  | 91 => ⟨S1049600, .i32⟩
  | 92 => ⟨S1049600, .i32⟩
  | 93 => ⟨S1049600x1, .i32⟩
  | 94 => ⟨S1024, .f32⟩
  | 95 => ⟨S_, .f32⟩
  | 96 => ⟨S1024, .f32⟩
  | 97 => ⟨S1024, .i1⟩
  | 98 => ⟨S1024, .f32⟩
  | 99 => ⟨S_, .f32⟩
  | 100 => ⟨S1024, .f32⟩
  | 101 => ⟨S1024, .f32⟩
  | 102 => ⟨S_, .f32⟩
  | 103 => ⟨S_, .f32⟩
  | 104 => ⟨S1024, .f32⟩
  | 105 => ⟨S1024, .f32⟩
  | 106 => ⟨S_, .i32⟩
  | 107 => ⟨S1049600, .i32⟩
  | 108 => ⟨S1049600, .i1⟩
  | 109 => ⟨S_, .i32⟩
  | 110 => ⟨S1049600, .i32⟩
  | 111 => ⟨S1049600, .i32⟩
  | 112 => ⟨S1049600, .i32⟩
  | 113 => ⟨S1049600x1, .i32⟩
  | 114 => ⟨S1049600, .f32⟩
  | 115 => ⟨S_, .i32⟩
  | 116 => ⟨S1049600, .i32⟩
  | 117 => ⟨S1049600, .i1⟩
  | 118 => ⟨S_, .i32⟩
  | 119 => ⟨S1049600, .i32⟩
  | 120 => ⟨S1049600, .i32⟩
  | 121 => ⟨S1049600, .i32⟩
  | 122 => ⟨S1049600x1, .i32⟩
  | 123 => ⟨S1049600, .f32⟩
  | 124 => ⟨S1049600, .f32⟩
  | 125 => ⟨S1049600, .f32⟩
  | 126 => ⟨S1024x128, .f32⟩
  | 127 => ⟨S_, .i32⟩
  | _ => ⟨S2x1024x128, .f32⟩

abbrev hbmTy0_4 (i : Nat) : BufTy := match i % 128 with
  | 0 => ⟨S1049600, .i32⟩
  | 1 => ⟨S1049600, .i1⟩
  | 2 => ⟨S_, .i32⟩
  | 3 => ⟨S1049600, .i32⟩
  | 4 => ⟨S1049600, .i32⟩
  | 5 => ⟨S1049600, .i32⟩
  | 6 => ⟨S1049600x1, .i32⟩
  | 7 => ⟨S1049600x128, .f32⟩
  | 8 => ⟨S1049600x1, .f32⟩
  | 9 => ⟨S1049600x128, .f32⟩
  | 10 => ⟨S1049600x128, .f32⟩
  | 11 => ⟨S_, .f32⟩
  | 12 => ⟨S1024x128, .f32⟩
  | 13 => ⟨S_, .i32⟩
  | 14 => ⟨S1049600, .i32⟩
  | 15 => ⟨S1049600, .i1⟩
  | 16 => ⟨S_, .i32⟩
  | 17 => ⟨S1049600, .i32⟩
  | 18 => ⟨S1049600, .i32⟩
  | 19 => ⟨S1049600, .i32⟩
  | 20 => ⟨S1049600x1, .i32⟩
  | 21 => ⟨S1024x128, .f32⟩
  | 22 => ⟨S1x128, .f32⟩
  | 23 => ⟨S1024x128, .f32⟩
  | 24 => ⟨S1024x128, .f32⟩
  | 25 => ⟨S_, .f32⟩
  | 26 => ⟨S1024x128, .f32⟩
  | 27 => ⟨S1024x128, .f32⟩
  | 28 => ⟨S1x1048576, .i32⟩
  | 29 => ⟨S1048576, .i32⟩
  | 30 => ⟨S1x1048576, .i32⟩
  | 31 => ⟨S1048576, .i32⟩
  | 32 => ⟨S1024, .i32⟩
  | 33 => ⟨S1049600, .i32⟩
  | 34 => ⟨S1049600, .i32⟩
  | 35 => ⟨S_, .f32⟩
  | 36 => ⟨S1024, .f32⟩
  | 37 => ⟨S1049600, .f32⟩
  | 38 => ⟨S_, .f32⟩
  | 39 => ⟨S1024, .f32⟩
  | 40 => ⟨S_, .i32⟩
  | 41 => ⟨S1049600, .i32⟩
  | 42 => ⟨S1049600, .i1⟩
  | 43 => ⟨S_, .i32⟩
  | 44 => ⟨S1049600, .i32⟩
  | 45 => ⟨S1049600, .i32⟩
  | 46 => ⟨S1049600, .i32⟩
  | 47 => ⟨S1049600x1, .i32⟩
  | 48 => ⟨S1024, .f32⟩
  | 49 => ⟨S_, .f32⟩
  | 50 => ⟨S1024, .f32⟩
  | 51 => ⟨S1024, .i1⟩
  | 52 => ⟨S1024, .f32⟩
  | 53 => ⟨S_, .f32⟩
  | 54 => ⟨S1024, .f32⟩
  | 55 => ⟨S1024, .f32⟩
  | 56 => ⟨S_, .f32⟩
  | 57 => ⟨S_, .f32⟩
  | 58 => ⟨S1024, .f32⟩
  | 59 => ⟨S1024, .f32⟩
  | 60 => ⟨S_, .i32⟩
  | 61 => ⟨S1049600, .i32⟩
  | 62 => ⟨S1049600, .i1⟩
  | 63 => ⟨S_, .i32⟩
  | 64 => ⟨S1049600, .i32⟩
  | 65 => ⟨S1049600, .i32⟩
  | 66 => ⟨S1049600, .i32⟩
  | 67 => ⟨S1049600x1, .i32⟩
  | 68 => ⟨S1049600, .f32⟩
  | 69 => ⟨S_, .i32⟩
  | 70 => ⟨S1049600, .i32⟩
  | 71 => ⟨S1049600, .i1⟩
  | 72 => ⟨S_, .i32⟩
  | 73 => ⟨S1049600, .i32⟩
  | 74 => ⟨S1049600, .i32⟩
  | 75 => ⟨S1049600, .i32⟩
  | 76 => ⟨S1049600x1, .i32⟩
  | 77 => ⟨S1049600, .f32⟩
  | 78 => ⟨S1049600, .f32⟩
  | 79 => ⟨S1049600, .f32⟩
  | 80 => ⟨S1024x128, .f32⟩
  | 81 => ⟨S_, .i32⟩
  | 82 => ⟨S1049600, .i32⟩
  | 83 => ⟨S1049600, .i1⟩
  | 84 => ⟨S_, .i32⟩
  | 85 => ⟨S1049600, .i32⟩
  | 86 => ⟨S1049600, .i32⟩
  | 87 => ⟨S1049600, .i32⟩
  | 88 => ⟨S1049600x1, .i32⟩
  | 89 => ⟨S1049600x128, .f32⟩
  | 90 => ⟨S1049600x1, .f32⟩
  | 91 => ⟨S1049600x128, .f32⟩
  | 92 => ⟨S1049600x128, .f32⟩
  | 93 => ⟨S_, .f32⟩
  | 94 => ⟨S1024x128, .f32⟩
  | 95 => ⟨S_, .i32⟩
  | 96 => ⟨S1049600, .i32⟩
  | 97 => ⟨S1049600, .i1⟩
  | 98 => ⟨S_, .i32⟩
  | 99 => ⟨S1049600, .i32⟩
  | 100 => ⟨S1049600, .i32⟩
  | 101 => ⟨S1049600, .i32⟩
  | 102 => ⟨S1049600x1, .i32⟩
  | 103 => ⟨S1024x128, .f32⟩
  | 104 => ⟨S1x128, .f32⟩
  | 105 => ⟨S1024x128, .f32⟩
  | 106 => ⟨S1024x128, .f32⟩
  | 107 => ⟨S_, .f32⟩
  | 108 => ⟨S1024x128, .f32⟩
  | 109 => ⟨S1024x128, .f32⟩
  | 110 => ⟨S1x1048576, .i32⟩
  | 111 => ⟨S1048576, .i32⟩
  | 112 => ⟨S1x1048576, .i32⟩
  | 113 => ⟨S1048576, .i32⟩
  | 114 => ⟨S1024, .i32⟩
  | 115 => ⟨S1049600, .i32⟩
  | 116 => ⟨S1049600, .i32⟩
  | 117 => ⟨S_, .f32⟩
  | 118 => ⟨S1024, .f32⟩
  | 119 => ⟨S1049600, .f32⟩
  | 120 => ⟨S_, .f32⟩
  | 121 => ⟨S1024, .f32⟩
  | 122 => ⟨S_, .i32⟩
  | 123 => ⟨S1049600, .i32⟩
  | 124 => ⟨S1049600, .i1⟩
  | 125 => ⟨S_, .i32⟩
  | 126 => ⟨S1049600, .i32⟩
  | 127 => ⟨S1049600, .i32⟩
  | _ => ⟨S2x1024x128, .f32⟩

abbrev hbmTy0_5 (i : Nat) : BufTy := match i % 128 with
  | 0 => ⟨S1049600, .i32⟩
  | 1 => ⟨S1049600x1, .i32⟩
  | 2 => ⟨S1024, .f32⟩
  | 3 => ⟨S_, .f32⟩
  | 4 => ⟨S1024, .f32⟩
  | 5 => ⟨S1024, .i1⟩
  | 6 => ⟨S1024, .f32⟩
  | 7 => ⟨S_, .f32⟩
  | 8 => ⟨S1024, .f32⟩
  | 9 => ⟨S1024, .f32⟩
  | 10 => ⟨S_, .f32⟩
  | 11 => ⟨S_, .f32⟩
  | 12 => ⟨S1024, .f32⟩
  | 13 => ⟨S1024, .f32⟩
  | 14 => ⟨S_, .i32⟩
  | 15 => ⟨S1049600, .i32⟩
  | 16 => ⟨S1049600, .i1⟩
  | 17 => ⟨S_, .i32⟩
  | 18 => ⟨S1049600, .i32⟩
  | 19 => ⟨S1049600, .i32⟩
  | 20 => ⟨S1049600, .i32⟩
  | 21 => ⟨S1049600x1, .i32⟩
  | 22 => ⟨S1049600, .f32⟩
  | 23 => ⟨S_, .i32⟩
  | 24 => ⟨S1049600, .i32⟩
  | 25 => ⟨S1049600, .i1⟩
  | 26 => ⟨S_, .i32⟩
  | 27 => ⟨S1049600, .i32⟩
  | 28 => ⟨S1049600, .i32⟩
  | 29 => ⟨S1049600, .i32⟩
  | 30 => ⟨S1049600x1, .i32⟩
  | 31 => ⟨S1049600, .f32⟩
  | 32 => ⟨S1049600, .f32⟩
  | 33 => ⟨S1049600, .f32⟩
  | 34 => ⟨S1024x128, .f32⟩
  | 35 => ⟨S_, .i32⟩
  | 36 => ⟨S1049600, .i32⟩
  | 37 => ⟨S1049600, .i1⟩
  | 38 => ⟨S_, .i32⟩
  | 39 => ⟨S1049600, .i32⟩
  | 40 => ⟨S1049600, .i32⟩
  | 41 => ⟨S1049600, .i32⟩
  | 42 => ⟨S1049600x1, .i32⟩
  | 43 => ⟨S1049600x128, .f32⟩
  | 44 => ⟨S1049600x1, .f32⟩
  | 45 => ⟨S1049600x128, .f32⟩
  | 46 => ⟨S1049600x128, .f32⟩
  | 47 => ⟨S_, .f32⟩
  | 48 => ⟨S1024x128, .f32⟩
  | 49 => ⟨S_, .i32⟩
  | 50 => ⟨S1049600, .i32⟩
  | 51 => ⟨S1049600, .i1⟩
  | 52 => ⟨S_, .i32⟩
  | 53 => ⟨S1049600, .i32⟩
  | 54 => ⟨S1049600, .i32⟩
  | 55 => ⟨S1049600, .i32⟩
  | 56 => ⟨S1049600x1, .i32⟩
  | 57 => ⟨S1024x128, .f32⟩
  | 58 => ⟨S1x128, .f32⟩
  | 59 => ⟨S1024x128, .f32⟩
  | 60 => ⟨S1024x128, .f32⟩
  | 61 => ⟨S_, .f32⟩
  | 62 => ⟨S1024x128, .f32⟩
  | 63 => ⟨S1024x128, .f32⟩
  | 64 => ⟨S1x1048576, .i32⟩
  | 65 => ⟨S1048576, .i32⟩
  | 66 => ⟨S1x1048576, .i32⟩
  | 67 => ⟨S1048576, .i32⟩
  | 68 => ⟨S1024, .i32⟩
  | 69 => ⟨S1049600, .i32⟩
  | 70 => ⟨S1049600, .i32⟩
  | 71 => ⟨S_, .f32⟩
  | 72 => ⟨S1024, .f32⟩
  | 73 => ⟨S1049600, .f32⟩
  | 74 => ⟨S_, .f32⟩
  | 75 => ⟨S1024, .f32⟩
  | 76 => ⟨S_, .i32⟩
  | 77 => ⟨S1049600, .i32⟩
  | 78 => ⟨S1049600, .i1⟩
  | 79 => ⟨S_, .i32⟩
  | 80 => ⟨S1049600, .i32⟩
  | 81 => ⟨S1049600, .i32⟩
  | 82 => ⟨S1049600, .i32⟩
  | 83 => ⟨S1049600x1, .i32⟩
  | 84 => ⟨S1024, .f32⟩
  | 85 => ⟨S_, .f32⟩
  | 86 => ⟨S1024, .f32⟩
  | 87 => ⟨S1024, .i1⟩
  | 88 => ⟨S1024, .f32⟩
  | 89 => ⟨S_, .f32⟩
  | 90 => ⟨S1024, .f32⟩
  | 91 => ⟨S1024, .f32⟩
  | 92 => ⟨S_, .f32⟩
  | 93 => ⟨S_, .f32⟩
  | 94 => ⟨S1024, .f32⟩
  | 95 => ⟨S1024, .f32⟩
  | 96 => ⟨S_, .i32⟩
  | 97 => ⟨S1049600, .i32⟩
  | 98 => ⟨S1049600, .i1⟩
  | 99 => ⟨S_, .i32⟩
  | 100 => ⟨S1049600, .i32⟩
  | 101 => ⟨S1049600, .i32⟩
  | 102 => ⟨S1049600, .i32⟩
  | 103 => ⟨S1049600x1, .i32⟩
  | 104 => ⟨S1049600, .f32⟩
  | 105 => ⟨S_, .i32⟩
  | 106 => ⟨S1049600, .i32⟩
  | 107 => ⟨S1049600, .i1⟩
  | 108 => ⟨S_, .i32⟩
  | 109 => ⟨S1049600, .i32⟩
  | 110 => ⟨S1049600, .i32⟩
  | 111 => ⟨S1049600, .i32⟩
  | 112 => ⟨S1049600x1, .i32⟩
  | 113 => ⟨S1049600, .f32⟩
  | 114 => ⟨S1049600, .f32⟩
  | 115 => ⟨S1049600, .f32⟩
  | 116 => ⟨S1024x128, .f32⟩
  | 117 => ⟨S_, .i32⟩
  | 118 => ⟨S1049600, .i32⟩
  | 119 => ⟨S1049600, .i1⟩
  | 120 => ⟨S_, .i32⟩
  | 121 => ⟨S1049600, .i32⟩
  | 122 => ⟨S1049600, .i32⟩
  | 123 => ⟨S1049600, .i32⟩
  | 124 => ⟨S1049600x1, .i32⟩
  | 125 => ⟨S1049600x128, .f32⟩
  | 126 => ⟨S1049600x1, .f32⟩
  | 127 => ⟨S1049600x128, .f32⟩
  | _ => ⟨S2x1024x128, .f32⟩

abbrev hbmTy0_6 (i : Nat) : BufTy := match i % 128 with
  | 0 => ⟨S1049600x128, .f32⟩
  | 1 => ⟨S_, .f32⟩
  | 2 => ⟨S1024x128, .f32⟩
  | 3 => ⟨S_, .i32⟩
  | 4 => ⟨S1049600, .i32⟩
  | 5 => ⟨S1049600, .i1⟩
  | 6 => ⟨S_, .i32⟩
  | 7 => ⟨S1049600, .i32⟩
  | 8 => ⟨S1049600, .i32⟩
  | 9 => ⟨S1049600, .i32⟩
  | 10 => ⟨S1049600x1, .i32⟩
  | 11 => ⟨S1024x128, .f32⟩
  | 12 => ⟨S1x128, .f32⟩
  | 13 => ⟨S1024x128, .f32⟩
  | 14 => ⟨S1024x128, .f32⟩
  | 15 => ⟨S_, .f32⟩
  | 16 => ⟨S1024x128, .f32⟩
  | 17 => ⟨S1024x128, .f32⟩
  | 18 => ⟨S1x1024x128, .f32⟩
  | 19 => ⟨S1x1024x128, .f32⟩
  | 20 => ⟨S1x1024x128, .f32⟩
  | 21 => ⟨S1x1024x128, .f32⟩
  | 22 => ⟨S4x1024x128, .f32⟩
  | 23 => ⟨S_, .f32⟩
  | 24 => ⟨S1024x128, .f32⟩
  | 25 => ⟨S_, .f32⟩
  | 26 => ⟨S1024x128, .f32⟩
  | 27 => ⟨S1024x128, .f32⟩
  | 28 => ⟨S1x1024x128, .f32⟩
  | 29 => ⟨S1x1024x128, .f32⟩
  | 30 => ⟨S2x1024x128, .f32⟩
  | _ => ⟨S2x1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x1024x128, .f32⟩

abbrev bufTy : (tb : Table) → Fin (tcTables nBuf tb) → BufTy
  | .hbm, ⟨i, _⟩ => hbmTy i
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v5 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_c_1 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst : Ref sig .tc := ⟨.hbm, 72, rfl⟩
abbrev main_v23 : Ref sig .tc := ⟨.hbm, 73, rfl⟩
abbrev main_v24 : Ref sig .tc := ⟨.hbm, 74, rfl⟩
abbrev main_cst_2 : Ref sig .tc := ⟨.hbm, 75, rfl⟩
abbrev main_v25 : Ref sig .tc := ⟨.hbm, 76, rfl⟩
abbrev main_c_3 : Ref sig .tc := ⟨.hbm, 77, rfl⟩
abbrev main_v26 : Ref sig .tc := ⟨.hbm, 78, rfl⟩
abbrev main_v27 : Ref sig .tc := ⟨.hbm, 79, rfl⟩
abbrev main_c_4 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_5 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst_6 : Ref sig .tc := ⟨.hbm, 90, rfl⟩
abbrev main_v36 : Ref sig .tc := ⟨.hbm, 91, rfl⟩
abbrev main_v37 : Ref sig .tc := ⟨.hbm, 92, rfl⟩
abbrev main_cst_7 : Ref sig .tc := ⟨.hbm, 93, rfl⟩
abbrev main_call2_v0 : Ref sig .tc := ⟨.hbm, 94, rfl⟩
abbrev main_call2_v1 : Ref sig .tc := ⟨.hbm, 95, rfl⟩
abbrev main_v38 : Ref sig .tc := ⟨.hbm, 96, rfl⟩
abbrev main_c_8 : Ref sig .tc := ⟨.hbm, 97, rfl⟩
abbrev main_v39 : Ref sig .tc := ⟨.hbm, 98, rfl⟩
abbrev main_v40 : Ref sig .tc := ⟨.hbm, 99, rfl⟩
abbrev main_c_9 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_c_10 : Ref sig .tc := ⟨.hbm, 106, rfl⟩
abbrev main_v46 : Ref sig .tc := ⟨.hbm, 107, rfl⟩
abbrev main_v47 : Ref sig .tc := ⟨.hbm, 108, rfl⟩
abbrev main_c_11 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_c_12 : Ref sig .tc := ⟨.hbm, 118, rfl⟩
abbrev main_v56 : Ref sig .tc := ⟨.hbm, 119, rfl⟩
abbrev main_v57 : Ref sig .tc := ⟨.hbm, 120, rfl⟩
abbrev main_c_13 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_14 : Ref sig .tc := ⟨.hbm, 130, rfl⟩
abbrev main_v66 : Ref sig .tc := ⟨.hbm, 131, rfl⟩
abbrev main_c_15 : Ref sig .tc := ⟨.hbm, 132, rfl⟩
abbrev main_v67 : Ref sig .tc := ⟨.hbm, 133, rfl⟩
abbrev main_v68 : Ref sig .tc := ⟨.hbm, 134, rfl⟩
abbrev main_c_16 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_call3_cst : Ref sig .tc := ⟨.hbm, 144, rfl⟩
abbrev main_call3_v0 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_cst_17 : Ref sig .tc := ⟨.hbm, 154, rfl⟩
abbrev main_v85 : Ref sig .tc := ⟨.hbm, 155, rfl⟩
abbrev main_v86 : Ref sig .tc := ⟨.hbm, 156, rfl⟩
abbrev main_cst_18 : Ref sig .tc := ⟨.hbm, 157, rfl⟩
abbrev main_v87 : Ref sig .tc := ⟨.hbm, 158, rfl⟩
abbrev main_c_19 : Ref sig .tc := ⟨.hbm, 159, rfl⟩
abbrev main_v88 : Ref sig .tc := ⟨.hbm, 160, rfl⟩
abbrev main_v89 : Ref sig .tc := ⟨.hbm, 161, rfl⟩
abbrev main_c_20 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_cst_21 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_cst_22 : Ref sig .tc := ⟨.hbm, 172, rfl⟩
abbrev main_v98 : Ref sig .tc := ⟨.hbm, 173, rfl⟩
abbrev main_v99 : Ref sig .tc := ⟨.hbm, 174, rfl⟩
abbrev main_cst_23 : Ref sig .tc := ⟨.hbm, 175, rfl⟩
abbrev main_call4_v0 : Ref sig .tc := ⟨.hbm, 176, rfl⟩
abbrev main_call4_v1 : Ref sig .tc := ⟨.hbm, 177, rfl⟩
abbrev main_v100 : Ref sig .tc := ⟨.hbm, 178, rfl⟩
abbrev main_c_24 : Ref sig .tc := ⟨.hbm, 179, rfl⟩
abbrev main_v101 : Ref sig .tc := ⟨.hbm, 180, rfl⟩
abbrev main_v102 : Ref sig .tc := ⟨.hbm, 181, rfl⟩
abbrev main_c_25 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_c_26 : Ref sig .tc := ⟨.hbm, 188, rfl⟩
abbrev main_v108 : Ref sig .tc := ⟨.hbm, 189, rfl⟩
abbrev main_v109 : Ref sig .tc := ⟨.hbm, 190, rfl⟩
abbrev main_c_27 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_c_28 : Ref sig .tc := ⟨.hbm, 200, rfl⟩
abbrev main_v118 : Ref sig .tc := ⟨.hbm, 201, rfl⟩
abbrev main_v119 : Ref sig .tc := ⟨.hbm, 202, rfl⟩
abbrev main_c_29 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_30 : Ref sig .tc := ⟨.hbm, 212, rfl⟩
abbrev main_v128 : Ref sig .tc := ⟨.hbm, 213, rfl⟩
abbrev main_c_31 : Ref sig .tc := ⟨.hbm, 214, rfl⟩
abbrev main_v129 : Ref sig .tc := ⟨.hbm, 215, rfl⟩
abbrev main_v130 : Ref sig .tc := ⟨.hbm, 216, rfl⟩
abbrev main_c_32 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_call5_cst : Ref sig .tc := ⟨.hbm, 226, rfl⟩
abbrev main_call5_v0 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_cst_33 : Ref sig .tc := ⟨.hbm, 236, rfl⟩
abbrev main_v147 : Ref sig .tc := ⟨.hbm, 237, rfl⟩
abbrev main_v148 : Ref sig .tc := ⟨.hbm, 238, rfl⟩
abbrev main_cst_34 : Ref sig .tc := ⟨.hbm, 239, rfl⟩
abbrev main_v149 : Ref sig .tc := ⟨.hbm, 240, rfl⟩
abbrev main_c_35 : Ref sig .tc := ⟨.hbm, 241, rfl⟩
abbrev main_v150 : Ref sig .tc := ⟨.hbm, 242, rfl⟩
abbrev main_v151 : Ref sig .tc := ⟨.hbm, 243, rfl⟩
abbrev main_c_36 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_cst_37 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_38 : Ref sig .tc := ⟨.hbm, 254, rfl⟩
abbrev main_v160 : Ref sig .tc := ⟨.hbm, 255, rfl⟩
abbrev main_v161 : Ref sig .tc := ⟨.hbm, 256, rfl⟩
abbrev main_cst_39 : Ref sig .tc := ⟨.hbm, 257, rfl⟩
abbrev main_call6_v0 : Ref sig .tc := ⟨.hbm, 258, rfl⟩
abbrev main_call6_v1 : Ref sig .tc := ⟨.hbm, 259, rfl⟩
abbrev main_v162 : Ref sig .tc := ⟨.hbm, 260, rfl⟩
abbrev main_c_40 : Ref sig .tc := ⟨.hbm, 261, rfl⟩
abbrev main_v163 : Ref sig .tc := ⟨.hbm, 262, rfl⟩
abbrev main_v164 : Ref sig .tc := ⟨.hbm, 263, rfl⟩
abbrev main_c_41 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_c_42 : Ref sig .tc := ⟨.hbm, 270, rfl⟩
abbrev main_v170 : Ref sig .tc := ⟨.hbm, 271, rfl⟩
abbrev main_v171 : Ref sig .tc := ⟨.hbm, 272, rfl⟩
abbrev main_c_43 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_c_44 : Ref sig .tc := ⟨.hbm, 282, rfl⟩
abbrev main_v180 : Ref sig .tc := ⟨.hbm, 283, rfl⟩
abbrev main_v181 : Ref sig .tc := ⟨.hbm, 284, rfl⟩
abbrev main_c_45 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_cst_46 : Ref sig .tc := ⟨.hbm, 294, rfl⟩
abbrev main_v190 : Ref sig .tc := ⟨.hbm, 295, rfl⟩
abbrev main_c_47 : Ref sig .tc := ⟨.hbm, 296, rfl⟩
abbrev main_v191 : Ref sig .tc := ⟨.hbm, 297, rfl⟩
abbrev main_v192 : Ref sig .tc := ⟨.hbm, 298, rfl⟩
abbrev main_c_48 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_call7_cst : Ref sig .tc := ⟨.hbm, 308, rfl⟩
abbrev main_call7_v0 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_cst_49 : Ref sig .tc := ⟨.hbm, 318, rfl⟩
abbrev main_v209 : Ref sig .tc := ⟨.hbm, 319, rfl⟩
abbrev main_v210 : Ref sig .tc := ⟨.hbm, 320, rfl⟩
abbrev main_cst_50 : Ref sig .tc := ⟨.hbm, 321, rfl⟩
abbrev main_v211 : Ref sig .tc := ⟨.hbm, 322, rfl⟩
abbrev main_c_51 : Ref sig .tc := ⟨.hbm, 323, rfl⟩
abbrev main_v212 : Ref sig .tc := ⟨.hbm, 324, rfl⟩
abbrev main_v213 : Ref sig .tc := ⟨.hbm, 325, rfl⟩
abbrev main_c_52 : Ref sig .tc := ⟨.hbm, 326, rfl⟩
abbrev main_v214 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_v218 : Ref sig .tc := ⟨.hbm, 331, rfl⟩
abbrev main_cst_53 : Ref sig .tc := ⟨.hbm, 332, rfl⟩
abbrev main_v219 : Ref sig .tc := ⟨.hbm, 333, rfl⟩
abbrev main_v220 : Ref sig .tc := ⟨.hbm, 334, rfl⟩
abbrev main_v221 : Ref sig .tc := ⟨.hbm, 335, rfl⟩
abbrev main_cst_54 : Ref sig .tc := ⟨.hbm, 336, rfl⟩
abbrev main_v222 : Ref sig .tc := ⟨.hbm, 337, rfl⟩
abbrev main_v223 : Ref sig .tc := ⟨.hbm, 338, rfl⟩
abbrev main_cst_55 : Ref sig .tc := ⟨.hbm, 339, rfl⟩
abbrev main_call8_v0 : Ref sig .tc := ⟨.hbm, 340, rfl⟩
abbrev main_call8_v1 : Ref sig .tc := ⟨.hbm, 341, rfl⟩
abbrev main_v224 : Ref sig .tc := ⟨.hbm, 342, rfl⟩
abbrev main_c_56 : Ref sig .tc := ⟨.hbm, 343, rfl⟩
abbrev main_v225 : Ref sig .tc := ⟨.hbm, 344, rfl⟩
abbrev main_v226 : Ref sig .tc := ⟨.hbm, 345, rfl⟩
abbrev main_c_57 : Ref sig .tc := ⟨.hbm, 346, rfl⟩
abbrev main_v227 : Ref sig .tc := ⟨.hbm, 347, rfl⟩
abbrev main_v228 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_c_58 : Ref sig .tc := ⟨.hbm, 352, rfl⟩
abbrev main_v232 : Ref sig .tc := ⟨.hbm, 353, rfl⟩
abbrev main_v233 : Ref sig .tc := ⟨.hbm, 354, rfl⟩
abbrev main_c_59 : Ref sig .tc := ⟨.hbm, 355, rfl⟩
abbrev main_v234 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_c_60 : Ref sig .tc := ⟨.hbm, 364, rfl⟩
abbrev main_v242 : Ref sig .tc := ⟨.hbm, 365, rfl⟩
abbrev main_v243 : Ref sig .tc := ⟨.hbm, 366, rfl⟩
abbrev main_c_61 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_cst_62 : Ref sig .tc := ⟨.hbm, 376, rfl⟩
abbrev main_v252 : Ref sig .tc := ⟨.hbm, 377, rfl⟩
abbrev main_c_63 : Ref sig .tc := ⟨.hbm, 378, rfl⟩
abbrev main_v253 : Ref sig .tc := ⟨.hbm, 379, rfl⟩
abbrev main_v254 : Ref sig .tc := ⟨.hbm, 380, rfl⟩
abbrev main_c_64 : Ref sig .tc := ⟨.hbm, 381, rfl⟩
abbrev main_v255 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_v259 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_call9_cst : Ref sig .tc := ⟨.hbm, 390, rfl⟩
abbrev main_call9_v0 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_cst_65 : Ref sig .tc := ⟨.hbm, 398, rfl⟩
abbrev main_v269 : Ref sig .tc := ⟨.hbm, 399, rfl⟩
abbrev main_cst_66 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_c_67 : Ref sig .tc := ⟨.hbm, 408, rfl⟩
abbrev main_call10_v0 : Ref sig .tc := ⟨.hbm, 409, rfl⟩
abbrev main_call10_v1 : Ref sig .tc := ⟨.hbm, 410, rfl⟩
abbrev main_call10_v2 : Ref sig .tc := ⟨.hbm, 411, rfl⟩
abbrev main_call10_v3 : Ref sig .tc := ⟨.hbm, 412, rfl⟩
abbrev main_call10_v4 : Ref sig .tc := ⟨.hbm, 413, rfl⟩
abbrev main_call10_v5 : Ref sig .tc := ⟨.hbm, 414, rfl⟩
abbrev main_call10_v6 : Ref sig .tc := ⟨.hbm, 415, rfl⟩
abbrev main_call10_v7 : Ref sig .tc := ⟨.hbm, 416, rfl⟩
abbrev main_call10_v8 : Ref sig .tc := ⟨.hbm, 417, rfl⟩
abbrev main_call10_c : Ref sig .tc := ⟨.hbm, 418, rfl⟩
abbrev main_call10_v9 : Ref sig .tc := ⟨.hbm, 419, rfl⟩
abbrev main_call10_v10 : Ref sig .tc := ⟨.hbm, 420, rfl⟩
abbrev main_call10_v11 : Ref sig .tc := ⟨.hbm, 421, rfl⟩
abbrev main_call10_c_0 : Ref sig .tc := ⟨.hbm, 422, rfl⟩
abbrev main_call10_v12 : Ref sig .tc := ⟨.hbm, 423, rfl⟩
abbrev main_call10_v13 : Ref sig .tc := ⟨.hbm, 424, rfl⟩
abbrev main_v277 : Ref sig .tc := ⟨.hbm, 425, rfl⟩
abbrev main_c_68 : Ref sig .tc := ⟨.hbm, 426, rfl⟩
abbrev main_call11_v0 : Ref sig .tc := ⟨.hbm, 427, rfl⟩
abbrev main_call11_c : Ref sig .tc := ⟨.hbm, 428, rfl⟩
abbrev main_call11_v1 : Ref sig .tc := ⟨.hbm, 429, rfl⟩
abbrev main_call11_c_0 : Ref sig .tc := ⟨.hbm, 430, rfl⟩
abbrev main_call11_v2 : Ref sig .tc := ⟨.hbm, 431, rfl⟩
abbrev main_call11_v3 : Ref sig .tc := ⟨.hbm, 432, rfl⟩
abbrev main_call11_v4 : Ref sig .tc := ⟨.hbm, 433, rfl⟩
abbrev main_call11_c_1 : Ref sig .tc := ⟨.hbm, 434, rfl⟩
abbrev main_call11_v5 : Ref sig .tc := ⟨.hbm, 435, rfl⟩
abbrev main_call11_v6 : Ref sig .tc := ⟨.hbm, 436, rfl⟩
abbrev main_call11_c_2 : Ref sig .tc := ⟨.hbm, 437, rfl⟩
abbrev main_call11_v7 : Ref sig .tc := ⟨.hbm, 438, rfl⟩
abbrev main_call11_v8 : Ref sig .tc := ⟨.hbm, 439, rfl⟩
abbrev main_call11_c_3 : Ref sig .tc := ⟨.hbm, 440, rfl⟩
abbrev main_call11_v9 : Ref sig .tc := ⟨.hbm, 441, rfl⟩
abbrev main_call11_v10 : Ref sig .tc := ⟨.hbm, 442, rfl⟩
abbrev main_call11_v11 : Ref sig .tc := ⟨.hbm, 443, rfl⟩
abbrev main_call11_v12 : Ref sig .tc := ⟨.hbm, 444, rfl⟩
abbrev main_call11_v13 : Ref sig .tc := ⟨.hbm, 445, rfl⟩
abbrev main_call11_v14 : Ref sig .tc := ⟨.hbm, 446, rfl⟩
abbrev main_v278 : Ref sig .tc := ⟨.hbm, 447, rfl⟩
abbrev main_v279 : Ref sig .tc := ⟨.hbm, 448, rfl⟩
abbrev main_v280 : Ref sig .tc := ⟨.hbm, 449, rfl⟩
abbrev main_v281 : Ref sig .tc := ⟨.hbm, 450, rfl⟩
abbrev main_v282 : Ref sig .tc := ⟨.hbm, 451, rfl⟩
abbrev main_c_69 : Ref sig .tc := ⟨.hbm, 452, rfl⟩
abbrev main_v283 : Ref sig .tc := ⟨.hbm, 453, rfl⟩
abbrev main_v284 : Ref sig .tc := ⟨.hbm, 454, rfl⟩
abbrev main_v285 : Ref sig .tc := ⟨.hbm, 455, rfl⟩
abbrev main_v286 : Ref sig .tc := ⟨.hbm, 456, rfl⟩
abbrev main_v287 : Ref sig .tc := ⟨.hbm, 457, rfl⟩
abbrev main_v288 : Ref sig .tc := ⟨.hbm, 458, rfl⟩
abbrev main_v289 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_v293 : Ref sig .tc := ⟨.hbm, 463, rfl⟩
abbrev main_v294 : Ref sig .tc := ⟨.hbm, 464, rfl⟩
abbrev main_cst_70 : Ref sig .tc := ⟨.hbm, 465, rfl⟩
abbrev main_v295 : Ref sig .tc := ⟨.hbm, 466, rfl⟩
abbrev main_v296 : Ref sig .tc := ⟨.hbm, 467, rfl⟩
abbrev main_cst_71 : Ref sig .tc := ⟨.hbm, 468, rfl⟩
abbrev main_v297 : Ref sig .tc := ⟨.hbm, 469, rfl⟩
abbrev main_c_72 : Ref sig .tc := ⟨.hbm, 470, rfl⟩
abbrev main_v298 : Ref sig .tc := ⟨.hbm, 471, rfl⟩
abbrev main_v299 : Ref sig .tc := ⟨.hbm, 472, rfl⟩
abbrev main_c_73 : Ref sig .tc := ⟨.hbm, 473, rfl⟩
abbrev main_v300 : Ref sig .tc := ⟨.hbm, 474, rfl⟩
abbrev main_v301 : Ref sig .tc := ⟨.hbm, 475, rfl⟩
abbrev main_v302 : Ref sig .tc := ⟨.hbm, 476, rfl⟩
abbrev main_v303 : Ref sig .tc := ⟨.hbm, 477, rfl⟩
abbrev main_v304 : Ref sig .tc := ⟨.hbm, 478, rfl⟩
abbrev main_cst_74 : Ref sig .tc := ⟨.hbm, 479, rfl⟩
abbrev main_v305 : Ref sig .tc := ⟨.hbm, 480, rfl⟩
abbrev main_v306 : Ref sig .tc := ⟨.hbm, 481, rfl⟩
abbrev main_v307 : Ref sig .tc := ⟨.hbm, 482, rfl⟩
abbrev main_cst_75 : Ref sig .tc := ⟨.hbm, 483, rfl⟩
abbrev main_v308 : Ref sig .tc := ⟨.hbm, 484, rfl⟩
abbrev main_v309 : Ref sig .tc := ⟨.hbm, 485, rfl⟩
abbrev main_cst_76 : Ref sig .tc := ⟨.hbm, 486, rfl⟩
abbrev main_call12_v0 : Ref sig .tc := ⟨.hbm, 487, rfl⟩
abbrev main_call12_v1 : Ref sig .tc := ⟨.hbm, 488, rfl⟩
abbrev main_v310 : Ref sig .tc := ⟨.hbm, 489, rfl⟩
abbrev main_c_77 : Ref sig .tc := ⟨.hbm, 490, rfl⟩
abbrev main_v311 : Ref sig .tc := ⟨.hbm, 491, rfl⟩
abbrev main_v312 : Ref sig .tc := ⟨.hbm, 492, rfl⟩
abbrev main_c_78 : Ref sig .tc := ⟨.hbm, 493, rfl⟩
abbrev main_v313 : Ref sig .tc := ⟨.hbm, 494, rfl⟩
abbrev main_v314 : Ref sig .tc := ⟨.hbm, 495, rfl⟩
abbrev main_v315 : Ref sig .tc := ⟨.hbm, 496, rfl⟩
abbrev main_v316 : Ref sig .tc := ⟨.hbm, 497, rfl⟩
abbrev main_v317 : Ref sig .tc := ⟨.hbm, 498, rfl⟩
abbrev main_c_79 : Ref sig .tc := ⟨.hbm, 499, rfl⟩
abbrev main_v318 : Ref sig .tc := ⟨.hbm, 500, rfl⟩
abbrev main_v319 : Ref sig .tc := ⟨.hbm, 501, rfl⟩
abbrev main_c_80 : Ref sig .tc := ⟨.hbm, 502, rfl⟩
abbrev main_v320 : Ref sig .tc := ⟨.hbm, 503, rfl⟩
abbrev main_v321 : Ref sig .tc := ⟨.hbm, 504, rfl⟩
abbrev main_v322 : Ref sig .tc := ⟨.hbm, 505, rfl⟩
abbrev main_v323 : Ref sig .tc := ⟨.hbm, 506, rfl⟩
abbrev main_v324 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_c_81 : Ref sig .tc := ⟨.hbm, 511, rfl⟩
abbrev main_v328 : Ref sig .tc := ⟨.hbm, 512, rfl⟩
abbrev main_v329 : Ref sig .tc := ⟨.hbm, 513, rfl⟩
abbrev main_c_82 : Ref sig .tc := ⟨.hbm, 514, rfl⟩
abbrev main_v330 : Ref sig .tc := ⟨.hbm, 515, rfl⟩
abbrev main_v331 : Ref sig .tc := ⟨.hbm, 516, rfl⟩
abbrev main_v332 : Ref sig .tc := ⟨.hbm, 517, rfl⟩
abbrev main_v333 : Ref sig .tc := ⟨.hbm, 518, rfl⟩
abbrev main_v334 : Ref sig .tc := ⟨.hbm, 519, rfl⟩
abbrev main_v335 : Ref sig .tc := ⟨.hbm, 520, rfl⟩
abbrev main_v336 : Ref sig .tc := ⟨.hbm, 521, rfl⟩
abbrev main_v337 : Ref sig .tc := ⟨.hbm, 522, rfl⟩
abbrev main_cst_83 : Ref sig .tc := ⟨.hbm, 523, rfl⟩
abbrev main_v338 : Ref sig .tc := ⟨.hbm, 524, rfl⟩
abbrev main_c_84 : Ref sig .tc := ⟨.hbm, 525, rfl⟩
abbrev main_v339 : Ref sig .tc := ⟨.hbm, 526, rfl⟩
abbrev main_v340 : Ref sig .tc := ⟨.hbm, 527, rfl⟩
abbrev main_c_85 : Ref sig .tc := ⟨.hbm, 528, rfl⟩
abbrev main_v341 : Ref sig .tc := ⟨.hbm, 529, rfl⟩
abbrev main_v342 : Ref sig .tc := ⟨.hbm, 530, rfl⟩
abbrev main_v343 : Ref sig .tc := ⟨.hbm, 531, rfl⟩
abbrev main_v344 : Ref sig .tc := ⟨.hbm, 532, rfl⟩
abbrev main_v345 : Ref sig .tc := ⟨.hbm, 533, rfl⟩
abbrev main_v346 : Ref sig .tc := ⟨.hbm, 534, rfl⟩
abbrev main_v347 : Ref sig .tc := ⟨.hbm, 535, rfl⟩
abbrev main_v348 : Ref sig .tc := ⟨.hbm, 536, rfl⟩
abbrev main_call13_cst : Ref sig .tc := ⟨.hbm, 537, rfl⟩
abbrev main_call13_v0 : Ref sig .tc := ⟨.hbm, 538, rfl⟩
abbrev main_v349 : Ref sig .tc := ⟨.hbm, 539, rfl⟩
abbrev main_v350 : Ref sig .tc := ⟨.hbm, 540, rfl⟩
abbrev main_v351 : Ref sig .tc := ⟨.hbm, 541, rfl⟩
abbrev main_v352 : Ref sig .tc := ⟨.hbm, 542, rfl⟩
abbrev main_v353 : Ref sig .tc := ⟨.hbm, 543, rfl⟩
abbrev main_v354 : Ref sig .tc := ⟨.hbm, 544, rfl⟩
abbrev main_v355 : Ref sig .tc := ⟨.hbm, 545, rfl⟩
abbrev main_v356 : Ref sig .tc := ⟨.hbm, 546, rfl⟩
abbrev main_cst_86 : Ref sig .tc := ⟨.hbm, 547, rfl⟩
abbrev main_v357 : Ref sig .tc := ⟨.hbm, 548, rfl⟩
abbrev main_v358 : Ref sig .tc := ⟨.hbm, 549, rfl⟩
abbrev main_cst_87 : Ref sig .tc := ⟨.hbm, 550, rfl⟩
abbrev main_v359 : Ref sig .tc := ⟨.hbm, 551, rfl⟩
abbrev main_c_88 : Ref sig .tc := ⟨.hbm, 552, rfl⟩
abbrev main_v360 : Ref sig .tc := ⟨.hbm, 553, rfl⟩
abbrev main_v361 : Ref sig .tc := ⟨.hbm, 554, rfl⟩
abbrev main_c_89 : Ref sig .tc := ⟨.hbm, 555, rfl⟩
abbrev main_v362 : Ref sig .tc := ⟨.hbm, 556, rfl⟩
abbrev main_v363 : Ref sig .tc := ⟨.hbm, 557, rfl⟩
abbrev main_v364 : Ref sig .tc := ⟨.hbm, 558, rfl⟩
abbrev main_v365 : Ref sig .tc := ⟨.hbm, 559, rfl⟩
abbrev main_v366 : Ref sig .tc := ⟨.hbm, 560, rfl⟩
abbrev main_cst_90 : Ref sig .tc := ⟨.hbm, 561, rfl⟩
abbrev main_v367 : Ref sig .tc := ⟨.hbm, 562, rfl⟩
abbrev main_v368 : Ref sig .tc := ⟨.hbm, 563, rfl⟩
abbrev main_v369 : Ref sig .tc := ⟨.hbm, 564, rfl⟩
abbrev main_cst_91 : Ref sig .tc := ⟨.hbm, 565, rfl⟩
abbrev main_v370 : Ref sig .tc := ⟨.hbm, 566, rfl⟩
abbrev main_v371 : Ref sig .tc := ⟨.hbm, 567, rfl⟩
abbrev main_cst_92 : Ref sig .tc := ⟨.hbm, 568, rfl⟩
abbrev main_call14_v0 : Ref sig .tc := ⟨.hbm, 569, rfl⟩
abbrev main_call14_v1 : Ref sig .tc := ⟨.hbm, 570, rfl⟩
abbrev main_v372 : Ref sig .tc := ⟨.hbm, 571, rfl⟩
abbrev main_c_93 : Ref sig .tc := ⟨.hbm, 572, rfl⟩
abbrev main_v373 : Ref sig .tc := ⟨.hbm, 573, rfl⟩
abbrev main_v374 : Ref sig .tc := ⟨.hbm, 574, rfl⟩
abbrev main_c_94 : Ref sig .tc := ⟨.hbm, 575, rfl⟩
abbrev main_v375 : Ref sig .tc := ⟨.hbm, 576, rfl⟩
abbrev main_v376 : Ref sig .tc := ⟨.hbm, 577, rfl⟩
abbrev main_v377 : Ref sig .tc := ⟨.hbm, 578, rfl⟩
abbrev main_v378 : Ref sig .tc := ⟨.hbm, 579, rfl⟩
abbrev main_v379 : Ref sig .tc := ⟨.hbm, 580, rfl⟩
abbrev main_c_95 : Ref sig .tc := ⟨.hbm, 581, rfl⟩
abbrev main_v380 : Ref sig .tc := ⟨.hbm, 582, rfl⟩
abbrev main_v381 : Ref sig .tc := ⟨.hbm, 583, rfl⟩
abbrev main_c_96 : Ref sig .tc := ⟨.hbm, 584, rfl⟩
abbrev main_v382 : Ref sig .tc := ⟨.hbm, 585, rfl⟩
abbrev main_v383 : Ref sig .tc := ⟨.hbm, 586, rfl⟩
abbrev main_v384 : Ref sig .tc := ⟨.hbm, 587, rfl⟩
abbrev main_v385 : Ref sig .tc := ⟨.hbm, 588, rfl⟩
abbrev main_v386 : Ref sig .tc := ⟨.hbm, 589, rfl⟩
abbrev main_v387 : Ref sig .tc := ⟨.hbm, 590, rfl⟩
abbrev main_v388 : Ref sig .tc := ⟨.hbm, 591, rfl⟩
abbrev main_v389 : Ref sig .tc := ⟨.hbm, 592, rfl⟩
abbrev main_c_97 : Ref sig .tc := ⟨.hbm, 593, rfl⟩
abbrev main_v390 : Ref sig .tc := ⟨.hbm, 594, rfl⟩
abbrev main_v391 : Ref sig .tc := ⟨.hbm, 595, rfl⟩
abbrev main_c_98 : Ref sig .tc := ⟨.hbm, 596, rfl⟩
abbrev main_v392 : Ref sig .tc := ⟨.hbm, 597, rfl⟩
abbrev main_v393 : Ref sig .tc := ⟨.hbm, 598, rfl⟩
abbrev main_v394 : Ref sig .tc := ⟨.hbm, 599, rfl⟩
abbrev main_v395 : Ref sig .tc := ⟨.hbm, 600, rfl⟩
abbrev main_v396 : Ref sig .tc := ⟨.hbm, 601, rfl⟩
abbrev main_v397 : Ref sig .tc := ⟨.hbm, 602, rfl⟩
abbrev main_v398 : Ref sig .tc := ⟨.hbm, 603, rfl⟩
abbrev main_v399 : Ref sig .tc := ⟨.hbm, 604, rfl⟩
abbrev main_cst_99 : Ref sig .tc := ⟨.hbm, 605, rfl⟩
abbrev main_v400 : Ref sig .tc := ⟨.hbm, 606, rfl⟩
abbrev main_c_100 : Ref sig .tc := ⟨.hbm, 607, rfl⟩
abbrev main_v401 : Ref sig .tc := ⟨.hbm, 608, rfl⟩
abbrev main_v402 : Ref sig .tc := ⟨.hbm, 609, rfl⟩
abbrev main_c_101 : Ref sig .tc := ⟨.hbm, 610, rfl⟩
abbrev main_v403 : Ref sig .tc := ⟨.hbm, 611, rfl⟩
abbrev main_v404 : Ref sig .tc := ⟨.hbm, 612, rfl⟩
abbrev main_v405 : Ref sig .tc := ⟨.hbm, 613, rfl⟩
abbrev main_v406 : Ref sig .tc := ⟨.hbm, 614, rfl⟩
abbrev main_v407 : Ref sig .tc := ⟨.hbm, 615, rfl⟩
abbrev main_v408 : Ref sig .tc := ⟨.hbm, 616, rfl⟩
abbrev main_v409 : Ref sig .tc := ⟨.hbm, 617, rfl⟩
abbrev main_v410 : Ref sig .tc := ⟨.hbm, 618, rfl⟩
abbrev main_call15_cst : Ref sig .tc := ⟨.hbm, 619, rfl⟩
abbrev main_call15_v0 : Ref sig .tc := ⟨.hbm, 620, rfl⟩
abbrev main_v411 : Ref sig .tc := ⟨.hbm, 621, rfl⟩
abbrev main_v412 : Ref sig .tc := ⟨.hbm, 622, rfl⟩
abbrev main_v413 : Ref sig .tc := ⟨.hbm, 623, rfl⟩
abbrev main_v414 : Ref sig .tc := ⟨.hbm, 624, rfl⟩
abbrev main_v415 : Ref sig .tc := ⟨.hbm, 625, rfl⟩
abbrev main_v416 : Ref sig .tc := ⟨.hbm, 626, rfl⟩
abbrev main_v417 : Ref sig .tc := ⟨.hbm, 627, rfl⟩
abbrev main_v418 : Ref sig .tc := ⟨.hbm, 628, rfl⟩
abbrev main_cst_102 : Ref sig .tc := ⟨.hbm, 629, rfl⟩
abbrev main_v419 : Ref sig .tc := ⟨.hbm, 630, rfl⟩
abbrev main_v420 : Ref sig .tc := ⟨.hbm, 631, rfl⟩
abbrev main_cst_103 : Ref sig .tc := ⟨.hbm, 632, rfl⟩
abbrev main_v421 : Ref sig .tc := ⟨.hbm, 633, rfl⟩
abbrev main_c_104 : Ref sig .tc := ⟨.hbm, 634, rfl⟩
abbrev main_v422 : Ref sig .tc := ⟨.hbm, 635, rfl⟩
abbrev main_v423 : Ref sig .tc := ⟨.hbm, 636, rfl⟩
abbrev main_c_105 : Ref sig .tc := ⟨.hbm, 637, rfl⟩
abbrev main_v424 : Ref sig .tc := ⟨.hbm, 638, rfl⟩
abbrev main_v425 : Ref sig .tc := ⟨.hbm, 639, rfl⟩
abbrev main_v426 : Ref sig .tc := ⟨.hbm, 640, rfl⟩
abbrev main_v427 : Ref sig .tc := ⟨.hbm, 641, rfl⟩
abbrev main_v428 : Ref sig .tc := ⟨.hbm, 642, rfl⟩
abbrev main_cst_106 : Ref sig .tc := ⟨.hbm, 643, rfl⟩
abbrev main_v429 : Ref sig .tc := ⟨.hbm, 644, rfl⟩
abbrev main_v430 : Ref sig .tc := ⟨.hbm, 645, rfl⟩
abbrev main_v431 : Ref sig .tc := ⟨.hbm, 646, rfl⟩
abbrev main_cst_107 : Ref sig .tc := ⟨.hbm, 647, rfl⟩
abbrev main_v432 : Ref sig .tc := ⟨.hbm, 648, rfl⟩
abbrev main_v433 : Ref sig .tc := ⟨.hbm, 649, rfl⟩
abbrev main_cst_108 : Ref sig .tc := ⟨.hbm, 650, rfl⟩
abbrev main_call16_v0 : Ref sig .tc := ⟨.hbm, 651, rfl⟩
abbrev main_call16_v1 : Ref sig .tc := ⟨.hbm, 652, rfl⟩
abbrev main_v434 : Ref sig .tc := ⟨.hbm, 653, rfl⟩
abbrev main_c_109 : Ref sig .tc := ⟨.hbm, 654, rfl⟩
abbrev main_v435 : Ref sig .tc := ⟨.hbm, 655, rfl⟩
abbrev main_v436 : Ref sig .tc := ⟨.hbm, 656, rfl⟩
abbrev main_c_110 : Ref sig .tc := ⟨.hbm, 657, rfl⟩
abbrev main_v437 : Ref sig .tc := ⟨.hbm, 658, rfl⟩
abbrev main_v438 : Ref sig .tc := ⟨.hbm, 659, rfl⟩
abbrev main_v439 : Ref sig .tc := ⟨.hbm, 660, rfl⟩
abbrev main_v440 : Ref sig .tc := ⟨.hbm, 661, rfl⟩
abbrev main_v441 : Ref sig .tc := ⟨.hbm, 662, rfl⟩
abbrev main_c_111 : Ref sig .tc := ⟨.hbm, 663, rfl⟩
abbrev main_v442 : Ref sig .tc := ⟨.hbm, 664, rfl⟩
abbrev main_v443 : Ref sig .tc := ⟨.hbm, 665, rfl⟩
abbrev main_c_112 : Ref sig .tc := ⟨.hbm, 666, rfl⟩
abbrev main_v444 : Ref sig .tc := ⟨.hbm, 667, rfl⟩
abbrev main_v445 : Ref sig .tc := ⟨.hbm, 668, rfl⟩
abbrev main_v446 : Ref sig .tc := ⟨.hbm, 669, rfl⟩
abbrev main_v447 : Ref sig .tc := ⟨.hbm, 670, rfl⟩
abbrev main_v448 : Ref sig .tc := ⟨.hbm, 671, rfl⟩
abbrev main_v449 : Ref sig .tc := ⟨.hbm, 672, rfl⟩
abbrev main_v450 : Ref sig .tc := ⟨.hbm, 673, rfl⟩
abbrev main_v451 : Ref sig .tc := ⟨.hbm, 674, rfl⟩
abbrev main_c_113 : Ref sig .tc := ⟨.hbm, 675, rfl⟩
abbrev main_v452 : Ref sig .tc := ⟨.hbm, 676, rfl⟩
abbrev main_v453 : Ref sig .tc := ⟨.hbm, 677, rfl⟩
abbrev main_c_114 : Ref sig .tc := ⟨.hbm, 678, rfl⟩
abbrev main_v454 : Ref sig .tc := ⟨.hbm, 679, rfl⟩
abbrev main_v455 : Ref sig .tc := ⟨.hbm, 680, rfl⟩
abbrev main_v456 : Ref sig .tc := ⟨.hbm, 681, rfl⟩
abbrev main_v457 : Ref sig .tc := ⟨.hbm, 682, rfl⟩
abbrev main_v458 : Ref sig .tc := ⟨.hbm, 683, rfl⟩
abbrev main_v459 : Ref sig .tc := ⟨.hbm, 684, rfl⟩
abbrev main_v460 : Ref sig .tc := ⟨.hbm, 685, rfl⟩
abbrev main_v461 : Ref sig .tc := ⟨.hbm, 686, rfl⟩
abbrev main_cst_115 : Ref sig .tc := ⟨.hbm, 687, rfl⟩
abbrev main_v462 : Ref sig .tc := ⟨.hbm, 688, rfl⟩
abbrev main_c_116 : Ref sig .tc := ⟨.hbm, 689, rfl⟩
abbrev main_v463 : Ref sig .tc := ⟨.hbm, 690, rfl⟩
abbrev main_v464 : Ref sig .tc := ⟨.hbm, 691, rfl⟩
abbrev main_c_117 : Ref sig .tc := ⟨.hbm, 692, rfl⟩
abbrev main_v465 : Ref sig .tc := ⟨.hbm, 693, rfl⟩
abbrev main_v466 : Ref sig .tc := ⟨.hbm, 694, rfl⟩
abbrev main_v467 : Ref sig .tc := ⟨.hbm, 695, rfl⟩
abbrev main_v468 : Ref sig .tc := ⟨.hbm, 696, rfl⟩
abbrev main_v469 : Ref sig .tc := ⟨.hbm, 697, rfl⟩
abbrev main_v470 : Ref sig .tc := ⟨.hbm, 698, rfl⟩
abbrev main_v471 : Ref sig .tc := ⟨.hbm, 699, rfl⟩
abbrev main_v472 : Ref sig .tc := ⟨.hbm, 700, rfl⟩
abbrev main_call17_cst : Ref sig .tc := ⟨.hbm, 701, rfl⟩
abbrev main_call17_v0 : Ref sig .tc := ⟨.hbm, 702, rfl⟩
abbrev main_v473 : Ref sig .tc := ⟨.hbm, 703, rfl⟩
abbrev main_v474 : Ref sig .tc := ⟨.hbm, 704, rfl⟩
abbrev main_v475 : Ref sig .tc := ⟨.hbm, 705, rfl⟩
abbrev main_v476 : Ref sig .tc := ⟨.hbm, 706, rfl⟩
abbrev main_v477 : Ref sig .tc := ⟨.hbm, 707, rfl⟩
abbrev main_v478 : Ref sig .tc := ⟨.hbm, 708, rfl⟩
abbrev main_v479 : Ref sig .tc := ⟨.hbm, 709, rfl⟩
abbrev main_v480 : Ref sig .tc := ⟨.hbm, 710, rfl⟩
abbrev main_cst_118 : Ref sig .tc := ⟨.hbm, 711, rfl⟩
abbrev main_v481 : Ref sig .tc := ⟨.hbm, 712, rfl⟩
abbrev main_v482 : Ref sig .tc := ⟨.hbm, 713, rfl⟩
abbrev main_cst_119 : Ref sig .tc := ⟨.hbm, 714, rfl⟩
abbrev main_v483 : Ref sig .tc := ⟨.hbm, 715, rfl⟩
abbrev main_c_120 : Ref sig .tc := ⟨.hbm, 716, rfl⟩
abbrev main_v484 : Ref sig .tc := ⟨.hbm, 717, rfl⟩
abbrev main_v485 : Ref sig .tc := ⟨.hbm, 718, rfl⟩
abbrev main_c_121 : Ref sig .tc := ⟨.hbm, 719, rfl⟩
abbrev main_v486 : Ref sig .tc := ⟨.hbm, 720, rfl⟩
abbrev main_v487 : Ref sig .tc := ⟨.hbm, 721, rfl⟩
abbrev main_v488 : Ref sig .tc := ⟨.hbm, 722, rfl⟩
abbrev main_v489 : Ref sig .tc := ⟨.hbm, 723, rfl⟩
abbrev main_v490 : Ref sig .tc := ⟨.hbm, 724, rfl⟩
abbrev main_cst_122 : Ref sig .tc := ⟨.hbm, 725, rfl⟩
abbrev main_v491 : Ref sig .tc := ⟨.hbm, 726, rfl⟩
abbrev main_v492 : Ref sig .tc := ⟨.hbm, 727, rfl⟩
abbrev main_v493 : Ref sig .tc := ⟨.hbm, 728, rfl⟩
abbrev main_cst_123 : Ref sig .tc := ⟨.hbm, 729, rfl⟩
abbrev main_v494 : Ref sig .tc := ⟨.hbm, 730, rfl⟩
abbrev main_v495 : Ref sig .tc := ⟨.hbm, 731, rfl⟩
abbrev main_cst_124 : Ref sig .tc := ⟨.hbm, 732, rfl⟩
abbrev main_call18_v0 : Ref sig .tc := ⟨.hbm, 733, rfl⟩
abbrev main_call18_v1 : Ref sig .tc := ⟨.hbm, 734, rfl⟩
abbrev main_v496 : Ref sig .tc := ⟨.hbm, 735, rfl⟩
abbrev main_c_125 : Ref sig .tc := ⟨.hbm, 736, rfl⟩
abbrev main_v497 : Ref sig .tc := ⟨.hbm, 737, rfl⟩
abbrev main_v498 : Ref sig .tc := ⟨.hbm, 738, rfl⟩
abbrev main_c_126 : Ref sig .tc := ⟨.hbm, 739, rfl⟩
abbrev main_v499 : Ref sig .tc := ⟨.hbm, 740, rfl⟩
abbrev main_v500 : Ref sig .tc := ⟨.hbm, 741, rfl⟩
abbrev main_v501 : Ref sig .tc := ⟨.hbm, 742, rfl⟩
abbrev main_v502 : Ref sig .tc := ⟨.hbm, 743, rfl⟩
abbrev main_v503 : Ref sig .tc := ⟨.hbm, 744, rfl⟩
abbrev main_c_127 : Ref sig .tc := ⟨.hbm, 745, rfl⟩
abbrev main_v504 : Ref sig .tc := ⟨.hbm, 746, rfl⟩
abbrev main_v505 : Ref sig .tc := ⟨.hbm, 747, rfl⟩
abbrev main_c_128 : Ref sig .tc := ⟨.hbm, 748, rfl⟩
abbrev main_v506 : Ref sig .tc := ⟨.hbm, 749, rfl⟩
abbrev main_v507 : Ref sig .tc := ⟨.hbm, 750, rfl⟩
abbrev main_v508 : Ref sig .tc := ⟨.hbm, 751, rfl⟩
abbrev main_v509 : Ref sig .tc := ⟨.hbm, 752, rfl⟩
abbrev main_v510 : Ref sig .tc := ⟨.hbm, 753, rfl⟩
abbrev main_v511 : Ref sig .tc := ⟨.hbm, 754, rfl⟩
abbrev main_v512 : Ref sig .tc := ⟨.hbm, 755, rfl⟩
abbrev main_v513 : Ref sig .tc := ⟨.hbm, 756, rfl⟩
abbrev main_c_129 : Ref sig .tc := ⟨.hbm, 757, rfl⟩
abbrev main_v514 : Ref sig .tc := ⟨.hbm, 758, rfl⟩
abbrev main_v515 : Ref sig .tc := ⟨.hbm, 759, rfl⟩
abbrev main_c_130 : Ref sig .tc := ⟨.hbm, 760, rfl⟩
abbrev main_v516 : Ref sig .tc := ⟨.hbm, 761, rfl⟩
abbrev main_v517 : Ref sig .tc := ⟨.hbm, 762, rfl⟩
abbrev main_v518 : Ref sig .tc := ⟨.hbm, 763, rfl⟩
abbrev main_v519 : Ref sig .tc := ⟨.hbm, 764, rfl⟩
abbrev main_v520 : Ref sig .tc := ⟨.hbm, 765, rfl⟩
abbrev main_v521 : Ref sig .tc := ⟨.hbm, 766, rfl⟩
abbrev main_v522 : Ref sig .tc := ⟨.hbm, 767, rfl⟩
abbrev main_v523 : Ref sig .tc := ⟨.hbm, 768, rfl⟩
abbrev main_cst_131 : Ref sig .tc := ⟨.hbm, 769, rfl⟩
abbrev main_v524 : Ref sig .tc := ⟨.hbm, 770, rfl⟩
abbrev main_c_132 : Ref sig .tc := ⟨.hbm, 771, rfl⟩
abbrev main_v525 : Ref sig .tc := ⟨.hbm, 772, rfl⟩
abbrev main_v526 : Ref sig .tc := ⟨.hbm, 773, rfl⟩
abbrev main_c_133 : Ref sig .tc := ⟨.hbm, 774, rfl⟩
abbrev main_v527 : Ref sig .tc := ⟨.hbm, 775, rfl⟩
abbrev main_v528 : Ref sig .tc := ⟨.hbm, 776, rfl⟩
abbrev main_v529 : Ref sig .tc := ⟨.hbm, 777, rfl⟩
abbrev main_v530 : Ref sig .tc := ⟨.hbm, 778, rfl⟩
abbrev main_v531 : Ref sig .tc := ⟨.hbm, 779, rfl⟩
abbrev main_v532 : Ref sig .tc := ⟨.hbm, 780, rfl⟩
abbrev main_v533 : Ref sig .tc := ⟨.hbm, 781, rfl⟩
abbrev main_v534 : Ref sig .tc := ⟨.hbm, 782, rfl⟩
abbrev main_call19_cst : Ref sig .tc := ⟨.hbm, 783, rfl⟩
abbrev main_call19_v0 : Ref sig .tc := ⟨.hbm, 784, rfl⟩
abbrev main_v535 : Ref sig .tc := ⟨.hbm, 785, rfl⟩
abbrev main_v536 : Ref sig .tc := ⟨.hbm, 786, rfl⟩
abbrev main_v537 : Ref sig .tc := ⟨.hbm, 787, rfl⟩
abbrev main_v538 : Ref sig .tc := ⟨.hbm, 788, rfl⟩
abbrev main_v539 : Ref sig .tc := ⟨.hbm, 789, rfl⟩
abbrev main_v540 : Ref sig .tc := ⟨.hbm, 790, rfl⟩
abbrev main_cst_134 : Ref sig .tc := ⟨.hbm, 791, rfl⟩
abbrev main_v541 : Ref sig .tc := ⟨.hbm, 792, rfl⟩
abbrev main_cst_135 : Ref sig .tc := ⟨.hbm, 793, rfl⟩
abbrev main_v542 : Ref sig .tc := ⟨.hbm, 794, rfl⟩
abbrev main_v543 : Ref sig .tc := ⟨.hbm, 795, rfl⟩
abbrev main_v544 : Ref sig .tc := ⟨.hbm, 796, rfl⟩
abbrev main_v545 : Ref sig .tc := ⟨.hbm, 797, rfl⟩
abbrev main_v546 : Ref sig .tc := ⟨.hbm, 798, rfl⟩

abbrev nD : Nat := 1
abbrev τ : Topo := Topo.v7x

variable {F : FTy → Type} [FloatOps F]

class Facts₀ : Prop where
  slices_S2x1024x128_S1x1024x128_0_0_0 : S2x1024x128.Slices ![0, 0, 0] S1x1024x128
  shapeCasts_S1x1024x128_S1024x128 : S1x1024x128.ShapeCasts S1024x128
  slices_S2x1024x1024_S1x1024x1024_0_0_0 : S2x1024x1024.Slices ![0, 0, 0] S1x1024x1024
  shapeCasts_S1x1024x1024_S1024x1024 : S1x1024x1024.ShapeCasts S1024x1024
  bcast_S_S1048576 : S_.BroadcastsInDim S1048576 (![] : Fin 0 → Fin S1048576.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  shapeCasts_S1024x1024_S1048576 : S1024x1024.ShapeCasts S1048576
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S1049600x1_S1049600x128_0_1 : S1049600x1.BroadcastsInDim S1049600x128 (![0, 1] : Fin 2 → Fin S1049600x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S1024x128_S1x1024x128_1_2 : S1024x128.BroadcastsInDim S1x1024x128 (![1, 2] : Fin 2 → Fin S1x1024x128.rank)
  concatenates_S1x1024x128_S1x1024x128_S1x1024x128_S1x1024x128_S4x1024x128_d0 : Shape.Concatenates [S1x1024x128, S1x1024x128, S1x1024x128, S1x1024x128] S4x1024x128 0
  reducesTo_S4x1024x128_S1024x128_d0 : S4x1024x128.ReducesTo [0] S1024x128
  h_S_ : 0 < S_.numel
  slices_S2x1024x128_S1x1024x128_1_0_0 : S2x1024x128.Slices ![1, 0, 0] S1x1024x128
  slices_S2x1024x1024_S1x1024x1024_1_0_0 : S2x1024x1024.Slices ![1, 0, 0] S1x1024x1024
  concatenates_S1x1024x128_S1x1024x128_S2x1024x128_d0 : Shape.Concatenates [S1x1024x128, S1x1024x128] S2x1024x128 0
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  dot_S1024x128_S128x128_S1024x128_1_0_0_1_n_n_wf : DotDims.WF S1024x128 S128x128 S1024x128 [1] [0] [0] [1] [] []
  gather_S1024x128_S1049600x1_S1049600x128_1_0_n_n_0_1_1128_wf : GatherDims.WF S1024x128 S1049600x1 S1049600x128 [1] [0] [] [0] [] 1 ![1, 128]
  scatter_S1024x128_S1049600x1_S1049600x128_1_0_0_1_wf : ScatterDims.WF S1024x128 S1049600x1 S1049600x128 [1] [0] [0] 1

variable [Facts₀]

def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1049600x1_S1049600x128_1_0_n_n_0_1_1128 : GatherDims S1024x128 S1049600x1 S1049600x128 where
  offsetDims := [1]
  collapsedSliceDims := [0]
  operandBatchingDims := []
  startIndicesBatchingDims := []
  startIndexMap := [0]
  indexVectorDim := 1
  sliceSizes := ![1, 128]
  wf := gather_S1024x128_S1049600x1_S1049600x128_1_0_n_n_0_1_1128_wf
def scatter_S1024x128_S1049600x1_S1049600x128_1_0_0_1 : ScatterDims S1024x128 S1049600x1 S1049600x128 where
  updateWindowDims := [1]
  insertedWindowDims := [0]
  scatterDimsToOperandDims := [0]
  indexVectorDim := 1
  wf := scatter_S1024x128_S1049600x1_S1049600x128_1_0_0_1_wf

class Facts : Prop extends Facts₀ where

variable [Facts]
-- ==== Proof.KDefs.lean ====
/-
  The kernel's body as one function of its ten input blocks, and the kernel's whole result array as a function of
  the ten argument arrays: the block of graph `g` is the body applied to graph `g`'s slab of the adjacency words and
  of the features, the four weight matrices whole, and each bias laid out as a one-row matrix.
-/
import proofs.«154241_g14164802142580_cont_sun_m_321_17_alg».proof.Proof.Gen.KernelIdeal.Skeleton
import Idealize.ShloMosaic.Lib.ValueIdx

noncomputable section

namespace Cert.KernelIdeal.GcnK

open Cert.KernelIdeal Cert.KernelIdeal.Gen Idealize.ShloMosaic Idealize.ShloMosaic.ValueIdx

variable {F : FTy → Type} [FloatOps F]

/-- The value the body stores, from the blocks it loads: adjacency words, features, four weight matrices, four
    bias rows. -/
def kpay (x0 : Vec F S1x1024x1024 .i32) (x1 : Vec F S1x1024x128 .f32) (x2 : Vec F S128x128 .f32)
    (x3 : Vec F S128x128 .f32) (x4 : Vec F S128x128 .f32) (x5 : Vec F S128x128 .f32) (x6 : Vec F S1x128 .f32)
    (x7 : Vec F S1x128 .f32) (x8 : Vec F S1x128 .f32) (x9 : Vec F S1x128 .f32) : FVec F S1x1024x128 .f32 :=
  k0_pay1 (k0_pay5 x9) (k0_pay6 x0) (k0_pay7 x0) (k0_pay10 (k0_pay2 x6) (k0_pay6 x0) (k0_pay7 x0) (k0_pay8 x1 x2) (k0_pay9 x0)) (k0_pay11 (k0_pay2 x6) (k0_pay3 x7) (k0_pay6 x0) (k0_pay7 x0) (k0_pay8 x1 x2) (k0_pay9 x0) x3) (k0_pay12 (k0_pay2 x6) (k0_pay3 x7) (k0_pay4 x8) (k0_pay6 x0) (k0_pay7 x0) (k0_pay8 x1 x2) (k0_pay9 x0) x3 x4) (k0_pay13 (k0_pay2 x6) (k0_pay3 x7) (k0_pay4 x8) (k0_pay6 x0) (k0_pay7 x0) (k0_pay8 x1 x2) (k0_pay9 x0) x3 x4 x5) (constant S128x1024 .f32 0x00000000#32)

/-- The kernel's result array from the argument arrays (features, adjacency words, then weight and bias of each
    of the four layers): entry `(g, n, f)` is entry `(0, n, f)` of the body's value on graph `g`'s blocks. -/
def KG (a0 : FVec F S2x1024x128 .f32) (a1 : IVec S2x1024x1024 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) : FVec F S2x1024x128 .f32 :=
  fun j => kpay (F := F) (fun y => a1 (ix3 (j 0) (y 1) (y 2))) (fun y => a0 (ix3 (j 0) (y 1) (y 2))) a2 a4 a6 a8
    (fun y => a3 (ix1 (y 1))) (fun y => a5 (ix1 (y 1))) (fun y => a7 (ix1 (y 1))) (fun y => a9 (ix1 (y 1)))
    (ix3 (0 : Fin 1) (j 1) (j 2))

end Cert.KernelIdeal.GcnK

end
-- ==== Proof.KBlocks.lean ====
/-
  The kernel's run with its result array named: every block the pipeline writes back is the body's value on the
  blocks of one graph, the two blocks tile the result array, so after the run the result array is `KG` of the
  argument arrays.
-/
import proofs.«154241_g14164802142580_cont_sun_m_321_17_alg».proof.Proof.Gen.KernelIdeal.Value
import proofs.«154241_g14164802142580_cont_sun_m_321_17_alg».proof.Proof.KDefs
import Idealize.ShloMosaic.Lib.Pipeline.Value
import Idealize.ShloMosaic.Lib.ValueIdx
import Idealize.ShloMosaic.Lib.ValueLayout

noncomputable section

namespace Cert.KernelIdeal.GcnK

open Cert.KernelIdeal Cert.KernelIdeal.Gen Cert.KernelIdeal.Value Idealize.ShloMosaic Idealize.ShloMosaic.TcCoe Idealize.SL.Sem
open Idealize.ShloMosaic.ValueIdx

variable {F : FTy → Type} [FloatOps F]

/-- A pair of zero offsets is the zero offset function. -/
theorem kb_hz2 : (![0, 0] : Fin 2 → Nat) = fun _ => 0 := funext fun a => by fin_cases a <;> rfl
/-- A triple of zero offsets is the zero offset function. -/
theorem kb_hz3 : (![0, 0, 0] : Fin 3 → Nat) = fun _ => 0 := funext fun a => by fin_cases a <;> rfl

/-- The body loads each of its ten blocks whole and stores one whole block: what it leaves in the result block is `kpay` of
    the ten blocks. -/
theorem kb_out_eq (x0 : Vec F S1x1024x1024 .i32) (x1 : Vec F S1x1024x128 .f32) (x2 : Vec F S128x128 .f32)
    (x3 : Vec F S128x128 .f32) (x4 : Vec F S128x128 .f32) (x5 : Vec F S128x128 .f32) (x6 : Vec F S1x128 .f32)
    (x7 : Vec F S1x128 .f32) (x8 : Vec F S1x128 .f32) (x9 : Vec F S1x128 .f32) :
    out0_10 x0 x1 x2 x3 x4 x5 x6 x7 x8 x9 = kpay x0 x1 x2 x3 x4 x5 x6 x7 x8 x9 := by
  unfold out0_10 kpay
  rw [View.canon_unit_zero kb_hz3]
  simp only [View.ld_unit_zero (S := S1x128) kb_hz2, View.ld_unit_zero (S := S1x1024x1024) kb_hz3,
    View.ld_unit_zero (S := S1x1024x128) kb_hz3, View.ld_unit_zero (S := S128x128) kb_hz2]

/-- `KG` at the entry `(g, p, q)`: the body's value on graph `g`'s slabs, read at `(0, p, q)`. -/
theorem kb_KG_at (a0 : FVec F S2x1024x128 .f32) (a1 : IVec S2x1024x1024 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (g : Fin 2) (p : Fin 1024) (q : Fin 128) :
    KG a0 a1 a2 a3 a4 a5 a6 a7 a8 a9 (ix3 g p q)
      = kpay (F := F) (fun y => a1 (ix3 g (y 1) (y 2))) (fun y => a0 (ix3 g (y 1) (y 2))) a2 a4 a6 a8
          (fun y => a3 (ix1 (y 1))) (fun y => a5 (ix1 (y 1))) (fun y => a7 (ix1 (y 1))) (fun y => a9 (ix1 (y 1)))
          (ix3 (0 : Fin 1) p q) := rfl

/-- If the ten blocks are graph `g`'s slab of the adjacency words and of the features, the four weight matrices and the four
    biases as one-row matrices, then the body's value at an index `j` of its block is `KG` at `(g, j 1, j 2)`: the block's leading
    coordinate is `0`. -/
theorem kb_core (a0 : FVec F S2x1024x128 .f32) (a1 : IVec S2x1024x1024 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (g : Fin 2)
    (x0 : Vec F S1x1024x1024 .i32) (x1 : Vec F S1x1024x128 .f32) (x2 : Vec F S128x128 .f32)
    (x3 : Vec F S128x128 .f32) (x4 : Vec F S128x128 .f32) (x5 : Vec F S128x128 .f32) (x6 : Vec F S1x128 .f32)
    (x7 : Vec F S1x128 .f32) (x8 : Vec F S1x128 .f32) (x9 : Vec F S1x128 .f32)
    (h0 : x0 = fun y => a1 (ix3 g (y 1) (y 2))) (h1 : x1 = fun y => a0 (ix3 g (y 1) (y 2)))
    (h2 : x2 = a2) (h3 : x3 = a4) (h4 : x4 = a6) (h5 : x5 = a8)
    (h6 : x6 = fun y => a3 (ix1 (y 1))) (h7 : x7 = fun y => a5 (ix1 (y 1)))
    (h8 : x8 = fun y => a7 (ix1 (y 1))) (h9 : x9 = fun y => a9 (ix1 (y 1)))
    (j : S1x1024x128.Idx) :
    kpay x0 x1 x2 x3 x4 x5 x6 x7 x8 x9 j = KG a0 a1 a2 a3 a4 a5 a6 a7 a8 a9 (ix3 g (j 1) (j 2)) := by
  subst h0 h1 h2 h3 h4 h5 h6 h7 h8 h9
  have hj : j = ix3 (0 : Fin 1) (j 1) (j 2) := by
    funext a
    match a with
    | ⟨0, _⟩ => exact Fin.ext (by have h : (j 0).val < 1 := (j 0).isLt; show (j 0).val = 0; omega)
    | ⟨1, _⟩ => rfl
    | ⟨2, _⟩ => rfl
  exact (congrArg _ hj).trans (kb_KG_at a0 a1 _ a3 _ a5 _ a7 _ a9 g (j 1) (j 2)).symm

section Blocks

variable (m : (ℓ : Loc nD τ sig) → Buf (Elt F) ℓ)

/-- The windows' block indices at each grid point, decided over the two points: the adjacency, feature and result windows sit at
    block `(t, 0, 0)`, the weight and bias windows at block `(0, 0)`. -/
theorem kb_idx : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0) :=
  (by decide +kernel : ∀ t : Fin grid0.N, _)

/-- The adjacency window's block at point `t` is graph `t`'s slab of the adjacency words: entry `(y 0, y 1, y 2)` of the block is
    entry `(t · 1 + y 0, y 1, y 2) = (t, y 1, y 2)` of the array. -/
theorem kb_blk0 (c : Dev nD) (t : Fin cfg0.N) (g : Fin 2) (hg : g.val = t.val) :
    (iblk m c 0 t : Vec F S1x1024x1024 .i32)
      = fun y => (m ((c : Thread nD τ).loc main_arg1) : IVec S2x1024x1024 32) (ix3 g (y 1) (y 2)) := by
  obtain ⟨⟨e0, e1, e2⟩, -⟩ := kb_idx t
  funext y
  unfold iblk
  rw [View.read_apply]
  show V m c main_arg1 _ = _
  rw [V_main_arg1]
  refine congrArg _ (funext fun a => Fin.ext ?_)
  match a with
  | ⟨0, _⟩ =>
    show win0_0.index t (0 : Fin 3) * 1 + 1 * (y 0).val = g.val
    have h : (y 0).val < 1 := (y 0).isLt
    omega
  | ⟨1, _⟩ => show win0_0.index t (1 : Fin 3) * 1024 + 1 * (y 1).val = (y 1).val; omega
  | ⟨2, _⟩ => show win0_0.index t (2 : Fin 3) * 1024 + 1 * (y 2).val = (y 2).val; omega

/-- The feature window's block at point `t` is graph `t`'s slab of the features. -/
theorem kb_blk1 (c : Dev nD) (t : Fin cfg0.N) (g : Fin 2) (hg : g.val = t.val) :
    (iblk m c 1 t : Vec F S1x1024x128 .f32)
      = fun y => (m ((c : Thread nD τ).loc main_arg0) : FVec F S2x1024x128 .f32) (ix3 g (y 1) (y 2)) := by
  obtain ⟨-, ⟨e0, e1, e2⟩, -⟩ := kb_idx t
  funext y
  unfold iblk
  rw [View.read_apply]
  show V m c main_arg0 _ = _
  rw [V_main_arg0]
  refine congrArg _ (funext fun a => Fin.ext ?_)
  match a with
  | ⟨0, _⟩ =>
    show win0_1.index t (0 : Fin 3) * 1 + 1 * (y 0).val = g.val
    have h : (y 0).val < 1 := (y 0).isLt
    omega
  | ⟨1, _⟩ => show win0_1.index t (1 : Fin 3) * 1024 + 1 * (y 1).val = (y 1).val; omega
  | ⟨2, _⟩ => show win0_1.index t (2 : Fin 3) * 128 + 1 * (y 2).val = (y 2).val; omega

/-- The first layer's weight window is the whole weight matrix at every point. -/
theorem kb_blk2 (c : Dev nD) (t : Fin cfg0.N) :
    (iblk m c 2 t : Vec F S128x128 .f32) = (m ((c : Thread nD τ).loc main_arg2) : FVec F S128x128 .f32) := by
  obtain ⟨-, -, ⟨e0, e1⟩, -⟩ := kb_idx t
  funext y
  unfold iblk
  rw [View.read_apply]
  show V m c main_arg2 _ = _
  rw [V_main_arg2]
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- When the region is entered the first layer's bias row holds the bias vector laid out as a one-row matrix. -/
theorem kb_V_v0 (c : Dev nD) : (V m c main_v0 : S1x128.Idx → Elt F .f32)
    = shapeCast S1x128 (m ((c : Thread nD τ).loc main_arg3) : FVec F S128 .f32) shapeCasts_S128_S1x128 := by
  dsimp only [Gen.V, Gen.hostOps0]; after_results; rfl

/-- The first layer's bias window is the whole bias row: entry `(y 0, y 1)` is entry `y 1` of the bias vector. -/
theorem kb_blk6 (c : Dev nD) (t : Fin cfg0.N) :
    (iblk m c 6 t : Vec F S1x128 .f32)
      = fun y => (m ((c : Thread nD τ).loc main_arg3) : FVec F S128 .f32) (ix1 (y 1)) := by
  obtain ⟨-, -, -, -, -, -, ⟨e0, e1⟩, -⟩ := kb_idx t
  funext y
  unfold iblk
  rw [View.read_apply]
  show V m c main_v0 _ = _
  refine (congrFun (kb_V_v0 m c) _).trans ?_
  have he : ((cfg0.win 6).blk t).view.emb y = ix2 (0 : Fin 1) (y 1) := by
    funext a
    refine Fin.ext ?_
    match a with
    | ⟨0, _⟩ =>
      show win0_6.index t (0 : Fin 2) * 1 + 1 * (y 0).val = 0
      have h : (y 0).val < 1 := (y 0).isLt
      omega
    | ⟨1, _⟩ => show win0_6.index t (1 : Fin 2) * 128 + 1 * (y 1).val = (y 1).val; omega
  rw [he]
  exact shapeCast_a_1a_apply _ _ (0 : Fin 1) (y 1)

/-- The second layer's weight window is the whole weight matrix at every point. -/
theorem kb_blk3 (c : Dev nD) (t : Fin cfg0.N) :
    (iblk m c 3 t : Vec F S128x128 .f32) = (m ((c : Thread nD τ).loc main_arg4) : FVec F S128x128 .f32) := by
  obtain ⟨-, -, -, ⟨e0, e1⟩, -⟩ := kb_idx t
  funext y
  unfold iblk
  rw [View.read_apply]
  show V m c main_arg4 _ = _
  rw [V_main_arg4]
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The third layer's weight window is the whole weight matrix at every point. -/
theorem kb_blk4 (c : Dev nD) (t : Fin cfg0.N) :
    (iblk m c 4 t : Vec F S128x128 .f32) = (m ((c : Thread nD τ).loc main_arg6) : FVec F S128x128 .f32) := by
  obtain ⟨-, -, -, -, ⟨e0, e1⟩, -⟩ := kb_idx t
  funext y
  unfold iblk
  rw [View.read_apply]
  show V m c main_arg6 _ = _
  rw [V_main_arg6]
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The fourth layer's weight window is the whole weight matrix at every point. -/
theorem kb_blk5 (c : Dev nD) (t : Fin cfg0.N) :
    (iblk m c 5 t : Vec F S128x128 .f32) = (m ((c : Thread nD τ).loc main_arg8) : FVec F S128x128 .f32) := by
  obtain ⟨-, -, -, -, -, ⟨e0, e1⟩, -⟩ := kb_idx t
  funext y
  unfold iblk
  rw [View.read_apply]
  show V m c main_arg8 _ = _
  rw [V_main_arg8]
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- When the region is entered the second layer's bias row holds the bias vector laid out as a one-row matrix. -/
theorem kb_V_v1 (c : Dev nD) : (V m c main_v1 : S1x128.Idx → Elt F .f32)
    = shapeCast S1x128 (m ((c : Thread nD τ).loc main_arg5) : FVec F S128 .f32) shapeCasts_S128_S1x128 := by
  dsimp only [Gen.V, Gen.hostOps0]; after_results; rfl

/-- The second layer's bias window is the whole bias row. -/
theorem kb_blk7 (c : Dev nD) (t : Fin cfg0.N) :
    (iblk m c 7 t : Vec F S1x128 .f32)
      = fun y => (m ((c : Thread nD τ).loc main_arg5) : FVec F S128 .f32) (ix1 (y 1)) := by
  obtain ⟨-, -, -, -, -, -, -, ⟨e0, e1⟩, -⟩ := kb_idx t
  funext y
  unfold iblk
  rw [View.read_apply]
  show V m c main_v1 _ = _
  refine (congrFun (kb_V_v1 m c) _).trans ?_
  have he : ((cfg0.win 7).blk t).view.emb y = ix2 (0 : Fin 1) (y 1) := by
    funext a
    refine Fin.ext ?_
    match a with
    | ⟨0, _⟩ =>
      show win0_7.index t (0 : Fin 2) * 1 + 1 * (y 0).val = 0
      have h : (y 0).val < 1 := (y 0).isLt
      omega
    | ⟨1, _⟩ => show win0_7.index t (1 : Fin 2) * 128 + 1 * (y 1).val = (y 1).val; omega
  rw [he]
  exact shapeCast_a_1a_apply _ _ (0 : Fin 1) (y 1)

/-- When the region is entered the third layer's bias row holds the bias vector laid out as a one-row matrix. -/
theorem kb_V_v2 (c : Dev nD) : (V m c main_v2 : S1x128.Idx → Elt F .f32)
    = shapeCast S1x128 (m ((c : Thread nD τ).loc main_arg7) : FVec F S128 .f32) shapeCasts_S128_S1x128 := by
  dsimp only [Gen.V, Gen.hostOps0]; after_results; rfl

/-- The third layer's bias window is the whole bias row. -/
theorem kb_blk8 (c : Dev nD) (t : Fin cfg0.N) :
    (iblk m c 8 t : Vec F S1x128 .f32)
      = fun y => (m ((c : Thread nD τ).loc main_arg7) : FVec F S128 .f32) (ix1 (y 1)) := by
  obtain ⟨-, -, -, -, -, -, -, -, ⟨e0, e1⟩, -⟩ := kb_idx t
  funext y
  unfold iblk
  rw [View.read_apply]
  show V m c main_v2 _ = _
  refine (congrFun (kb_V_v2 m c) _).trans ?_
  have he : ((cfg0.win 8).blk t).view.emb y = ix2 (0 : Fin 1) (y 1) := by
    funext a
    refine Fin.ext ?_
    match a with
    | ⟨0, _⟩ =>
      show win0_8.index t (0 : Fin 2) * 1 + 1 * (y 0).val = 0
      have h : (y 0).val < 1 := (y 0).isLt
      omega
    | ⟨1, _⟩ => show win0_8.index t (1 : Fin 2) * 128 + 1 * (y 1).val = (y 1).val; omega
  rw [he]
  exact shapeCast_a_1a_apply _ _ (0 : Fin 1) (y 1)

/-- When the region is entered the fourth layer's bias row holds the bias vector laid out as a one-row matrix. -/
theorem kb_V_v3 (c : Dev nD) : (V m c main_v3 : S1x128.Idx → Elt F .f32)
    = shapeCast S1x128 (m ((c : Thread nD τ).loc main_arg9) : FVec F S128 .f32) shapeCasts_S128_S1x128 := by
  dsimp only [Gen.V, Gen.hostOps0]; after_results; rfl

/-- The fourth layer's bias window is the whole bias row. -/
theorem kb_blk9 (c : Dev nD) (t : Fin cfg0.N) :
    (iblk m c 9 t : Vec F S1x128 .f32)
      = fun y => (m ((c : Thread nD τ).loc main_arg9) : FVec F S128 .f32) (ix1 (y 1)) := by
  obtain ⟨-, -, -, -, -, -, -, -, -, ⟨e0, e1⟩, -⟩ := kb_idx t
  funext y
  unfold iblk
  rw [View.read_apply]
  show V m c main_v3 _ = _
  refine (congrFun (kb_V_v3 m c) _).trans ?_
  have he : ((cfg0.win 9).blk t).view.emb y = ix2 (0 : Fin 1) (y 1) := by
    funext a
    refine Fin.ext ?_
    match a with
    | ⟨0, _⟩ =>
      show win0_9.index t (0 : Fin 2) * 1 + 1 * (y 0).val = 0
      have h : (y 0).val < 1 := (y 0).isLt
      omega
    | ⟨1, _⟩ => show win0_9.index t (1 : Fin 2) * 128 + 1 * (y 1).val = (y 1).val; omega
  rw [he]
  exact shapeCast_a_1a_apply _ _ (0 : Fin 1) (y 1)

/-- What point `t` writes back is block `t` of `KG` of the argument arrays: entry `j` of the block is entry `(t, j 1, j 2)` of the
    array, and there `KG` is the body's value on graph `t`'s blocks at `(0, j 1, j 2) = j`. -/
theorem kb_flushed_eq (c : Dev nD) (t : Fin cfg0.N) :
    (dats m 0 c).flushed 10 t = ((cfg0.win 10).blk t).view.read (Elt F) (KG (F := F) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))) := by
  rw [flushed10, kb_out_eq]
  obtain ⟨-, -, -, -, -, -, -, -, -, -, e0, e1, e2⟩ := kb_idx t
  have hN : cfg0.N = 2 := N_0
  have hg : t.val < 2 := by have := t.isLt; omega
  funext j
  rw [View.read_apply]
  have hi : ((cfg0.win 10).blk t).view.emb j = ix3 (⟨t.val, hg⟩ : Fin 2) (j 1) (j 2) := by
    funext a
    refine Fin.ext ?_
    match a with
    | ⟨0, _⟩ =>
      show win0_10.index t (0 : Fin 3) * 1 + 1 * (j 0).val = t.val
      have h : (j 0).val < 1 := (j 0).isLt
      omega
    | ⟨1, _⟩ => show win0_10.index t (1 : Fin 3) * 1024 + 1 * (j 1).val = (j 1).val; omega
    | ⟨2, _⟩ => show win0_10.index t (2 : Fin 3) * 128 + 1 * (j 2).val = (j 2).val; omega
  rw [hi]
  exact kb_core _ _ _ _ _ _ _ _ _ _ ⟨t.val, hg⟩ _ _ _ _ _ _ _ _ _ _
    (kb_blk0 m c t ⟨t.val, hg⟩ rfl) (kb_blk1 m c t ⟨t.val, hg⟩ rfl) (kb_blk2 m c t) (kb_blk3 m c t) (kb_blk4 m c t)
    (kb_blk5 m c t) (kb_blk6 m c t) (kb_blk7 m c t) (kb_blk8 m c t) (kb_blk9 m c t) j

/-- An index of the result array is in point `t`'s block iff each coordinate is in the block's range on its axis. -/
theorem kb_mem_blk (t : Fin cfg0.N) (i : S2x1024x128.Idx) :
    i ∈ ((cfg0.win 10).blk t).view.set ↔ ∀ a : Fin 3, win0_10.index t a * S1x1024x128.size a ≤ (i a).val
      ∧ (i a).val < win0_10.index t a * S1x1024x128.size a + S1x1024x128.size a := by
  show i ∈ ((View.whole main_v4).slice (win0_10.rect t)).set ↔ _
  rw [View.set_slice_whole, Rect.mem_set_unit]
  exact Iff.rfl

/-- The two blocks tile the result array: index `i` lies in the block of point `i 0`. -/
theorem kb_cover (i : S2x1024x128.Idx) :
    ∃ t : Fin cfg0.N, (cfg0.win 10).flush t = true ∧ i ∈ ((cfg0.win 10).blk t).view.set := by
  have hN : cfg0.N = 2 := N_0
  have h0 : (i 0).val < 2 := (i 0).isLt
  have h1 : (i 1).val < 1024 := (i 1).isLt
  have h2 : (i 2).val < 128 := (i 2).isLt
  refine ⟨⟨(i 0).val, by omega⟩, flush0_10 _, ?_⟩
  obtain ⟨-, -, -, -, -, -, -, -, -, -, e0, e1, e2⟩ := kb_idx ⟨(i 0).val, by omega⟩
  rw [kb_mem_blk]
  intro a
  match a with
  | ⟨0, _⟩ =>
    show win0_10.index ⟨(i 0).val, _⟩ (0 : Fin 3) * 1 ≤ (i 0).val ∧ (i 0).val < win0_10.index ⟨(i 0).val, _⟩ (0 : Fin 3) * 1 + 1
    rw [e0]; show (i 0).val * 1 ≤ (i 0).val ∧ (i 0).val < (i 0).val * 1 + 1; omega
  | ⟨1, _⟩ =>
    show win0_10.index ⟨(i 0).val, _⟩ (1 : Fin 3) * 1024 ≤ (i 1).val ∧ (i 1).val < win0_10.index ⟨(i 0).val, _⟩ (1 : Fin 3) * 1024 + 1024
    rw [e1]; omega
  | ⟨2, _⟩ =>
    show win0_10.index ⟨(i 0).val, _⟩ (2 : Fin 3) * 128 ≤ (i 2).val ∧ (i 2).val < win0_10.index ⟨(i 0).val, _⟩ (2 : Fin 3) * 128 + 128
    rw [e2]; omega

/-- So after the run the result array is `KG` of the argument arrays. -/
theorem kb_final (c : Dev nD) : (dats m 0 c).arrAt 10 cfg0.N = (KG (F := F) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))) :=
  (dats m 0 c).arrAt_eq_of_cover 10 _ (fun t _ => kb_flushed_eq m c t) kb_cover

end Blocks

/-- Every weakly fair execution of the kernel's program terminates with the result array at `KG` of the argument
    arrays as launched, and the arguments unchanged. -/
theorem krun (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v4)
        = KG (F := F) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (kb_final m c), (h c).2⟩) (Value.run_blocks m ρ)

end Cert.KernelIdeal.GcnK

end
-- ==== Proof.Spec.lean ====
/-
  The graph-convolution stack as a function of real arrays.

  A graph on 1024 nodes is given by a matrix `r` (entry `r s d` for the edge from `s` to `d`); `adj` puts a 1 on
  the diagonal (the self loop) and keeps `r` off it. The in-degree of node `d` is the column sum of `adj`, and
  `dis d` its inverse square root. One layer sends features `x` (a row per node) to
  `max (dis d · ∑ s, (dis s · (x W) s f) · adj s d + b f) 0`; the stack applies four layers and averages them.
-/
import Idealize.ShloMosaic.PureOps.Ideal

noncomputable section

open scoped BigOperators

namespace Cert.Gcn

/-- The adjacency with self loops: 1 on the diagonal, the given matrix elsewhere. -/
def adj (r : Fin 1024 → Fin 1024 → ℝ) (s d : Fin 1024) : ℝ := if s = d then 1 else r s d

/-- The in-degree of node `d`, self loop included. -/
def deg (r : Fin 1024 → Fin 1024 → ℝ) (d : Fin 1024) : ℝ := ∑ s, adj r s d

/-- The symmetric normalisation factor of node `d`. -/
def dis (r : Fin 1024 → Fin 1024 → ℝ) (d : Fin 1024) : ℝ := (Real.sqrt (deg r d))⁻¹

/-- The features times the weights: `(x W) s f = ∑ k, W k f · x s k`. -/
def lin (x : Fin 1024 → Fin 128 → ℝ) (W : Fin 128 → Fin 128 → ℝ) (s : Fin 1024) (f : Fin 128) : ℝ :=
  ∑ k, W k f * x s k

/-- One layer: normalised aggregation over the in-neighbours, bias, rectifier. -/
def layer (r : Fin 1024 → Fin 1024 → ℝ) (x : Fin 1024 → Fin 128 → ℝ) (W : Fin 128 → Fin 128 → ℝ)
    (b : Fin 128 → ℝ) (d : Fin 1024) (f : Fin 128) : ℝ :=
  max (dis r d * (∑ s, (dis r s * lin x W s f) * adj r s d) + b f) 0

/-- The four stacked layers, averaged. -/
def out (r : Fin 1024 → Fin 1024 → ℝ) (x : Fin 1024 → Fin 128 → ℝ)
    (W0 : Fin 128 → Fin 128 → ℝ) (b0 : Fin 128 → ℝ) (W1 : Fin 128 → Fin 128 → ℝ) (b1 : Fin 128 → ℝ)
    (W2 : Fin 128 → Fin 128 → ℝ) (b2 : Fin 128 → ℝ) (W3 : Fin 128 → Fin 128 → ℝ) (b3 : Fin 128 → ℝ)
    (d : Fin 1024) (f : Fin 128) : ℝ :=
  (layer r x W0 b0 d f
    + layer r (layer r x W0 b0) W1 b1 d f
    + layer r (layer r (layer r x W0 b0) W1 b1) W2 b2 d f
    + layer r (layer r (layer r (layer r x W0 b0) W1 b1) W2 b2) W3 b3 d f) * (1 / 4)

/-- The weight of the edge `s → d` as the edge list has it: 1 when the matrix entry is not zero and the edge is
    not a loop, else 0. -/
def ew (r : Fin 1024 → Fin 1024 → ℝ) (s d : Fin 1024) : ℝ := if r s d ≠ 0 ∧ s ≠ d then 1 else 0

end Cert.Gcn

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KValueAux.lean ====
/-
  Single operations of the graph-convolution kernel read at one index on the extended reals: the coercion of a
  finite real sum, a column broadcast, and a matrix product that contracts the FIRST axis of both operands
  (a `K×M` by `K×N` contraction, the left operand read transposed) into a zero accumulator.
-/
import proofs.«154241_g14164802142580_cont_sun_m_321_17_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KvAux

open Idealize.ShloMosaic Idealize.ShloMosaic.ValueIdx

/-- The coercion of a finite sum of reals is the sum of the coercions. -/
theorem kv_coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- An `[a, 1]` array broadcast to `[a, b]` reads, at `(p, c)`, the operand's one column at `p`. -/
theorem kv_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dimension numbers of a `K×M` by `K×N` product: axis 0 of each operand contracted, no batch axis. -/
abbrev kv_dotT (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The contraction sum of such a product at output index `j`, over `Fin K`. -/
theorem kv_contrT_sum (K M N : Nat)
    (wf : DotDims.WF ⟨2, ![K, M]⟩ ⟨2, ![K, N]⟩ ⟨2, ![M, N]⟩ [0] [0] [1] [1] [] [])
    (l : (⟨2, ![K, M]⟩ : Shape).Idx → EReal) (w : (⟨2, ![K, N]⟩ : Shape).Idx → EReal)
    (j : (⟨2, ![M, N]⟩ : Shape).Idx) :
    (∑ q : (kv_dotT K M N wf).contr.Idx, l ((kv_dotT K M N wf).lhsIdx j q) * w ((kv_dotT K M N wf).rhsIdx j q))
      = ∑ k : Fin K, l (ix2 k (j 0)) * w (ix2 k (j 1)) := by
  rw [← Equiv.sum_comp (contrEquiv1 (kv_dotT K M N wf) K rfl rfl).symm]
  refine Finset.sum_congr rfl fun k _ => ?_
  have hk := contrEquiv1_symm_val (kv_dotT K M N wf) K rfl rfl k
  have el : (kv_dotT K M N wf).lhsIdx j ((contrEquiv1 (kv_dotT K M N wf) K rfl rfl).symm k) = ix2 k (j 0) :=
    funext fun a => Fin.ext (by
      match a with
      | ⟨0, _⟩ => exact hk
      | ⟨1, _⟩ => rfl)
  have er : (kv_dotT K M N wf).rhsIdx j ((contrEquiv1 (kv_dotT K M N wf) K rfl rfl).symm k) = ix2 k (j 1) :=
    funext fun a => Fin.ext (by
      match a with
      | ⟨0, _⟩ => exact hk
      | ⟨1, _⟩ => rfl)
  rw [el, er]
  rfl

/-- Such a product into the zero accumulator, at an index. -/
theorem kv_matmulT_zero_apply (K M N : Nat)
    (wf : DotDims.WF ⟨2, ![K, M]⟩ ⟨2, ![K, N]⟩ ⟨2, ![M, N]⟩ [0] [0] [1] [1] [] [])
    {φ₁ φ₂ : FTy} (prec : Option ContractPrecision)
    (l : FVec Ideal (⟨2, ![K, M]⟩ : Shape) φ₁) (w : FVec Ideal (⟨2, ![K, N]⟩ : Shape) φ₂)
    (j : (⟨2, ![M, N]⟩ : Shape).Idx) :
    FloatOps.matmul (kv_dotT K M N wf) prec l w (constant (⟨2, ![M, N]⟩ : Shape) .f32 0x00000000#32) j
      = ∑ k : Fin K, l (ix2 k (j 0)) * w (ix2 k (j 1)) :=
  (Ideal.matmul_constant_zero_apply (kv_dotT K M N wf) prec l w j).trans (kv_contrT_sum K M N wf l w j)

end Cert.KvAux

end
-- ==== Proof.KValue.lean ====
/-
  The kernel's body read at one entry, on the extended reals, when every float block holds real numbers and the
  adjacency words are 0 or 1: it is the four-layer graph-convolution stack of Proof/Spec.lean.
-/
import proofs.«154241_g14164802142580_cont_sun_m_321_17_alg».proof.Proof.KDefs
import proofs.«154241_g14164802142580_cont_sun_m_321_17_alg».proof.Proof.Spec
import proofs.«154241_g14164802142580_cont_sun_m_321_17_alg».proof.Proof.KValueAux
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.GcnK

open Cert.KernelIdeal Cert.KernelIdeal.Gen Idealize.ShloMosaic Idealize.ShloMosaic.ValueIdx Cert.KvAux

/-! ## The constants -/

/-- The f32 pattern of one. -/
theorem kv_one_f32 : Ideal.ofBits .f32 0x3F800000#32 = 1 := by
  simp [Ideal.ofBits, Ideal.ieee, -EReal.coe_mul]; norm_num
/-- The bf16 pattern of one. -/
theorem kv_one_bf16 : Ideal.ofBits .bf16 0x3F80#16 = 1 := by
  simp [Ideal.ofBits, Ideal.ieee, -EReal.coe_mul]; norm_num
/-- The f32 pattern of a quarter. -/
theorem kv_quarter_f32 : Ideal.ofBits .f32 0x3E800000#32 = ((1 / 4 : ℝ) : EReal) := by
  simp [Ideal.ofBits, Ideal.ieee, -EReal.coe_mul]; norm_num

/-- The coercion of a maximum of reals is the maximum of the coercions. -/
theorem kv_coe_max (a b : ℝ) : ((max a b : ℝ) : EReal) = max (a : EReal) (b : EReal) :=
  EReal.coe_strictMono.monotone.map_max

/-- The adjacency words read as real numbers. -/
def kv_r (x0 : Vec Ideal S1x1024x1024 .i32) : Fin 1024 → Fin 1024 → ℝ :=
  fun s d => (((x0 (ix3 (0 : Fin 1) s d)).toInt : ℤ) : ℝ)

/-! ## The three dimension numbers -/

theorem kv_dotP_eq : dot_S128x1024_S1024x1024_S128x1024_1_0_0_1_n_n = DotDims.plain 128 1024 1024 := rfl
theorem kv_dot1_eq : dot_S1x1024_S1024x1024_S1x1024_1_0_0_1_n_n = DotDims.plain 1 1024 1024 := rfl
theorem kv_dotT_eq : dot_S128x128_S128x1024_S128x1024_0_0_1_1_n_n
    = kv_dotT 128 128 1024 dot_S128x128_S128x1024_S128x1024_0_0_1_1_n_n_wf := rfl

/-! ## The layer's three stages as functions of vectors -/

/-- The weights applied to the previous activations (both transposed): a product contracting axis 0 of both. -/
def kv_linV (W : Vec Ideal S128x128 .f32) (rprev : FVec Ideal S128x1024 .f32) : FVec Ideal S128x1024 .f32 :=
  matmul dot_S128x128_S128x1024_S128x1024_0_0_1_1_n_n none (truncf .bf16 W bitsLt_bf16_f32)
    (truncf .bf16 rprev bitsLt_bf16_f32) (constant S128x1024 .f32 0x00000000#32)

/-- The source-side normalisation: every column scaled by its node's factor. -/
def kv_ybV (dv : FVec Ideal S1x1024 .f32) (h : FVec Ideal S128x1024 .f32) : FVec Ideal S128x1024 .bf16 :=
  truncf .bf16 (mulf (broadcastTo S128x1024 dv broadcasts_S1x1024_S128x1024) h) bitsLt_bf16_f32

/-- The aggregation over the adjacency, the destination-side normalisation, the bias and the rectifier. -/
def kv_postV (bcol : FVec Ideal S128x1 .f32) (a : FVec Ideal S1024x1024 .bf16) (dv : FVec Ideal S1x1024 .f32)
    (yb : FVec Ideal S128x1024 .bf16) : FVec Ideal S128x1024 .f32 :=
  maximumf (addf (mulf (broadcastTo S128x1024 dv broadcasts_S1x1024_S128x1024)
      (matmul dot_S128x1024_S1024x1024_S128x1024_1_0_0_1_n_n none yb a (constant S128x1024 .f32 0x00000000#32)))
    (broadcastTo S128x1024 bcol broadcasts_S128x1_S128x1024))
    (broadcast S128x1024 (Scalar.ofBits .f32 0x00000000#32))

/-- The product with the weights at `(f, s)`: `lin` of the real activations. -/
theorem kv_linV_apply (R : Fin 1024 → Fin 128 → ℝ) (Wr : Fin 128 → Fin 128 → ℝ)
    (W : Vec Ideal S128x128 .f32) (rprev : FVec Ideal S128x1024 .f32)
    (hprev : ∀ (k : Fin 128) (s : Fin 1024), rprev (ix2 k s) = ((R s k : ℝ) : EReal))
    (hW : ∀ k f : Fin 128, W (ix2 k f) = ((Wr k f : ℝ) : EReal)) (f : Fin 128) (s : Fin 1024) :
    kv_linV W rprev (ix2 f s) = ((Cert.Gcn.lin R Wr s f : ℝ) : EReal) := by
  refine (kv_matmulT_zero_apply 128 128 1024 dot_S128x128_S128x1024_S128x1024_0_0_1_1_n_n_wf none
    (truncf .bf16 W bitsLt_bf16_f32) (truncf .bf16 rprev bitsLt_bf16_f32) (ix2 f s)).trans ?_
  unfold Cert.Gcn.lin
  rw [kv_coe_sum]
  refine Finset.sum_congr rfl fun k _ => ?_
  show W (ix2 k f) * rprev (ix2 k s) = _
  rw [hW, hprev, EReal.coe_mul]

/-- The scaled columns at `(f, s)`. -/
theorem kv_ybV_apply (D : Fin 1024 → ℝ) (H : Fin 1024 → Fin 128 → ℝ) (dv : FVec Ideal S1x1024 .f32)
    (h : FVec Ideal S128x1024 .f32) (hd : ∀ s : Fin 1024, dv (ix2 (0 : Fin 1) s) = ((D s : ℝ) : EReal))
    (hh : ∀ (f : Fin 128) (s : Fin 1024), h (ix2 f s) = ((H s f : ℝ) : EReal)) (f : Fin 128) (s : Fin 1024) :
    kv_ybV dv h (ix2 f s) = ((D s * H s f : ℝ) : EReal) := by
  show broadcastTo S128x1024 dv broadcasts_S1x1024_S128x1024 (ix2 f s) * h (ix2 f s) = _
  rw [broadcastTo_1b_ab_apply, hd, hh, EReal.coe_mul]

/-- The aggregation, normalisation, bias and rectifier at `(f, d)`. -/
theorem kv_postV_apply (D : Fin 1024 → ℝ) (Y : Fin 1024 → Fin 128 → ℝ) (A : Fin 1024 → Fin 1024 → ℝ)
    (br : Fin 128 → ℝ) (bcol : FVec Ideal S128x1 .f32) (a : FVec Ideal S1024x1024 .bf16)
    (dv : FVec Ideal S1x1024 .f32) (yb : FVec Ideal S128x1024 .bf16)
    (hb : ∀ f : Fin 128, bcol (ix2 f (0 : Fin 1)) = ((br f : ℝ) : EReal))
    (ha : ∀ s d : Fin 1024, a (ix2 s d) = ((A s d : ℝ) : EReal))
    (hd : ∀ s : Fin 1024, dv (ix2 (0 : Fin 1) s) = ((D s : ℝ) : EReal))
    (hy : ∀ (f : Fin 128) (s : Fin 1024), yb (ix2 f s) = ((Y s f : ℝ) : EReal)) (f : Fin 128) (d : Fin 1024) :
    kv_postV bcol a dv yb (ix2 f d) = ((max (D d * (∑ s, Y s f * A s d) + br f) 0 : ℝ) : EReal) := by
  have hm : matmul dot_S128x1024_S1024x1024_S128x1024_1_0_0_1_n_n none yb a (constant S128x1024 .f32 0x00000000#32) (ix2 f d)
      = ((∑ s, Y s f * A s d : ℝ) : EReal) := by
    refine (Cert.PlainDot.matmul_zero_apply 128 1024 1024 none yb a (ix2 f d)).trans ?_
    rw [kv_coe_sum]
    refine Finset.sum_congr rfl fun s _ => ?_
    show yb (ix2 f s) * a (ix2 s d) = _
    rw [hy, ha, EReal.coe_mul]
  show max (broadcastTo S128x1024 dv broadcasts_S1x1024_S128x1024 (ix2 f d)
        * matmul dot_S128x1024_S1024x1024_S128x1024_1_0_0_1_n_n none yb a (constant S128x1024 .f32 0x00000000#32) (ix2 f d)
      + broadcastTo S128x1024 bcol broadcasts_S128x1_S128x1024 (ix2 f d)) (Ideal.ofBits .f32 0x00000000#32) = _
  rw [hm, broadcastTo_1b_ab_apply, kv_broadcastTo_a1_ab_apply, hd, hb, Ideal.ofBits_zero_f32, ← EReal.coe_mul,
    ← EReal.coe_add, ← EReal.coe_zero, ← kv_coe_max]

/-- One whole layer at `(f, d)`, from the product with the weights: `layer` of the real activations. -/
theorem kv_layerV_apply (r : Fin 1024 → Fin 1024 → ℝ) (x : Fin 1024 → Fin 128 → ℝ) (Wr : Fin 128 → Fin 128 → ℝ)
    (br : Fin 128 → ℝ) (bcol : FVec Ideal S128x1 .f32) (a : FVec Ideal S1024x1024 .bf16)
    (dv : FVec Ideal S1x1024 .f32) (h : FVec Ideal S128x1024 .f32)
    (hb : ∀ f : Fin 128, bcol (ix2 f (0 : Fin 1)) = ((br f : ℝ) : EReal))
    (ha : ∀ s d : Fin 1024, a (ix2 s d) = ((Cert.Gcn.adj r s d : ℝ) : EReal))
    (hd : ∀ s : Fin 1024, dv (ix2 (0 : Fin 1) s) = ((Cert.Gcn.dis r s : ℝ) : EReal))
    (hh : ∀ (f : Fin 128) (s : Fin 1024), h (ix2 f s) = ((Cert.Gcn.lin x Wr s f : ℝ) : EReal))
    (f : Fin 128) (d : Fin 1024) :
    kv_postV bcol a dv (kv_ybV dv h) (ix2 f d) = ((Cert.Gcn.layer r x Wr br d f : ℝ) : EReal) :=
  kv_postV_apply (Cert.Gcn.dis r) (fun s f => Cert.Gcn.dis r s * Cert.Gcn.lin x Wr s f) (Cert.Gcn.adj r) br bcol a dv
    (kv_ybV dv h) hb ha hd (kv_ybV_apply (Cert.Gcn.dis r) (Cert.Gcn.lin x Wr) dv h hd hh) f d

/-! ## The adjacency with self loops and the normalisation factor -/

/-- The identity pattern at `(s, d)`: one on the diagonal, zero elsewhere. -/
theorem kv_eye_apply (s d : Fin 1024) :
    (truncf .bf16 (select (cmpi .eq (iota .tc S1024x1024 32 [0] iota_S1024x1024_d0_w32)
        (iota .tc S1024x1024 32 [1] iota_S1024x1024_d1_w32))
      (broadcast S1024x1024 (Scalar.ofBits (F := Ideal) .f32 0x3F800000#32))
      (broadcast S1024x1024 (Scalar.ofBits (F := Ideal) .f32 0x00000000#32))) bitsLt_bf16_f32
        : FVec Ideal S1024x1024 .bf16) (ix2 s d)
      = if s = d then 1 else 0 := by
  show Scalar.select (IntOp.cmpi .eq (iota .tc S1024x1024 32 [0] iota_S1024x1024_d0_w32 (ix2 s d))
      (iota .tc S1024x1024 32 [1] iota_S1024x1024_d1_w32 (ix2 s d)))
    (Ideal.ofBits .f32 0x3F800000#32) (Ideal.ofBits .f32 0x00000000#32) = _
  rw [iota_single_apply, iota_single_apply, kv_one_f32, Ideal.ofBits_zero_f32]
  show Scalar.select (IntOp.cmpi .eq (BitVec.ofNat 32 s.val) (BitVec.ofNat 32 d.val)) (1 : EReal) 0 = _
  by_cases h : s = d
  · subst h
    rw [if_pos rfl]
    simp [Scalar.select, IntOp.cmpi]
  · rw [if_neg h]
    have hne : BitVec.ofNat 32 s.val ≠ BitVec.ofNat 32 d.val := by
      intro e
      have e' := congrArg BitVec.toNat e
      simp only [BitVec.toNat_ofNat] at e'
      have hs := s.isLt
      have hd := d.isLt
      rw [Nat.mod_eq_of_lt (by omega), Nat.mod_eq_of_lt (by omega)] at e'
      exact h (Fin.ext e')
    have hb : (BitVec.ofNat 32 s.val == BitVec.ofNat 32 d.val) = false := beq_eq_false_iff_ne.mpr hne
    simp [Scalar.select, IntOp.cmpi, hb]

/-- The adjacency block at `(s, d)`: the word read as a number off the diagonal, one on it. -/
theorem kv_pay6_apply (x0 : Vec Ideal S1x1024x1024 .i32) (s d : Fin 1024) :
    k0_pay6 (F := Ideal) x0 (ix2 s d) = ((Cert.Gcn.adj (kv_r x0) s d : ℝ) : EReal) := by
  have key : k0_pay6 (F := Ideal) x0 (ix2 s d)
      = ((((shapeCast S1024x1024 x0 shapeCasts_S1x1024x1024_S1024x1024 (ix2 s d)).toInt : ℤ) : ℝ) : EReal)
          * (Ideal.ofBits .bf16 0x3F80#16
              - (truncf .bf16 (select (cmpi .eq (iota .tc S1024x1024 32 [0] iota_S1024x1024_d0_w32)
                    (iota .tc S1024x1024 32 [1] iota_S1024x1024_d1_w32))
                  (broadcast S1024x1024 (Scalar.ofBits (F := Ideal) .f32 0x3F800000#32))
                  (broadcast S1024x1024 (Scalar.ofBits (F := Ideal) .f32 0x00000000#32))) bitsLt_bf16_f32
                    : FVec Ideal S1024x1024 .bf16) (ix2 s d))
        + (truncf .bf16 (select (cmpi .eq (iota .tc S1024x1024 32 [0] iota_S1024x1024_d0_w32)
              (iota .tc S1024x1024 32 [1] iota_S1024x1024_d1_w32))
            (broadcast S1024x1024 (Scalar.ofBits (F := Ideal) .f32 0x3F800000#32))
            (broadcast S1024x1024 (Scalar.ofBits (F := Ideal) .f32 0x00000000#32))) bitsLt_bf16_f32
              : FVec Ideal S1024x1024 .bf16) (ix2 s d) := rfl
  rw [key, kv_eye_apply, shapeCast_1ab_ab_apply, kv_one_bf16]
  unfold Cert.Gcn.adj kv_r
  by_cases h : s = d
  · rw [if_pos h, if_pos h, ← EReal.coe_one, ← EReal.coe_sub, sub_self, EReal.coe_zero, mul_zero, zero_add]
  · rw [if_neg h, if_neg h, ← EReal.coe_one, ← EReal.coe_zero, ← EReal.coe_sub, sub_zero, EReal.coe_one, mul_one,
      EReal.coe_zero, add_zero]

/-- The adjacency is not negative when every word is zero or one. -/
theorem kv_adj_nonneg (x0 : Vec Ideal S1x1024x1024 .i32)
    (h0 : ∀ s d : Fin 1024, x0 (ix3 (0 : Fin 1) s d) = 0#32 ∨ x0 (ix3 (0 : Fin 1) s d) = 1#32) (s d : Fin 1024) :
    0 ≤ Cert.Gcn.adj (kv_r x0) s d := by
  unfold Cert.Gcn.adj
  split
  · exact zero_le_one
  · unfold kv_r
    rcases h0 s d with h | h
    · rw [h]; simp
    · rw [h]
      have : (1#32 : BitVec 32).toInt = 1 := by decide
      rw [this]; simp

/-- The in-degree is positive: the self loop counts one and nothing counts below zero. -/
theorem kv_deg_pos (x0 : Vec Ideal S1x1024x1024 .i32)
    (h0 : ∀ s d : Fin 1024, x0 (ix3 (0 : Fin 1) s d) = 0#32 ∨ x0 (ix3 (0 : Fin 1) s d) = 1#32) (d : Fin 1024) :
    0 < Cert.Gcn.deg (kv_r x0) d := by
  have h1 : Cert.Gcn.adj (kv_r x0) d d = 1 := by unfold Cert.Gcn.adj; rw [if_pos rfl]
  have h2 : Cert.Gcn.adj (kv_r x0) d d ≤ Cert.Gcn.deg (kv_r x0) d :=
    Finset.single_le_sum (f := fun s => Cert.Gcn.adj (kv_r x0) s d) (fun s _ => kv_adj_nonneg x0 h0 s d)
      (Finset.mem_univ d)
  rw [h1] at h2
  exact lt_of_lt_of_le one_pos h2

/-- The normalisation row at `d`: the inverse square root of the in-degree. -/
theorem kv_pay7_apply (x0 : Vec Ideal S1x1024x1024 .i32)
    (h0 : ∀ s d : Fin 1024, x0 (ix3 (0 : Fin 1) s d) = 0#32 ∨ x0 (ix3 (0 : Fin 1) s d) = 1#32) (d : Fin 1024) :
    k0_pay7 (F := Ideal) x0 (ix2 (0 : Fin 1) d) = ((Cert.Gcn.dis (kv_r x0) d : ℝ) : EReal) := by
  have key : k0_pay7 (F := Ideal) x0 (ix2 (0 : Fin 1) d)
      = Ideal.rsqrt (matmul dot_S1x1024_S1024x1024_S1x1024_1_0_0_1_n_n none
          (broadcast S1x1024 (Scalar.ofBits (F := Ideal) .bf16 0x3F80#16)) (k0_pay6 (F := Ideal) x0)
          (constant S1x1024 .f32 0x00000000#32) (ix2 (0 : Fin 1) d)) := rfl
  have hm : matmul dot_S1x1024_S1024x1024_S1x1024_1_0_0_1_n_n none
        (broadcast S1x1024 (Scalar.ofBits (F := Ideal) .bf16 0x3F80#16)) (k0_pay6 (F := Ideal) x0)
        (constant S1x1024 .f32 0x00000000#32) (ix2 (0 : Fin 1) d)
      = ((Cert.Gcn.deg (kv_r x0) d : ℝ) : EReal) := by
    refine (Cert.PlainDot.matmul_zero_apply 1 1024 1024 none
      (broadcast S1x1024 (Scalar.ofBits (F := Ideal) .bf16 0x3F80#16)) (k0_pay6 (F := Ideal) x0) (ix2 (0 : Fin 1) d)).trans ?_
    unfold Cert.Gcn.deg
    rw [kv_coe_sum]
    refine Finset.sum_congr rfl fun s _ => ?_
    show Ideal.ofBits .bf16 0x3F80#16 * k0_pay6 (F := Ideal) x0 (ix2 s d) = _
    rw [kv_one_bf16, one_mul, kv_pay6_apply]
  have hpos := kv_deg_pos x0 h0 d
  rw [key, hm, Ideal.rsqrt_coe, if_neg (not_lt.mpr hpos.le), if_neg hpos.ne']
  rfl

/-! ## The transposed operands -/

/-- A bias row transposed to a column, at `(f, 0)`. -/
theorem kv_bias_apply (x : Vec Ideal S1x128 .f32) (b : Fin 128 → ℝ)
    (h : ∀ f : Fin 128, x (ix2 (0 : Fin 1) f) = ((b f : ℝ) : EReal)) (f : Fin 128) :
    (transpose S128x1 [1, 0] (shapeCast S1x128 x shapeCasts_S1x128_S1x128) transposes_S1x128_p1_0_S128x1
      : FVec Ideal S128x1 .f32) (ix2 f (0 : Fin 1)) = ((b f : ℝ) : EReal) := by
  rw [transpose_ix2_apply, shapeCast_self]
  exact h f

/-- The first layer's product with the weights, from the feature block. -/
theorem kv_pay8_apply (x1 : Vec Ideal S1x1024x128 .f32) (x2 : Vec Ideal S128x128 .f32)
    (X : Fin 1024 → Fin 128 → ℝ) (W0 : Fin 128 → Fin 128 → ℝ)
    (h1 : ∀ (s : Fin 1024) (k : Fin 128), x1 (ix3 (0 : Fin 1) s k) = ((X s k : ℝ) : EReal))
    (h2 : ∀ k f : Fin 128, x2 (ix2 k f) = ((W0 k f : ℝ) : EReal)) (f : Fin 128) (s : Fin 1024) :
    k0_pay8 (F := Ideal) x1 x2 (ix2 f s) = ((Cert.Gcn.lin X W0 s f : ℝ) : EReal) :=
  kv_linV_apply X W0 x2
    (transpose S128x1024 [1, 0] (shapeCast S1024x128 x1 shapeCasts_S1x1024x128_S1024x128)
      transposes_S1024x128_p1_0_S128x1024)
    (fun k s => by rw [transpose_ix2_apply, shapeCast_1ab_ab_apply]; exact h1 s k) h2 f s

/-! ## The four layers -/

/-- The first layer's value is the generic layer on the first product. -/
theorem kv_pay10_eq (v12 : FVec Ideal S128x1 .f32) (v26 : FVec Ideal S1024x1024 .bf16) (v28 : FVec Ideal S1x1024 .f32)
    (v35 : FVec Ideal S128x1024 .f32) :
    k0_pay10 v12 v26 v28 v35 (broadcastTo S128x1024 v28 broadcasts_S1x1024_S128x1024)
      = kv_postV v12 v26 v28 (kv_ybV v28 v35) := rfl

/-- The second layer's value is the generic layer on the product of its weights with the first layer's value. -/
theorem kv_pay11_eq (v12 v15 : FVec Ideal S128x1 .f32) (v26 : FVec Ideal S1024x1024 .bf16) (v28 : FVec Ideal S1x1024 .f32)
    (v35 v36 : FVec Ideal S128x1024 .f32) (v46 : Vec Ideal S128x128 .f32) :
    k0_pay11 v12 v15 v26 v28 v35 v36 v46
      = kv_postV v15 v26 v28 (kv_ybV v28 (kv_linV v46 (k0_pay10 v12 v26 v28 v35 v36))) := rfl

/-- The third layer's value likewise, on the second layer's. -/
theorem kv_pay12_eq (v12 v15 v18 : FVec Ideal S128x1 .f32) (v26 : FVec Ideal S1024x1024 .bf16)
    (v28 : FVec Ideal S1x1024 .f32) (v35 v36 : FVec Ideal S128x1024 .f32) (v46 v60 : Vec Ideal S128x128 .f32) :
    k0_pay12 v12 v15 v18 v26 v28 v35 v36 v46 v60
      = kv_postV v18 v26 v28 (kv_ybV v28 (kv_linV v60 (k0_pay11 v12 v15 v26 v28 v35 v36 v46))) := rfl

/-- The fourth layer's scaled columns, on the third layer's value. -/
theorem kv_pay13_eq (v12 v15 v18 : FVec Ideal S128x1 .f32) (v26 : FVec Ideal S1024x1024 .bf16)
    (v28 : FVec Ideal S1x1024 .f32) (v35 v36 : FVec Ideal S128x1024 .f32) (v46 v60 v74 : Vec Ideal S128x128 .f32) :
    k0_pay13 v12 v15 v18 v26 v28 v35 v36 v46 v60 v74
      = kv_ybV v28 (kv_linV v74 (k0_pay12 v12 v15 v18 v26 v28 v35 v36 v46 v60)) := rfl

/-- The stored value at `(0, n, f)`: the average of the four layers' values at `(f, n)`. -/
theorem kv_pay1_apply (v21 : FVec Ideal S128x1 .f32) (v26 : FVec Ideal S1024x1024 .bf16) (v28 : FVec Ideal S1x1024 .f32)
    (v45 v59 v73 : FVec Ideal S128x1024 .f32) (v80 : FVec Ideal S128x1024 .bf16) (n : Fin 1024) (f : Fin 128)
    (l1 l2 l3 l4 : ℝ) (h1 : v45 (ix2 f n) = ((l1 : ℝ) : EReal)) (h2 : v59 (ix2 f n) = ((l2 : ℝ) : EReal))
    (h3 : v73 (ix2 f n) = ((l3 : ℝ) : EReal)) (h4 : kv_postV v21 v26 v28 v80 (ix2 f n) = ((l4 : ℝ) : EReal)) :
    k0_pay1 v21 v26 v28 v45 v59 v73 v80 (constant S128x1024 .f32 0x00000000#32) (ix3 (0 : Fin 1) n f)
      = (((l1 + l2 + l3 + l4) * (1 / 4) : ℝ) : EReal) := by
  have key : k0_pay1 v21 v26 v28 v45 v59 v73 v80 (constant S128x1024 .f32 0x00000000#32)
      = shapeCast S1x1024x128 (transpose S1024x128 [1, 0]
          (mulf (addf (addf (addf v45 v59) v73) (kv_postV v21 v26 v28 v80))
            (broadcast S128x1024 (Scalar.ofBits (F := Ideal) .f32 0x3E800000#32)))
          transposes_S128x1024_p1_0_S1024x128) shapeCasts_S1024x128_S1x1024x128 := rfl
  rw [key, shapeCast_ab_1ab_apply, transpose_ix2_apply]
  show (v45 (ix2 f n) + v59 (ix2 f n) + v73 (ix2 f n) + kv_postV v21 v26 v28 v80 (ix2 f n))
      * Ideal.ofBits .f32 0x3E800000#32 = _
  rw [h1, h2, h3, h4, kv_quarter_f32, ← EReal.coe_add, ← EReal.coe_add, ← EReal.coe_add, ← EReal.coe_mul]

/-- Entry `(0, n, f)` of the body's value: with `r s d` the adjacency word of `(s, d)` read as a number, `X` the
    features, `Wk`, `bk` the layers' weights and biases, it is `Gcn.out r X W0 b0 W1 b1 W2 b2 W3 b3 n f`. -/
theorem kpay_apply (x0 : Vec Ideal S1x1024x1024 .i32) (x1 : Vec Ideal S1x1024x128 .f32)
    (x2 x3 x4 x5 : Vec Ideal S128x128 .f32) (x6 x7 x8 x9 : Vec Ideal S1x128 .f32)
    (X : Fin 1024 → Fin 128 → ℝ) (W0 W1 W2 W3 : Fin 128 → Fin 128 → ℝ) (b0 b1 b2 b3 : Fin 128 → ℝ)
    (h0 : ∀ s d : Fin 1024, x0 (ix3 (0 : Fin 1) s d) = 0#32 ∨ x0 (ix3 (0 : Fin 1) s d) = 1#32)
    (h1 : ∀ (s : Fin 1024) (k : Fin 128), x1 (ix3 (0 : Fin 1) s k) = ((X s k : ℝ) : EReal))
    (h2 : ∀ k f : Fin 128, x2 (ix2 k f) = ((W0 k f : ℝ) : EReal))
    (h3 : ∀ k f : Fin 128, x3 (ix2 k f) = ((W1 k f : ℝ) : EReal))
    (h4 : ∀ k f : Fin 128, x4 (ix2 k f) = ((W2 k f : ℝ) : EReal))
    (h5 : ∀ k f : Fin 128, x5 (ix2 k f) = ((W3 k f : ℝ) : EReal))
    (h6 : ∀ f : Fin 128, x6 (ix2 (0 : Fin 1) f) = ((b0 f : ℝ) : EReal))
    (h7 : ∀ f : Fin 128, x7 (ix2 (0 : Fin 1) f) = ((b1 f : ℝ) : EReal))
    (h8 : ∀ f : Fin 128, x8 (ix2 (0 : Fin 1) f) = ((b2 f : ℝ) : EReal))
    (h9 : ∀ f : Fin 128, x9 (ix2 (0 : Fin 1) f) = ((b3 f : ℝ) : EReal))
    (n : Fin 1024) (f : Fin 128) :
    kpay (F := Ideal) x0 x1 x2 x3 x4 x5 x6 x7 x8 x9 (ix3 (0 : Fin 1) n f)
      = ((Cert.Gcn.out (fun s d => (((x0 (ix3 (0 : Fin 1) s d)).toInt : ℤ) : ℝ)) X W0 b0 W1 b1 W2 b2 W3 b3 n f : ℝ) : EReal) := by
  -- the adjacency, the normalisation factors, the four bias columns and the first product, as real arrays
  have hA : ∀ s d : Fin 1024, k0_pay6 (F := Ideal) x0 (ix2 s d) = ((Cert.Gcn.adj (kv_r x0) s d : ℝ) : EReal) :=
    kv_pay6_apply x0
  have hD : ∀ d : Fin 1024, k0_pay7 (F := Ideal) x0 (ix2 (0 : Fin 1) d) = ((Cert.Gcn.dis (kv_r x0) d : ℝ) : EReal) :=
    kv_pay7_apply x0 h0
  have hB0 : ∀ g : Fin 128, k0_pay2 (F := Ideal) x6 (ix2 g (0 : Fin 1)) = ((b0 g : ℝ) : EReal) := kv_bias_apply x6 b0 h6
  have hB1 : ∀ g : Fin 128, k0_pay3 (F := Ideal) x7 (ix2 g (0 : Fin 1)) = ((b1 g : ℝ) : EReal) := kv_bias_apply x7 b1 h7
  have hB2 : ∀ g : Fin 128, k0_pay4 (F := Ideal) x8 (ix2 g (0 : Fin 1)) = ((b2 g : ℝ) : EReal) := kv_bias_apply x8 b2 h8
  have hB3 : ∀ g : Fin 128, k0_pay5 (F := Ideal) x9 (ix2 g (0 : Fin 1)) = ((b3 g : ℝ) : EReal) := kv_bias_apply x9 b3 h9
  have hL0 : ∀ (g : Fin 128) (s : Fin 1024),
      k0_pay8 (F := Ideal) x1 x2 (ix2 g s) = ((Cert.Gcn.lin X W0 s g : ℝ) : EReal) := kv_pay8_apply x1 x2 X W0 h1 h2
  -- the first three layers' values
  have hP10 : ∀ (g : Fin 128) (d : Fin 1024),
      k0_pay10 (k0_pay2 x6) (k0_pay6 x0) (k0_pay7 x0) (k0_pay8 x1 x2) (k0_pay9 x0) (ix2 g d)
        = ((Cert.Gcn.layer (kv_r x0) X W0 b0 d g : ℝ) : EReal) := fun g d =>
    kv_layerV_apply (kv_r x0) X W0 b0 (k0_pay2 x6) (k0_pay6 x0) (k0_pay7 x0) (k0_pay8 x1 x2) hB0 hA hD hL0 g d
  have hP11 : ∀ (g : Fin 128) (d : Fin 1024),
      k0_pay11 (k0_pay2 x6) (k0_pay3 x7) (k0_pay6 x0) (k0_pay7 x0) (k0_pay8 x1 x2) (k0_pay9 x0) x3 (ix2 g d)
        = ((Cert.Gcn.layer (kv_r x0) (Cert.Gcn.layer (kv_r x0) X W0 b0) W1 b1 d g : ℝ) : EReal) := fun g d =>
    kv_layerV_apply (kv_r x0) (Cert.Gcn.layer (kv_r x0) X W0 b0) W1 b1 (k0_pay3 x7) (k0_pay6 x0) (k0_pay7 x0)
      (kv_linV x3 (k0_pay10 (k0_pay2 x6) (k0_pay6 x0) (k0_pay7 x0) (k0_pay8 x1 x2) (k0_pay9 x0))) hB1 hA hD
      (kv_linV_apply (Cert.Gcn.layer (kv_r x0) X W0 b0) W1 x3 _ (fun k s => hP10 k s) h3) g d
  have hP12 : ∀ (g : Fin 128) (d : Fin 1024),
      k0_pay12 (k0_pay2 x6) (k0_pay3 x7) (k0_pay4 x8) (k0_pay6 x0) (k0_pay7 x0) (k0_pay8 x1 x2) (k0_pay9 x0) x3 x4 (ix2 g d)
        = ((Cert.Gcn.layer (kv_r x0) (Cert.Gcn.layer (kv_r x0) (Cert.Gcn.layer (kv_r x0) X W0 b0) W1 b1) W2 b2 d g : ℝ)
            : EReal) := fun g d =>
    kv_layerV_apply (kv_r x0) (Cert.Gcn.layer (kv_r x0) (Cert.Gcn.layer (kv_r x0) X W0 b0) W1 b1) W2 b2 (k0_pay4 x8)
      (k0_pay6 x0) (k0_pay7 x0)
      (kv_linV x4 (k0_pay11 (k0_pay2 x6) (k0_pay3 x7) (k0_pay6 x0) (k0_pay7 x0) (k0_pay8 x1 x2) (k0_pay9 x0) x3)) hB2 hA hD
      (kv_linV_apply (Cert.Gcn.layer (kv_r x0) (Cert.Gcn.layer (kv_r x0) X W0 b0) W1 b1) W2 x4 _ (fun k s => hP11 k s) h4)
      g d
  -- the fourth layer's value, from its scaled columns
  have hP13 : kv_postV (k0_pay5 x9) (k0_pay6 x0) (k0_pay7 x0)
        (k0_pay13 (k0_pay2 x6) (k0_pay3 x7) (k0_pay4 x8) (k0_pay6 x0) (k0_pay7 x0) (k0_pay8 x1 x2) (k0_pay9 x0) x3 x4 x5)
        (ix2 f n)
      = ((Cert.Gcn.layer (kv_r x0)
          (Cert.Gcn.layer (kv_r x0) (Cert.Gcn.layer (kv_r x0) (Cert.Gcn.layer (kv_r x0) X W0 b0) W1 b1) W2 b2) W3 b3 n f
            : ℝ) : EReal) :=
    kv_layerV_apply (kv_r x0)
      (Cert.Gcn.layer (kv_r x0) (Cert.Gcn.layer (kv_r x0) (Cert.Gcn.layer (kv_r x0) X W0 b0) W1 b1) W2 b2) W3 b3
      (k0_pay5 x9) (k0_pay6 x0) (k0_pay7 x0)
      (kv_linV x5 (k0_pay12 (k0_pay2 x6) (k0_pay3 x7) (k0_pay4 x8) (k0_pay6 x0) (k0_pay7 x0) (k0_pay8 x1 x2)
        (k0_pay9 x0) x3 x4)) hB3 hA hD
      (kv_linV_apply (Cert.Gcn.layer (kv_r x0) (Cert.Gcn.layer (kv_r x0) (Cert.Gcn.layer (kv_r x0) X W0 b0) W1 b1) W2 b2)
        W3 x5 _ (fun k s => hP12 k s) h5) f n
  exact kv_pay1_apply (k0_pay5 x9) (k0_pay6 x0) (k0_pay7 x0) _ _ _ _ n f _ _ _ _ (hP10 f n) (hP11 f n) (hP12 f n) hP13

end Cert.KernelIdeal.GcnK

end
-- ==== Proof.RefDefs.lean ====
/- (the reference's stretches as functions: each definition is the printed operations of one stretch of @main, in order, as a chain of lets) -/
import proofs.«154241_g14164802142580_cont_sun_m_321_17_alg».proof.Proof.Gen.ReferenceIdeal
import Idealize.ShloMosaic.Lib.StableHlo.Run

noncomputable section

namespace Cert.ReferenceIdeal.RefDefs

open Cert.ReferenceIdeal Cert.ReferenceIdeal.Gen Idealize.ShloMosaic Idealize.ShloMosaic.TcCoe Idealize.SL.Sem Idealize.ShloMosaic.StableHlo

variable {F : FTy → Type} [FloatOps F]

/-- Graph 0's features: the first slab of the feature array. -/
def xOf0 (a0 : (⟨S2x1024x128, .f32⟩ : BufTy).Contents (Elt F)) : (⟨S1024x128, .f32⟩ : BufTy).Contents (Elt F) :=
  let main_v0 : (⟨S1x1024x128, .f32⟩ : BufTy).Contents (Elt F) := ((extractStridedSlice S1x1024x128 ![0, 0, 0] · slices_S2x1024x128_S1x1024x128_0_0_0) : (⟨S2x1024x128, .f32⟩ : BufTy).Contents (Elt F) → (⟨S1x1024x128, .f32⟩ : BufTy).Contents (Elt F)) a0
  let main_v1 : (⟨S1024x128, .f32⟩ : BufTy).Contents (Elt F) := shapeCast S1024x128 main_v0 shapeCasts_S1x1024x128_S1024x128
  main_v1

/-- Graph 0's adjacency words: the first slab of the word array. -/
def rpaOf0 (a1 : (⟨S2x1024x1024, .i32⟩ : BufTy).Contents (Elt F)) : (⟨S1024x1024, .i32⟩ : BufTy).Contents (Elt F) :=
  let main_v2 : (⟨S1x1024x1024, .i32⟩ : BufTy).Contents (Elt F) := ((extractStridedSlice S1x1024x1024 ![0, 0, 0] · slices_S2x1024x1024_S1x1024x1024_0_0_0) : (⟨S2x1024x1024, .i32⟩ : BufTy).Contents (Elt F) → (⟨S1x1024x1024, .i32⟩ : BufTy).Contents (Elt F)) a1
  let main_v3 : (⟨S1024x1024, .i32⟩ : BufTy).Contents (Elt F) := shapeCast S1024x1024 main_v2 shapeCasts_S1x1024x1024_S1024x1024
  main_v3

/-- Graph 1's features: the second slab of the feature array. -/
def xOf1 (a0 : (⟨S2x1024x128, .f32⟩ : BufTy).Contents (Elt F)) : (⟨S1024x128, .f32⟩ : BufTy).Contents (Elt F) :=
  let main_v272 : (⟨S1x1024x128, .f32⟩ : BufTy).Contents (Elt F) := ((extractStridedSlice S1x1024x128 ![1, 0, 0] · slices_S2x1024x128_S1x1024x128_1_0_0) : (⟨S2x1024x128, .f32⟩ : BufTy).Contents (Elt F) → (⟨S1x1024x128, .f32⟩ : BufTy).Contents (Elt F)) a0
  let main_v273 : (⟨S1024x128, .f32⟩ : BufTy).Contents (Elt F) := shapeCast S1024x128 main_v272 shapeCasts_S1x1024x128_S1024x128
  main_v273

/-- Graph 1's adjacency words: the second slab of the word array. -/
def rpaOf1 (a1 : (⟨S2x1024x1024, .i32⟩ : BufTy).Contents (Elt F)) : (⟨S1024x1024, .i32⟩ : BufTy).Contents (Elt F) :=
  let main_v274 : (⟨S1x1024x1024, .i32⟩ : BufTy).Contents (Elt F) := ((extractStridedSlice S1x1024x1024 ![1, 0, 0] · slices_S2x1024x1024_S1x1024x1024_1_0_0) : (⟨S2x1024x1024, .i32⟩ : BufTy).Contents (Elt F) → (⟨S1x1024x1024, .i32⟩ : BufTy).Contents (Elt F)) a1
  let main_v275 : (⟨S1024x1024, .i32⟩ : BufTy).Contents (Elt F) := shapeCast S1024x1024 main_v274 shapeCasts_S1x1024x1024_S1024x1024
  main_v275

/-- The source node of each of the 1024·1024 ordered pairs: the pair's number divided by 1024, rounded down. -/
def srcV  : (⟨S1048576, .i32⟩ : BufTy).Contents (Elt F) :=
  let main_v4 : (⟨S1048576, .i32⟩ : BufTy).Contents (Elt F) := (iotaInDim S1048576 32 0)
  let main_c : (⟨S_, .i32⟩ : BufTy).Contents (Elt F) := (constantI S_ 32 1024#32)
  let main_call0_v0 : (⟨S_, .i32⟩ : BufTy).Contents (Elt F) := id main_c
  let main_call0_v1 : (⟨S1048576, .i32⟩ : BufTy).Contents (Elt F) := (broadcastInDim S1048576 ![] bcast_S_S1048576) main_call0_v0
  let main_call0_v2 : (⟨S1048576, .i32⟩ : BufTy).Contents (Elt F) := Host.divsi main_v4 main_call0_v1
  let main_call0_v3 : (⟨S1048576, .i32⟩ : BufTy).Contents (Elt F) := signi main_v4
  let main_call0_v4 : (⟨S_, .i32⟩ : BufTy).Contents (Elt F) := signi main_call0_v0
  let main_call0_v5 : (⟨S1048576, .i32⟩ : BufTy).Contents (Elt F) := (broadcastInDim S1048576 ![] bcast_S_S1048576) main_call0_v4
  let main_call0_v6 : (⟨S1048576, .i1⟩ : BufTy).Contents (Elt F) := (cmpi .ne) main_call0_v3 main_call0_v5
  let main_call0_v7 : (⟨S1048576, .i32⟩ : BufTy).Contents (Elt F) := (broadcastInDim S1048576 ![] bcast_S_S1048576) main_call0_v0
  let main_call0_v8 : (⟨S1048576, .i32⟩ : BufTy).Contents (Elt F) := Host.remsi main_v4 main_call0_v7
  let main_call0_c : (⟨S_, .i32⟩ : BufTy).Contents (Elt F) := (constantI S_ 32 0#32)
  let main_call0_v9 : (⟨S1048576, .i32⟩ : BufTy).Contents (Elt F) := (broadcastInDim S1048576 ![] bcast_S_S1048576) main_call0_c
  let main_call0_v10 : (⟨S1048576, .i1⟩ : BufTy).Contents (Elt F) := (cmpi .ne) main_call0_v8 main_call0_v9
  let main_call0_v11 : (⟨S1048576, .i1⟩ : BufTy).Contents (Elt F) := andi main_call0_v6 main_call0_v10
  let main_call0_c_0 : (⟨S_, .i32⟩ : BufTy).Contents (Elt F) := (constantI S_ 32 1#32)
  let main_call0_v12 : (⟨S1048576, .i32⟩ : BufTy).Contents (Elt F) := (broadcastInDim S1048576 ![] bcast_S_S1048576) main_call0_c_0
  let main_call0_v13 : (⟨S1048576, .i32⟩ : BufTy).Contents (Elt F) := subi main_call0_v2 main_call0_v12
  let main_v5 : (⟨S1048576, .i32⟩ : BufTy).Contents (Elt F) := select main_call0_v11 main_call0_v13 main_call0_v2
  main_v5

/-- The target node of each pair: the pair's number modulo 1024. -/
def dstV  : (⟨S1048576, .i32⟩ : BufTy).Contents (Elt F) :=
  let main_v4 : (⟨S1048576, .i32⟩ : BufTy).Contents (Elt F) := (iotaInDim S1048576 32 0)
  let main_c_0 : (⟨S_, .i32⟩ : BufTy).Contents (Elt F) := (constantI S_ 32 1024#32)
  let main_call1_v0 : (⟨S_, .i32⟩ : BufTy).Contents (Elt F) := id main_c_0
  let main_call1_c : (⟨S_, .i32⟩ : BufTy).Contents (Elt F) := (constantI S_ 32 0#32)
  let main_call1_v1 : (⟨S_, .i1⟩ : BufTy).Contents (Elt F) := (cmpi .eq) main_call1_v0 main_call1_c
  let main_call1_c_0 : (⟨S_, .i32⟩ : BufTy).Contents (Elt F) := (constantI S_ 32 1#32)
  let main_call1_v2 : (⟨S_, .i32⟩ : BufTy).Contents (Elt F) := select main_call1_v1 main_call1_c_0 main_call1_v0
  let main_call1_v3 : (⟨S1048576, .i32⟩ : BufTy).Contents (Elt F) := (broadcastInDim S1048576 ![] bcast_S_S1048576) main_call1_v2
  let main_call1_v4 : (⟨S1048576, .i32⟩ : BufTy).Contents (Elt F) := Host.remsi main_v4 main_call1_v3
  let main_call1_c_1 : (⟨S_, .i32⟩ : BufTy).Contents (Elt F) := (constantI S_ 32 0#32)
  let main_call1_v5 : (⟨S1048576, .i32⟩ : BufTy).Contents (Elt F) := (broadcastInDim S1048576 ![] bcast_S_S1048576) main_call1_c_1
  let main_call1_v6 : (⟨S1048576, .i1⟩ : BufTy).Contents (Elt F) := (cmpi .ne) main_call1_v4 main_call1_v5
  let main_call1_c_2 : (⟨S_, .i32⟩ : BufTy).Contents (Elt F) := (constantI S_ 32 0#32)
  let main_call1_v7 : (⟨S1048576, .i32⟩ : BufTy).Contents (Elt F) := (broadcastInDim S1048576 ![] bcast_S_S1048576) main_call1_c_2
  let main_call1_v8 : (⟨S1048576, .i1⟩ : BufTy).Contents (Elt F) := (cmpi .slt) main_call1_v4 main_call1_v7
  let main_call1_c_3 : (⟨S_, .i32⟩ : BufTy).Contents (Elt F) := (constantI S_ 32 0#32)
  let main_call1_v9 : (⟨S_, .i1⟩ : BufTy).Contents (Elt F) := (cmpi .slt) main_call1_v2 main_call1_c_3
  let main_call1_v10 : (⟨S1048576, .i1⟩ : BufTy).Contents (Elt F) := (broadcastInDim S1048576 ![] bcast_S_S1048576) main_call1_v9
  let main_call1_v11 : (⟨S1048576, .i1⟩ : BufTy).Contents (Elt F) := (cmpi .ne) main_call1_v8 main_call1_v10
  let main_call1_v12 : (⟨S1048576, .i1⟩ : BufTy).Contents (Elt F) := andi main_call1_v11 main_call1_v6
  let main_call1_v13 : (⟨S1048576, .i32⟩ : BufTy).Contents (Elt F) := (broadcastInDim S1048576 ![] bcast_S_S1048576) main_call1_v2
  let main_call1_v14 : (⟨S1048576, .i32⟩ : BufTy).Contents (Elt F) := addi main_call1_v4 main_call1_v13
  let main_v6 : (⟨S1048576, .i32⟩ : BufTy).Contents (Elt F) := select main_call1_v12 main_call1_v14 main_call1_v4
  main_v6

/-- The edge list: sources in row 0, targets in row 1. -/
def eiOf (src : (⟨S1048576, .i32⟩ : BufTy).Contents (Elt F)) (dst : (⟨S1048576, .i32⟩ : BufTy).Contents (Elt F)) : (⟨S2x1048576, .i32⟩ : BufTy).Contents (Elt F) :=
  let main_v7 : (⟨S1x1048576, .i32⟩ : BufTy).Contents (Elt F) := (broadcastInDim S1x1048576 ![1] bcast_S1048576_S1x1048576_1 : (⟨S1048576, .i32⟩ : BufTy).Contents (Elt F) → (⟨S1x1048576, .i32⟩ : BufTy).Contents (Elt F)) src
  let main_v8 : (⟨S1x1048576, .i32⟩ : BufTy).Contents (Elt F) := (broadcastInDim S1x1048576 ![1] bcast_S1048576_S1x1048576_1 : (⟨S1048576, .i32⟩ : BufTy).Contents (Elt F) → (⟨S1x1048576, .i32⟩ : BufTy).Contents (Elt F)) dst
  let main_v9 : (⟨S2x1048576, .i32⟩ : BufTy).Contents (Elt F) := ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)) main_v7 main_v8
  main_v9

/-- The edge weights: 1 where the adjacency word is not zero and the pair is not a loop, else 0. -/
def wOf (rpa : (⟨S1024x1024, .i32⟩ : BufTy).Contents (Elt F)) (src : (⟨S1048576, .i32⟩ : BufTy).Contents (Elt F)) (dst : (⟨S1048576, .i32⟩ : BufTy).Contents (Elt F)) : (⟨S1048576, .f32⟩ : BufTy).Contents (Elt F) :=
  let main_v10 : (⟨S1048576, .i32⟩ : BufTy).Contents (Elt F) := shapeCast S1048576 rpa shapeCasts_S1024x1024_S1048576
  let main_c_1 : (⟨S_, .i32⟩ : BufTy).Contents (Elt F) := (constantI S_ 32 0#32)
  let main_v11 : (⟨S1048576, .i32⟩ : BufTy).Contents (Elt F) := (broadcastInDim S1048576 ![] bcast_S_S1048576 : (⟨S_, .i32⟩ : BufTy).Contents (Elt F) → (⟨S1048576, .i32⟩ : BufTy).Contents (Elt F)) main_c_1
  let main_v12 : (⟨S1048576, .i1⟩ : BufTy).Contents (Elt F) := (cmpi .ne : (⟨S1048576, .i32⟩ : BufTy).Contents (Elt F) → (⟨S1048576, .i32⟩ : BufTy).Contents (Elt F) → (⟨S1048576, .i1⟩ : BufTy).Contents (Elt F)) main_v10 main_v11
  let main_v13 : (⟨S1048576, .i1⟩ : BufTy).Contents (Elt F) := (cmpi .ne : (⟨S1048576, .i32⟩ : BufTy).Contents (Elt F) → (⟨S1048576, .i32⟩ : BufTy).Contents (Elt F) → (⟨S1048576, .i1⟩ : BufTy).Contents (Elt F)) src dst
  let main_v14 : (⟨S1048576, .i1⟩ : BufTy).Contents (Elt F) := (andi : (⟨S1048576, .i1⟩ : BufTy).Contents (Elt F) → (⟨S1048576, .i1⟩ : BufTy).Contents (Elt F) → (⟨S1048576, .i1⟩ : BufTy).Contents (Elt F)) main_v12 main_v13
  let main_v15 : (⟨S1048576, .f32⟩ : BufTy).Contents (Elt F) := (uitofp .f32 : (⟨S1048576, .i1⟩ : BufTy).Contents (Elt F) → (⟨S1048576, .f32⟩ : BufTy).Contents (Elt F)) main_v14
  main_v15

/-- One graph-convolution layer as the reference computes it: self loops appended to the edge list, degrees by a scatter-add of the edge weights, the normalisation gathered per edge, the messages scattered to their targets, bias, rectifier. -/
def layerFn (x : (⟨S1024x128, .f32⟩ : BufTy).Contents (Elt F)) (ei : (⟨S2x1048576, .i32⟩ : BufTy).Contents (Elt F)) (w : (⟨S1048576, .f32⟩ : BufTy).Contents (Elt F)) (Wm : (⟨S128x128, .f32⟩ : BufTy).Contents (Elt F)) (b : (⟨S128, .f32⟩ : BufTy).Contents (Elt F)) : (⟨S1024x128, .f32⟩ : BufTy).Contents (Elt F) :=
  let main_v16 : (⟨S1x1048576, .i32⟩ : BufTy).Contents (Elt F) := ((extractStridedSlice S1x1048576 ![0, 0] · slices_S2x1048576_S1x1048576_0_0) : (⟨S2x1048576, .i32⟩ : BufTy).Contents (Elt F) → (⟨S1x1048576, .i32⟩ : BufTy).Contents (Elt F)) ei
  let main_v17 : (⟨S1048576, .i32⟩ : BufTy).Contents (Elt F) := shapeCast S1048576 main_v16 shapeCasts_S1x1048576_S1048576
  let main_v18 : (⟨S1x1048576, .i32⟩ : BufTy).Contents (Elt F) := ((extractStridedSlice S1x1048576 ![1, 0] · slices_S2x1048576_S1x1048576_1_0) : (⟨S2x1048576, .i32⟩ : BufTy).Contents (Elt F) → (⟨S1x1048576, .i32⟩ : BufTy).Contents (Elt F)) ei
  let main_v19 : (⟨S1048576, .i32⟩ : BufTy).Contents (Elt F) := shapeCast S1048576 main_v18 shapeCasts_S1x1048576_S1048576
  let main_v20 : (⟨S1024, .i32⟩ : BufTy).Contents (Elt F) := (iotaInDim S1024 32 0)
  let main_v21 : (⟨S1049600, .i32⟩ : BufTy).Contents (Elt F) := ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) main_v17 main_v20
  let main_v22 : (⟨S1049600, .i32⟩ : BufTy).Contents (Elt F) := ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) main_v19 main_v20
  let main_cst : (⟨S_, .f32⟩ : BufTy).Contents (Elt F) := (constant S_ .f32 0x3F800000#32)
  let main_v23 : (⟨S1024, .f32⟩ : BufTy).Contents (Elt F) := (broadcastInDim S1024 ![] bcast_S_S1024 : (⟨S_, .f32⟩ : BufTy).Contents (Elt F) → (⟨S1024, .f32⟩ : BufTy).Contents (Elt F)) main_cst
  let main_v24 : (⟨S1049600, .f32⟩ : BufTy).Contents (Elt F) := ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)) w main_v23
  let main_cst_2 : (⟨S_, .f32⟩ : BufTy).Contents (Elt F) := (constant S_ .f32 0x00000000#32)
  let main_v25 : (⟨S1024, .f32⟩ : BufTy).Contents (Elt F) := (broadcastInDim S1024 ![] bcast_S_S1024 : (⟨S_, .f32⟩ : BufTy).Contents (Elt F) → (⟨S1024, .f32⟩ : BufTy).Contents (Elt F)) main_cst_2
  let main_c_3 : (⟨S_, .i32⟩ : BufTy).Contents (Elt F) := (constantI S_ 32 0#32)
  let main_v26 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_3
  let main_v27 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v22 main_v26
  let main_c_4 : (⟨S_, .i32⟩ : BufTy).Contents (Elt F) := (constantI S_ 32 1024#32)
  let main_v28 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_4
  let main_v29 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v22 main_v28
  let main_v30 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v27 main_v29 main_v22
  let main_v31 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v30
  let main_v32 : (⟨S1024, .f32⟩ : BufTy).Contents (Elt F) := ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)) main_v25 main_v31 main_v24
  let main_cst_5 : (⟨S_, .f32⟩ : BufTy).Contents (Elt F) := (constant S_ .f32 0x00000000#32)
  let main_v33 : (⟨S1024, .f32⟩ : BufTy).Contents (Elt F) := (broadcastInDim S1024 ![] bcast_S_S1024 : (⟨S_, .f32⟩ : BufTy).Contents (Elt F) → (⟨S1024, .f32⟩ : BufTy).Contents (Elt F)) main_cst_5
  let main_v34 : (⟨S1024, .i1⟩ : BufTy).Contents (Elt F) := (cmpf .ogt : (⟨S1024, .f32⟩ : BufTy).Contents (Elt F) → (⟨S1024, .f32⟩ : BufTy).Contents (Elt F) → (⟨S1024, .i1⟩ : BufTy).Contents (Elt F)) main_v32 main_v33
  let main_v35 : (⟨S1024, .f32⟩ : BufTy).Contents (Elt F) := (Host.sqrt : (⟨S1024, .f32⟩ : BufTy).Contents (Elt F) → (⟨S1024, .f32⟩ : BufTy).Contents (Elt F)) main_v32
  let main_cst_6 : (⟨S_, .f32⟩ : BufTy).Contents (Elt F) := (constant S_ .f32 0x3F800000#32)
  let main_v36 : (⟨S1024, .f32⟩ : BufTy).Contents (Elt F) := (broadcastInDim S1024 ![] bcast_S_S1024 : (⟨S_, .f32⟩ : BufTy).Contents (Elt F) → (⟨S1024, .f32⟩ : BufTy).Contents (Elt F)) main_cst_6
  let main_v37 : (⟨S1024, .f32⟩ : BufTy).Contents (Elt F) := (Host.divf : (⟨S1024, .f32⟩ : BufTy).Contents (Elt F) → (⟨S1024, .f32⟩ : BufTy).Contents (Elt F) → (⟨S1024, .f32⟩ : BufTy).Contents (Elt F)) main_v36 main_v35
  let main_cst_7 : (⟨S_, .f32⟩ : BufTy).Contents (Elt F) := (constant S_ .f32 0x00000000#32)
  let main_call2_v0 : (⟨S_, .f32⟩ : BufTy).Contents (Elt F) := id main_cst_7
  let main_call2_v1 : (⟨S1024, .f32⟩ : BufTy).Contents (Elt F) := (broadcastInDim S1024 ![] bcast_S_S1024) main_call2_v0
  let main_v38 : (⟨S1024, .f32⟩ : BufTy).Contents (Elt F) := select main_v34 main_v37 main_call2_v1
  let main_c_8 : (⟨S_, .i32⟩ : BufTy).Contents (Elt F) := (constantI S_ 32 0#32)
  let main_v39 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_8
  let main_v40 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v21 main_v39
  let main_c_9 : (⟨S_, .i32⟩ : BufTy).Contents (Elt F) := (constantI S_ 32 1024#32)
  let main_v41 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_9
  let main_v42 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v21 main_v41
  let main_v43 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v40 main_v42 main_v21
  let main_v44 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v43
  let main_v45 : (⟨S1049600, .f32⟩ : BufTy).Contents (Elt F) := ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)) main_v38 main_v44
  let main_c_10 : (⟨S_, .i32⟩ : BufTy).Contents (Elt F) := (constantI S_ 32 0#32)
  let main_v46 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_10
  let main_v47 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v22 main_v46
  let main_c_11 : (⟨S_, .i32⟩ : BufTy).Contents (Elt F) := (constantI S_ 32 1024#32)
  let main_v48 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_11
  let main_v49 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v22 main_v48
  let main_v50 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v47 main_v49 main_v22
  let main_v51 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v50
  let main_v52 : (⟨S1049600, .f32⟩ : BufTy).Contents (Elt F) := ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)) main_v38 main_v51
  let main_v53 : (⟨S1049600, .f32⟩ : BufTy).Contents (Elt F) := (mulf : (⟨S1049600, .f32⟩ : BufTy).Contents (Elt F) → (⟨S1049600, .f32⟩ : BufTy).Contents (Elt F) → (⟨S1049600, .f32⟩ : BufTy).Contents (Elt F)) main_v45 main_v52
  let main_v54 : (⟨S1049600, .f32⟩ : BufTy).Contents (Elt F) := (mulf : (⟨S1049600, .f32⟩ : BufTy).Contents (Elt F) → (⟨S1049600, .f32⟩ : BufTy).Contents (Elt F) → (⟨S1049600, .f32⟩ : BufTy).Contents (Elt F)) main_v53 main_v24
  let main_v55 : (⟨S1024x128, .f32⟩ : BufTy).Contents (Elt F) := ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)) x Wm
  let main_c_12 : (⟨S_, .i32⟩ : BufTy).Contents (Elt F) := (constantI S_ 32 0#32)
  let main_v56 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_12
  let main_v57 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v21 main_v56
  let main_c_13 : (⟨S_, .i32⟩ : BufTy).Contents (Elt F) := (constantI S_ 32 1024#32)
  let main_v58 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_13
  let main_v59 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v21 main_v58
  let main_v60 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v57 main_v59 main_v21
  let main_v61 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v60
  let main_v62 : (⟨S1049600x128, .f32⟩ : BufTy).Contents (Elt F) := ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)) main_v55 main_v61
  let main_v63 : (⟨S1049600x1, .f32⟩ : BufTy).Contents (Elt F) := (broadcastInDim S1049600x1 ![0] bcast_S1049600_S1049600x1_0 : (⟨S1049600, .f32⟩ : BufTy).Contents (Elt F) → (⟨S1049600x1, .f32⟩ : BufTy).Contents (Elt F)) main_v54
  let main_v64 : (⟨S1049600x128, .f32⟩ : BufTy).Contents (Elt F) := (broadcastInDim S1049600x128 ![0, 1] bcast_S1049600x1_S1049600x128_0_1 : (⟨S1049600x1, .f32⟩ : BufTy).Contents (Elt F) → (⟨S1049600x128, .f32⟩ : BufTy).Contents (Elt F)) main_v63
  let main_v65 : (⟨S1049600x128, .f32⟩ : BufTy).Contents (Elt F) := (mulf : (⟨S1049600x128, .f32⟩ : BufTy).Contents (Elt F) → (⟨S1049600x128, .f32⟩ : BufTy).Contents (Elt F) → (⟨S1049600x128, .f32⟩ : BufTy).Contents (Elt F)) main_v62 main_v64
  let main_cst_14 : (⟨S_, .f32⟩ : BufTy).Contents (Elt F) := (constant S_ .f32 0x00000000#32)
  let main_v66 : (⟨S1024x128, .f32⟩ : BufTy).Contents (Elt F) := (broadcastInDim S1024x128 ![] bcast_S_S1024x128 : (⟨S_, .f32⟩ : BufTy).Contents (Elt F) → (⟨S1024x128, .f32⟩ : BufTy).Contents (Elt F)) main_cst_14
  let main_c_15 : (⟨S_, .i32⟩ : BufTy).Contents (Elt F) := (constantI S_ 32 0#32)
  let main_v67 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_15
  let main_v68 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v22 main_v67
  let main_c_16 : (⟨S_, .i32⟩ : BufTy).Contents (Elt F) := (constantI S_ 32 1024#32)
  let main_v69 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_16
  let main_v70 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v22 main_v69
  let main_v71 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v68 main_v70 main_v22
  let main_v72 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v71
  let main_v73 : (⟨S1024x128, .f32⟩ : BufTy).Contents (Elt F) := ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)) main_v66 main_v72 main_v65
  let main_v74 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  let main_v75 : (⟨S1024x128, .f32⟩ : BufTy).Contents (Elt F) := (broadcastInDim S1024x128 ![0, 1] bcast_S1x128_S1024x128_0_1 : (⟨S1x128, .f32⟩ : BufTy).Contents (Elt F) → (⟨S1024x128, .f32⟩ : BufTy).Contents (Elt F)) main_v74
  let main_v76 : (⟨S1024x128, .f32⟩ : BufTy).Contents (Elt F) := (addf : (⟨S1024x128, .f32⟩ : BufTy).Contents (Elt F) → (⟨S1024x128, .f32⟩ : BufTy).Contents (Elt F) → (⟨S1024x128, .f32⟩ : BufTy).Contents (Elt F)) main_v73 main_v75
  let main_call3_cst : (⟨S_, .f32⟩ : BufTy).Contents (Elt F) := (constant S_ .f32 0x00000000#32)
  let main_call3_v0 : (⟨S1024x128, .f32⟩ : BufTy).Contents (Elt F) := (broadcastInDim S1024x128 ![] bcast_S_S1024x128) main_call3_cst
  let main_v77 : (⟨S1024x128, .f32⟩ : BufTy).Contents (Elt F) := maximumf main_v76 main_call3_v0
  main_v77

/-- The per-edge normalisation of a layer: the inverse square roots of the degrees of the edge's two ends times the edge's weight, self loops appended with weight 1. -/
def normFn (ei : (⟨S2x1048576, .i32⟩ : BufTy).Contents (Elt F)) (w : (⟨S1048576, .f32⟩ : BufTy).Contents (Elt F)) : (⟨S1049600, .f32⟩ : BufTy).Contents (Elt F) :=
  let main_v16 : (⟨S1x1048576, .i32⟩ : BufTy).Contents (Elt F) := ((extractStridedSlice S1x1048576 ![0, 0] · slices_S2x1048576_S1x1048576_0_0) : (⟨S2x1048576, .i32⟩ : BufTy).Contents (Elt F) → (⟨S1x1048576, .i32⟩ : BufTy).Contents (Elt F)) ei
  let main_v17 : (⟨S1048576, .i32⟩ : BufTy).Contents (Elt F) := shapeCast S1048576 main_v16 shapeCasts_S1x1048576_S1048576
  let main_v18 : (⟨S1x1048576, .i32⟩ : BufTy).Contents (Elt F) := ((extractStridedSlice S1x1048576 ![1, 0] · slices_S2x1048576_S1x1048576_1_0) : (⟨S2x1048576, .i32⟩ : BufTy).Contents (Elt F) → (⟨S1x1048576, .i32⟩ : BufTy).Contents (Elt F)) ei
  let main_v19 : (⟨S1048576, .i32⟩ : BufTy).Contents (Elt F) := shapeCast S1048576 main_v18 shapeCasts_S1x1048576_S1048576
  let main_v20 : (⟨S1024, .i32⟩ : BufTy).Contents (Elt F) := (iotaInDim S1024 32 0)
  let main_v21 : (⟨S1049600, .i32⟩ : BufTy).Contents (Elt F) := ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) main_v17 main_v20
  let main_v22 : (⟨S1049600, .i32⟩ : BufTy).Contents (Elt F) := ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) main_v19 main_v20
  let main_cst : (⟨S_, .f32⟩ : BufTy).Contents (Elt F) := (constant S_ .f32 0x3F800000#32)
  let main_v23 : (⟨S1024, .f32⟩ : BufTy).Contents (Elt F) := (broadcastInDim S1024 ![] bcast_S_S1024 : (⟨S_, .f32⟩ : BufTy).Contents (Elt F) → (⟨S1024, .f32⟩ : BufTy).Contents (Elt F)) main_cst
  let main_v24 : (⟨S1049600, .f32⟩ : BufTy).Contents (Elt F) := ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)) w main_v23
  let main_cst_2 : (⟨S_, .f32⟩ : BufTy).Contents (Elt F) := (constant S_ .f32 0x00000000#32)
  let main_v25 : (⟨S1024, .f32⟩ : BufTy).Contents (Elt F) := (broadcastInDim S1024 ![] bcast_S_S1024 : (⟨S_, .f32⟩ : BufTy).Contents (Elt F) → (⟨S1024, .f32⟩ : BufTy).Contents (Elt F)) main_cst_2
  let main_c_3 : (⟨S_, .i32⟩ : BufTy).Contents (Elt F) := (constantI S_ 32 0#32)
  let main_v26 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_3
  let main_v27 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v22 main_v26
  let main_c_4 : (⟨S_, .i32⟩ : BufTy).Contents (Elt F) := (constantI S_ 32 1024#32)
  let main_v28 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_4
  let main_v29 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v22 main_v28
  let main_v30 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v27 main_v29 main_v22
  let main_v31 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v30
  let main_v32 : (⟨S1024, .f32⟩ : BufTy).Contents (Elt F) := ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)) main_v25 main_v31 main_v24
  let main_cst_5 : (⟨S_, .f32⟩ : BufTy).Contents (Elt F) := (constant S_ .f32 0x00000000#32)
  let main_v33 : (⟨S1024, .f32⟩ : BufTy).Contents (Elt F) := (broadcastInDim S1024 ![] bcast_S_S1024 : (⟨S_, .f32⟩ : BufTy).Contents (Elt F) → (⟨S1024, .f32⟩ : BufTy).Contents (Elt F)) main_cst_5
  let main_v34 : (⟨S1024, .i1⟩ : BufTy).Contents (Elt F) := (cmpf .ogt : (⟨S1024, .f32⟩ : BufTy).Contents (Elt F) → (⟨S1024, .f32⟩ : BufTy).Contents (Elt F) → (⟨S1024, .i1⟩ : BufTy).Contents (Elt F)) main_v32 main_v33
  let main_v35 : (⟨S1024, .f32⟩ : BufTy).Contents (Elt F) := (Host.sqrt : (⟨S1024, .f32⟩ : BufTy).Contents (Elt F) → (⟨S1024, .f32⟩ : BufTy).Contents (Elt F)) main_v32
  let main_cst_6 : (⟨S_, .f32⟩ : BufTy).Contents (Elt F) := (constant S_ .f32 0x3F800000#32)
  let main_v36 : (⟨S1024, .f32⟩ : BufTy).Contents (Elt F) := (broadcastInDim S1024 ![] bcast_S_S1024 : (⟨S_, .f32⟩ : BufTy).Contents (Elt F) → (⟨S1024, .f32⟩ : BufTy).Contents (Elt F)) main_cst_6
  let main_v37 : (⟨S1024, .f32⟩ : BufTy).Contents (Elt F) := (Host.divf : (⟨S1024, .f32⟩ : BufTy).Contents (Elt F) → (⟨S1024, .f32⟩ : BufTy).Contents (Elt F) → (⟨S1024, .f32⟩ : BufTy).Contents (Elt F)) main_v36 main_v35
  let main_cst_7 : (⟨S_, .f32⟩ : BufTy).Contents (Elt F) := (constant S_ .f32 0x00000000#32)
  let main_call2_v0 : (⟨S_, .f32⟩ : BufTy).Contents (Elt F) := id main_cst_7
  let main_call2_v1 : (⟨S1024, .f32⟩ : BufTy).Contents (Elt F) := (broadcastInDim S1024 ![] bcast_S_S1024) main_call2_v0
  let main_v38 : (⟨S1024, .f32⟩ : BufTy).Contents (Elt F) := select main_v34 main_v37 main_call2_v1
  let main_c_8 : (⟨S_, .i32⟩ : BufTy).Contents (Elt F) := (constantI S_ 32 0#32)
  let main_v39 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_8
  let main_v40 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v21 main_v39
  let main_c_9 : (⟨S_, .i32⟩ : BufTy).Contents (Elt F) := (constantI S_ 32 1024#32)
  let main_v41 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_9
  let main_v42 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v21 main_v41
  let main_v43 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v40 main_v42 main_v21
  let main_v44 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v43
  let main_v45 : (⟨S1049600, .f32⟩ : BufTy).Contents (Elt F) := ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)) main_v38 main_v44
  let main_c_10 : (⟨S_, .i32⟩ : BufTy).Contents (Elt F) := (constantI S_ 32 0#32)
  let main_v46 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_10
  let main_v47 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v22 main_v46
  let main_c_11 : (⟨S_, .i32⟩ : BufTy).Contents (Elt F) := (constantI S_ 32 1024#32)
  let main_v48 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_11
  let main_v49 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v22 main_v48
  let main_v50 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v47 main_v49 main_v22
  let main_v51 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v50
  let main_v52 : (⟨S1049600, .f32⟩ : BufTy).Contents (Elt F) := ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)) main_v38 main_v51
  let main_v53 : (⟨S1049600, .f32⟩ : BufTy).Contents (Elt F) := (mulf : (⟨S1049600, .f32⟩ : BufTy).Contents (Elt F) → (⟨S1049600, .f32⟩ : BufTy).Contents (Elt F) → (⟨S1049600, .f32⟩ : BufTy).Contents (Elt F)) main_v45 main_v52
  let main_v54 : (⟨S1049600, .f32⟩ : BufTy).Contents (Elt F) := (mulf : (⟨S1049600, .f32⟩ : BufTy).Contents (Elt F) → (⟨S1049600, .f32⟩ : BufTy).Contents (Elt F) → (⟨S1049600, .f32⟩ : BufTy).Contents (Elt F)) main_v53 main_v24
  main_v54

/-- A layer from the per-edge normalisation on: features times weights, gathered per edge, scaled, scattered to the targets, bias, rectifier. -/
def layerTail (x : (⟨S1024x128, .f32⟩ : BufTy).Contents (Elt F)) (ei : (⟨S2x1048576, .i32⟩ : BufTy).Contents (Elt F)) (norm : (⟨S1049600, .f32⟩ : BufTy).Contents (Elt F)) (Wm : (⟨S128x128, .f32⟩ : BufTy).Contents (Elt F)) (b : (⟨S128, .f32⟩ : BufTy).Contents (Elt F)) : (⟨S1024x128, .f32⟩ : BufTy).Contents (Elt F) :=
  let main_v16 : (⟨S1x1048576, .i32⟩ : BufTy).Contents (Elt F) := ((extractStridedSlice S1x1048576 ![0, 0] · slices_S2x1048576_S1x1048576_0_0) : (⟨S2x1048576, .i32⟩ : BufTy).Contents (Elt F) → (⟨S1x1048576, .i32⟩ : BufTy).Contents (Elt F)) ei
  let main_v17 : (⟨S1048576, .i32⟩ : BufTy).Contents (Elt F) := shapeCast S1048576 main_v16 shapeCasts_S1x1048576_S1048576
  let main_v18 : (⟨S1x1048576, .i32⟩ : BufTy).Contents (Elt F) := ((extractStridedSlice S1x1048576 ![1, 0] · slices_S2x1048576_S1x1048576_1_0) : (⟨S2x1048576, .i32⟩ : BufTy).Contents (Elt F) → (⟨S1x1048576, .i32⟩ : BufTy).Contents (Elt F)) ei
  let main_v19 : (⟨S1048576, .i32⟩ : BufTy).Contents (Elt F) := shapeCast S1048576 main_v18 shapeCasts_S1x1048576_S1048576
  let main_v20 : (⟨S1024, .i32⟩ : BufTy).Contents (Elt F) := (iotaInDim S1024 32 0)
  let main_v21 : (⟨S1049600, .i32⟩ : BufTy).Contents (Elt F) := ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) main_v17 main_v20
  let main_v22 : (⟨S1049600, .i32⟩ : BufTy).Contents (Elt F) := ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) main_v19 main_v20
  let main_v55 : (⟨S1024x128, .f32⟩ : BufTy).Contents (Elt F) := ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)) x Wm
  let main_c_12 : (⟨S_, .i32⟩ : BufTy).Contents (Elt F) := (constantI S_ 32 0#32)
  let main_v56 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_12
  let main_v57 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v21 main_v56
  let main_c_13 : (⟨S_, .i32⟩ : BufTy).Contents (Elt F) := (constantI S_ 32 1024#32)
  let main_v58 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_13
  let main_v59 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v21 main_v58
  let main_v60 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v57 main_v59 main_v21
  let main_v61 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v60
  let main_v62 : (⟨S1049600x128, .f32⟩ : BufTy).Contents (Elt F) := ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)) main_v55 main_v61
  let main_v63 : (⟨S1049600x1, .f32⟩ : BufTy).Contents (Elt F) := (broadcastInDim S1049600x1 ![0] bcast_S1049600_S1049600x1_0 : (⟨S1049600, .f32⟩ : BufTy).Contents (Elt F) → (⟨S1049600x1, .f32⟩ : BufTy).Contents (Elt F)) norm
  let main_v64 : (⟨S1049600x128, .f32⟩ : BufTy).Contents (Elt F) := (broadcastInDim S1049600x128 ![0, 1] bcast_S1049600x1_S1049600x128_0_1 : (⟨S1049600x1, .f32⟩ : BufTy).Contents (Elt F) → (⟨S1049600x128, .f32⟩ : BufTy).Contents (Elt F)) main_v63
  let main_v65 : (⟨S1049600x128, .f32⟩ : BufTy).Contents (Elt F) := (mulf : (⟨S1049600x128, .f32⟩ : BufTy).Contents (Elt F) → (⟨S1049600x128, .f32⟩ : BufTy).Contents (Elt F) → (⟨S1049600x128, .f32⟩ : BufTy).Contents (Elt F)) main_v62 main_v64
  let main_cst_14 : (⟨S_, .f32⟩ : BufTy).Contents (Elt F) := (constant S_ .f32 0x00000000#32)
  let main_v66 : (⟨S1024x128, .f32⟩ : BufTy).Contents (Elt F) := (broadcastInDim S1024x128 ![] bcast_S_S1024x128 : (⟨S_, .f32⟩ : BufTy).Contents (Elt F) → (⟨S1024x128, .f32⟩ : BufTy).Contents (Elt F)) main_cst_14
  let main_c_15 : (⟨S_, .i32⟩ : BufTy).Contents (Elt F) := (constantI S_ 32 0#32)
  let main_v67 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_15
  let main_v68 : (⟨S1049600, .i1⟩ : BufTy).Contents (Elt F) := (cmpi .slt : (⟨S1049600, .i32⟩ : BufTy).Contents (Elt F) → (⟨S1049600, .i32⟩ : BufTy).Contents (Elt F) → (⟨S1049600, .i1⟩ : BufTy).Contents (Elt F)) main_v22 main_v67
  let main_c_16 : (⟨S_, .i32⟩ : BufTy).Contents (Elt F) := (constantI S_ 32 1024#32)
  let main_v69 : (⟨S1049600, .i32⟩ : BufTy).Contents (Elt F) := (broadcastInDim S1049600 ![] bcast_S_S1049600 : (⟨S_, .i32⟩ : BufTy).Contents (Elt F) → (⟨S1049600, .i32⟩ : BufTy).Contents (Elt F)) main_c_16
  let main_v70 : (⟨S1049600, .i32⟩ : BufTy).Contents (Elt F) := (addi : (⟨S1049600, .i32⟩ : BufTy).Contents (Elt F) → (⟨S1049600, .i32⟩ : BufTy).Contents (Elt F) → (⟨S1049600, .i32⟩ : BufTy).Contents (Elt F)) main_v22 main_v69
  let main_v71 : (⟨S1049600, .i32⟩ : BufTy).Contents (Elt F) := (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)) main_v68 main_v70 main_v22
  let main_v72 : (⟨S1049600x1, .i32⟩ : BufTy).Contents (Elt F) := (broadcastInDim S1049600x1 ![0] bcast_S1049600_S1049600x1_0 : (⟨S1049600, .i32⟩ : BufTy).Contents (Elt F) → (⟨S1049600x1, .i32⟩ : BufTy).Contents (Elt F)) main_v71
  let main_v73 : (⟨S1024x128, .f32⟩ : BufTy).Contents (Elt F) := ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)) main_v66 main_v72 main_v65
  let main_v74 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) b
  let main_v75 : (⟨S1024x128, .f32⟩ : BufTy).Contents (Elt F) := (broadcastInDim S1024x128 ![0, 1] bcast_S1x128_S1024x128_0_1 : (⟨S1x128, .f32⟩ : BufTy).Contents (Elt F) → (⟨S1024x128, .f32⟩ : BufTy).Contents (Elt F)) main_v74
  let main_v76 : (⟨S1024x128, .f32⟩ : BufTy).Contents (Elt F) := (addf : (⟨S1024x128, .f32⟩ : BufTy).Contents (Elt F) → (⟨S1024x128, .f32⟩ : BufTy).Contents (Elt F) → (⟨S1024x128, .f32⟩ : BufTy).Contents (Elt F)) main_v73 main_v75
  let main_call3_cst : (⟨S_, .f32⟩ : BufTy).Contents (Elt F) := (constant S_ .f32 0x00000000#32)
  let main_call3_v0 : (⟨S1024x128, .f32⟩ : BufTy).Contents (Elt F) := (broadcastInDim S1024x128 ![] bcast_S_S1024x128) main_call3_cst
  let main_v77 : (⟨S1024x128, .f32⟩ : BufTy).Contents (Elt F) := maximumf main_v76 main_call3_v0
  main_v77

/-- The mean of the four layers' outputs. -/
def meanFn (r1 : (⟨S1024x128, .f32⟩ : BufTy).Contents (Elt F)) (r2 : (⟨S1024x128, .f32⟩ : BufTy).Contents (Elt F)) (r3 : (⟨S1024x128, .f32⟩ : BufTy).Contents (Elt F)) (r4 : (⟨S1024x128, .f32⟩ : BufTy).Contents (Elt F)) : (⟨S1024x128, .f32⟩ : BufTy).Contents (Elt F) :=
  let main_v264 : (⟨S1x1024x128, .f32⟩ : BufTy).Contents (Elt F) := (broadcastInDim S1x1024x128 ![1, 2] bcast_S1024x128_S1x1024x128_1_2 : (⟨S1024x128, .f32⟩ : BufTy).Contents (Elt F) → (⟨S1x1024x128, .f32⟩ : BufTy).Contents (Elt F)) r1
  let main_v265 : (⟨S1x1024x128, .f32⟩ : BufTy).Contents (Elt F) := (broadcastInDim S1x1024x128 ![1, 2] bcast_S1024x128_S1x1024x128_1_2 : (⟨S1024x128, .f32⟩ : BufTy).Contents (Elt F) → (⟨S1x1024x128, .f32⟩ : BufTy).Contents (Elt F)) r2
  let main_v266 : (⟨S1x1024x128, .f32⟩ : BufTy).Contents (Elt F) := (broadcastInDim S1x1024x128 ![1, 2] bcast_S1024x128_S1x1024x128_1_2 : (⟨S1024x128, .f32⟩ : BufTy).Contents (Elt F) → (⟨S1x1024x128, .f32⟩ : BufTy).Contents (Elt F)) r3
  let main_v267 : (⟨S1x1024x128, .f32⟩ : BufTy).Contents (Elt F) := (broadcastInDim S1x1024x128 ![1, 2] bcast_S1024x128_S1x1024x128_1_2 : (⟨S1024x128, .f32⟩ : BufTy).Contents (Elt F) → (⟨S1x1024x128, .f32⟩ : BufTy).Contents (Elt F)) r4
  let main_v268 : (⟨S4x1024x128, .f32⟩ : BufTy).Contents (Elt F) := concatenate S4x1024x128 0 [⟨S1x1024x128, main_v264⟩, ⟨S1x1024x128, main_v265⟩, ⟨S1x1024x128, main_v266⟩, ⟨S1x1024x128, main_v267⟩] concatenates_S1x1024x128_S1x1024x128_S1x1024x128_S1x1024x128_S4x1024x128_d0
  let main_cst_65 : (⟨S_, .f32⟩ : BufTy).Contents (Elt F) := (constant S_ .f32 0x00000000#32)
  let main_v269 : (⟨S1024x128, .f32⟩ : BufTy).Contents (Elt F) := ((fun x v => Host.reduceAdd x v reducesTo_S4x1024x128_S1024x128_d0 h_S_) : (⟨S4x1024x128, .f32⟩ : BufTy).Contents (Elt F) → (⟨S_, .f32⟩ : BufTy).Contents (Elt F) → (⟨S1024x128, .f32⟩ : BufTy).Contents (Elt F)) main_v268 main_cst_65
  let main_cst_66 : (⟨S_, .f32⟩ : BufTy).Contents (Elt F) := (constant S_ .f32 0x40800000#32)
  let main_v270 : (⟨S1024x128, .f32⟩ : BufTy).Contents (Elt F) := (broadcastInDim S1024x128 ![] bcast_S_S1024x128 : (⟨S_, .f32⟩ : BufTy).Contents (Elt F) → (⟨S1024x128, .f32⟩ : BufTy).Contents (Elt F)) main_cst_66
  let main_v271 : (⟨S1024x128, .f32⟩ : BufTy).Contents (Elt F) := (Host.divf : (⟨S1024x128, .f32⟩ : BufTy).Contents (Elt F) → (⟨S1024x128, .f32⟩ : BufTy).Contents (Elt F) → (⟨S1024x128, .f32⟩ : BufTy).Contents (Elt F)) main_v269 main_v270
  main_v271

/-- The two graphs' results stacked. -/
def stackFn (o0 : (⟨S1024x128, .f32⟩ : BufTy).Contents (Elt F)) (o1 : (⟨S1024x128, .f32⟩ : BufTy).Contents (Elt F)) : (⟨S2x1024x128, .f32⟩ : BufTy).Contents (Elt F) :=
  let main_v544 : (⟨S1x1024x128, .f32⟩ : BufTy).Contents (Elt F) := (broadcastInDim S1x1024x128 ![1, 2] bcast_S1024x128_S1x1024x128_1_2 : (⟨S1024x128, .f32⟩ : BufTy).Contents (Elt F) → (⟨S1x1024x128, .f32⟩ : BufTy).Contents (Elt F)) o0
  let main_v545 : (⟨S1x1024x128, .f32⟩ : BufTy).Contents (Elt F) := (broadcastInDim S1x1024x128 ![1, 2] bcast_S1024x128_S1x1024x128_1_2 : (⟨S1024x128, .f32⟩ : BufTy).Contents (Elt F) → (⟨S1x1024x128, .f32⟩ : BufTy).Contents (Elt F)) o1
  let main_v546 : (⟨S2x1024x128, .f32⟩ : BufTy).Contents (Elt F) := ((fun a b => concatenate S2x1024x128 0 [⟨S1x1024x128, a⟩, ⟨S1x1024x128, b⟩] concatenates_S1x1024x128_S1x1024x128_S2x1024x128_d0) : (⟨S1x1024x128, .f32⟩ : BufTy).Contents (Elt F) → (⟨S1x1024x128, .f32⟩ : BufTy).Contents (Elt F) → (⟨S2x1024x128, .f32⟩ : BufTy).Contents (Elt F)) main_v544 main_v545
  main_v546

/-- A layer is its tail on its normalisation. -/
theorem layerFn_eq (x : (⟨S1024x128, .f32⟩ : BufTy).Contents (Elt F)) (ei : (⟨S2x1048576, .i32⟩ : BufTy).Contents (Elt F)) (w : (⟨S1048576, .f32⟩ : BufTy).Contents (Elt F)) (Wm : (⟨S128x128, .f32⟩ : BufTy).Contents (Elt F)) (b : (⟨S128, .f32⟩ : BufTy).Contents (Elt F)) :
    layerFn x ei w Wm b = layerTail x ei (normFn ei w) Wm b := rfl

/-- One graph's result: four layers, each fed the one before, and their mean. -/
def graphFn (x : (⟨S1024x128, .f32⟩ : BufTy).Contents (Elt F)) (rpa : (⟨S1024x1024, .i32⟩ : BufTy).Contents (Elt F)) (W0 : (⟨S128x128, .f32⟩ : BufTy).Contents (Elt F)) (b0 : (⟨S128, .f32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) (W3 : (⟨S128x128, .f32⟩ : BufTy).Contents (Elt F)) (b3 : (⟨S128, .f32⟩ : BufTy).Contents (Elt F)) : (⟨S1024x128, .f32⟩ : BufTy).Contents (Elt F) :=
  let ei := eiOf (F := F) srcV dstV
  let w := wOf (F := F) rpa srcV dstV
  let r1 := layerFn x ei w W0 b0
  let r2 := layerFn r1 ei w W1 b1
  let r3 := layerFn r2 ei w W2 b2
  let r4 := layerFn r3 ei w W3 b3
  meanFn r1 r2 r3 r4

/-- The reference's result from the ten argument arrays. -/
def whole (a0 : (⟨S2x1024x128, .f32⟩ : BufTy).Contents (Elt F)) (a1 : (⟨S2x1024x1024, .i32⟩ : BufTy).Contents (Elt F)) (a2 : (⟨S128x128, .f32⟩ : BufTy).Contents (Elt F)) (a3 : (⟨S128, .f32⟩ : BufTy).Contents (Elt F)) (a4 : (⟨S128x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F)) : (⟨S2x1024x128, .f32⟩ : BufTy).Contents (Elt F) :=
  stackFn (graphFn (xOf0 a0) (rpaOf0 (F := F) a1) a2 a3 a4 a5 a6 a7 a8 a9) (graphFn (xOf1 a0) (rpaOf1 (F := F) a1) a2 a3 a4 a5 a6 a7 a8 a9)

end Cert.ReferenceIdeal.RefDefs

end
-- ==== Proof.EdgeIdx.lean ====
/-
  The numbering of the edge list: the ordered pair `(s, d)` of nodes is edge `1024·s + d`, and the self loop of node
  `n` is edge `1024·1024 + n`, appended after the pairs.
-/
import Mathlib.Data.Fin.Basic

namespace Cert.Gcn

/-- The pair `(s, d)` among the 1024·1024 pairs. -/
def pairIdx (s d : Fin 1024) : Fin 1048576 := ⟨s.val * 1024 + d.val, by have := s.isLt; have := d.isLt; omega⟩

/-- The pair `(s, d)` among the edges with the self loops appended. -/
def edgeIdx (s d : Fin 1024) : Fin 1049600 := ⟨s.val * 1024 + d.val, by have := s.isLt; have := d.isLt; omega⟩

/-- The self loop of node `n` among the edges with the self loops appended. -/
def loopIdx (n : Fin 1024) : Fin 1049600 := ⟨1048576 + n.val, by have := n.isLt; omega⟩

end Cert.Gcn
-- ==== Proof.RefEdges.lean ====
/-
  The edge list the reference builds from the pair numbers 0 … 1024·1024 − 1: pair number `1024·s + d` has source `s`
  (the number divided by 1024, rounded down) and target `d` (the remainder), and weight 1 exactly when the adjacency
  word of `(s, d)` is not zero and `s ≠ d`.
-/
import proofs.«154241_g14164802142580_cont_sun_m_321_17_alg».proof.Proof.RefDefs
import proofs.«154241_g14164802142580_cont_sun_m_321_17_alg».proof.Proof.Spec
import proofs.«154241_g14164802142580_cont_sun_m_321_17_alg».proof.Proof.EdgeIdx
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefMath

open Cert.ReferenceIdeal Cert.ReferenceIdeal.RefDefs Cert.Gcn Idealize.ShloMosaic Idealize.ShloMosaic.ValueIdx

/-- A word below 2³¹ has its top bit clear. -/
theorem re_msb_ofNat (n : ℕ) (h : n < 2147483648) : (BitVec.ofNat 32 n).msb = false := by
  rw [BitVec.msb_eq_false_iff_two_mul_lt, BitVec.toNat_ofNat]; omega

/-- Signed division of a nonnegative word by 1024 is the division of naturals. -/
theorem re_sdiv (n : ℕ) (h : n < 2147483648) : (BitVec.ofNat 32 n).sdiv 1024#32 = BitVec.ofNat 32 (n / 1024) := by
  have h1 := re_msb_ofNat n h
  have h2 : (1024#32).msb = false := by decide
  rw [BitVec.sdiv_eq]
  simp only [h1, h2]
  apply BitVec.eq_of_toNat_eq
  simp only [BitVec.udiv_eq, BitVec.toNat_udiv, BitVec.toNat_ofNat, Nat.reducePow, Nat.reduceMod]
  rw [Nat.mod_eq_of_lt (show n < 4294967296 by omega)]
  omega

/-- The signed remainder of a nonnegative word by 1024 is the remainder of naturals. -/
theorem re_srem (n : ℕ) (h : n < 2147483648) : (BitVec.ofNat 32 n).srem 1024#32 = BitVec.ofNat 32 (n % 1024) := by
  have h1 := re_msb_ofNat n h
  have h2 : (1024#32).msb = false := by decide
  rw [BitVec.srem_eq]
  simp only [h1, h2]
  apply BitVec.eq_of_toNat_eq
  simp only [BitVec.toNat_umod, BitVec.toNat_ofNat, Nat.reducePow, Nat.reduceMod]
  rw [Nat.mod_eq_of_lt (show n < 4294967296 by omega)]
  omega

/-- Division by 1024 never meets the corner cases of signed division (a zero divisor, the least word by −1). -/
theorem re_not_corner (x : BitVec 32) : ¬ IntOp.SDivCorner x 1024#32 := by
  rintro (h | ⟨_, h⟩) <;> exact absurd h (by decide)

/-- The host's signed division by 1024 on a nonnegative word. -/
theorem re_divsi (n : ℕ) (h : n < 2147483648) :
    IntOp.divsi .host (BitVec.ofNat 32 n) 1024#32 = BitVec.ofNat 32 (n / 1024) := by
  rw [IntOp.divsi, if_neg (re_not_corner _)]; exact re_sdiv n h

/-- The host's signed remainder by 1024 on a nonnegative word. -/
theorem re_remsi (n : ℕ) (h : n < 2147483648) :
    IntOp.remsi .host (BitVec.ofNat 32 n) 1024#32 = BitVec.ofNat 32 (n % 1024) := by
  rw [IntOp.remsi, if_neg (re_not_corner _)]; exact re_srem n h

/-- A nonnegative word is not below zero. -/
theorem re_slt_zero (m : ℕ) (h : m < 2147483648) : (BitVec.ofNat 32 m).slt 0#32 = false := by
  rw [BitVec.slt_eq_decide, BitVec.toInt_eq_toNat_of_msb (re_msb_ofNat m h), BitVec.toInt_zero]
  exact decide_eq_false (by omega)

/-- Rounded-down division by 1024 as the reference spells it (the quotient rounded to zero, lowered by one when the
    signs differ and the remainder is not zero) on a nonnegative word: the signs differ only at the word 0, whose
    remainder is 0, so the quotient stands. -/
theorem re_floordiv (n : ℕ) (h : n < 2147483648) :
    Scalar.select
      (IntOp.andi
        (IntOp.cmpi .ne (if BitVec.ofNat 32 n = 0 then (0 : BitVec 32) else if (BitVec.ofNat 32 n).msb then -1 else 1)
                        (if (1024#32) = 0 then (0 : BitVec 32) else if (1024#32).msb then -1 else 1))
        (IntOp.cmpi .ne (IntOp.remsi .host (BitVec.ofNat 32 n) 1024#32) 0#32))
      (IntOp.subi (IntOp.divsi .host (BitVec.ofNat 32 n) 1024#32) 1#32)
      (IntOp.divsi .host (BitVec.ofNat 32 n) 1024#32) = BitVec.ofNat 32 (n / 1024) := by
  have hs : (if (1024#32) = 0 then (0 : BitVec 32) else if (1024#32).msb then -1 else 1) = 1 := by decide
  rw [hs, re_divsi n h, re_remsi n h]
  have hc : IntOp.andi
      (IntOp.cmpi .ne (if BitVec.ofNat 32 n = 0 then (0 : BitVec 32) else if (BitVec.ofNat 32 n).msb then -1 else 1) 1)
      (IntOp.cmpi .ne (BitVec.ofNat 32 (n % 1024)) 0#32) = 0#1 := by
    by_cases h0 : n = 0
    · subst h0; decide
    · have hne : BitVec.ofNat 32 n ≠ 0 := by
        intro e
        have e' := congrArg BitVec.toNat e
        rw [BitVec.toNat_ofNat] at e'
        simp at e'
        omega
      rw [if_neg hne, re_msb_ofNat n h]
      have h1 : IntOp.cmpi .ne (if false = true then (-1 : BitVec 32) else 1) 1 = 0#1 := by decide
      have h2 : ∀ y : BitVec 1, IntOp.andi 0#1 y = 0#1 := by decide
      rw [h1, h2]
  rw [hc]; exact select_zero _ _

/-- The remainder by 1024 as the reference spells it (the signed remainder, the divisor added when its sign differs from
    the divisor's and it is not zero) on a nonnegative word: the signed remainder is not negative, so it stands. -/
theorem re_remainder (n : ℕ) (h : n < 2147483648) :
    Scalar.select
      (IntOp.andi
        (IntOp.cmpi .ne
          (IntOp.cmpi .slt (IntOp.remsi .host (BitVec.ofNat 32 n) (Scalar.select (IntOp.cmpi .eq 1024#32 0#32) 1#32 1024#32)) 0#32)
          (IntOp.cmpi .slt (Scalar.select (IntOp.cmpi .eq 1024#32 0#32) 1#32 1024#32) 0#32))
        (IntOp.cmpi .ne (IntOp.remsi .host (BitVec.ofNat 32 n) (Scalar.select (IntOp.cmpi .eq 1024#32 0#32) 1#32 1024#32)) 0#32))
      (IntOp.addi (IntOp.remsi .host (BitVec.ofNat 32 n) (Scalar.select (IntOp.cmpi .eq 1024#32 0#32) 1#32 1024#32))
        (Scalar.select (IntOp.cmpi .eq 1024#32 0#32) 1#32 1024#32))
      (IntOp.remsi .host (BitVec.ofNat 32 n) (Scalar.select (IntOp.cmpi .eq 1024#32 0#32) 1#32 1024#32))
      = BitVec.ofNat 32 (n % 1024) := by
  have hD : Scalar.select (IntOp.cmpi .eq 1024#32 0#32) 1#32 1024#32 = 1024#32 := by decide
  rw [hD, re_remsi n h]
  have h1 : IntOp.cmpi .slt (BitVec.ofNat 32 (n % 1024)) 0#32 = 0#1 := by
    show BitVec.ofBool ((BitVec.ofNat 32 (n % 1024)).slt 0#32) = 0#1
    rw [re_slt_zero _ (by omega)]; rfl
  have h2 : IntOp.cmpi .slt 1024#32 0#32 = 0#1 := by decide
  rw [h1, h2]
  have hc : ∀ y : BitVec 1, IntOp.andi (IntOp.cmpi .ne 0#1 0#1) y = 0#1 := by decide
  rw [hc]; exact select_zero _ _

/-- The source of pair `(s, d)` is `s`. -/
theorem srcV_apply (s d : Fin 1024) : srcV (F := Ideal) (ix1 (pairIdx s d)) = BitVec.ofNat 32 s.val := by
  have hl : s.val * 1024 + d.val < 2147483648 := by have := s.isLt; have := d.isLt; omega
  have e : (s.val * 1024 + d.val) / 1024 = s.val := by have := d.isLt; omega
  have h := re_floordiv (s.val * 1024 + d.val) hl
  rw [e] at h
  exact h

/-- The target of pair `(s, d)` is `d`. -/
theorem dstV_apply (s d : Fin 1024) : dstV (F := Ideal) (ix1 (pairIdx s d)) = BitVec.ofNat 32 d.val := by
  have hl : s.val * 1024 + d.val < 2147483648 := by have := s.isLt; have := d.isLt; omega
  have e : (s.val * 1024 + d.val) % 1024 = d.val := by have := d.isLt; omega
  have h := re_remainder (s.val * 1024 + d.val) hl
  rw [e] at h
  exact h

/-- The weight's bit as a number: 1 exactly when the word is not zero and the two nodes differ. -/
theorem re_weight (a : BitVec 32) (s d : Fin 1024) :
    (FloatOps.uitofp (F := Ideal) .f32
        (IntOp.andi (IntOp.cmpi .ne a 0#32) (IntOp.cmpi .ne (BitVec.ofNat 32 s.val) (BitVec.ofNat 32 d.val))) : EReal)
      = (((if (((a.toInt : ℤ) : ℝ)) ≠ 0 ∧ s ≠ d then (1 : ℝ) else 0 : ℝ)) : EReal) := by
  have hA : IntOp.cmpi .ne a 0#32 = if a = 0#32 then 0#1 else 1#1 := by
    show BitVec.ofBool (a != 0#32) = _
    by_cases h : a = 0#32
    · rw [if_pos h, h]; rfl
    · rw [if_neg h]
      have hb : (a != 0#32) = true := by simpa using h
      rw [hb]; rfl
  have hB : IntOp.cmpi .ne (BitVec.ofNat 32 s.val) (BitVec.ofNat 32 d.val) = if s = d then 0#1 else 1#1 := by
    show BitVec.ofBool (BitVec.ofNat 32 s.val != BitVec.ofNat 32 d.val) = _
    by_cases h : s = d
    · rw [if_pos h, h]; simp
    · rw [if_neg h]
      have hne : BitVec.ofNat 32 s.val ≠ BitVec.ofNat 32 d.val := by
        intro e
        have e' := congrArg BitVec.toNat e
        rw [BitVec.toNat_ofNat, BitVec.toNat_ofNat] at e'
        have := s.isLt; have := d.isLt
        apply h; apply Fin.ext; omega
      have hb : (BitVec.ofNat 32 s.val != BitVec.ofNat 32 d.val) = true := by simpa using hne
      rw [hb]; rfl
  have hI : (((a.toInt : ℤ) : ℝ) ≠ 0) ↔ a ≠ 0#32 := by
    rw [Ne, Int.cast_eq_zero, ← BitVec.toInt_zero (w := 32), BitVec.toInt_inj]
  rw [hA, hB]
  by_cases h1 : a = 0#32
  · have hr : ¬ ((((a.toInt : ℤ) : ℝ)) ≠ 0 ∧ s ≠ d) := fun hh => (hI.1 hh.1) h1
    have h0 : ∀ y : BitVec 1, IntOp.andi 0#1 y = 0#1 := by decide
    rw [if_pos h1, if_neg hr, h0]
    show (((0#1).toNat : ℝ) : EReal) = ((0 : ℝ) : EReal)
    simp
  · by_cases h2 : s = d
    · have hr : ¬ ((((a.toInt : ℤ) : ℝ)) ≠ 0 ∧ s ≠ d) := fun hh => hh.2 h2
      have h0 : IntOp.andi 1#1 0#1 = 0#1 := by decide
      rw [if_neg h1, if_pos h2, if_neg hr, h0]
      show (((0#1).toNat : ℝ) : EReal) = ((0 : ℝ) : EReal)
      simp
    · have hr : ((((a.toInt : ℤ) : ℝ)) ≠ 0 ∧ s ≠ d) := ⟨hI.2 h1, h2⟩
      have h0 : IntOp.andi 1#1 1#1 = 1#1 := by decide
      rw [if_neg h1, if_neg h2, if_pos hr, h0]
      show (((1#1).toNat : ℝ) : EReal) = ((1 : ℝ) : EReal)
      simp

/-- A vector laid as the one row of a one-row matrix reads the vector at the column. -/
theorem re_bcast_row (v : IVec S1048576 32) (hb : S1048576.BroadcastsInDim S1x1048576 (![1] : Fin 1 → Fin S1x1048576.rank))
    (e : Fin 1048576) :
    (broadcastInDim S1x1048576 ![1] hb v : IVec S1x1048576 32) (ix2 (0 : Fin 1) e) = v (ix1 e) := by
  show v _ = v _
  congr 1
  funext a
  match a with
  | ⟨0, _⟩ =>
    apply Fin.ext
    split
    · next h1 => exact absurd (show (1048576 : ℕ) = 1 from h1) (by decide)
    · rfl

/-- Row 0 of the edge list is the sources. -/
theorem eiOf_src (src dst : IVec S1048576 32) (e : Fin 1048576) :
    eiOf (F := Ideal) src dst (ix2 (0 : Fin 2) e) = src (ix1 e) := by
  refine (concatenate_pair_apply_left (t := S2x1048576) (s₁ := S1x1048576) (s₂ := S1x1048576) 0 _ _
    Gen.concatenates_S1x1048576_S1x1048576_S2x1048576_d0 (ix2 (0 : Fin 2) e) rfl (ix2 (0 : Fin 1) e) ?_).trans ?_
  · intro b
    match b with
    | ⟨0, _⟩ => rfl
    | ⟨1, _⟩ => rfl
  · exact re_bcast_row src _ e

/-- Row 1 of the edge list is the targets. -/
theorem eiOf_dst (src dst : IVec S1048576 32) (e : Fin 1048576) :
    eiOf (F := Ideal) src dst (ix2 (1 : Fin 2) e) = dst (ix1 e) := by
  refine (concatenate_pair_apply_right (t := S2x1048576) (s₁ := S1x1048576) (s₂ := S1x1048576) 0 _ _
    Gen.concatenates_S1x1048576_S1x1048576_S2x1048576_d0 (ix2 (1 : Fin 2) e) rfl rfl (ix2 (0 : Fin 1) e) ?_ ?_).trans ?_
  · intro b hb
    match b, hb with
    | ⟨0, _⟩, hb => exact absurd rfl hb
    | ⟨1, _⟩, _ => rfl
  · rfl
  · exact re_bcast_row dst _ e

/-- The weight of pair `(s, d)`: `Gcn.ew` of the adjacency words read as numbers. -/
theorem wOf_apply (rpa : IVec S1024x1024 32) (src dst : IVec S1048576 32)
    (hs : ∀ s d : Fin 1024, src (ix1 (pairIdx s d)) = BitVec.ofNat 32 s.val)
    (hd : ∀ s d : Fin 1024, dst (ix1 (pairIdx s d)) = BitVec.ofNat 32 d.val) (s d : Fin 1024) :
    wOf (F := Ideal) rpa src dst (ix1 (pairIdx s d))
      = ((Cert.Gcn.ew (fun s d => (((rpa (ix2 s d)).toInt : ℤ) : ℝ)) s d : ℝ) : EReal) := by
  have hc : shapeCast S1048576 rpa Gen.shapeCasts_S1024x1024_S1048576 (ix1 (pairIdx s d)) = rpa (ix2 s d) := by
    refine shapeCast_apply rpa Gen.shapeCasts_S1024x1024_S1048576 (ix1 (pairIdx s d)) (ix2 s d) ?_
    rw [Shape.rowMajor_val_two, Shape.rowMajor_val_one]
    rfl
  show FloatOps.uitofp (F := Ideal) .f32
      (IntOp.andi (IntOp.cmpi .ne (shapeCast S1048576 rpa Gen.shapeCasts_S1024x1024_S1048576 (ix1 (pairIdx s d))) 0#32)
        (IntOp.cmpi .ne (src (ix1 (pairIdx s d))) (dst (ix1 (pairIdx s d))))) = _
  rw [hc, hs s d, hd s d]
  exact re_weight (rpa (ix2 s d)) s d

end Cert.ReferenceIdeal.RefMath

end
-- ==== Proof.LibRowIndex.lean ====
/-
  Row scatters and row gathers read at an index.

  jax's `segment_sum(data, ids, num_segments = N)` prints as a `stablehlo.scatter` with an `add` body whose scatter
  indices are the `E` words `ids` as an `[E, 1]` array: update row `e` is added to operand row `ids[e]`, read signed,
  when that is a row number, and dropped otherwise (`land`). jax's `x[ids]` prints as a `stablehlo.gather` over the
  same `[E, 1]` array of start indices: result row `e` is operand row `ids[e]`, read signed and clamped into
  `[0, N - 1]` (`pick`). This file states both, for a matrix of rows (`[N, C]`, updates / result `[E, C]`) and for a
  plain vector (`[N]`, updates / result `[E]`), at one element, and the one fact that joins them: an index that lands
  on row `n` picks row `n`.
-/
import Idealize.ShloMosaic.PureOps.Ideal
import Idealize.ShloMosaic.PureOps.Contract
import Idealize.ShloMosaic.Lib.ValueIdx

noncomputable section

open scoped BigOperators

namespace Cert.Lib.RowIndex

open Idealize.ShloMosaic Idealize.ShloMosaic.ValueIdx

/-! ## Where an index word lands, and which row it picks -/

/-- The row an index word names among `N` rows when it is read signed and NOT clamped: `some` row when the signed
    value is in `[0, N)`, `none` otherwise (a scatter drops such an update). -/
def land (N : Nat) {w : Nat} (c : BitVec w) : Option (Fin N) :=
  if h : 0 ≤ c.toInt ∧ c.toInt < (N : Int) then some ⟨c.toInt.toNat, by omega⟩ else none

/-- The row an index word names among `N` rows when it is read signed and clamped into `[0, N - 1]` (a gather
    clamps its start index). -/
def pick (N : Nat) (hN : 0 < N) {w : Nat} (c : BitVec w) : Fin N :=
  ⟨min c.toInt.toNat (N - 1), by omega⟩

/-- An index word that lands on row `n` picks row `n`. -/
theorem pick_of_land {N : Nat} (hN : 0 < N) {w : Nat} (c : BitVec w) (n : Fin N) (h : land N c = some n) :
    pick N hN c = n := by
  unfold land at h
  split at h
  · rename_i hc
    obtain rfl : (⟨c.toInt.toNat, _⟩ : Fin N) = n := Option.some.inj h
    refine Fin.ext ?_
    show min c.toInt.toNat (N - 1) = c.toInt.toNat
    omega
  · exact absurd h (by simp)

/-- A word that lands somewhere is not negative. -/
theorem toInt_nonneg_of_land {N : Nat} {w : Nat} (c : BitVec w) (n : Fin N) (h : land N c = some n) :
    0 ≤ c.toInt := by
  unfold land at h
  split at h
  · rename_i hc
    exact hc.1
  · exact absurd h (by simp)

/-! ## The dimension numbers -/

/-- `segment_sum` of rows: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `segment_sum` of scalars: operand `[N]`, scatter indices `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[ids]` of a matrix of rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[ids]` of a vector: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-! ## The scatters at an element (extended reals) -/

/-- Axis 0 of a row scatter's window start: the index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e h) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of a row scatter's window start: zero (the index names rows only). -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (1 : Fin 2) = 0 := by
  unfold ScatterDims.start
  rw [dif_neg (show ¬ (1 : Fin 2) ∈ ([0] : List (Fin 2)) by decide)]

/-- Axis 0 of a row scatter's window coordinate: zero (a window is one row). -/
theorem rowScatter_window_zero {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (0 : Fin 2) = 0 := by
  unfold ScatterDims.window
  have hm : ¬ (0 : Fin 2) ∈ (rowScatter N E C wf).sKept :=
    (show ¬ (0 : Fin 2) ∈ (List.finRange 2).filter (fun a => a ∉ ([0] : List (Fin 2))) by decide)
  rw [dif_neg hm]

/-- Axis 1 of a row scatter's window coordinate: the update's column. -/
theorem rowScatter_window_one {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (1 : Fin 2) = h.val := by
  unfold ScatterDims.window
  have hm : (1 : Fin 2) ∈ (rowScatter N E C wf).sKept :=
    (show (1 : Fin 2) ∈ (List.finRange 2).filter (fun a => a ∉ ([0] : List (Fin 2))) by decide)
  rw [dif_pos hm]
  rfl

/-- Where update element `(e, h)` of a row scatter goes: row `land` of its index word, column `h`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).resultIdx? (ix2 e h) idx
      = (land N (idx (ix2 e (0 : Fin 1)))).map (fun n => ix2 n h) := by
  have h00 := rowScatter_start_zero wf idx e h
  have h01 := rowScatter_start_one wf idx e h
  have h10 := rowScatter_window_zero wf e h
  have h11 := rowScatter_window_one wf e h
  have hC : (h.val : Int) < (C : Int) := by exact_mod_cast h.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 2, 0 ≤ (rowScatter N E C wf).start (ix2 e h) idx a + ((rowScatter N E C wf).window (ix2 e h) a : Int)
        ∧ (rowScatter N E C wf).start (ix2 e h) idx a + ((rowScatter N E C wf).window (ix2 e h) a : Int)
          < ((⟨2, ![N, C]⟩ : Shape).size a : Int) := by
      intro a
      match a with
      | ⟨0, _⟩ =>
        show 0 ≤ (rowScatter N E C wf).start (ix2 e h) idx (0 : Fin 2) + ((rowScatter N E C wf).window (ix2 e h) (0 : Fin 2) : Int)
          ∧ (rowScatter N E C wf).start (ix2 e h) idx (0 : Fin 2) + ((rowScatter N E C wf).window (ix2 e h) (0 : Fin 2) : Int) < (N : Int)
        rw [h00, h10]; simpa using hc
      | ⟨1, _⟩ =>
        show 0 ≤ (rowScatter N E C wf).start (ix2 e h) idx (1 : Fin 2) + ((rowScatter N E C wf).window (ix2 e h) (1 : Fin 2) : Int)
          ∧ (rowScatter N E C wf).start (ix2 e h) idx (1 : Fin 2) + ((rowScatter N E C wf).window (ix2 e h) (1 : Fin 2) : Int) < (C : Int)
        rw [h01, h11]; omega
    rw [dif_pos hall]
    congr 1
    funext a
    refine Fin.ext ?_
    match a with
    | ⟨0, _⟩ =>
      show ((rowScatter N E C wf).start (ix2 e h) idx (0 : Fin 2) + ((rowScatter N E C wf).window (ix2 e h) (0 : Fin 2) : Int)).toNat
        = (idx (ix2 e (0 : Fin 1))).toInt.toNat
      rw [h00, h10]; simp
    | ⟨1, _⟩ =>
      show ((rowScatter N E C wf).start (ix2 e h) idx (1 : Fin 2) + ((rowScatter N E C wf).window (ix2 e h) (1 : Fin 2) : Int)).toNat
        = h.val
      rw [h01, h11]; simp
  · rw [dif_neg hc, Option.map_none]
    unfold ScatterDims.resultIdx?
    rw [dif_neg]
    intro hall
    have := hall (0 : Fin 2)
    rw [h00, h10] at this
    exact hc (by simpa using this)

/-- Update element `j` of a row scatter goes to `(n, h)` exactly when its index word lands on `n` and its
    column is `h`. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (h : Fin C) :
    (rowScatter N E C wf).resultIdx? j idx = some (ix2 n h)
      ↔ land N (idx (ix2 (j 0) (0 : Fin 1))) = some n ∧ j 1 = h := by
  obtain ⟨e, h', rfl⟩ : ∃ (e : Fin E) (h' : Fin C), j = ix2 e h' := ⟨j 0, j 1, eq_ix2 j⟩
  rw [rowScatter_resultIdx wf idx e h']
  show Option.map (fun m => ix2 m h') (land N (idx (ix2 e (0 : Fin 1)))) = some (ix2 n h)
    ↔ land N (idx (ix2 e (0 : Fin 1))) = some n ∧ h' = h
  constructor
  · intro hh
    obtain ⟨m, hm, hmn⟩ := Option.map_eq_some_iff.mp hh
    have h0 : m = n := congrFun hmn (0 : Fin 2)
    have h1 : h' = h := congrFun hmn (1 : Fin 2)
    exact ⟨by rw [hm, h0], h1⟩
  · rintro ⟨hl, rfl⟩
    rw [hl]
    rfl

/-- Row `n`, column `h` of a row scatter-add: the operand's element plus the sum, over the update rows `e` whose
    index word lands on `n`, of the update's element `(e, h)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (h : Fin C) :
    Host.scatterAdd (rowScatter N E C wf) x idx upd (ix2 n h)
      = (x (ix2 n h) + ∑ e ∈ Finset.univ.filter (fun e : Fin E => land N (idx (ix2 e (0 : Fin 1))) = some n),
          upd (ix2 e h) : EReal) := by
  show (x (ix2 n h) + ∑ j ∈ Finset.univ.filter
      (fun j => (rowScatter N E C wf).resultIdx? j idx = some (ix2 n h)), upd j : EReal) = _
  congr 1
  refine Finset.sum_nbij' (fun j => j 0) (fun e => ix2 e h) ?_ ?_ ?_ ?_ ?_
  · intro j hj
    have hj' := (rowScatter_resultIdx_eq_some_iff wf idx j n h).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (rowScatter_resultIdx_eq_some_iff wf idx (ix2 e h) n h).mpr ⟨he', rfl⟩⟩
  · intro j hj
    have hj' := (rowScatter_resultIdx_eq_some_iff wf idx j n h).mp (Finset.mem_filter.mp hj).2
    show ix2 (j 0) h = j
    rw [← hj'.2]
    exact (eq_ix2 j).symm
  · intro e _
    rfl
  · intro j hj
    have hj' := (rowScatter_resultIdx_eq_some_iff wf idx j n h).mp (Finset.mem_filter.mp hj).2
    show upd j = upd (ix2 (j 0) h)
    rw [← hj'.2]
    exact congrArg upd (eq_ix2 j)

/-- A scalar scatter's window start: the index word, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar scatter's window coordinate: zero (a window is one element). -/
theorem vecScatter_window {N E : Nat}
    (wf : ScatterDims.WF ⟨1, ![N]⟩ ⟨2, ![E, 1]⟩ ⟨1, ![E]⟩ [] [0] [0] 1) (e : Fin E) :
    (vecScatter N E wf).window (ix1 e) (0 : Fin 1) = 0 := by
  unfold ScatterDims.window
  have hm : ¬ (0 : Fin 1) ∈ (vecScatter N E wf).sKept :=
    (show ¬ (0 : Fin 1) ∈ (List.finRange 1).filter (fun a => a ∉ ([0] : List (Fin 1))) by decide)
  rw [dif_neg hm]

/-- Where update `e` of a scalar scatter goes: element `land` of its index word. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (land N (idx (ix2 e (0 : Fin 1)))).map (fun n => ix1 n) := by
  have h00 := vecScatter_start wf idx e
  have h10 := vecScatter_window wf e
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 1, 0 ≤ (vecScatter N E wf).start (ix1 e) idx a + ((vecScatter N E wf).window (ix1 e) a : Int)
        ∧ (vecScatter N E wf).start (ix1 e) idx a + ((vecScatter N E wf).window (ix1 e) a : Int)
          < ((⟨1, ![N]⟩ : Shape).size a : Int) := by
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [h00, h10]; simpa using hc
    rw [dif_pos hall]
    congr 1
    funext a
    refine Fin.ext ?_
    obtain rfl : a = 0 := Subsingleton.elim _ _
    show ((vecScatter N E wf).start (ix1 e) idx (0 : Fin 1) + ((vecScatter N E wf).window (ix1 e) (0 : Fin 1) : Int)).toNat
      = (idx (ix2 e (0 : Fin 1))).toInt.toNat
    rw [h00, h10]; simp
  · rw [dif_neg hc, Option.map_none]
    unfold ScatterDims.resultIdx?
    rw [dif_neg]
    intro hall
    have := hall (0 : Fin 1)
    rw [h00, h10] at this
    exact hc (by simpa using this)

/-- Update `j` of a scalar scatter goes to element `n` exactly when its index word lands on `n`. -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (n : Fin N) :
    (vecScatter N E wf).resultIdx? j idx = some (ix1 n) ↔ land N (idx (ix2 (j 0) (0 : Fin 1))) = some n := by
  obtain ⟨e, rfl⟩ : ∃ e : Fin E, j = ix1 e := ⟨j 0, eq_ix1 j⟩
  rw [vecScatter_resultIdx wf idx e]
  show Option.map (fun m => ix1 m) (land N (idx (ix2 e (0 : Fin 1)))) = some (ix1 n)
    ↔ land N (idx (ix2 e (0 : Fin 1))) = some n
  constructor
  · intro hh
    obtain ⟨m, hm, hmn⟩ := Option.map_eq_some_iff.mp hh
    have h0 : m = n := congrFun hmn (0 : Fin 1)
    rw [hm, h0]
  · intro hl
    rw [hl]
    rfl

/-- Element `n` of a scalar scatter-add: the operand's element plus the sum, over the updates `e` whose index word
    lands on `n`, of update `e`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = (x (ix1 n) + ∑ e ∈ Finset.univ.filter (fun e : Fin E => land N (idx (ix2 e (0 : Fin 1))) = some n),
          upd (ix1 e) : EReal) := by
  show (x (ix1 n) + ∑ j ∈ Finset.univ.filter
      (fun j => (vecScatter N E wf).resultIdx? j idx = some (ix1 n)), upd j : EReal) = _
  congr 1
  refine Finset.sum_nbij' (fun j => j 0) (fun e => ix1 e) ?_ ?_ ?_ ?_ ?_
  · intro j hj
    exact Finset.mem_filter.mpr ⟨Finset.mem_univ _,
      (vecScatter_resultIdx_eq_some_iff wf idx j n).mp (Finset.mem_filter.mp hj).2⟩
  · intro e he
    have he' : land N (idx (ix2 e (0 : Fin 1))) = some n := (Finset.mem_filter.mp he).2
    exact Finset.mem_filter.mpr ⟨Finset.mem_univ _,
      (vecScatter_resultIdx_eq_some_iff wf idx (ix1 e) n).mpr he'⟩
  · intro j _
    exact (eq_ix1 j).symm
  · intro e _
    rfl
  · intro j _
    exact congrArg upd (eq_ix1 j)

/-! ## The gathers at an element (any element type) -/

/-- Axis 0 of the operand index of a row gather: the row the index word picks. -/
theorem rowGather_operandIdx_zero {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (0 : Fin 2)).val = (pick N hN (idx (ix2 e (0 : Fin 1)))).val := by
  show (rowGather N E C wf).start (ix2 e h) idx (0 : Fin 2) + (rowGather N E C wf).batchCoord (ix2 e h) (0 : Fin 2)
    + (rowGather N E C wf).offCoord (ix2 e h) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e h) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Axis 1 of the operand index of a row gather: the result's column. -/
theorem rowGather_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (1 : Fin 2)).val = h.val := by
  show (rowGather N E C wf).start (ix2 e h) idx (1 : Fin 2) + (rowGather N E C wf).batchCoord (ix2 e h) (1 : Fin 2)
    + (rowGather N E C wf).offCoord (ix2 e h) (1 : Fin 2) = _
  rw [GatherDims.batchCoord_eq_zero _ _ _ List.not_mem_nil]
  have hs : (rowGather N E C wf).start (ix2 e h) idx (1 : Fin 2) = 0 := by
    unfold GatherDims.start
    rw [dif_neg (show ¬ (1 : Fin 2) ∈ ([0] : List (Fin 2)) by decide)]
  rw [hs]
  simp only [Nat.add_zero, Nat.zero_add]
  unfold GatherDims.offCoord
  rw [dif_pos ((GatherDims.mem_sKept _ _).mpr ⟨show ¬ (1 : Fin 2) ∈ ([0] : List (Fin 2)) by decide, List.not_mem_nil⟩)]
  rfl

/-- Row `e`, column `h` of a row gather: the operand at the row the index word picks, column `h`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowGather N E C wf) x idx (ix2 e h) = x (ix2 (pick N hN (idx (ix2 e (0 : Fin 1)))) h) := by
  unfold Host.gather
  congr 1
  funext a
  refine Fin.ext ?_
  match a with
  | ⟨0, _⟩ => exact rowGather_operandIdx_zero hN wf idx e h
  | ⟨1, _⟩ => exact rowGather_operandIdx_one wf idx e h

/-- Element `e` of a vector gather: the operand at the element the index word picks. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (pick N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowIndex

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.RefEdgeSum.lean ====
/-
  The edges whose target word lands on a node. With the 1024·1024 ordered pairs numbered first and the self loops
  after them, the edges into node `d` are the pairs `(s, d)`, one for each node `s`, and the loop of `d`; a sum
  over the edges landing on `d` is therefore a sum over the nodes `s` plus the loop's term.
-/
import proofs.«154241_g14164802142580_cont_sun_m_321_17_alg».proof.Proof.Spec
import proofs.«154241_g14164802142580_cont_sun_m_321_17_alg».proof.Proof.EdgeIdx
import proofs.«154241_g14164802142580_cont_sun_m_321_17_alg».proof.Proof.LibRowIndex

noncomputable section

open scoped BigOperators

namespace Cert.ReferenceIdeal.RefMath

open Cert.Gcn Cert.Lib.RowIndex

/-- A word holding a number below 2^31 reads, signed, as that number. -/
theorem rn_toInt_ofNat (n : Nat) (hn : n < 2147483648) : (BitVec.ofNat 32 n).toInt = (n : Int) := by
  rw [BitVec.toInt_eq_toNat_cond, BitVec.toNat_ofNat]
  split <;> omega

/-- The word of a node lands on that node. -/
theorem rn_land_ofNat (n : Fin 1024) : land 1024 (BitVec.ofNat 32 n.val) = some n := by
  have h := rn_toInt_ofNat n.val (by have := n.isLt; omega)
  unfold land
  have hn := n.isLt
  rw [dif_pos (by rw [h]; constructor <;> omega)]
  congr 1
  refine Fin.ext ?_
  show (BitVec.ofNat 32 n.val).toInt.toNat = n.val
  rw [h]; rfl

/-- The word of a node picks that node. -/
theorem rn_pick_ofNat (n : Fin 1024) (hN : 0 < 1024) : pick 1024 hN (BitVec.ofNat 32 n.val) = n :=
  pick_of_land hN _ n (rn_land_ofNat n)

/-- The word of node `n` lands on `d` exactly when `n = d`. -/
theorem rn_land_ofNat_eq_iff (n d : Fin 1024) : land 1024 (BitVec.ofNat 32 n.val) = some d ↔ n = d := by
  rw [rn_land_ofNat]
  exact ⟨fun h => Option.some.inj h, fun h => by rw [h]⟩

/-- Every edge is a pair or a loop. -/
theorem rn_edge_cases (e : Fin 1049600) :
    (∃ s d : Fin 1024, e = edgeIdx s d) ∨ (∃ n : Fin 1024, e = loopIdx n) := by
  have he := e.isLt
  by_cases h : e.val < 1048576
  · left
    refine ⟨⟨e.val / 1024, by omega⟩, ⟨e.val % 1024, by omega⟩, Fin.ext ?_⟩
    show e.val = e.val / 1024 * 1024 + e.val % 1024
    omega
  · right
    refine ⟨⟨e.val - 1048576, by omega⟩, Fin.ext ?_⟩
    show e.val = 1048576 + (e.val - 1048576)
    omega

/-- A sum over the edges whose word lands on node `d`, when the word of pair `(s, d')` is `d'` and the word of
    the loop of `n` is `n`: the terms of the pairs `(s, d)` and the term of the loop of `d`. -/
theorem edge_sum_land {M : Type*} [AddCommMonoid M] (word : Fin 1049600 → BitVec 32) (f : Fin 1049600 → M)
    (d : Fin 1024)
    (hpair : ∀ s d' : Fin 1024, word (edgeIdx s d') = BitVec.ofNat 32 d'.val)
    (hloop : ∀ n : Fin 1024, word (loopIdx n) = BitVec.ofNat 32 n.val)
    [DecidablePred (fun e : Fin 1049600 => land 1024 (word e) = some d)] :
    ∑ e ∈ Finset.univ.filter (fun e : Fin 1049600 => land 1024 (word e) = some d), f e
      = ∑ s : Fin 1024, f (edgeIdx s d) + f (loopIdx d) := by
  have hR : ∑ s : Fin 1024, f (edgeIdx s d) + f (loopIdx d)
      = ∑ o : Option (Fin 1024), (fun o : Option (Fin 1024) => f (o.elim (loopIdx d) (fun s => edgeIdx s d))) o := by
    rw [Fintype.sum_option, add_comm]
    rfl
  rw [hR]
  refine Finset.sum_nbij'
    (fun e : Fin 1049600 => if h : e.val < 1048576 then some (⟨e.val / 1024, by omega⟩ : Fin 1024) else none)
    (fun o : Option (Fin 1024) => o.elim (loopIdx d) (fun s => edgeIdx s d)) ?_ ?_ ?_ ?_ ?_
  · intro e _
    exact Finset.mem_univ _
  · intro o _
    refine Finset.mem_filter.mpr ⟨Finset.mem_univ _, ?_⟩
    cases o with
    | none => show land 1024 (word (loopIdx d)) = some d; rw [hloop]; exact rn_land_ofNat d
    | some s => show land 1024 (word (edgeIdx s d)) = some d; rw [hpair]; exact rn_land_ofNat d
  · intro e he
    have hl : land 1024 (word e) = some d := (Finset.mem_filter.mp he).2
    rcases rn_edge_cases e with ⟨s, d', rfl⟩ | ⟨n, rfl⟩
    · rw [hpair] at hl
      have hd : d' = d := (rn_land_ofNat_eq_iff d' d).mp hl
      subst hd
      have h1 : (edgeIdx s d').val < 1048576 := by
        show s.val * 1024 + d'.val < 1048576
        have := s.isLt; have := d'.isLt; omega
      rw [dif_pos h1]
      show edgeIdx (⟨(edgeIdx s d').val / 1024, _⟩ : Fin 1024) d' = edgeIdx s d'
      congr 1
      refine Fin.ext ?_
      show (s.val * 1024 + d'.val) / 1024 = s.val
      have := d'.isLt; omega
    · rw [hloop] at hl
      have hd : n = d := (rn_land_ofNat_eq_iff n d).mp hl
      subst hd
      have h1 : ¬ (loopIdx n).val < 1048576 := by
        show ¬ (1048576 + n.val < 1048576)
        omega
      rw [dif_neg h1]
      rfl
  · intro o _
    cases o with
    | none =>
      have h1 : ¬ (loopIdx d).val < 1048576 := by
        show ¬ (1048576 + d.val < 1048576)
        omega
      show (if h : (loopIdx d).val < 1048576 then some (⟨(loopIdx d).val / 1024, by omega⟩ : Fin 1024) else none) = none
      rw [dif_neg h1]
    | some s =>
      have h1 : (edgeIdx s d).val < 1048576 := by
        show s.val * 1024 + d.val < 1048576
        have := s.isLt; have := d.isLt; omega
      show (if h : (edgeIdx s d).val < 1048576 then some (⟨(edgeIdx s d).val / 1024, by omega⟩ : Fin 1024) else none) = some s
      rw [dif_pos h1]
      congr 1
      refine Fin.ext ?_
      show (s.val * 1024 + d.val) / 1024 = s.val
      have := d.isLt; omega
  · intro e he
    have hl : land 1024 (word e) = some d := (Finset.mem_filter.mp he).2
    rcases rn_edge_cases e with ⟨s, d', rfl⟩ | ⟨n, rfl⟩
    · rw [hpair] at hl
      have hd : d' = d := (rn_land_ofNat_eq_iff d' d).mp hl
      subst hd
      have h1 : (edgeIdx s d').val < 1048576 := by
        show s.val * 1024 + d'.val < 1048576
        have := s.isLt; have := d'.isLt; omega
      show f (edgeIdx s d') = f ((if h : (edgeIdx s d').val < 1048576 then some (⟨(edgeIdx s d').val / 1024, by omega⟩ : Fin 1024) else none).elim (loopIdx d') (fun s => edgeIdx s d'))
      rw [dif_pos h1]
      show f (edgeIdx s d') = f (edgeIdx (⟨(edgeIdx s d').val / 1024, _⟩ : Fin 1024) d')
      congr 2
      refine Fin.ext ?_
      show s.val = (s.val * 1024 + d'.val) / 1024
      have := d'.isLt; omega
    · rw [hloop] at hl
      have hd : n = d := (rn_land_ofNat_eq_iff n d).mp hl
      subst hd
      have h1 : ¬ (loopIdx n).val < 1048576 := by
        show ¬ (1048576 + n.val < 1048576)
        omega
      show f (loopIdx n) = f ((if h : (loopIdx n).val < 1048576 then some (⟨(loopIdx n).val / 1024, by omega⟩ : Fin 1024) else none).elim (loopIdx n) (fun s => edgeIdx s n))
      rw [dif_neg h1]
      rfl

end Cert.ReferenceIdeal.RefMath

end
-- ==== Proof.RefNormAux.lean ====
/-
  The pieces of the per-edge normalisation, each read at one element over arbitrary arrays: a row of the edge list,
  the two-piece concatenations at a pair and at a loop, the index normalisation of a small word, the degree as a sum
  over the incoming edges, and the inverse square root of a degree that is at least one.
-/
import proofs.«154241_g14164802142580_cont_sun_m_321_17_alg».proof.Proof.Spec
import proofs.«154241_g14164802142580_cont_sun_m_321_17_alg».proof.Proof.EdgeIdx
import proofs.«154241_g14164802142580_cont_sun_m_321_17_alg».proof.Proof.LibRowIndex
import proofs.«154241_g14164802142580_cont_sun_m_321_17_alg».proof.Proof.RefEdgeSum
import Idealize.ShloMosaic.PureOps.Ideal.Laws
import Idealize.ShloMosaic.Lib.ValueIdx
import Idealize.ShloMosaic.Lib.Pipeline.Value
import Idealize.ShloMosaic.Lib.IdealHost
import Idealize.ShloMosaic.Lib.Affine

noncomputable section

open scoped BigOperators

namespace Cert.ReferenceIdeal.RefMath

open Cert.Gcn Cert.Lib.RowIndex Idealize.ShloMosaic Idealize.ShloMosaic.ValueIdx

/-! ## Index plumbing -/

/-- Row `k` of a two-row array, sliced out and flattened, reads the array at `(k, p)`. -/
theorem rn_row_apply {α : Type} (k : Fin 2) (off : Fin 2 → Nat) (hoff0 : off 0 = k.val) (hoff1 : off 1 = 0)
    (x : (⟨2, ![2, 1048576]⟩ : Shape).Idx → α)
    (h1 : (⟨2, ![2, 1048576]⟩ : Shape).Slices off ⟨2, ![1, 1048576]⟩)
    (h2 : (⟨2, ![1, 1048576]⟩ : Shape).ShapeCasts ⟨1, ![1048576]⟩) (p : Fin 1048576) :
    shapeCast ⟨1, ![1048576]⟩ (extractStridedSlice ⟨2, ![1, 1048576]⟩ off x h1) h2 (ix1 p) = x (ix2 k p) := by
  refine (shapeCast_dropUnit_apply ![1048576] _ h2 (ix1 p)).trans ?_
  refine extractStridedSlice_apply off x h1 _ (ix2 k p) ?_
  intro a
  match a with
  | ⟨0, _⟩ => show k.val = off 0 + 0; omega
  | ⟨1, _⟩ => show p.val = off 1 + p.val; omega

/-- The pairs-then-loops concatenation at a pair reads the first piece at the pair. -/
theorem rn_cat_pair {α : Type} (x₁ : (⟨1, ![1048576]⟩ : Shape).Idx → α) (x₂ : (⟨1, ![1024]⟩ : Shape).Idx → α)
    (h : Shape.Concatenates [(⟨1, ![1048576]⟩ : Shape), ⟨1, ![1024]⟩] ⟨1, ![1049600]⟩ 0) (s d : Fin 1024) :
    concatenate ⟨1, ![1049600]⟩ 0 [⟨⟨1, ![1048576]⟩, x₁⟩, ⟨⟨1, ![1024]⟩, x₂⟩] h (ix1 (edgeIdx s d)) = x₁ (ix1 (pairIdx s d)) := by
  refine concatenate_pair_apply_left (0 : Fin 1) x₁ x₂ h (ix1 (edgeIdx s d)) rfl (ix1 (pairIdx s d)) ?_
  intro b
  match b with
  | ⟨0, _⟩ => rfl

/-- The pairs-then-loops concatenation at a loop reads the second piece at the loop's node. -/
theorem rn_cat_loop {α : Type} (x₁ : (⟨1, ![1048576]⟩ : Shape).Idx → α) (x₂ : (⟨1, ![1024]⟩ : Shape).Idx → α)
    (h : Shape.Concatenates [(⟨1, ![1048576]⟩ : Shape), ⟨1, ![1024]⟩] ⟨1, ![1049600]⟩ 0) (n : Fin 1024) :
    concatenate ⟨1, ![1049600]⟩ 0 [⟨⟨1, ![1048576]⟩, x₁⟩, ⟨⟨1, ![1024]⟩, x₂⟩] h (ix1 (loopIdx n)) = x₂ (ix1 n) := by
  refine concatenate_pair_apply_right (0 : Fin 1) x₁ x₂ h (ix1 (loopIdx n)) rfl rfl (ix1 n) ?_ ?_
  · intro b hb
    match b with
    | ⟨0, _⟩ => exact absurd rfl hb
  · show n.val + 1048576 = 1048576 + n.val
    omega

/-- A word below 2^31 is not negative: jnp's index normalisation keeps it. -/
theorem rn_normalise_word (k : Nat) (hk : k < 2147483648) (c : BitVec 32) :
    Scalar.select (IntOp.cmpi .slt (BitVec.ofNat 32 k) 0#32) c (BitVec.ofNat 32 k) = BitVec.ofNat 32 k := by
  have h0 : ¬ IntOp.cmpi .slt (BitVec.ofNat 32 k) 0#32 = 1#1 := by
    rw [IntOp.cmpi_slt, rn_toInt_ofNat k hk]
    show ¬ ((k : Int) < 0)
    omega
  rw [eq_zero_of_ne_one h0, select_zero]

/-- The index normalisation of an array, read where the array holds a small word. -/
theorem rn_normalise_apply (v : IVec ⟨1, ![1049600]⟩ 32) (hb : (⟨0, ![]⟩ : Shape).BroadcastsInDim ⟨1, ![1049600]⟩ ![])
    (e : Fin 1049600) (k : Nat) (hk : k < 2147483648) (hv : v (ix1 e) = BitVec.ofNat 32 k) :
    select (cmpi .slt v (broadcastInDim ⟨1, ![1049600]⟩ ![] hb (constantI ⟨0, ![]⟩ 32 0#32)))
      (addi v (broadcastInDim ⟨1, ![1049600]⟩ ![] hb (constantI ⟨0, ![]⟩ 32 1024#32))) v (ix1 e) = BitVec.ofNat 32 k := by
  show Scalar.select (IntOp.cmpi .slt (v (ix1 e)) 0#32) (IntOp.addi (v (ix1 e)) 1024#32) (v (ix1 e)) = BitVec.ofNat 32 k
  rw [hv]
  exact rn_normalise_word k hk _

/-- An index array as a one-column matrix reads the array. -/
theorem rn_column_apply {α : Type} (v : (⟨1, ![1049600]⟩ : Shape).Idx → α)
    (hb : (⟨1, ![1049600]⟩ : Shape).BroadcastsInDim ⟨2, ![1049600, 1]⟩ ![0]) (e : Fin 1049600) :
    broadcastInDim ⟨2, ![1049600, 1]⟩ ![0] hb v (ix2 e (0 : Fin 1)) = v (ix1 e) := by
  refine broadcastInDim_apply ![0] hb v (ix2 e (0 : Fin 1)) (ix1 e) ?_
  intro a
  match a with
  | ⟨0, _⟩ =>
    show e.val = if (1049600 : Nat) = 1 then 0 else e.val
    rw [if_neg (by omega)]

/-! ## The degree and its inverse square root, as real numbers -/

/-- The extended real of a finite sum of reals is the sum of the extended reals. -/
theorem rn_coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With entries 0 or 1, the adjacency with self loops is the edge weight plus the loop. -/
theorem rn_adj_eq (r : Fin 1024 → Fin 1024 → ℝ) (hr : ∀ s d, r s d = 0 ∨ r s d = 1) (s d : Fin 1024) :
    adj r s d = ew r s d + (if s = d then 1 else 0) := by
  unfold adj ew
  by_cases hsd : s = d
  · simp [hsd]
  · rcases hr s d with h | h <;> simp [hsd, h]

/-- The in-degree is the sum of the weights of the pairs into the node plus the loop's weight 1. -/
theorem rn_deg_eq (r : Fin 1024 → Fin 1024 → ℝ) (hr : ∀ s d, r s d = 0 ∨ r s d = 1) (d : Fin 1024) :
    deg r d = ∑ s, ew r s d + 1 := by
  unfold deg
  rw [Finset.sum_congr rfl (fun s _ => rn_adj_eq r hr s d), Finset.sum_add_distrib, Finset.sum_ite_eq']
  simp

/-- An edge weight is not negative. -/
theorem rn_ew_nonneg (r : Fin 1024 → Fin 1024 → ℝ) (s d : Fin 1024) : 0 ≤ ew r s d := by
  unfold ew
  split <;> norm_num

/-- The in-degree is at least one (the loop). -/
theorem rn_one_le_deg (r : Fin 1024 → Fin 1024 → ℝ) (hr : ∀ s d, r s d = 0 ∨ r s d = 1) (d : Fin 1024) :
    1 ≤ deg r d := by
  rw [rn_deg_eq r hr d]
  have : 0 ≤ ∑ s, ew r s d := Finset.sum_nonneg (fun s _ => rn_ew_nonneg r s d)
  linarith

/-- The guarded inverse square root of a real at least one: the guard holds and the quotient is the inverse. -/
theorem rn_dis_word (x : ℝ) (hx : 1 ≤ x) :
    Scalar.select (Ideal.cmp .ogt (x : EReal) 0) (Ideal.div 1 (Ideal.sqrt (x : EReal))) (0 : EReal)
      = (((Real.sqrt x)⁻¹ : ℝ) : EReal) := by
  have hx0 : (0 : ℝ) < x := by linarith
  have hpos : (0 : EReal) < (x : EReal) := by exact_mod_cast hx0
  have hc : Ideal.cmp .ogt (x : EReal) 0 = 1#1 := by
    show BitVec.ofBool (decide ((0 : EReal) < (x : EReal))) = 1#1
    rw [decide_eq_true hpos]; rfl
  rw [hc, select_one, Ideal.sqrt_coe, if_neg (by linarith), Ideal.div_coe (ne_of_gt (Real.sqrt_pos.mpr hx0)), one_mul, one_div]

/-! ## The stretch's blocks as functions of arbitrary arrays -/

/-- The end nodes of the edges: a row of the edge list, then the nodes themselves for the loops. -/
def rn_idxOf (off : Fin 2 → Nat) (h1 : (⟨2, ![2, 1048576]⟩ : Shape).Slices off ⟨2, ![1, 1048576]⟩)
    (h2 : (⟨2, ![1, 1048576]⟩ : Shape).ShapeCasts ⟨1, ![1048576]⟩)
    (hc : Shape.Concatenates [(⟨1, ![1048576]⟩ : Shape), ⟨1, ![1024]⟩] ⟨1, ![1049600]⟩ 0)
    (ei : IVec ⟨2, ![2, 1048576]⟩ 32) : IVec ⟨1, ![1049600]⟩ 32 :=
  concatenate ⟨1, ![1049600]⟩ 0
    [⟨⟨1, ![1048576]⟩, shapeCast ⟨1, ![1048576]⟩ (extractStridedSlice ⟨2, ![1, 1048576]⟩ off ei h1) h2⟩,
     ⟨⟨1, ![1024]⟩, iotaInDim ⟨1, ![1024]⟩ 32 0⟩] hc

theorem rn_idxOf_pair (k : Fin 2) (off : Fin 2 → Nat) (hoff0 : off 0 = k.val) (hoff1 : off 1 = 0)
    (h1 : (⟨2, ![2, 1048576]⟩ : Shape).Slices off ⟨2, ![1, 1048576]⟩)
    (h2 : (⟨2, ![1, 1048576]⟩ : Shape).ShapeCasts ⟨1, ![1048576]⟩)
    (hc : Shape.Concatenates [(⟨1, ![1048576]⟩ : Shape), ⟨1, ![1024]⟩] ⟨1, ![1049600]⟩ 0)
    (ei : IVec ⟨2, ![2, 1048576]⟩ 32) (s d : Fin 1024) :
    rn_idxOf off h1 h2 hc ei (ix1 (edgeIdx s d)) = ei (ix2 k (pairIdx s d)) :=
  (rn_cat_pair _ _ hc s d).trans (rn_row_apply k off hoff0 hoff1 ei h1 h2 (pairIdx s d))

theorem rn_idxOf_loop (off : Fin 2 → Nat)
    (h1 : (⟨2, ![2, 1048576]⟩ : Shape).Slices off ⟨2, ![1, 1048576]⟩)
    (h2 : (⟨2, ![1, 1048576]⟩ : Shape).ShapeCasts ⟨1, ![1048576]⟩)
    (hc : Shape.Concatenates [(⟨1, ![1048576]⟩ : Shape), ⟨1, ![1024]⟩] ⟨1, ![1049600]⟩ 0)
    (ei : IVec ⟨2, ![2, 1048576]⟩ 32) (n : Fin 1024) :
    rn_idxOf off h1 h2 hc ei (ix1 (loopIdx n)) = BitVec.ofNat 32 n.val :=
  (rn_cat_loop _ _ hc n).trans rfl

/-- The weights of the edges: the pairs' weights, then 1 for each loop. -/
def rn_ewOf (hbN : (⟨0, ![]⟩ : Shape).BroadcastsInDim ⟨1, ![1024]⟩ ![])
    (hc : Shape.Concatenates [(⟨1, ![1048576]⟩ : Shape), ⟨1, ![1024]⟩] ⟨1, ![1049600]⟩ 0)
    (w : FVec Ideal ⟨1, ![1048576]⟩ .f32) : FVec Ideal ⟨1, ![1049600]⟩ .f32 :=
  concatenate ⟨1, ![1049600]⟩ 0
    [⟨⟨1, ![1048576]⟩, w⟩,
     ⟨⟨1, ![1024]⟩, broadcastInDim ⟨1, ![1024]⟩ ![] hbN (constant (F := Ideal) ⟨0, ![]⟩ .f32 0x3F800000#32)⟩] hc

theorem rn_ewOf_pair (hbN : (⟨0, ![]⟩ : Shape).BroadcastsInDim ⟨1, ![1024]⟩ ![])
    (hc : Shape.Concatenates [(⟨1, ![1048576]⟩ : Shape), ⟨1, ![1024]⟩] ⟨1, ![1049600]⟩ 0)
    (w : FVec Ideal ⟨1, ![1048576]⟩ .f32) (s d : Fin 1024) :
    rn_ewOf hbN hc w (ix1 (edgeIdx s d)) = w (ix1 (pairIdx s d)) :=
  rn_cat_pair _ _ hc s d

theorem rn_ewOf_loop (hbN : (⟨0, ![]⟩ : Shape).BroadcastsInDim ⟨1, ![1024]⟩ ![])
    (hc : Shape.Concatenates [(⟨1, ![1048576]⟩ : Shape), ⟨1, ![1024]⟩] ⟨1, ![1049600]⟩ 0)
    (w : FVec Ideal ⟨1, ![1048576]⟩ .f32) (n : Fin 1024) :
    rn_ewOf hbN hc w (ix1 (loopIdx n)) = (1 : EReal) :=
  (rn_cat_loop _ _ hc n).trans Ideal.ofBits_one_f32

/-- jnp's index normalisation of an edge-indexed array of words, as a one-column matrix. -/
def rn_normIdx (hb0 : (⟨0, ![]⟩ : Shape).BroadcastsInDim ⟨1, ![1049600]⟩ ![])
    (hcol : (⟨1, ![1049600]⟩ : Shape).BroadcastsInDim ⟨2, ![1049600, 1]⟩ ![0]) (v : IVec ⟨1, ![1049600]⟩ 32) :
    IVec ⟨2, ![1049600, 1]⟩ 32 :=
  broadcastInDim ⟨2, ![1049600, 1]⟩ ![0] hcol
    (select (cmpi .slt v (broadcastInDim ⟨1, ![1049600]⟩ ![] hb0 (constantI ⟨0, ![]⟩ 32 0#32)))
      (addi v (broadcastInDim ⟨1, ![1049600]⟩ ![] hb0 (constantI ⟨0, ![]⟩ 32 1024#32))) v)

theorem rn_normIdx_apply (hb0 : (⟨0, ![]⟩ : Shape).BroadcastsInDim ⟨1, ![1049600]⟩ ![])
    (hcol : (⟨1, ![1049600]⟩ : Shape).BroadcastsInDim ⟨2, ![1049600, 1]⟩ ![0]) (v : IVec ⟨1, ![1049600]⟩ 32)
    (e : Fin 1049600) (k : Nat) (hk : k < 2147483648) (hv : v (ix1 e) = BitVec.ofNat 32 k) :
    rn_normIdx hb0 hcol v (ix2 e (0 : Fin 1)) = BitVec.ofNat 32 k :=
  (rn_column_apply _ hcol e).trans (rn_normalise_apply v hb0 e k hk hv)

/-- The degrees: zeros, plus each edge's weight added at the edge's target. -/
def rn_degOf (hbN : (⟨0, ![]⟩ : Shape).BroadcastsInDim ⟨1, ![1024]⟩ ![])
    (hb0 : (⟨0, ![]⟩ : Shape).BroadcastsInDim ⟨1, ![1049600]⟩ ![])
    (hcol : (⟨1, ![1049600]⟩ : Shape).BroadcastsInDim ⟨2, ![1049600, 1]⟩ ![0])
    (wfS : ScatterDims.WF ⟨1, ![1024]⟩ ⟨2, ![1049600, 1]⟩ ⟨1, ![1049600]⟩ [] [0] [0] 1)
    (v22 : IVec ⟨1, ![1049600]⟩ 32) (v24 : FVec Ideal ⟨1, ![1049600]⟩ .f32) : FVec Ideal ⟨1, ![1024]⟩ .f32 :=
  Host.scatterAdd (vecScatter 1024 1049600 wfS)
    (broadcastInDim ⟨1, ![1024]⟩ ![] hbN (constant (F := Ideal) ⟨0, ![]⟩ .f32 0x00000000#32))
    (rn_normIdx hb0 hcol v22) v24

/-- The zeros the degrees are added to. -/
theorem rn_zero_apply (hbN : (⟨0, ![]⟩ : Shape).BroadcastsInDim ⟨1, ![1024]⟩ ![]) (d : Fin 1024) :
    broadcastInDim ⟨1, ![1024]⟩ ![] hbN (constant (F := Ideal) ⟨0, ![]⟩ .f32 0x00000000#32) (ix1 d) = (0 : EReal) :=
  Ideal.ofBits_zero_f32

/-- A scalar scatter-add over the edges, at node `d`, when the index word of pair `(s, d')` is `d'` and that of the
    loop of `n` is `n`: the operand plus the updates of the pairs `(s, d)` plus the update of the loop of `d`. -/
theorem rn_scatter_edges (wfS : ScatterDims.WF ⟨1, ![1024]⟩ ⟨2, ![1049600, 1]⟩ ⟨1, ![1049600]⟩ [] [0] [0] 1)
    (x : FVec Ideal ⟨1, ![1024]⟩ .f32) (idx : IVec ⟨2, ![1049600, 1]⟩ 32) (upd : FVec Ideal ⟨1, ![1049600]⟩ .f32)
    (d : Fin 1024)
    (hpair : ∀ s d' : Fin 1024, idx (ix2 (edgeIdx s d') (0 : Fin 1)) = BitVec.ofNat 32 d'.val)
    (hloop : ∀ n : Fin 1024, idx (ix2 (loopIdx n) (0 : Fin 1)) = BitVec.ofNat 32 n.val) :
    Host.scatterAdd (vecScatter 1024 1049600 wfS) x idx upd (ix1 d)
      = (x (ix1 d) + (∑ s : Fin 1024, upd (ix1 (edgeIdx s d)) + upd (ix1 (loopIdx d))) : EReal) := by
  refine (scatterAdd_vec_apply wfS x idx upd d).trans ?_
  exact congrArg (fun z : EReal => x (ix1 d) + z)
    (edge_sum_land (M := EReal) (fun e : Fin 1049600 => idx (ix2 e (0 : Fin 1))) (fun e : Fin 1049600 => upd (ix1 e)) d
      hpair hloop)

theorem rn_degOf_apply (hbN : (⟨0, ![]⟩ : Shape).BroadcastsInDim ⟨1, ![1024]⟩ ![])
    (hb0 : (⟨0, ![]⟩ : Shape).BroadcastsInDim ⟨1, ![1049600]⟩ ![])
    (hcol : (⟨1, ![1049600]⟩ : Shape).BroadcastsInDim ⟨2, ![1049600, 1]⟩ ![0])
    (wfS : ScatterDims.WF ⟨1, ![1024]⟩ ⟨2, ![1049600, 1]⟩ ⟨1, ![1049600]⟩ [] [0] [0] 1)
    (v22 : IVec ⟨1, ![1049600]⟩ 32) (v24 : FVec Ideal ⟨1, ![1049600]⟩ .f32)
    (r : Fin 1024 → Fin 1024 → ℝ) (hr : ∀ s d, r s d = 0 ∨ r s d = 1)
    (h22p : ∀ s d : Fin 1024, v22 (ix1 (edgeIdx s d)) = BitVec.ofNat 32 d.val)
    (h22l : ∀ n : Fin 1024, v22 (ix1 (loopIdx n)) = BitVec.ofNat 32 n.val)
    (h24p : ∀ s d : Fin 1024, v24 (ix1 (edgeIdx s d)) = ((ew r s d : ℝ) : EReal))
    (h24l : ∀ n : Fin 1024, v24 (ix1 (loopIdx n)) = (1 : EReal)) (d : Fin 1024) :
    rn_degOf hbN hb0 hcol wfS v22 v24 (ix1 d) = ((deg r d : ℝ) : EReal) := by
  have hpair : ∀ s d' : Fin 1024, rn_normIdx hb0 hcol v22 (ix2 (edgeIdx s d') (0 : Fin 1)) = BitVec.ofNat 32 d'.val :=
    fun s d' => rn_normIdx_apply hb0 hcol v22 (edgeIdx s d') d'.val (by have := d'.isLt; omega) (h22p s d')
  have hloop : ∀ n : Fin 1024, rn_normIdx hb0 hcol v22 (ix2 (loopIdx n) (0 : Fin 1)) = BitVec.ofNat 32 n.val :=
    fun n => rn_normIdx_apply hb0 hcol v22 (loopIdx n) n.val (by have := n.isLt; omega) (h22l n)
  unfold rn_degOf
  rw [rn_scatter_edges wfS _ _ v24 d hpair hloop, rn_zero_apply hbN d, zero_add, h24l d,
    Finset.sum_congr rfl (fun s _ => h24p s d), ← rn_coe_sum, rn_deg_eq r hr d, EReal.coe_add, EReal.coe_one]

/-- The inverse square roots of the degrees, guarded against a zero degree. -/
def rn_disOf (hbN : (⟨0, ![]⟩ : Shape).BroadcastsInDim ⟨1, ![1024]⟩ ![]) (dg : FVec Ideal ⟨1, ![1024]⟩ .f32) :
    FVec Ideal ⟨1, ![1024]⟩ .f32 :=
  select (cmpf .ogt dg (broadcastInDim ⟨1, ![1024]⟩ ![] hbN (constant (F := Ideal) ⟨0, ![]⟩ .f32 0x00000000#32)))
    (Host.divf (broadcastInDim ⟨1, ![1024]⟩ ![] hbN (constant (F := Ideal) ⟨0, ![]⟩ .f32 0x3F800000#32)) (Host.sqrt dg))
    (broadcastInDim ⟨1, ![1024]⟩ ![] hbN (constant (F := Ideal) ⟨0, ![]⟩ .f32 0x00000000#32))

theorem rn_disOf_apply (hbN : (⟨0, ![]⟩ : Shape).BroadcastsInDim ⟨1, ![1024]⟩ ![]) (dg : FVec Ideal ⟨1, ![1024]⟩ .f32)
    (d : Fin 1024) (x : ℝ) (hx : 1 ≤ x) (h : dg (ix1 d) = (x : EReal)) :
    rn_disOf hbN dg (ix1 d) = (((Real.sqrt x)⁻¹ : ℝ) : EReal) := by
  show Scalar.select (Ideal.cmp .ogt (dg (ix1 d)) (Ideal.ofBits .f32 0x00000000#32))
    (Ideal.div (Ideal.ofBits .f32 0x3F800000#32) (Ideal.sqrt (dg (ix1 d)))) (Ideal.ofBits .f32 0x00000000#32) = _
  rw [h, Ideal.ofBits_zero_f32, Ideal.ofBits_one_f32]
  exact rn_dis_word x hx

/-- The per-edge normalisation from the end nodes and the weights on. -/
def rn_normOf (hbN : (⟨0, ![]⟩ : Shape).BroadcastsInDim ⟨1, ![1024]⟩ ![])
    (hb0 : (⟨0, ![]⟩ : Shape).BroadcastsInDim ⟨1, ![1049600]⟩ ![])
    (hcol : (⟨1, ![1049600]⟩ : Shape).BroadcastsInDim ⟨2, ![1049600, 1]⟩ ![0])
    (wfS : ScatterDims.WF ⟨1, ![1024]⟩ ⟨2, ![1049600, 1]⟩ ⟨1, ![1049600]⟩ [] [0] [0] 1)
    (wfG : GatherDims.WF ⟨1, ![1024]⟩ ⟨2, ![1049600, 1]⟩ ⟨1, ![1049600]⟩ [] [0] [] [0] [] 1 ![1])
    (v21 v22 : IVec ⟨1, ![1049600]⟩ 32) (v24 : FVec Ideal ⟨1, ![1049600]⟩ .f32) : FVec Ideal ⟨1, ![1049600]⟩ .f32 :=
  mulf
    (mulf
      (Host.gather (vecGather 1024 1049600 wfG) (rn_disOf hbN (rn_degOf hbN hb0 hcol wfS v22 v24)) (rn_normIdx hb0 hcol v21))
      (Host.gather (vecGather 1024 1049600 wfG) (rn_disOf hbN (rn_degOf hbN hb0 hcol wfS v22 v24)) (rn_normIdx hb0 hcol v22)))
    v24

theorem rn_normOf_apply (hbN : (⟨0, ![]⟩ : Shape).BroadcastsInDim ⟨1, ![1024]⟩ ![])
    (hb0 : (⟨0, ![]⟩ : Shape).BroadcastsInDim ⟨1, ![1049600]⟩ ![])
    (hcol : (⟨1, ![1049600]⟩ : Shape).BroadcastsInDim ⟨2, ![1049600, 1]⟩ ![0])
    (wfS : ScatterDims.WF ⟨1, ![1024]⟩ ⟨2, ![1049600, 1]⟩ ⟨1, ![1049600]⟩ [] [0] [0] 1)
    (wfG : GatherDims.WF ⟨1, ![1024]⟩ ⟨2, ![1049600, 1]⟩ ⟨1, ![1049600]⟩ [] [0] [] [0] [] 1 ![1])
    (v21 v22 : IVec ⟨1, ![1049600]⟩ 32) (v24 : FVec Ideal ⟨1, ![1049600]⟩ .f32)
    (r : Fin 1024 → Fin 1024 → ℝ) (hr : ∀ s d, r s d = 0 ∨ r s d = 1)
    (h21p : ∀ s d : Fin 1024, v21 (ix1 (edgeIdx s d)) = BitVec.ofNat 32 s.val)
    (h21l : ∀ n : Fin 1024, v21 (ix1 (loopIdx n)) = BitVec.ofNat 32 n.val)
    (h22p : ∀ s d : Fin 1024, v22 (ix1 (edgeIdx s d)) = BitVec.ofNat 32 d.val)
    (h22l : ∀ n : Fin 1024, v22 (ix1 (loopIdx n)) = BitVec.ofNat 32 n.val)
    (h24p : ∀ s d : Fin 1024, v24 (ix1 (edgeIdx s d)) = ((ew r s d : ℝ) : EReal))
    (h24l : ∀ n : Fin 1024, v24 (ix1 (loopIdx n)) = (1 : EReal)) :
    (∀ s d : Fin 1024, rn_normOf hbN hb0 hcol wfS wfG v21 v22 v24 (ix1 (edgeIdx s d))
        = ((dis r s * dis r d * ew r s d : ℝ) : EReal))
      ∧ (∀ n : Fin 1024, rn_normOf hbN hb0 hcol wfS wfG v21 v22 v24 (ix1 (loopIdx n))
        = ((dis r n * dis r n * 1 : ℝ) : EReal)) := by
  have hdis : ∀ d : Fin 1024, rn_disOf hbN (rn_degOf hbN hb0 hcol wfS v22 v24) (ix1 d)
      = (((Real.sqrt (deg r d))⁻¹ : ℝ) : EReal) :=
    fun d => rn_disOf_apply hbN _ d (deg r d) (rn_one_le_deg r hr d)
      (rn_degOf_apply hbN hb0 hcol wfS v22 v24 r hr h22p h22l h24p h24l d)
  have hg : ∀ (v : IVec ⟨1, ![1049600]⟩ 32) (e : Fin 1049600) (n : Fin 1024), v (ix1 e) = BitVec.ofNat 32 n.val →
      Host.gather (vecGather 1024 1049600 wfG) (rn_disOf hbN (rn_degOf hbN hb0 hcol wfS v22 v24)) (rn_normIdx hb0 hcol v) (ix1 e)
        = (((Real.sqrt (deg r n))⁻¹ : ℝ) : EReal) := by
    intro v e n hv
    refine (gather_vec_apply (by norm_num : 0 < 1024) wfG _ _ e).trans ?_
    rw [rn_normIdx_apply hb0 hcol v e n.val (by have := n.isLt; omega) hv, rn_pick_ofNat]
    exact hdis n
  constructor
  · intro s d
    unfold rn_normOf dis
    rw [mulf_apply, mulf_apply, hg v21 _ s (h21p s d), hg v22 _ d (h22p s d), h24p s d, ← EReal.coe_mul, ← EReal.coe_mul]
  · intro n
    unfold rn_normOf dis
    rw [mulf_apply, mulf_apply, hg v21 _ n (h21l n), hg v22 _ n (h22l n), h24l n, ← EReal.coe_mul, ← EReal.coe_one,
      ← EReal.coe_mul]

end Cert.ReferenceIdeal.RefMath

end
-- ==== Proof.RefNorm.lean ====
/-
  The per-edge normalisation of a layer. With the self loops appended, the degree of node `d` is the sum of the
  weights of the edges into `d`, which is `Gcn.deg r d`; the factor of an edge is the inverse square roots of the
  degrees of its two ends times its weight.
-/
import proofs.«154241_g14164802142580_cont_sun_m_321_17_alg».proof.Proof.RefDefs
import proofs.«154241_g14164802142580_cont_sun_m_321_17_alg».proof.Proof.Spec
import proofs.«154241_g14164802142580_cont_sun_m_321_17_alg».proof.Proof.EdgeIdx
import proofs.«154241_g14164802142580_cont_sun_m_321_17_alg».proof.Proof.LibRowIndex
import proofs.«154241_g14164802142580_cont_sun_m_321_17_alg».proof.Proof.LibCat
import proofs.«154241_g14164802142580_cont_sun_m_321_17_alg».proof.Proof.RefNormAux
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefMath

open Cert.ReferenceIdeal Cert.ReferenceIdeal.RefDefs Cert.Gcn Idealize.ShloMosaic Idealize.ShloMosaic.ValueIdx

/-- The normalisation of pair `(s, d)` is `dis s · dis d · ew s d`, and of the self loop of `n` is `dis n · dis n · 1`. -/
theorem normFn_apply (ei : IVec S2x1048576 32) (w : FVec Ideal S1048576 .f32) (r : Fin 1024 → Fin 1024 → ℝ)
    (hr : ∀ s d, r s d = 0 ∨ r s d = 1)
    (hsrc : ∀ s d : Fin 1024, ei (ix2 (0 : Fin 2) (pairIdx s d)) = BitVec.ofNat 32 s.val)
    (hdst : ∀ s d : Fin 1024, ei (ix2 (1 : Fin 2) (pairIdx s d)) = BitVec.ofNat 32 d.val)
    (hw : ∀ s d : Fin 1024, w (ix1 (pairIdx s d)) = ((Cert.Gcn.ew r s d : ℝ) : EReal)) :
    (∀ s d : Fin 1024, normFn (F := Ideal) ei w (ix1 (edgeIdx s d))
        = ((Cert.Gcn.dis r s * Cert.Gcn.dis r d * Cert.Gcn.ew r s d : ℝ) : EReal))
      ∧ (∀ n : Fin 1024, normFn (F := Ideal) ei w (ix1 (loopIdx n))
        = ((Cert.Gcn.dis r n * Cert.Gcn.dis r n * 1 : ℝ) : EReal)) := by
  -- the stretch is the composition of its blocks: the end nodes and the weights of the edges, then the degrees,
  -- their inverse square roots, and the product of the two gathered factors with the weight
  have e : normFn (F := Ideal) ei w
      = rn_normOf Gen.bcast_S_S1024 Gen.bcast_S_S1049600 Gen.bcast_S1049600_S1049600x1_0
          Gen.scatter_S1024_S1049600x1_S1049600_n_0_0_1_wf Gen.gather_S1024_S1049600x1_S1049600_n_0_n_n_0_1_1_wf
          (rn_idxOf ![0, 0] Gen.slices_S2x1048576_S1x1048576_0_0 Gen.shapeCasts_S1x1048576_S1048576
            Gen.concatenates_S1048576_S1024_S1049600_d0 ei)
          (rn_idxOf ![1, 0] Gen.slices_S2x1048576_S1x1048576_1_0 Gen.shapeCasts_S1x1048576_S1048576
            Gen.concatenates_S1048576_S1024_S1049600_d0 ei)
          (rn_ewOf Gen.bcast_S_S1024 Gen.concatenates_S1048576_S1024_S1049600_d0 w) := rfl
  rw [e]
  exact rn_normOf_apply _ _ _ _ _ _ _ _ r hr
    (fun s d => (rn_idxOf_pair 0 ![0, 0] rfl rfl _ _ _ ei s d).trans (hsrc s d))
    (fun n => rn_idxOf_loop _ _ _ _ ei n)
    (fun s d => (rn_idxOf_pair 1 ![1, 0] rfl rfl _ _ _ ei s d).trans (hdst s d))
    (fun n => rn_idxOf_loop _ _ _ _ ei n)
    (fun s d => (rn_ewOf_pair _ _ w s d).trans (hw s d))
    (fun n => rn_ewOf_loop _ _ w n)

end Cert.ReferenceIdeal.RefMath

end
-- ==== Proof.RefTail.lean ====
/-
  A layer from its per-edge normalisation on: the messages `(x W) s f · norm e` of the edges `e = (s, d)` into node `d`
  and of `d`'s self loop sum to `dis d · ∑ s, (dis s · (x W) s f) · adj s d`; then the bias and the rectifier.
-/
import proofs.«154241_g14164802142580_cont_sun_m_321_17_alg».proof.Proof.RefDefs
import proofs.«154241_g14164802142580_cont_sun_m_321_17_alg».proof.Proof.Spec
import proofs.«154241_g14164802142580_cont_sun_m_321_17_alg».proof.Proof.EdgeIdx
import proofs.«154241_g14164802142580_cont_sun_m_321_17_alg».proof.Proof.LibRowIndex
import proofs.«154241_g14164802142580_cont_sun_m_321_17_alg».proof.Proof.LibCat
import proofs.«154241_g14164802142580_cont_sun_m_321_17_alg».proof.Proof.LibPlainDot
import proofs.«154241_g14164802142580_cont_sun_m_321_17_alg».proof.Proof.RefEdgeSum
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefMath

open Cert.ReferenceIdeal Cert.ReferenceIdeal.RefDefs Cert.Gcn Idealize.ShloMosaic Idealize.ShloMosaic.ValueIdx
open Cert.Lib.RowIndex

/-- The coercion of a finite real sum is the sum of the coercions. -/
theorem rt_coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- The coercion of a maximum of reals is the maximum of the coercions. -/
theorem rt_coe_max (a b : ℝ) : ((max a b : ℝ) : EReal) = max (a : EReal) (b : EReal) :=
  EReal.coe_strictMono.monotone.map_max

/-- With self loops the adjacency is the edge weight off the diagonal and 1 on it. -/
theorem rt_adj (r : Fin 1024 → Fin 1024 → ℝ) (hr : ∀ s d, r s d = 0 ∨ r s d = 1) (s d : Fin 1024) :
    adj r s d = ew r s d + if s = d then 1 else 0 := by
  unfold adj ew
  by_cases hsd : s = d
  · simp [hsd]
  · rcases hr s d with h | h <;> simp [hsd, h]

/-- The messages into node `d`, over the pairs and the self loop, as the normalised aggregation. -/
theorem rt_real (r : Fin 1024 → Fin 1024 → ℝ) (hr : ∀ s d, r s d = 0 ∨ r s d = 1) (L : Fin 1024 → ℝ) (d : Fin 1024) :
    (∑ s, L s * (dis r s * dis r d * ew r s d)) + L d * (dis r d * dis r d * 1)
      = dis r d * ∑ s, (dis r s * L s) * adj r s d := by
  have h1 : ∀ s, (dis r s * L s) * adj r s d
      = (dis r s * L s) * ew r s d + (if s = d then dis r s * L s else 0) := by
    intro s
    rw [rt_adj r hr s d, mul_add, mul_ite, mul_one, mul_zero]
  rw [Finset.sum_congr rfl (fun s _ => h1 s), Finset.sum_add_distrib, Finset.sum_ite_eq' Finset.univ d,
    if_pos (Finset.mem_univ d), mul_add, Finset.mul_sum]
  congr 1
  · exact Finset.sum_congr rfl (fun s _ => by ring)
  · ring

/-- The product of the features and the weights at a node and a feature. -/
theorem rt_h_apply (x : FVec Ideal S1024x128 .f32) (Wm : FVec Ideal S128x128 .f32)
    (X : Fin 1024 → Fin 128 → ℝ) (Wr : Fin 128 → Fin 128 → ℝ)
    (hx : ∀ (s : Fin 1024) (k : Fin 128), x (ix2 s k) = ((X s k : ℝ) : EReal))
    (hW : ∀ k f : Fin 128, Wm (ix2 k f) = ((Wr k f : ℝ) : EReal)) (s : Fin 1024) (f : Fin 128) :
    Host.dotGeneral (F := Ideal) dot_S1024x128_S128x128_S1024x128_1_0_0_1_n_n none x Wm (ix2 s f)
      = ((lin X Wr s f : ℝ) : EReal) := by
  have e : dot_S1024x128_S128x128_S1024x128_1_0_0_1_n_n = DotDims.plain 1024 128 128 := rfl
  show FloatOps.dotGeneral dot_S1024x128_S128x128_S1024x128_1_0_0_1_n_n none .single x Wm (ix2 s f) = _
  rw [e]
  refine (Cert.PlainDot.dotGeneral_apply 1024 128 128 none .single x Wm (ix2 s f)).trans ?_
  unfold lin
  rw [rt_coe_sum]
  refine Finset.sum_congr rfl fun k _ => ?_
  show x (ix2 s k) * Wm (ix2 k f) = _
  rw [hx, hW, ← EReal.coe_mul, mul_comm]

/-- Row 0 of the edge index array, made a vector, at a pair. -/
theorem rt_row0 (ei : IVec S2x1048576 32) (hs : S2x1048576.Slices ![0, 0] S1x1048576)
    (hc : S1x1048576.ShapeCasts S1048576) (p : Fin 1048576) :
    shapeCast S1048576 (extractStridedSlice S1x1048576 ![0, 0] ei hs) hc (ix1 p) = ei (ix2 (0 : Fin 2) p) := by
  refine (shapeCast_1a_a_apply _ hc p).trans ?_
  refine extractStridedSlice_apply _ ei hs _ _ (fun a => ?_)
  match a with
  | ⟨0, _⟩ => rfl
  | ⟨1, _⟩ => exact (Nat.zero_add _).symm

/-- Row 1 of the edge index array, made a vector, at a pair. -/
theorem rt_row1 (ei : IVec S2x1048576 32) (hs : S2x1048576.Slices ![1, 0] S1x1048576)
    (hc : S1x1048576.ShapeCasts S1048576) (p : Fin 1048576) :
    shapeCast S1048576 (extractStridedSlice S1x1048576 ![1, 0] ei hs) hc (ix1 p) = ei (ix2 (1 : Fin 2) p) := by
  refine (shapeCast_1a_a_apply _ hc p).trans ?_
  refine extractStridedSlice_apply _ ei hs _ _ (fun a => ?_)
  match a with
  | ⟨0, _⟩ => rfl
  | ⟨1, _⟩ => exact (Nat.zero_add _).symm

/-- The pairs' words followed by the nodes' words, at a pair: the pair's word. -/
theorem rt_cat_pair {α : Type} (v : S1048576.Idx → α) (w : S1024.Idx → α)
    (h : Shape.Concatenates [S1048576, S1024] S1049600 0) (s d : Fin 1024) :
    concatenate S1049600 0 [⟨S1048576, v⟩, ⟨S1024, w⟩] h (ix1 (edgeIdx s d)) = v (ix1 (pairIdx s d)) :=
  concatenate_pair_apply_left 0 v w h (ix1 (edgeIdx s d)) rfl (ix1 (pairIdx s d))
    (fun b => by match b with | ⟨0, _⟩ => rfl)

/-- The pairs' words followed by the nodes' words, at the loop of node `n`: the word of `n`. -/
theorem rt_cat_loop {α : Type} (v : S1048576.Idx → α) (w : S1024.Idx → α)
    (h : Shape.Concatenates [S1048576, S1024] S1049600 0) (n : Fin 1024) :
    concatenate S1049600 0 [⟨S1048576, v⟩, ⟨S1024, w⟩] h (ix1 (loopIdx n)) = w (ix1 n) :=
  concatenate_pair_apply_right 0 v w h (ix1 (loopIdx n)) rfl rfl (ix1 n)
    (fun b => by match b with | ⟨0, _⟩ => exact fun hb => absurd rfl hb)
    (by show n.val + 1048576 = 1048576 + n.val; omega)

/-- A word that is a node's number is kept by the normalisation of negative indices, and the column made of
    the normalised words holds it. -/
theorem rt_col (c : IVec S1049600 32) (hb0 : S_.BroadcastsInDim S1049600 (![] : Fin 0 → Fin S1049600.rank))
    (hb1 : S1049600.BroadcastsInDim S1049600x1 (![0] : Fin 1 → Fin S1049600x1.rank))
    (e : Fin 1049600) (k : Fin 1024) (hc : c (ix1 e) = BitVec.ofNat 32 k.val) :
    broadcastInDim S1049600x1 ![0] hb1
      (select (cmpi .slt c (broadcastInDim S1049600 ![] hb0 (constantI S_ 32 0#32)))
        (addi c (broadcastInDim S1049600 ![] hb0 (constantI S_ 32 1024#32))) c) (ix2 e (0 : Fin 1))
      = BitVec.ofNat 32 k.val := by
  refine (broadcastInDim_apply _ hb1 _ _ (ix1 e) (fun a => ?_)).trans ?_
  · match a with
    | ⟨0, _⟩ => rfl
  · show Scalar.select (IntOp.cmpi .slt (c (ix1 e)) 0#32) _ (c (ix1 e)) = _
    rw [hc]
    have hne : ¬ IntOp.cmpi .slt (BitVec.ofNat 32 k.val) 0#32 = 1#1 := by
      intro h
      have h' := IntOp.cmpi_slt.mp h
      rw [rn_toInt_ofNat _ (by have := k.isLt; omega), BitVec.toInt_zero] at h'
      omega
    exact if_neg hne

/-- The message of an edge: the product's row its source word names, times the edge's normalisation. -/
theorem rt_msg (h : FVec Ideal S1024x128 .f32) (idx : IVec S1049600x1 32) (norm : FVec Ideal S1049600 .f32)
    (hb1 : S1049600.BroadcastsInDim S1049600x1 (![0] : Fin 1 → Fin S1049600x1.rank))
    (hb2 : S1049600x1.BroadcastsInDim S1049600x128 (![0, 1] : Fin 2 → Fin S1049600x128.rank))
    (wf : GatherDims.WF S1024x128 S1049600x1 S1049600x128 [1] [0] [] [0] [] 1 ![1, 128])
    (e : Fin 1049600) (f : Fin 128) (k : Fin 1024) (hk : idx (ix2 e (0 : Fin 1)) = BitVec.ofNat 32 k.val) :
    mulf (Host.gather (rowGather 1024 1049600 128 wf) h idx)
        (broadcastInDim S1049600x128 ![0, 1] hb2 (broadcastInDim S1049600x1 ![0] hb1 norm)) (ix2 e f)
      = h (ix2 k f) * norm (ix1 e) := by
  show Host.gather (rowGather 1024 1049600 128 wf) h idx (ix2 e f)
      * broadcastInDim S1049600x128 ![0, 1] hb2 (broadcastInDim S1049600x1 ![0] hb1 norm) (ix2 e f) = _
  rw [gather_rows_apply (by norm_num : 0 < 1024) wf h idx e f, hk, rn_pick_ofNat k]
  congr 1
  refine (broadcastInDim_apply _ hb2 _ _ (ix2 e (0 : Fin 1)) (fun a => ?_)).trans ?_
  · match a with
    | ⟨0, _⟩ => rfl
    | ⟨1, _⟩ => rfl
  · refine broadcastInDim_apply _ hb1 _ _ (ix1 e) (fun a => ?_)
    match a with
    | ⟨0, _⟩ => rfl

/-- The bias, made a row and repeated over the nodes, at a node and a feature. -/
theorem rt_bias (b : FVec Ideal S128 .f32)
    (hb1 : S128.BroadcastsInDim S1x128 (![1] : Fin 1 → Fin S1x128.rank))
    (hb2 : S1x128.BroadcastsInDim S1024x128 (![0, 1] : Fin 2 → Fin S1024x128.rank)) (d : Fin 1024) (f : Fin 128) :
    broadcastInDim S1024x128 ![0, 1] hb2 (broadcastInDim S1x128 ![1] hb1 b) (ix2 d f) = b (ix1 f) := by
  refine (broadcastInDim_apply _ hb2 _ _ (ix2 (0 : Fin 1) f) (fun a => ?_)).trans ?_
  · match a with
    | ⟨0, _⟩ => rfl
    | ⟨1, _⟩ => rfl
  · refine broadcastInDim_apply _ hb1 _ _ (ix1 f) (fun a => ?_)
    match a with
    | ⟨0, _⟩ => rfl

/-- Message passing into node `d`: when the source words name the pairs' sources and the loops' nodes, and the target
    words the pairs' targets and the loops' nodes, the scattered sum of the messages (the product's row at the source
    times the edge's normalisation) over a zero start is the sum over the sources of the pairs into `d`, plus the
    loop's term. -/
theorem rt_core (h : FVec Ideal S1024x128 .f32) (srcI dstI : IVec S1049600x1 32) (norm : FVec Ideal S1049600 .f32)
    (z : FVec Ideal S1024x128 .f32)
    (hb1 : S1049600.BroadcastsInDim S1049600x1 (![0] : Fin 1 → Fin S1049600x1.rank))
    (hb2 : S1049600x1.BroadcastsInDim S1049600x128 (![0, 1] : Fin 2 → Fin S1049600x128.rank))
    (wfS : ScatterDims.WF S1024x128 S1049600x1 S1049600x128 [1] [0] [0] 1)
    (wfG : GatherDims.WF S1024x128 S1049600x1 S1049600x128 [1] [0] [] [0] [] 1 ![1, 128])
    (L w : Fin 1024 → ℝ) (w' : ℝ) (d : Fin 1024) (f : Fin 128)
    (hz : z (ix2 d f) = 0)
    (hh : ∀ s : Fin 1024, h (ix2 s f) = ((L s : ℝ) : EReal))
    (hn1 : ∀ s : Fin 1024, norm (ix1 (edgeIdx s d)) = ((w s : ℝ) : EReal))
    (hn2 : norm (ix1 (loopIdx d)) = ((w' : ℝ) : EReal))
    (hs_pair : ∀ s d' : Fin 1024, srcI (ix2 (edgeIdx s d') (0 : Fin 1)) = BitVec.ofNat 32 s.val)
    (hs_loop : ∀ n : Fin 1024, srcI (ix2 (loopIdx n) (0 : Fin 1)) = BitVec.ofNat 32 n.val)
    (hd_pair : ∀ s d' : Fin 1024, dstI (ix2 (edgeIdx s d') (0 : Fin 1)) = BitVec.ofNat 32 d'.val)
    (hd_loop : ∀ n : Fin 1024, dstI (ix2 (loopIdx n) (0 : Fin 1)) = BitVec.ofNat 32 n.val) :
    Host.scatterAdd (rowScatter 1024 1049600 128 wfS) z dstI
        (mulf (Host.gather (rowGather 1024 1049600 128 wfG) h srcI)
          (broadcastInDim S1049600x128 ![0, 1] hb2 (broadcastInDim S1049600x1 ![0] hb1 norm))) (ix2 d f)
      = (((∑ s : Fin 1024, L s * w s) + L d * w' : ℝ) : EReal) := by
  refine (scatterAdd_rows_apply wfS z dstI _ d f).trans ?_
  refine (congrArg₂ (fun a b : EReal => a + b) hz
    ((edge_sum_land (fun e => dstI (ix2 e (0 : Fin 1)))
        (fun e => mulf (Host.gather (rowGather 1024 1049600 128 wfG) h srcI)
          (broadcastInDim S1049600x128 ![0, 1] hb2 (broadcastInDim S1049600x1 ![0] hb1 norm)) (ix2 e f))
        d hd_pair hd_loop).trans
      (congrArg₂ (fun a b : EReal => a + b)
        (Finset.sum_congr rfl fun s _ =>
          (rt_msg h srcI norm hb1 hb2 wfG (edgeIdx s d) f s (hs_pair s d)).trans
            (congrArg₂ (fun a b : EReal => a * b) (hh s) (hn1 s)))
        ((rt_msg h srcI norm hb1 hb2 wfG (loopIdx d) f d (hs_loop d)).trans
          (congrArg₂ (fun a b : EReal => a * b) (hh d) hn2))))).trans ?_
  show (0 : EReal) + ((∑ s : Fin 1024, ((L s : ℝ) : EReal) * ((w s : ℝ) : EReal)) + ((L d : ℝ) : EReal) * ((w' : ℝ) : EReal)) = _
  rw [zero_add, EReal.coe_add, EReal.coe_mul, rt_coe_sum]
  exact congrArg₂ (fun a b : EReal => a + b) (Finset.sum_congr rfl fun s _ => (EReal.coe_mul _ _).symm) rfl

/-- Entry `(d, f)` of a layer, given real features, weights and bias and the normalisation of every edge. -/
theorem layerTail_apply (x : FVec Ideal S1024x128 .f32) (ei : IVec S2x1048576 32) (norm : FVec Ideal S1049600 .f32)
    (Wm : FVec Ideal S128x128 .f32) (b : FVec Ideal S128 .f32)
    (r : Fin 1024 → Fin 1024 → ℝ) (hr : ∀ s d, r s d = 0 ∨ r s d = 1)
    (X : Fin 1024 → Fin 128 → ℝ) (Wr : Fin 128 → Fin 128 → ℝ) (br : Fin 128 → ℝ)
    (hx : ∀ (s : Fin 1024) (k : Fin 128), x (ix2 s k) = ((X s k : ℝ) : EReal))
    (hW : ∀ k f : Fin 128, Wm (ix2 k f) = ((Wr k f : ℝ) : EReal))
    (hb : ∀ f : Fin 128, b (ix1 f) = ((br f : ℝ) : EReal))
    (hsrc : ∀ s d : Fin 1024, ei (ix2 (0 : Fin 2) (pairIdx s d)) = BitVec.ofNat 32 s.val)
    (hdst : ∀ s d : Fin 1024, ei (ix2 (1 : Fin 2) (pairIdx s d)) = BitVec.ofNat 32 d.val)
    (hn1 : ∀ s d : Fin 1024, norm (ix1 (edgeIdx s d))
        = ((Cert.Gcn.dis r s * Cert.Gcn.dis r d * Cert.Gcn.ew r s d : ℝ) : EReal))
    (hn2 : ∀ n : Fin 1024, norm (ix1 (loopIdx n)) = ((Cert.Gcn.dis r n * Cert.Gcn.dis r n * 1 : ℝ) : EReal))
    (d : Fin 1024) (f : Fin 128) :
    layerTail (F := Ideal) x ei norm Wm b (ix2 d f) = ((Cert.Gcn.layer r X Wr br d f : ℝ) : EReal) := by
  unfold layerTail
  rw [maximumf_apply, addf_apply]
  refine (congrArg₂ max (congrArg₂ (fun a b : EReal => a + b)
      (rt_core _ _ _ norm _ _ _ Gen.scatter_S1024x128_S1049600x1_S1049600x128_1_0_0_1_wf
        Gen.gather_S1024x128_S1049600x1_S1049600x128_1_0_n_n_0_1_1128_wf
        (fun s => lin X Wr s f) (fun s => dis r s * dis r d * ew r s d) (dis r d * dis r d * 1) d f
        Ideal.ofBits_zero_f32 (fun s => rt_h_apply x Wm X Wr hx hW s f) (fun s => hn1 s d) (hn2 d) ?_ ?_ ?_ ?_)
      ((rt_bias b _ _ d f).trans (hb f))) Ideal.ofBits_zero_f32).trans ?_
  · exact fun s d' => rt_col _ _ _ (edgeIdx s d') s
      ((rt_cat_pair _ _ _ s d').trans ((rt_row0 ei _ _ (pairIdx s d')).trans (hsrc s d')))
  · exact fun n => rt_col _ _ _ (loopIdx n) n (rt_cat_loop _ _ _ n)
  · exact fun s d' => rt_col _ _ _ (edgeIdx s d') d'
      ((rt_cat_pair _ _ _ s d').trans ((rt_row1 ei _ _ (pairIdx s d')).trans (hdst s d')))
  · exact fun n => rt_col _ _ _ (loopIdx n) n (rt_cat_loop _ _ _ n)
  · rw [← EReal.coe_add, ← EReal.coe_zero, ← rt_coe_max]
    exact congrArg (fun t : ℝ => ((max (t + br f) 0 : ℝ) : EReal)) (rt_real r hr (fun s => lin X Wr s f) d)

end Cert.ReferenceIdeal.RefMath

end
-- ==== Proof.RefAsm.lean ====
/-
  The reference's result at one entry: entry `(g, n, f)` is graph `g`'s four-layer stack at `(n, f)` — each layer by its
  normalisation and its tail, the mean of the four, the two graphs stacked.
-/
import proofs.«154241_g14164802142580_cont_sun_m_321_17_alg».proof.Proof.RefDefs
import proofs.«154241_g14164802142580_cont_sun_m_321_17_alg».proof.Proof.Spec
import proofs.«154241_g14164802142580_cont_sun_m_321_17_alg».proof.Proof.EdgeIdx
import proofs.«154241_g14164802142580_cont_sun_m_321_17_alg».proof.Proof.RefEdges
import proofs.«154241_g14164802142580_cont_sun_m_321_17_alg».proof.Proof.RefNorm
import proofs.«154241_g14164802142580_cont_sun_m_321_17_alg».proof.Proof.RefTail
import proofs.«154241_g14164802142580_cont_sun_m_321_17_alg».proof.Proof.LibCat
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefMath

open Cert.ReferenceIdeal Cert.ReferenceIdeal.RefDefs Cert.Gcn Idealize.ShloMosaic Idealize.ShloMosaic.ValueIdx

/-! ## Slabs, stacking and the mean, read at an index -/

section Layout
variable {α : Type}

/-- Slab `g` of an `[m, a, b]` array, cut out as a `[1, a, b]` block and viewed `[a, b]`, reads at `(i, j)` the array
    at `(g, i, j)`. -/
theorem ra_slab_apply {m a b o : ℕ} (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  refine (shapeCast_1ab_ab_apply _ hc i j).trans ?_
  refine extractStridedSlice_apply _ x hs _ _ fun c => ?_
  match c with
  | ⟨0, _⟩ => show g.val = o + 0; omega
  | ⟨1, _⟩ => show i.val = 0 + i.val; omega
  | ⟨2, _⟩ => show j.val = 0 + j.val; omega

/-- An `[a, b]` array given a leading unit axis by a broadcast reads at `(u, i, j)` the array at `(i, j)`. -/
theorem ra_lead_apply {a b : ℕ} (x : (⟨2, ![a, b]⟩ : Shape).Idx → α)
    (hb : (⟨2, ![a, b]⟩ : Shape).BroadcastsInDim ⟨3, ![1, a, b]⟩ ![1, 2]) (ha : a ≠ 1) (hb1 : b ≠ 1)
    (u : Fin 1) (i : Fin a) (j : Fin b) :
    broadcastInDim ⟨3, ![1, a, b]⟩ ![1, 2] hb x (ix3 u i j) = x (ix2 i j) := by
  refine broadcastInDim_apply _ hb x _ _ fun c => ?_
  match c with
  | ⟨0, _⟩ => show i.val = if a = 1 then 0 else i.val; rw [if_neg ha]
  | ⟨1, _⟩ => show j.val = if b = 1 then 0 else j.val; rw [if_neg hb1]

end Layout

/-- Graph 0's features at `(s, k)` are the feature array at `(0, s, k)`. -/
theorem ra_xOf0_apply (a0 : FVec Ideal S2x1024x128 .f32) (s : Fin 1024) (k : Fin 128) :
    xOf0 (F := Ideal) a0 (ix2 s k) = a0 (ix3 (0 : Fin 2) s k) :=
  ra_slab_apply (o := 0) a0 Gen.slices_S2x1024x128_S1x1024x128_0_0_0 Gen.shapeCasts_S1x1024x128_S1024x128 (0 : Fin 2) rfl s k

/-- Graph 1's features at `(s, k)` are the feature array at `(1, s, k)`. -/
theorem ra_xOf1_apply (a0 : FVec Ideal S2x1024x128 .f32) (s : Fin 1024) (k : Fin 128) :
    xOf1 (F := Ideal) a0 (ix2 s k) = a0 (ix3 (1 : Fin 2) s k) :=
  ra_slab_apply (o := 1) a0 Gen.slices_S2x1024x128_S1x1024x128_1_0_0 Gen.shapeCasts_S1x1024x128_S1024x128 (1 : Fin 2) rfl s k

/-- Graph 0's adjacency word at `(s, d)` is the word array at `(0, s, d)`. -/
theorem ra_rpaOf0_apply (a1 : IVec S2x1024x1024 32) (s d : Fin 1024) :
    rpaOf0 (F := Ideal) a1 (ix2 s d) = a1 (ix3 (0 : Fin 2) s d) :=
  ra_slab_apply (o := 0) a1 Gen.slices_S2x1024x1024_S1x1024x1024_0_0_0 Gen.shapeCasts_S1x1024x1024_S1024x1024 (0 : Fin 2) rfl s d

/-- Graph 1's adjacency word at `(s, d)` is the word array at `(1, s, d)`. -/
theorem ra_rpaOf1_apply (a1 : IVec S2x1024x1024 32) (s d : Fin 1024) :
    rpaOf1 (F := Ideal) a1 (ix2 s d) = a1 (ix3 (1 : Fin 2) s d) :=
  ra_slab_apply (o := 1) a1 Gen.slices_S2x1024x1024_S1x1024x1024_1_0_0 Gen.shapeCasts_S1x1024x1024_S1024x1024 (1 : Fin 2) rfl s d

/-- The stack of two arrays reads at `(0, n, f)` the first and at `(1, n, f)` the second. -/
theorem ra_stackFn_apply (o0 o1 : FVec Ideal S1024x128 .f32) (n : Fin 1024) (f : Fin 128) :
    stackFn (F := Ideal) o0 o1 (ix3 (0 : Fin 2) n f) = o0 (ix2 n f)
      ∧ stackFn (F := Ideal) o0 o1 (ix3 (1 : Fin 2) n f) = o1 (ix2 n f) := by
  have hL := concatenate_pair_apply_left (t := S2x1024x128) (s₁ := S1x1024x128) (s₂ := S1x1024x128) (0 : Fin 3)
    (broadcastInDim S1x1024x128 ![1, 2] Gen.bcast_S1024x128_S1x1024x128_1_2 o0) (broadcastInDim S1x1024x128 ![1, 2] Gen.bcast_S1024x128_S1x1024x128_1_2 o1)
    Gen.concatenates_S1x1024x128_S1x1024x128_S2x1024x128_d0 (ix3 (0 : Fin 2) n f) rfl (ix3 (0 : Fin 1) n f)
    (fun c => match c with | ⟨0, _⟩ => rfl | ⟨1, _⟩ => rfl | ⟨2, _⟩ => rfl)
  have hR := concatenate_pair_apply_right (t := S2x1024x128) (s₁ := S1x1024x128) (s₂ := S1x1024x128) (0 : Fin 3)
    (broadcastInDim S1x1024x128 ![1, 2] Gen.bcast_S1024x128_S1x1024x128_1_2 o0) (broadcastInDim S1x1024x128 ![1, 2] Gen.bcast_S1024x128_S1x1024x128_1_2 o1)
    Gen.concatenates_S1x1024x128_S1x1024x128_S2x1024x128_d0 (ix3 (1 : Fin 2) n f) rfl rfl (ix3 (0 : Fin 1) n f)
    (fun c hc => match c, hc with
      | ⟨0, _⟩, hc => absurd rfl hc
      | ⟨1, _⟩, _ => rfl
      | ⟨2, _⟩, _ => rfl) rfl
  exact ⟨hL.trans (ra_lead_apply o0 _ (by decide) (by decide) 0 n f),
    hR.trans (ra_lead_apply o1 _ (by decide) (by decide) 0 n f)⟩

/-- The f32 pattern of 4.0 denotes the real number 4. -/
theorem ra_four : Ideal.ofBits .f32 0x40800000#32 = ((4 : ℝ) : EReal) := by
  simp [Ideal.ofBits, Ideal.ieee, -EReal.coe_mul]; norm_num

/-- Four `[1, 1024, 128]` pieces put one after the other along the leading axis: the result at `(k, n, f)` is piece `k`
    at `(0, n, f)`. -/
theorem ra_cat4_apply {α : Type} (x1 x2 x3 x4 : S1x1024x128.Idx → α)
    (h : Shape.Concatenates [S1x1024x128, S1x1024x128, S1x1024x128, S1x1024x128] S4x1024x128 0)
    (n : Fin 1024) (f : Fin 128) :
    concatenate S4x1024x128 0 [⟨S1x1024x128, x1⟩, ⟨S1x1024x128, x2⟩, ⟨S1x1024x128, x3⟩, ⟨S1x1024x128, x4⟩] h
        (ix3 (0 : Fin 4) n f) = x1 (ix3 (0 : Fin 1) n f)
      ∧ concatenate S4x1024x128 0 [⟨S1x1024x128, x1⟩, ⟨S1x1024x128, x2⟩, ⟨S1x1024x128, x3⟩, ⟨S1x1024x128, x4⟩] h
        (ix3 (1 : Fin 4) n f) = x2 (ix3 (0 : Fin 1) n f)
      ∧ concatenate S4x1024x128 0 [⟨S1x1024x128, x1⟩, ⟨S1x1024x128, x2⟩, ⟨S1x1024x128, x3⟩, ⟨S1x1024x128, x4⟩] h
        (ix3 (2 : Fin 4) n f) = x3 (ix3 (0 : Fin 1) n f)
      ∧ concatenate S4x1024x128 0 [⟨S1x1024x128, x1⟩, ⟨S1x1024x128, x2⟩, ⟨S1x1024x128, x3⟩, ⟨S1x1024x128, x4⟩] h
        (ix3 (3 : Fin 4) n f) = x4 (ix3 (0 : Fin 1) n f) := by
  have hoff : ∀ (c : Fin S1x1024x128.rank), c.cast (rfl : S1x1024x128.rank = S4x1024x128.rank) ≠ (0 : Fin 3) →
      ∀ k : Fin 4, ((ix3 (0 : Fin 1) n f : S1x1024x128.Idx) c).val
        = ((ix3 k n f : S4x1024x128.Idx) (c.cast (rfl : S1x1024x128.rank = S4x1024x128.rank))).val := by
    intro c hc k
    match c, hc with
    | ⟨0, _⟩, hc => exact absurd rfl hc
    | ⟨1, _⟩, _ => rfl
    | ⟨2, _⟩, _ => rfl
  exact ⟨(concatenate_apply_piece (t := S4x1024x128) (0 : Fin 3)
      [⟨S1x1024x128, x1⟩, ⟨S1x1024x128, x2⟩, ⟨S1x1024x128, x3⟩, ⟨S1x1024x128, x4⟩] h (ix3 (0 : Fin 4) n f) 0
      (by show (0 : ℕ) < 4; omega) S1x1024x128 x1 rfl rfl 0 rfl (ix3 (0 : Fin 1) n f) (fun c hc => hoff c hc 0) rfl),
    (concatenate_apply_piece (t := S4x1024x128) (0 : Fin 3)
      [⟨S1x1024x128, x1⟩, ⟨S1x1024x128, x2⟩, ⟨S1x1024x128, x3⟩, ⟨S1x1024x128, x4⟩] h (ix3 (1 : Fin 4) n f) 1
      (by show (1 : ℕ) < 4; omega) S1x1024x128 x2 rfl rfl 1 rfl (ix3 (0 : Fin 1) n f) (fun c hc => hoff c hc 1) rfl),
    (concatenate_apply_piece (t := S4x1024x128) (0 : Fin 3)
      [⟨S1x1024x128, x1⟩, ⟨S1x1024x128, x2⟩, ⟨S1x1024x128, x3⟩, ⟨S1x1024x128, x4⟩] h (ix3 (2 : Fin 4) n f) 2
      (by show (2 : ℕ) < 4; omega) S1x1024x128 x3 rfl rfl 2 rfl (ix3 (0 : Fin 1) n f) (fun c hc => hoff c hc 2) rfl),
    (concatenate_apply_piece (t := S4x1024x128) (0 : Fin 3)
      [⟨S1x1024x128, x1⟩, ⟨S1x1024x128, x2⟩, ⟨S1x1024x128, x3⟩, ⟨S1x1024x128, x4⟩] h (ix3 (3 : Fin 4) n f) 3
      (by show (3 : ℕ) < 4; omega) S1x1024x128 x4 rfl rfl 3 rfl (ix3 (0 : Fin 1) n f) (fun c hc => hoff c hc 3) rfl)⟩

/-- The sum over the leading axis of a `[4, 1024, 128]` array from zero, divided by 4.0, at `(n, f)`, when the four
    summands are real numbers: a quarter of their sum. -/
theorem ra_mean_core (cat : FVec Ideal S4x1024x128 .f32) (R1 R2 R3 R4 : ℝ) (n : Fin 1024) (f : Fin 128)
    (c1 : cat (ix3 (0 : Fin 4) n f) = ((R1 : ℝ) : EReal)) (c2 : cat (ix3 (1 : Fin 4) n f) = ((R2 : ℝ) : EReal))
    (c3 : cat (ix3 (2 : Fin 4) n f) = ((R3 : ℝ) : EReal)) (c4 : cat (ix3 (3 : Fin 4) n f) = ((R4 : ℝ) : EReal)) :
    Ideal.div (Ideal.hostReduceAdd Gen.reducesTo_S4x1024x128_S1024x128_d0 cat (Ideal.ofBits .f32 0x00000000#32) (ix2 n f))
        (Ideal.ofBits .f32 0x40800000#32) = (((R1 + R2 + R3 + R4) * (1 / 4) : ℝ) : EReal) := by
  have hred : S4x1024x128.Reduces [0] S1024x128 := by decide
  have hlift : ∀ k : Fin 4, hred.lift (ix2 n f) k = ix3 k n f := fun k => funext fun c =>
    match c with
    | ⟨0, _⟩ => Fin.ext rfl
    | ⟨1, _⟩ => Fin.ext rfl
    | ⟨2, _⟩ => Fin.ext rfl
  rw [Ideal.hostReduceAdd_single _ hred, ra_four, Ideal.div_coe (by norm_num : (4 : ℝ) ≠ 0), Ideal.ofBits_zero_f32, zero_add]
  change (∑ k : Fin 4, cat (hred.lift (ix2 n f) k)) * _ = _
  rw [Fin.sum_univ_four, hlift 0, hlift 1, hlift 2, hlift 3, c1, c2, c3, c4]
  rw [EReal.coe_mul, EReal.coe_add, EReal.coe_add, EReal.coe_add]

/-- The mean of four arrays that hold real numbers at `(n, f)`: a quarter of the four numbers' sum. -/
theorem ra_meanFn_apply (r1 r2 r3 r4 : FVec Ideal S1024x128 .f32) (R1 R2 R3 R4 : ℝ) (n : Fin 1024) (f : Fin 128)
    (e1 : r1 (ix2 n f) = ((R1 : ℝ) : EReal)) (e2 : r2 (ix2 n f) = ((R2 : ℝ) : EReal))
    (e3 : r3 (ix2 n f) = ((R3 : ℝ) : EReal)) (e4 : r4 (ix2 n f) = ((R4 : ℝ) : EReal)) :
    meanFn (F := Ideal) r1 r2 r3 r4 (ix2 n f) = (((R1 + R2 + R3 + R4) * (1 / 4) : ℝ) : EReal) := by
  obtain ⟨c1, c2, c3, c4⟩ := ra_cat4_apply (broadcastInDim S1x1024x128 ![1, 2] Gen.bcast_S1024x128_S1x1024x128_1_2 r1) (broadcastInDim S1x1024x128 ![1, 2] Gen.bcast_S1024x128_S1x1024x128_1_2 r2) (broadcastInDim S1x1024x128 ![1, 2] Gen.bcast_S1024x128_S1x1024x128_1_2 r3) (broadcastInDim S1x1024x128 ![1, 2] Gen.bcast_S1024x128_S1x1024x128_1_2 r4) Gen.concatenates_S1x1024x128_S1x1024x128_S1x1024x128_S1x1024x128_S4x1024x128_d0 n f
  have l1 := ra_lead_apply r1 Gen.bcast_S1024x128_S1x1024x128_1_2 (by decide) (by decide) 0 n f
  have l2 := ra_lead_apply r2 Gen.bcast_S1024x128_S1x1024x128_1_2 (by decide) (by decide) 0 n f
  have l3 := ra_lead_apply r3 Gen.bcast_S1024x128_S1x1024x128_1_2 (by decide) (by decide) 0 n f
  have l4 := ra_lead_apply r4 Gen.bcast_S1024x128_S1x1024x128_1_2 (by decide) (by decide) 0 n f
  exact ra_mean_core _ R1 R2 R3 R4 n f (c1.trans (l1.trans e1)) (c2.trans (l2.trans e2)) (c3.trans (l3.trans e3))
    (c4.trans (l4.trans e4))

/-! ## One layer, one graph, the whole -/

/-- An adjacency word that is 0 or 1, read as a signed number, is the real 0 or 1. -/
theorem ra_word_real (w : BitVec 32) (h : w = 0#32 ∨ w = 1#32) :
    (((w.toInt : ℤ) : ℝ) = 0) ∨ (((w.toInt : ℤ) : ℝ) = 1) := by
  have e0 : (0#32 : BitVec 32).toInt = 0 := by decide
  have e1 : (1#32 : BitVec 32).toInt = 1 := by decide
  rcases h with h | h
  · left; rw [h, e0]; exact Int.cast_zero
  · right; rw [h, e1]; exact Int.cast_one

/-- One layer of the reference on the edge list of all ordered pairs, at `(d, f)`: `Gcn.layer` of the adjacency words
    read as numbers, when the features, the weights and the bias hold real numbers and every word is 0 or 1. -/
theorem ra_layerFn_apply (x : FVec Ideal S1024x128 .f32) (rpa : IVec S1024x1024 32)
    (Wm : FVec Ideal S128x128 .f32) (b : FVec Ideal S128 .f32)
    (hrpa : ∀ s d : Fin 1024, rpa (ix2 s d) = 0#32 ∨ rpa (ix2 s d) = 1#32)
    (X : Fin 1024 → Fin 128 → ℝ) (Wr : Fin 128 → Fin 128 → ℝ) (br : Fin 128 → ℝ)
    (hx : ∀ (s : Fin 1024) (k : Fin 128), x (ix2 s k) = ((X s k : ℝ) : EReal))
    (hW : ∀ k f : Fin 128, Wm (ix2 k f) = ((Wr k f : ℝ) : EReal))
    (hb : ∀ f : Fin 128, b (ix1 f) = ((br f : ℝ) : EReal)) (d : Fin 1024) (f : Fin 128) :
    layerFn (F := Ideal) x (eiOf (F := Ideal) srcV dstV) (wOf (F := Ideal) rpa srcV dstV) Wm b (ix2 d f)
      = ((Cert.Gcn.layer (fun s d => (((rpa (ix2 s d)).toInt : ℤ) : ℝ)) X Wr br d f : ℝ) : EReal) := by
  have hr : ∀ s d : Fin 1024, (fun s d : Fin 1024 => (((rpa (ix2 s d)).toInt : ℤ) : ℝ)) s d = 0
      ∨ (fun s d : Fin 1024 => (((rpa (ix2 s d)).toInt : ℤ) : ℝ)) s d = 1 := fun s d => ra_word_real _ (hrpa s d)
  have hsrc : ∀ s d : Fin 1024, eiOf (F := Ideal) srcV dstV (ix2 (0 : Fin 2) (pairIdx s d)) = BitVec.ofNat 32 s.val :=
    fun s d => (eiOf_src _ _ _).trans (srcV_apply s d)
  have hdst : ∀ s d : Fin 1024, eiOf (F := Ideal) srcV dstV (ix2 (1 : Fin 2) (pairIdx s d)) = BitVec.ofNat 32 d.val :=
    fun s d => (eiOf_dst _ _ _).trans (dstV_apply s d)
  have hw := wOf_apply rpa (srcV (F := Ideal)) (dstV (F := Ideal)) srcV_apply dstV_apply
  obtain ⟨hn1, hn2⟩ := normFn_apply (eiOf (F := Ideal) srcV dstV) (wOf (F := Ideal) rpa srcV dstV) _ hr hsrc hdst hw
  refine (congrFun (layerFn_eq (F := Ideal) x (eiOf (F := Ideal) srcV dstV) (wOf (F := Ideal) rpa srcV dstV) Wm b) (ix2 d f)).trans ?_
  exact layerTail_apply x _ _ Wm b _ hr X Wr br hx hW hb hsrc hdst hn1 hn2 d f

/-- One graph's result at `(n, f)`: `Gcn.out` of the graph's adjacency words read as numbers. -/
theorem ra_graphFn_apply (x : FVec Ideal S1024x128 .f32) (rpa : IVec S1024x1024 32)
    (a2 : FVec Ideal S128x128 .f32) (a3 : FVec Ideal S128 .f32) (a4 : FVec Ideal S128x128 .f32) (a5 : FVec Ideal S128 .f32)
    (a6 : FVec Ideal S128x128 .f32) (a7 : FVec Ideal S128 .f32) (a8 : FVec Ideal S128x128 .f32) (a9 : FVec Ideal S128 .f32)
    (hrpa : ∀ s d : Fin 1024, rpa (ix2 s d) = 0#32 ∨ rpa (ix2 s d) = 1#32)
    (X : Fin 1024 → Fin 128 → ℝ) (W0 W1 W2 W3 : Fin 128 → Fin 128 → ℝ) (b0 b1 b2 b3 : Fin 128 → ℝ)
    (hx : ∀ (s : Fin 1024) (k : Fin 128), x (ix2 s k) = ((X s k : ℝ) : EReal))
    (h2 : ∀ k f : Fin 128, a2 (ix2 k f) = ((W0 k f : ℝ) : EReal)) (h3 : ∀ f : Fin 128, a3 (ix1 f) = ((b0 f : ℝ) : EReal))
    (h4 : ∀ k f : Fin 128, a4 (ix2 k f) = ((W1 k f : ℝ) : EReal)) (h5 : ∀ f : Fin 128, a5 (ix1 f) = ((b1 f : ℝ) : EReal))
    (h6 : ∀ k f : Fin 128, a6 (ix2 k f) = ((W2 k f : ℝ) : EReal)) (h7 : ∀ f : Fin 128, a7 (ix1 f) = ((b2 f : ℝ) : EReal))
    (h8 : ∀ k f : Fin 128, a8 (ix2 k f) = ((W3 k f : ℝ) : EReal)) (h9 : ∀ f : Fin 128, a9 (ix1 f) = ((b3 f : ℝ) : EReal))
    (n : Fin 1024) (f : Fin 128) :
    graphFn (F := Ideal) x rpa a2 a3 a4 a5 a6 a7 a8 a9 (ix2 n f)
      = ((Cert.Gcn.out (fun s d => (((rpa (ix2 s d)).toInt : ℤ) : ℝ)) X W0 b0 W1 b1 W2 b2 W3 b3 n f : ℝ) : EReal) := by
  have l1 := ra_layerFn_apply x rpa a2 a3 hrpa X W0 b0 hx h2 h3
  have l2 := ra_layerFn_apply _ rpa a4 a5 hrpa _ W1 b1 l1 h4 h5
  have l3 := ra_layerFn_apply _ rpa a6 a7 hrpa _ W2 b2 l2 h6 h7
  have l4 := ra_layerFn_apply _ rpa a8 a9 hrpa _ W3 b3 l3 h8 h9
  have hm := ra_meanFn_apply _ _ _ _ _ _ _ _ n f (l1 n f) (l2 n f) (l3 n f) (l4 n f)
  exact hm

/-- Entry `(g, n, f)` of the reference's result, when every float argument holds real numbers and every adjacency word
    is 0 or 1: `Gcn.out` of graph `g`'s words read as numbers, graph `g`'s features, and the four layers' weights and biases. -/
theorem whole_apply (a0 : FVec Ideal S2x1024x128 .f32) (a1 : IVec S2x1024x1024 32) (a2 : FVec Ideal S128x128 .f32)
    (a3 : FVec Ideal S128 .f32) (a4 : FVec Ideal S128x128 .f32) (a5 : FVec Ideal S128 .f32)
    (a6 : FVec Ideal S128x128 .f32) (a7 : FVec Ideal S128 .f32) (a8 : FVec Ideal S128x128 .f32)
    (a9 : FVec Ideal S128 .f32)
    (X : Fin 2 → Fin 1024 → Fin 128 → ℝ) (W0 W1 W2 W3 : Fin 128 → Fin 128 → ℝ) (b0 b1 b2 b3 : Fin 128 → ℝ)
    (h0 : ∀ (g : Fin 2) (s : Fin 1024) (k : Fin 128), a0 (ix3 g s k) = ((X g s k : ℝ) : EReal))
    (h1 : ∀ (g : Fin 2) (s d : Fin 1024), a1 (ix3 g s d) = 0#32 ∨ a1 (ix3 g s d) = 1#32)
    (h2 : ∀ k f : Fin 128, a2 (ix2 k f) = ((W0 k f : ℝ) : EReal)) (h3 : ∀ f : Fin 128, a3 (ix1 f) = ((b0 f : ℝ) : EReal))
    (h4 : ∀ k f : Fin 128, a4 (ix2 k f) = ((W1 k f : ℝ) : EReal)) (h5 : ∀ f : Fin 128, a5 (ix1 f) = ((b1 f : ℝ) : EReal))
    (h6 : ∀ k f : Fin 128, a6 (ix2 k f) = ((W2 k f : ℝ) : EReal)) (h7 : ∀ f : Fin 128, a7 (ix1 f) = ((b2 f : ℝ) : EReal))
    (h8 : ∀ k f : Fin 128, a8 (ix2 k f) = ((W3 k f : ℝ) : EReal)) (h9 : ∀ f : Fin 128, a9 (ix1 f) = ((b3 f : ℝ) : EReal))
    (g : Fin 2) (n : Fin 1024) (f : Fin 128) :
    whole (F := Ideal) a0 a1 a2 a3 a4 a5 a6 a7 a8 a9 (ix3 g n f)
      = ((Cert.Gcn.out (fun s d => (((a1 (ix3 g s d)).toInt : ℤ) : ℝ)) (X g) W0 b0 W1 b1 W2 b2 W3 b3 n f : ℝ) : EReal) := by
  have hr0 : ∀ s d : Fin 1024, rpaOf0 (F := Ideal) a1 (ix2 s d) = 0#32 ∨ rpaOf0 (F := Ideal) a1 (ix2 s d) = 1#32 :=
    fun s d => by rw [ra_rpaOf0_apply]; exact h1 0 s d
  have hr1 : ∀ s d : Fin 1024, rpaOf1 (F := Ideal) a1 (ix2 s d) = 0#32 ∨ rpaOf1 (F := Ideal) a1 (ix2 s d) = 1#32 :=
    fun s d => by rw [ra_rpaOf1_apply]; exact h1 1 s d
  have g0 := ra_graphFn_apply (xOf0 (F := Ideal) a0) (rpaOf0 (F := Ideal) a1) a2 a3 a4 a5 a6 a7 a8 a9 hr0 (X 0)
    W0 W1 W2 W3 b0 b1 b2 b3 (fun s k => (ra_xOf0_apply a0 s k).trans (h0 0 s k)) h2 h3 h4 h5 h6 h7 h8 h9 n f
  have g1 := ra_graphFn_apply (xOf1 (F := Ideal) a0) (rpaOf1 (F := Ideal) a1) a2 a3 a4 a5 a6 a7 a8 a9 hr1 (X 1)
    W0 W1 W2 W3 b0 b1 b2 b3 (fun s k => (ra_xOf1_apply a0 s k).trans (h0 1 s k)) h2 h3 h4 h5 h6 h7 h8 h9 n f
  have w0 : (fun s d : Fin 1024 => (((rpaOf0 (F := Ideal) a1 (ix2 s d)).toInt : ℤ) : ℝ))
      = fun s d : Fin 1024 => (((a1 (ix3 (0 : Fin 2) s d)).toInt : ℤ) : ℝ) :=
    funext fun s => funext fun d => by rw [ra_rpaOf0_apply]
  have w1 : (fun s d : Fin 1024 => (((rpaOf1 (F := Ideal) a1 (ix2 s d)).toInt : ℤ) : ℝ))
      = fun s d : Fin 1024 => (((a1 (ix3 (1 : Fin 2) s d)).toInt : ℤ) : ℝ) :=
    funext fun s => funext fun d => by rw [ra_rpaOf1_apply]
  rw [w0] at g0
  rw [w1] at g1
  obtain ⟨st0, st1⟩ := ra_stackFn_apply
    (graphFn (F := Ideal) (xOf0 (F := Ideal) a0) (rpaOf0 (F := Ideal) a1) a2 a3 a4 a5 a6 a7 a8 a9)
    (graphFn (F := Ideal) (xOf1 (F := Ideal) a0) (rpaOf1 (F := Ideal) a1) a2 a3 a4 a5 a6 a7 a8 a9) n f
  match g with
  | ⟨0, _⟩ => exact st0.trans g0
  | ⟨1, _⟩ => exact st1.trans g1

end Cert.ReferenceIdeal.RefMath

end
-- ==== Proof.PreDecode.lean ====
/-
  What the precondition says of the arrays: every entry of every float argument is a real number, and every
  adjacency word is 0 or 1.

  The predicate is a conjunction of ten conjunctions-over-all-entries. Each of the nine float ones compares the
  absolute value max x (-x) of an entry strictly against the f32 pattern of +inf, which denotes the top of the
  extended reals; an extended real whose absolute value is strictly below the top is neither the bottom nor the top,
  hence a real number. The integer one takes, entry by entry, the disjunction of the two equality tests against 0
  and against 1.
-/
import proofs.«154241_g14164802142580_cont_sun_m_321_17_alg».proof.Pre_finite_inputs
import proofs.«154241_g14164802142580_cont_sun_m_321_17_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

/-- The shape of rank zero has exactly one index. -/
instance pre_subsingleton_idx : Subsingleton S_.Idx := ⟨fun a b => funext fun d => d.elim0⟩

/-- The f32 pattern of +inf denotes the top of the extended reals. -/
theorem pre_inf_eq_top : Ideal.ofBits .f32 0x7F800000#32 = (⊤ : EReal) := by
  simp [Ideal.ofBits, Ideal.ieee]

/-- A one-bit word made from a truth value is one only if the truth value is true. -/
theorem pre_ofBool_eq_one {b : Bool} (h : BitVec.ofBool b = 1#1) : b = true := by
  cases b
  · exact absurd h (by decide)
  · rfl

/-- An extended real whose absolute value max x (-x) lies strictly below the top is a real number. -/
theorem pre_real_of_abs_lt_top (x : EReal) (hx : max x (-x) < ⊤) : ∃ r : ℝ, x = ((r : ℝ) : EReal) := by
  induction x using EReal.rec with
  | bot => simp at hx
  | coe r => exact ⟨r, rfl⟩
  | top => simp at hx

/-- One float array: if the conjunction over all entries of |entry| < +inf is one, every entry is a real number. -/
theorem pre_finite_of_all {s : Shape} {axes : List (Fin s.rank)} (a : FVec Ideal s .f32)
    (dims : Fin S_.rank → Fin s.rank) (hb : S_.BroadcastsInDim s dims) (hr : s.ReducesTo axes S_)
    (hu : 0 < S_.numel) (init : IVec S_ 1)
    (e : Host.reduce IntOp.andi
        (cmpf .olt (Host.absf a) (broadcastInDim s dims hb (constant (F := Ideal) S_ .f32 0x7F800000#32)))
        init hr hu ix0 = 1#1) :
    ∀ i, ∃ x : ℝ, a i = ((x : ℝ) : EReal) := by
  intro i
  have hi := Host.reduce_andi_all _ init hr hu ix0 e i
  have hi' : Ideal.cmp .olt (max (a i) (-(a i))) (Ideal.ofBits .f32 0x7F800000#32) = 1#1 := hi
  rw [pre_inf_eq_top] at hi'
  have hlt : decide (max (a i) (-(a i)) < (⊤ : EReal)) = true := pre_ofBool_eq_one hi'
  exact pre_real_of_abs_lt_top (a i) (of_decide_eq_true hlt)

/-- The word array: if the conjunction over all words of (word = 0 or word = 1) is one, every word is 0 or 1. -/
theorem pre_word_of_all {s : Shape} {axes : List (Fin s.rank)} (a : IVec s 32)
    (dims : Fin S_.rank → Fin s.rank) (hb : S_.BroadcastsInDim s dims) (hr : s.ReducesTo axes S_)
    (hu : 0 < S_.numel) (init : IVec S_ 1)
    (e : Host.reduce IntOp.andi
        (ori (cmpi .eq a (broadcastInDim s dims hb (constantI S_ 32 0#32)))
             (cmpi .eq a (broadcastInDim s dims hb (constantI S_ 32 1#32))))
        init hr hu ix0 = 1#1) :
    ∀ i, a i = 0#32 ∨ a i = 1#32 := by
  intro i
  have hi := Host.reduce_andi_all _ init hr hu ix0 e i
  have hi' : IntOp.ori (IntOp.cmpi .eq (a i) 0#32) (IntOp.cmpi .eq (a i) 1#32) = 1#1 := hi
  rcases IntOp.ori_eq_one.1 hi' with h0 | h1
  · exact Or.inl (IntOp.cmpi_eq.1 h0)
  · exact Or.inr (IntOp.cmpi_eq.1 h1)

/-- If the precondition's predicate is all ones on the ten argument arrays (at the extended reals), then each float
    array holds real numbers only and the integer array holds only the words 0 and 1. -/
theorem decode [Cert.Pre_finite_inputs.Facts]
    (a0 : FVec Ideal S2x1024x128 .f32) (a1 : IVec S2x1024x1024 32) (a2 : FVec Ideal S128x128 .f32)
    (a3 : FVec Ideal S128 .f32) (a4 : FVec Ideal S128x128 .f32) (a5 : FVec Ideal S128 .f32)
    (a6 : FVec Ideal S128x128 .f32) (a7 : FVec Ideal S128 .f32) (a8 : FVec Ideal S128x128 .f32)
    (a9 : FVec Ideal S128 .f32)
    (h : Cert.Pre_finite_inputs.fn (F := Ideal) a0 a1 a2 a3 a4 a5 a6 a7 a8 a9 = (fun _ => 1#1)) :
    (∀ i, ∃ x : ℝ, a0 i = ((x : ℝ) : EReal)) ∧ (∀ i, a1 i = 0#32 ∨ a1 i = 1#32)
      ∧ (∀ i, ∃ x : ℝ, a2 i = ((x : ℝ) : EReal)) ∧ (∀ i, ∃ x : ℝ, a3 i = ((x : ℝ) : EReal))
      ∧ (∀ i, ∃ x : ℝ, a4 i = ((x : ℝ) : EReal)) ∧ (∀ i, ∃ x : ℝ, a5 i = ((x : ℝ) : EReal))
      ∧ (∀ i, ∃ x : ℝ, a6 i = ((x : ℝ) : EReal)) ∧ (∀ i, ∃ x : ℝ, a7 i = ((x : ℝ) : EReal))
      ∧ (∀ i, ∃ x : ℝ, a8 i = ((x : ℝ) : EReal)) ∧ (∀ i, ∃ x : ℝ, a9 i = ((x : ℝ) : EReal)) := by
  -- the predicate at its one index: a nine-fold conjunction of ten one-bit words, split from the outside in
  have h0 := congrFun h ix0
  dsimp only [fn, fn_part1, fn_part2, andi] at h0
  obtain ⟨h0, e1⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨pre_finite_of_all a0 _ _ _ _ _ e0, pre_word_of_all a1 _ _ _ _ _ e1,
    pre_finite_of_all a2 _ _ _ _ _ e2, pre_finite_of_all a3 _ _ _ _ _ e3,
    pre_finite_of_all a4 _ _ _ _ _ e4, pre_finite_of_all a5 _ _ _ _ _ e5,
    pre_finite_of_all a6 _ _ _ _ _ e6, pre_finite_of_all a7 _ _ _ _ _ e7,
    pre_finite_of_all a8 _ _ _ _ _ e8, pre_finite_of_all a9 _ _ _ _ _ e9⟩

end Cert.Pre_finite_inputs.Decode

end
-- ==== Proof.Bridge.lean ====
/-
  The two programs compute one array: under the precondition (real entries, adjacency words 0 or 1) the reference's
  result and the kernel's result are, entry by entry, the same real number `Gcn.out` of graph `g`'s data.
-/
import proofs.«154241_g14164802142580_cont_sun_m_321_17_alg».proof.Proof.KDefs
import proofs.«154241_g14164802142580_cont_sun_m_321_17_alg».proof.Proof.KValue
import proofs.«154241_g14164802142580_cont_sun_m_321_17_alg».proof.Proof.RefDefs
import proofs.«154241_g14164802142580_cont_sun_m_321_17_alg».proof.Proof.RefAsm
import proofs.«154241_g14164802142580_cont_sun_m_321_17_alg».proof.Proof.PreDecode
import proofs.«154241_g14164802142580_cont_sun_m_321_17_alg».proof.Proof.Spec
import Idealize.ShloMosaic.Lib.ValueIdx

noncomputable section

namespace Cert.Bridge

open Idealize.ShloMosaic Idealize.ShloMosaic.ValueIdx

/-- Under the precondition the reference's result array is the kernel's. -/
theorem whole_eq_KG [Cert.Pre_finite_inputs.Facts]
    (a0 : FVec Ideal Cert.KernelIdeal.S2x1024x128 .f32) (a1 : IVec Cert.KernelIdeal.S2x1024x1024 32)
    (a2 : FVec Ideal Cert.KernelIdeal.S128x128 .f32) (a3 : FVec Ideal Cert.KernelIdeal.S128 .f32)
    (a4 : FVec Ideal Cert.KernelIdeal.S128x128 .f32) (a5 : FVec Ideal Cert.KernelIdeal.S128 .f32)
    (a6 : FVec Ideal Cert.KernelIdeal.S128x128 .f32) (a7 : FVec Ideal Cert.KernelIdeal.S128 .f32)
    (a8 : FVec Ideal Cert.KernelIdeal.S128x128 .f32) (a9 : FVec Ideal Cert.KernelIdeal.S128 .f32)
    (h : Cert.Pre_finite_inputs.fn (F := Ideal) a0 a1 a2 a3 a4 a5 a6 a7 a8 a9 = (fun _ => 1#1)) :
    Cert.ReferenceIdeal.RefDefs.whole (F := Ideal) a0 a1 a2 a3 a4 a5 a6 a7 a8 a9
      = Cert.KernelIdeal.GcnK.KG (F := Ideal) a0 a1 a2 a3 a4 a5 a6 a7 a8 a9 := by
  -- the precondition read entry by entry: real arrays behind every float argument, words 0 or 1
  obtain ⟨d0, d1, d2, d3, d4, d5, d6, d7, d8, d9⟩ :=
    Cert.Pre_finite_inputs.Decode.decode a0 a1 a2 a3 a4 a5 a6 a7 a8 a9 h
  choose X0 hX0 using d0
  choose V0 hV0 using d2
  choose c0 hc0 using d3
  choose V1 hV1 using d4
  choose c1 hc1 using d5
  choose V2 hV2 using d6
  choose c2 hc2 using d7
  choose V3 hV3 using d8
  choose c3 hc3 using d9
  funext j
  obtain ⟨g, n, f, rfl⟩ : ∃ (g : Fin 2) (n : Fin 1024) (f : Fin 128), j = ix3 g n f := ⟨j 0, j 1, j 2, eq_ix3 j⟩
  -- both sides at (g, n, f) are the same real number: the stack of graph g's data
  have hR := Cert.ReferenceIdeal.RefMath.whole_apply a0 a1 a2 a3 a4 a5 a6 a7 a8 a9
    (fun g s k => X0 (ix3 g s k)) (fun k f => V0 (ix2 k f)) (fun k f => V1 (ix2 k f)) (fun k f => V2 (ix2 k f))
    (fun k f => V3 (ix2 k f)) (fun f => c0 (ix1 f)) (fun f => c1 (ix1 f)) (fun f => c2 (ix1 f)) (fun f => c3 (ix1 f))
    (fun g s k => hX0 (ix3 g s k)) (fun g s d => d1 (ix3 g s d)) (fun k f => hV0 (ix2 k f)) (fun f => hc0 (ix1 f))
    (fun k f => hV1 (ix2 k f)) (fun f => hc1 (ix1 f)) (fun k f => hV2 (ix2 k f)) (fun f => hc2 (ix1 f))
    (fun k f => hV3 (ix2 k f)) (fun f => hc3 (ix1 f)) g n f
  have hK : Cert.KernelIdeal.GcnK.KG (F := Ideal) a0 a1 a2 a3 a4 a5 a6 a7 a8 a9 (ix3 g n f)
      = ((Cert.Gcn.out (fun s d => (((a1 (ix3 g s d)).toInt : ℤ) : ℝ)) (fun s k => X0 (ix3 g s k))
          (fun k f => V0 (ix2 k f)) (fun f => c0 (ix1 f)) (fun k f => V1 (ix2 k f)) (fun f => c1 (ix1 f))
          (fun k f => V2 (ix2 k f)) (fun f => c2 (ix1 f)) (fun k f => V3 (ix2 k f)) (fun f => c3 (ix1 f)) n f : ℝ) : EReal) :=
    Cert.KernelIdeal.GcnK.kpay_apply (fun y => a1 (ix3 g (y 1) (y 2))) (fun y => a0 (ix3 g (y 1) (y 2))) a2 a4 a6 a8
      (fun y => a3 (ix1 (y 1))) (fun y => a5 (ix1 (y 1))) (fun y => a7 (ix1 (y 1))) (fun y => a9 (ix1 (y 1)))
      (fun s k => X0 (ix3 g s k)) (fun k f => V0 (ix2 k f)) (fun k f => V1 (ix2 k f)) (fun k f => V2 (ix2 k f))
      (fun k f => V3 (ix2 k f)) (fun f => c0 (ix1 f)) (fun f => c1 (ix1 f)) (fun f => c2 (ix1 f)) (fun f => c3 (ix1 f))
      (fun s d => d1 (ix3 g s d)) (fun s k => hX0 (ix3 g s k)) (fun k f => hV0 (ix2 k f)) (fun k f => hV1 (ix2 k f))
      (fun k f => hV2 (ix2 k f)) (fun k f => hV3 (ix2 k f)) (fun f => hc0 (ix1 f)) (fun f => hc1 (ix1 f))
      (fun f => hc2 (ix1 f)) (fun f => hc3 (ix1 f)) n f
  exact hR.trans hK.symm

end Cert.Bridge

end
-- ==== Proof.RefOps.lean ====
/- (the reference's @main as lists of its host operations, called functions inlined over their call records; the run by run_seq) -/
import proofs.«154241_g14164802142580_cont_sun_m_321_17_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- Operations 0 … 54 of @main. -/
abbrev q0 : List (HloOp τ sig (Elt F)) :=
  [ StableHlo.unary main_arg0 main_v0 ((extractStridedSlice S1x1024x128 ![0, 0, 0] · slices_S2x1024x128_S1x1024x128_0_0_0) : (⟨S2x1024x128, .f32⟩ : BufTy).Contents (Elt F) → (⟨S1x1024x128, .f32⟩ : BufTy).Contents (Elt F)),
    StableHlo.reshape main_v0 main_v1 rfl shapeCasts_S1x1024x128_S1024x128,
    StableHlo.unary main_arg1 main_v2 ((extractStridedSlice S1x1024x1024 ![0, 0, 0] · slices_S2x1024x1024_S1x1024x1024_0_0_0) : (⟨S2x1024x1024, .i32⟩ : BufTy).Contents (Elt F) → (⟨S1x1024x1024, .i32⟩ : BufTy).Contents (Elt F)),
    StableHlo.reshape main_v2 main_v3 rfl shapeCasts_S1x1024x1024_S1024x1024,
    StableHlo.nullary main_v4 (iotaInDim S1048576 32 0),
    StableHlo.nullary main_c (constantI S_ 32 1024#32),
    StableHlo.TRef.unary (.of main_c) main_call0.v0 id,
    StableHlo.TRef.unary main_call0.v0 main_call0.v1 (broadcastInDim S1048576 ![] bcast_S_S1048576),
    StableHlo.TRef.binary (.of main_v4) main_call0.v1 main_call0.v2 Host.divsi,
    StableHlo.TRef.unary (.of main_v4) main_call0.v3 signi,
    StableHlo.TRef.unary main_call0.v0 main_call0.v4 signi,
    StableHlo.TRef.unary main_call0.v4 main_call0.v5 (broadcastInDim S1048576 ![] bcast_S_S1048576),
    StableHlo.TRef.binary main_call0.v3 main_call0.v5 main_call0.v6 (cmpi .ne),
    StableHlo.TRef.unary main_call0.v0 main_call0.v7 (broadcastInDim S1048576 ![] bcast_S_S1048576),
    StableHlo.TRef.binary (.of main_v4) main_call0.v7 main_call0.v8 Host.remsi,
    StableHlo.TRef.nullary main_call0.c (constantI S_ 32 0#32),
    StableHlo.TRef.unary main_call0.c main_call0.v9 (broadcastInDim S1048576 ![] bcast_S_S1048576),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1048576 ![] bcast_S_S1048576),
    StableHlo.TRef.binary main_call0.v2 main_call0.v12 main_call0.v13 subi,
    StableHlo.TRef.ternary main_call0.v11 main_call0.v13 main_call0.v2 main_call0.call0.v0 select,
    StableHlo.nullary main_c_0 (constantI S_ 32 1024#32),
    StableHlo.TRef.unary (.of main_c_0) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S1048576 ![] bcast_S_S1048576),
    StableHlo.TRef.binary (.of main_v4) main_call1.v3 main_call1.v4 Host.remsi,
    StableHlo.TRef.nullary main_call1.c_1 (constantI S_ 32 0#32),
    StableHlo.TRef.unary main_call1.c_1 main_call1.v5 (broadcastInDim S1048576 ![] bcast_S_S1048576),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S1048576 ![] bcast_S_S1048576),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S1048576 ![] bcast_S_S1048576),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S1048576 ![] bcast_S_S1048576),
    StableHlo.TRef.binary main_call1.v4 main_call1.v13 main_call1.v14 addi,
    StableHlo.TRef.ternary main_call1.v12 main_call1.v14 main_call1.v4 main_call1.v15 select,
    StableHlo.unary main_v5 main_v7 (broadcastInDim S1x1048576 ![1] bcast_S1048576_S1x1048576_1 : (⟨S1048576, .i32⟩ : BufTy).Contents (Elt F) → (⟨S1x1048576, .i32⟩ : BufTy).Contents (Elt F)),
    StableHlo.unary main_v6 main_v8 (broadcastInDim S1x1048576 ![1] bcast_S1048576_S1x1048576_1 : (⟨S1048576, .i32⟩ : BufTy).Contents (Elt F) → (⟨S1x1048576, .i32⟩ : BufTy).Contents (Elt F)),
    StableHlo.binary main_v7 main_v8 main_v9 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)),
    StableHlo.reshape main_v3 main_v10 rfl shapeCasts_S1024x1024_S1048576,
    StableHlo.nullary main_c_1 (constantI S_ 32 0#32),
    StableHlo.unary main_c_1 main_v11 (broadcastInDim S1048576 ![] bcast_S_S1048576 : (⟨S_, .i32⟩ : BufTy).Contents (Elt F) → (⟨S1048576, .i32⟩ : BufTy).Contents (Elt F)),
    StableHlo.binary main_v10 main_v11 main_v12 (cmpi .ne : (⟨S1048576, .i32⟩ : BufTy).Contents (Elt F) → (⟨S1048576, .i32⟩ : BufTy).Contents (Elt F) → (⟨S1048576, .i1⟩ : BufTy).Contents (Elt F)),
    StableHlo.binary main_v5 main_v6 main_v13 (cmpi .ne : (⟨S1048576, .i32⟩ : BufTy).Contents (Elt F) → (⟨S1048576, .i32⟩ : BufTy).Contents (Elt F) → (⟨S1048576, .i1⟩ : BufTy).Contents (Elt F)),
    StableHlo.binary main_v12 main_v13 main_v14 (andi : (⟨S1048576, .i1⟩ : BufTy).Contents (Elt F) → (⟨S1048576, .i1⟩ : BufTy).Contents (Elt F) → (⟨S1048576, .i1⟩ : BufTy).Contents (Elt F)),
    StableHlo.unary main_v14 main_v15 (uitofp .f32 : (⟨S1048576, .i1⟩ : BufTy).Contents (Elt F) → (⟨S1048576, .f32⟩ : BufTy).Contents (Elt F)) ]

theorem q0_sub : (q0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub ..⟩

theorem q0_fresh : (q0 : List (HloOp τ sig (Elt F))).Forall fun op => op.fresh = ∅ := by
  simp only [List.Forall]; repeat' constructor

/-- Operations 55 … 97 of @main. -/
abbrev q1 : List (HloOp τ sig (Elt F)) :=
  [ StableHlo.unary main_v9 main_v16 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v16 main_v17 rfl shapeCasts_S1x1048576_S1048576,
    StableHlo.unary main_v9 main_v18 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v18 main_v19 rfl shapeCasts_S1x1048576_S1048576,
    StableHlo.nullary main_v20 (iotaInDim S1024 32 0),
    StableHlo.binary main_v17 main_v20 main_v21 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v19 main_v20 main_v22 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst (constant S_ .f32 0x3F800000#32),
    StableHlo.unary main_cst main_v23 (broadcastInDim S1024 ![] bcast_S_S1024 : (⟨S_, .f32⟩ : BufTy).Contents (Elt F) → (⟨S1024, .f32⟩ : BufTy).Contents (Elt F)),
    StableHlo.binary main_v15 main_v23 main_v24 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_2 (constant S_ .f32 0x00000000#32),
    StableHlo.unary main_cst_2 main_v25 (broadcastInDim S1024 ![] bcast_S_S1024 : (⟨S_, .f32⟩ : BufTy).Contents (Elt F) → (⟨S1024, .f32⟩ : BufTy).Contents (Elt F)),
    StableHlo.nullary main_c_3 (constantI S_ 32 0#32),
    StableHlo.unary main_c_3 main_v26 (broadcastInDim S1049600 ![] bcast_S_S1049600 : (⟨S_, .i32⟩ : BufTy).Contents (Elt F) → (⟨S1049600, .i32⟩ : BufTy).Contents (Elt F)),
    StableHlo.binary main_v22 main_v26 main_v27 (cmpi .slt : (⟨S1049600, .i32⟩ : BufTy).Contents (Elt F) → (⟨S1049600, .i32⟩ : BufTy).Contents (Elt F) → (⟨S1049600, .i1⟩ : BufTy).Contents (Elt F)),
    StableHlo.nullary main_c_4 (constantI S_ 32 1024#32),
    StableHlo.unary main_c_4 main_v28 (broadcastInDim S1049600 ![] bcast_S_S1049600 : (⟨S_, .i32⟩ : BufTy).Contents (Elt F) → (⟨S1049600, .i32⟩ : BufTy).Contents (Elt F)),
    StableHlo.binary main_v22 main_v28 main_v29 (addi : (⟨S1049600, .i32⟩ : BufTy).Contents (Elt F) → (⟨S1049600, .i32⟩ : BufTy).Contents (Elt F) → (⟨S1049600, .i32⟩ : BufTy).Contents (Elt F)),
    StableHlo.ternary main_v27 main_v29 main_v22 main_v30 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v30 main_v31 (broadcastInDim S1049600x1 ![0] bcast_S1049600_S1049600x1_0 : (⟨S1049600, .i32⟩ : BufTy).Contents (Elt F) → (⟨S1049600x1, .i32⟩ : BufTy).Contents (Elt F)),
    StableHlo.ternary main_v25 main_v31 main_v24 main_v32 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_5 (constant S_ .f32 0x00000000#32),
    StableHlo.unary main_cst_5 main_v33 (broadcastInDim S1024 ![] bcast_S_S1024 : (⟨S_, .f32⟩ : BufTy).Contents (Elt F) → (⟨S1024, .f32⟩ : BufTy).Contents (Elt F)),
    StableHlo.binary main_v32 main_v33 main_v34 (cmpf .ogt : (⟨S1024, .f32⟩ : BufTy).Contents (Elt F) → (⟨S1024, .f32⟩ : BufTy).Contents (Elt F) → (⟨S1024, .i1⟩ : BufTy).Contents (Elt F)),
    StableHlo.unary main_v32 main_v35 (Host.sqrt : (⟨S1024, .f32⟩ : BufTy).Contents (Elt F) → (⟨S1024, .f32⟩ : BufTy).Contents (Elt F)),
    StableHlo.nullary main_cst_6 (constant S_ .f32 0x3F800000#32),
    StableHlo.unary main_cst_6 main_v36 (broadcastInDim S1024 ![] bcast_S_S1024 : (⟨S_, .f32⟩ : BufTy).Contents (Elt F) → (⟨S1024, .f32⟩ : BufTy).Contents (Elt F)),
    StableHlo.binary main_v36 main_v35 main_v37 (Host.divf : (⟨S1024, .f32⟩ : BufTy).Contents (Elt F) → (⟨S1024, .f32⟩ : BufTy).Contents (Elt F) → (⟨S1024, .f32⟩ : BufTy).Contents (Elt F)),
    StableHlo.nullary main_cst_7 (constant S_ .f32 0x00000000#32),
    StableHlo.TRef.unary (.of main_cst_7) main_call2.v0 id,
    StableHlo.TRef.unary main_call2.v0 main_call2.v1 (broadcastInDim S1024 ![] bcast_S_S1024),
    StableHlo.TRef.ternary (.of main_v34) (.of main_v37) main_call2.v1 main_call2.v2 select,
    StableHlo.nullary main_c_8 (constantI S_ 32 0#32),
    StableHlo.unary main_c_8 main_v39 (broadcastInDim S1049600 ![] bcast_S_S1049600 : (⟨S_, .i32⟩ : BufTy).Contents (Elt F) → (⟨S1049600, .i32⟩ : BufTy).Contents (Elt F)),
    StableHlo.binary main_v21 main_v39 main_v40 (cmpi .slt : (⟨S1049600, .i32⟩ : BufTy).Contents (Elt F) → (⟨S1049600, .i32⟩ : BufTy).Contents (Elt F) → (⟨S1049600, .i1⟩ : BufTy).Contents (Elt F)),
    StableHlo.nullary main_c_9 (constantI S_ 32 1024#32),
    StableHlo.unary main_c_9 main_v41 (broadcastInDim S1049600 ![] bcast_S_S1049600 : (⟨S_, .i32⟩ : BufTy).Contents (Elt F) → (⟨S1049600, .i32⟩ : BufTy).Contents (Elt F)),
    StableHlo.binary main_v21 main_v41 main_v42 (addi : (⟨S1049600, .i32⟩ : BufTy).Contents (Elt F) → (⟨S1049600, .i32⟩ : BufTy).Contents (Elt F) → (⟨S1049600, .i32⟩ : BufTy).Contents (Elt F)),
    StableHlo.ternary main_v40 main_v42 main_v21 main_v43 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v43 main_v44 (broadcastInDim S1049600x1 ![0] bcast_S1049600_S1049600x1_0 : (⟨S1049600, .i32⟩ : BufTy).Contents (Elt F) → (⟨S1049600x1, .i32⟩ : BufTy).Contents (Elt F)),
    StableHlo.binary main_v38 main_v44 main_v45 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_10 (constantI S_ 32 0#32),
    StableHlo.unary main_c_10 main_v46 (broadcastInDim S1049600 ![] bcast_S_S1049600 : (⟨S_, .i32⟩ : BufTy).Contents (Elt F) → (⟨S1049600, .i32⟩ : BufTy).Contents (Elt F)) ]

theorem q1_sub : (q1 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub ..⟩

theorem q1_fresh : (q1 : List (HloOp τ sig (Elt F))).Forall fun op => op.fresh = ∅ := by
  simp only [List.Forall]; repeat' constructor

/-- Operations 98 … 136 of @main. -/
abbrev q2 : List (HloOp τ sig (Elt F)) :=
  [ StableHlo.binary main_v22 main_v46 main_v47 (cmpi .slt : (⟨S1049600, .i32⟩ : BufTy).Contents (Elt F) → (⟨S1049600, .i32⟩ : BufTy).Contents (Elt F) → (⟨S1049600, .i1⟩ : BufTy).Contents (Elt F)),
    StableHlo.nullary main_c_11 (constantI S_ 32 1024#32),
    StableHlo.unary main_c_11 main_v48 (broadcastInDim S1049600 ![] bcast_S_S1049600 : (⟨S_, .i32⟩ : BufTy).Contents (Elt F) → (⟨S1049600, .i32⟩ : BufTy).Contents (Elt F)),
    StableHlo.binary main_v22 main_v48 main_v49 (addi : (⟨S1049600, .i32⟩ : BufTy).Contents (Elt F) → (⟨S1049600, .i32⟩ : BufTy).Contents (Elt F) → (⟨S1049600, .i32⟩ : BufTy).Contents (Elt F)),
    StableHlo.ternary main_v47 main_v49 main_v22 main_v50 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v50 main_v51 (broadcastInDim S1049600x1 ![0] bcast_S1049600_S1049600x1_0 : (⟨S1049600, .i32⟩ : BufTy).Contents (Elt F) → (⟨S1049600x1, .i32⟩ : BufTy).Contents (Elt F)),
    StableHlo.binary main_v38 main_v51 main_v52 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v45 main_v52 main_v53 (mulf : (⟨S1049600, .f32⟩ : BufTy).Contents (Elt F) → (⟨S1049600, .f32⟩ : BufTy).Contents (Elt F) → (⟨S1049600, .f32⟩ : BufTy).Contents (Elt F)),
    StableHlo.binary main_v53 main_v24 main_v54 (mulf : (⟨S1049600, .f32⟩ : BufTy).Contents (Elt F) → (⟨S1049600, .f32⟩ : BufTy).Contents (Elt F) → (⟨S1049600, .f32⟩ : BufTy).Contents (Elt F)),
    StableHlo.binary main_v1 main_arg2 main_v55 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_12 (constantI S_ 32 0#32),
    StableHlo.unary main_c_12 main_v56 (broadcastInDim S1049600 ![] bcast_S_S1049600 : (⟨S_, .i32⟩ : BufTy).Contents (Elt F) → (⟨S1049600, .i32⟩ : BufTy).Contents (Elt F)),
    StableHlo.binary main_v21 main_v56 main_v57 (cmpi .slt : (⟨S1049600, .i32⟩ : BufTy).Contents (Elt F) → (⟨S1049600, .i32⟩ : BufTy).Contents (Elt F) → (⟨S1049600, .i1⟩ : BufTy).Contents (Elt F)),
    StableHlo.nullary main_c_13 (constantI S_ 32 1024#32),
    StableHlo.unary main_c_13 main_v58 (broadcastInDim S1049600 ![] bcast_S_S1049600 : (⟨S_, .i32⟩ : BufTy).Contents (Elt F) → (⟨S1049600, .i32⟩ : BufTy).Contents (Elt F)),
    StableHlo.binary main_v21 main_v58 main_v59 (addi : (⟨S1049600, .i32⟩ : BufTy).Contents (Elt F) → (⟨S1049600, .i32⟩ : BufTy).Contents (Elt F) → (⟨S1049600, .i32⟩ : BufTy).Contents (Elt F)),
    StableHlo.ternary main_v57 main_v59 main_v21 main_v60 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v60 main_v61 (broadcastInDim S1049600x1 ![0] bcast_S1049600_S1049600x1_0 : (⟨S1049600, .i32⟩ : BufTy).Contents (Elt F) → (⟨S1049600x1, .i32⟩ : BufTy).Contents (Elt F)),
    StableHlo.binary main_v55 main_v61 main_v62 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v54 main_v63 (broadcastInDim S1049600x1 ![0] bcast_S1049600_S1049600x1_0 : (⟨S1049600, .f32⟩ : BufTy).Contents (Elt F) → (⟨S1049600x1, .f32⟩ : BufTy).Contents (Elt F)),
    StableHlo.unary main_v63 main_v64 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v62 main_v64 main_v65 (mulf : (⟨S1049600x128, .f32⟩ : BufTy).Contents (Elt F) → (⟨S1049600x128, .f32⟩ : BufTy).Contents (Elt F) → (⟨S1049600x128, .f32⟩ : BufTy).Contents (Elt F)),
    StableHlo.nullary main_cst_14 (constant S_ .f32 0x00000000#32),
    StableHlo.unary main_cst_14 main_v66 (broadcastInDim S1024x128 ![] bcast_S_S1024x128 : (⟨S_, .f32⟩ : BufTy).Contents (Elt F) → (⟨S1024x128, .f32⟩ : BufTy).Contents (Elt F)),
    StableHlo.nullary main_c_15 (constantI S_ 32 0#32),
    StableHlo.unary main_c_15 main_v67 (broadcastInDim S1049600 ![] bcast_S_S1049600 : (⟨S_, .i32⟩ : BufTy).Contents (Elt F) → (⟨S1049600, .i32⟩ : BufTy).Contents (Elt F)),
    StableHlo.binary main_v22 main_v67 main_v68 (cmpi .slt : (⟨S1049600, .i32⟩ : BufTy).Contents (Elt F) → (⟨S1049600, .i32⟩ : BufTy).Contents (Elt F) → (⟨S1049600, .i1⟩ : BufTy).Contents (Elt F)),
    StableHlo.nullary main_c_16 (constantI S_ 32 1024#32),
    StableHlo.unary main_c_16 main_v69 (broadcastInDim S1049600 ![] bcast_S_S1049600 : (⟨S_, .i32⟩ : BufTy).Contents (Elt F) → (⟨S1049600, .i32⟩ : BufTy).Contents (Elt F)),
    StableHlo.binary main_v22 main_v69 main_v70 (addi : (⟨S1049600, .i32⟩ : BufTy).Contents (Elt F) → (⟨S1049600, .i32⟩ : BufTy).Contents (Elt F) → (⟨S1049600, .i32⟩ : BufTy).Contents (Elt F)),
    StableHlo.ternary main_v68 main_v70 main_v22 main_v71 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v71 main_v72 (broadcastInDim S1049600x1 ![0] bcast_S1049600_S1049600x1_0 : (⟨S1049600, .i32⟩ : BufTy).Contents (Elt F) → (⟨S1049600x1, .i32⟩ : BufTy).Contents (Elt F)),
    StableHlo.ternary main_v66 main_v72 main_v65 main_v73 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg3 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S1024x128 ![0, 1] bcast_S1x128_S1024x128_0_1 : (⟨S1x128, .f32⟩ : BufTy).Contents (Elt F) → (⟨S1024x128, .f32⟩ : BufTy).Contents (Elt F)),
    StableHlo.binary main_v73 main_v75 main_v76 (addf : (⟨S1024x128, .f32⟩ : BufTy).Contents (Elt F) → (⟨S1024x128, .f32⟩ : BufTy).Contents (Elt F) → (⟨S1024x128, .f32⟩ : BufTy).Contents (Elt F)),
    StableHlo.TRef.nullary main_call3.cst (constant S_ .f32 0x00000000#32),
    StableHlo.TRef.unary main_call3.cst main_call3.v0 (broadcastInDim S1024x128 ![] bcast_S_S1024x128),
    StableHlo.TRef.binary (.of main_v76) main_call3.v0 main_call3.v1 maximumf ]

theorem q2_sub : (q2 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q2_fresh : (q2 : List (HloOp τ sig (Elt F))).Forall fun op => op.fresh = ∅ := by
  simp only [List.Forall]; repeat' constructor

/-- Operations 137 … 159 of @main. -/
abbrev q3 : List (HloOp τ sig (Elt F)) :=
  [ StableHlo.unary main_v9 main_v78 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v78 main_v79 rfl shapeCasts_S1x1048576_S1048576,
    StableHlo.unary main_v9 main_v80 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v80 main_v81 rfl shapeCasts_S1x1048576_S1048576,
    StableHlo.nullary main_v82 (iotaInDim S1024 32 0),
    StableHlo.binary main_v79 main_v82 main_v83 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v81 main_v82 main_v84 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_17 (constant S_ .f32 0x3F800000#32),
    StableHlo.unary main_cst_17 main_v85 (broadcastInDim S1024 ![] bcast_S_S1024 : (⟨S_, .f32⟩ : BufTy).Contents (Elt F) → (⟨S1024, .f32⟩ : BufTy).Contents (Elt F)),
    StableHlo.binary main_v15 main_v85 main_v86 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_18 (constant S_ .f32 0x00000000#32),
    StableHlo.unary main_cst_18 main_v87 (broadcastInDim S1024 ![] bcast_S_S1024 : (⟨S_, .f32⟩ : BufTy).Contents (Elt F) → (⟨S1024, .f32⟩ : BufTy).Contents (Elt F)),
    StableHlo.nullary main_c_19 (constantI S_ 32 0#32),
    StableHlo.unary main_c_19 main_v88 (broadcastInDim S1049600 ![] bcast_S_S1049600 : (⟨S_, .i32⟩ : BufTy).Contents (Elt F) → (⟨S1049600, .i32⟩ : BufTy).Contents (Elt F)),
    StableHlo.binary main_v84 main_v88 main_v89 (cmpi .slt : (⟨S1049600, .i32⟩ : BufTy).Contents (Elt F) → (⟨S1049600, .i32⟩ : BufTy).Contents (Elt F) → (⟨S1049600, .i1⟩ : BufTy).Contents (Elt F)),
    StableHlo.nullary main_c_20 (constantI S_ 32 1024#32),
    StableHlo.unary main_c_20 main_v90 (broadcastInDim S1049600 ![] bcast_S_S1049600 : (⟨S_, .i32⟩ : BufTy).Contents (Elt F) → (⟨S1049600, .i32⟩ : BufTy).Contents (Elt F)),
    StableHlo.binary main_v84 main_v90 main_v91 (addi : (⟨S1049600, .i32⟩ : BufTy).Contents (Elt F) → (⟨S1049600, .i32⟩ : BufTy).Contents (Elt F) → (⟨S1049600, .i32⟩ : BufTy).Contents (Elt F)),
    StableHlo.ternary main_v89 main_v91 main_v84 main_v92 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v92 main_v93 (broadcastInDim S1049600x1 ![0] bcast_S1049600_S1049600x1_0 : (⟨S1049600, .i32⟩ : BufTy).Contents (Elt F) → (⟨S1049600x1, .i32⟩ : BufTy).Contents (Elt F)),
    StableHlo.ternary main_v87 main_v93 main_v86 main_v94 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_21 (constant S_ .f32 0x00000000#32),
    StableHlo.unary main_cst_21 main_v95 (broadcastInDim S1024 ![] bcast_S_S1024 : (⟨S_, .f32⟩ : BufTy).Contents (Elt F) → (⟨S1024, .f32⟩ : BufTy).Contents (Elt F)) ]

theorem q3_sub : (q3 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub ..⟩

theorem q3_fresh : (q3 : List (HloOp τ sig (Elt F))).Forall fun op => op.fresh = ∅ := by
  simp only [List.Forall]; repeat' constructor

/-- Operations 160 … 218 of @main. -/
abbrev q4 : List (HloOp τ sig (Elt F)) :=
  [ StableHlo.binary main_v94 main_v95 main_v96 (cmpf .ogt : (⟨S1024, .f32⟩ : BufTy).Contents (Elt F) → (⟨S1024, .f32⟩ : BufTy).Contents (Elt F) → (⟨S1024, .i1⟩ : BufTy).Contents (Elt F)),
    StableHlo.unary main_v94 main_v97 (Host.sqrt : (⟨S1024, .f32⟩ : BufTy).Contents (Elt F) → (⟨S1024, .f32⟩ : BufTy).Contents (Elt F)),
    StableHlo.nullary main_cst_22 (constant S_ .f32 0x3F800000#32),
    StableHlo.unary main_cst_22 main_v98 (broadcastInDim S1024 ![] bcast_S_S1024 : (⟨S_, .f32⟩ : BufTy).Contents (Elt F) → (⟨S1024, .f32⟩ : BufTy).Contents (Elt F)),
    StableHlo.binary main_v98 main_v97 main_v99 (Host.divf : (⟨S1024, .f32⟩ : BufTy).Contents (Elt F) → (⟨S1024, .f32⟩ : BufTy).Contents (Elt F) → (⟨S1024, .f32⟩ : BufTy).Contents (Elt F)),
    StableHlo.nullary main_cst_23 (constant S_ .f32 0x00000000#32),
    StableHlo.TRef.unary (.of main_cst_23) main_call4.v0 id,
    StableHlo.TRef.unary main_call4.v0 main_call4.v1 (broadcastInDim S1024 ![] bcast_S_S1024),
    StableHlo.TRef.ternary (.of main_v96) (.of main_v99) main_call4.v1 main_call4.v2 select,
    StableHlo.nullary main_c_24 (constantI S_ 32 0#32),
    StableHlo.unary main_c_24 main_v101 (broadcastInDim S1049600 ![] bcast_S_S1049600 : (⟨S_, .i32⟩ : BufTy).Contents (Elt F) → (⟨S1049600, .i32⟩ : BufTy).Contents (Elt F)),
    StableHlo.binary main_v83 main_v101 main_v102 (cmpi .slt : (⟨S1049600, .i32⟩ : BufTy).Contents (Elt F) → (⟨S1049600, .i32⟩ : BufTy).Contents (Elt F) → (⟨S1049600, .i1⟩ : BufTy).Contents (Elt F)),
    StableHlo.nullary main_c_25 (constantI S_ 32 1024#32),
    StableHlo.unary main_c_25 main_v103 (broadcastInDim S1049600 ![] bcast_S_S1049600 : (⟨S_, .i32⟩ : BufTy).Contents (Elt F) → (⟨S1049600, .i32⟩ : BufTy).Contents (Elt F)),
    StableHlo.binary main_v83 main_v103 main_v104 (addi : (⟨S1049600, .i32⟩ : BufTy).Contents (Elt F) → (⟨S1049600, .i32⟩ : BufTy).Contents (Elt F) → (⟨S1049600, .i32⟩ : BufTy).Contents (Elt F)),
    StableHlo.ternary main_v102 main_v104 main_v83 main_v105 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v105 main_v106 (broadcastInDim S1049600x1 ![0] bcast_S1049600_S1049600x1_0 : (⟨S1049600, .i32⟩ : BufTy).Contents (Elt F) → (⟨S1049600x1, .i32⟩ : BufTy).Contents (Elt F)),
    StableHlo.binary main_v100 main_v106 main_v107 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_26 (constantI S_ 32 0#32),
    StableHlo.unary main_c_26 main_v108 (broadcastInDim S1049600 ![] bcast_S_S1049600 : (⟨S_, .i32⟩ : BufTy).Contents (Elt F) → (⟨S1049600, .i32⟩ : BufTy).Contents (Elt F)),
    StableHlo.binary main_v84 main_v108 main_v109 (cmpi .slt : (⟨S1049600, .i32⟩ : BufTy).Contents (Elt F) → (⟨S1049600, .i32⟩ : BufTy).Contents (Elt F) → (⟨S1049600, .i1⟩ : BufTy).Contents (Elt F)),
    StableHlo.nullary main_c_27 (constantI S_ 32 1024#32),
    StableHlo.unary main_c_27 main_v110 (broadcastInDim S1049600 ![] bcast_S_S1049600 : (⟨S_, .i32⟩ : BufTy).Contents (Elt F) → (⟨S1049600, .i32⟩ : BufTy).Contents (Elt F)),
    StableHlo.binary main_v84 main_v110 main_v111 (addi : (⟨S1049600, .i32⟩ : BufTy).Contents (Elt F) → (⟨S1049600, .i32⟩ : BufTy).Contents (Elt F) → (⟨S1049600, .i32⟩ : BufTy).Contents (Elt F)),
    StableHlo.ternary main_v109 main_v111 main_v84 main_v112 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v112 main_v113 (broadcastInDim S1049600x1 ![0] bcast_S1049600_S1049600x1_0 : (⟨S1049600, .i32⟩ : BufTy).Contents (Elt F) → (⟨S1049600x1, .i32⟩ : BufTy).Contents (Elt F)),
    StableHlo.binary main_v100 main_v113 main_v114 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v107 main_v114 main_v115 (mulf : (⟨S1049600, .f32⟩ : BufTy).Contents (Elt F) → (⟨S1049600, .f32⟩ : BufTy).Contents (Elt F) → (⟨S1049600, .f32⟩ : BufTy).Contents (Elt F)),
    StableHlo.binary main_v115 main_v86 main_v116 (mulf : (⟨S1049600, .f32⟩ : BufTy).Contents (Elt F) → (⟨S1049600, .f32⟩ : BufTy).Contents (Elt F) → (⟨S1049600, .f32⟩ : BufTy).Contents (Elt F)),
    StableHlo.binary main_v77 main_arg4 main_v117 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_28 (constantI S_ 32 0#32),
    StableHlo.unary main_c_28 main_v118 (broadcastInDim S1049600 ![] bcast_S_S1049600 : (⟨S_, .i32⟩ : BufTy).Contents (Elt F) → (⟨S1049600, .i32⟩ : BufTy).Contents (Elt F)),
    StableHlo.binary main_v83 main_v118 main_v119 (cmpi .slt : (⟨S1049600, .i32⟩ : BufTy).Contents (Elt F) → (⟨S1049600, .i32⟩ : BufTy).Contents (Elt F) → (⟨S1049600, .i1⟩ : BufTy).Contents (Elt F)),
    StableHlo.nullary main_c_29 (constantI S_ 32 1024#32),
    StableHlo.unary main_c_29 main_v120 (broadcastInDim S1049600 ![] bcast_S_S1049600 : (⟨S_, .i32⟩ : BufTy).Contents (Elt F) → (⟨S1049600, .i32⟩ : BufTy).Contents (Elt F)),
    StableHlo.binary main_v83 main_v120 main_v121 (addi : (⟨S1049600, .i32⟩ : BufTy).Contents (Elt F) → (⟨S1049600, .i32⟩ : BufTy).Contents (Elt F) → (⟨S1049600, .i32⟩ : BufTy).Contents (Elt F)),
    StableHlo.ternary main_v119 main_v121 main_v83 main_v122 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v122 main_v123 (broadcastInDim S1049600x1 ![0] bcast_S1049600_S1049600x1_0 : (⟨S1049600, .i32⟩ : BufTy).Contents (Elt F) → (⟨S1049600x1, .i32⟩ : BufTy).Contents (Elt F)),
    StableHlo.binary main_v117 main_v123 main_v124 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v116 main_v125 (broadcastInDim S1049600x1 ![0] bcast_S1049600_S1049600x1_0 : (⟨S1049600, .f32⟩ : BufTy).Contents (Elt F) → (⟨S1049600x1, .f32⟩ : BufTy).Contents (Elt F)),
    StableHlo.unary main_v125 main_v126 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v124 main_v126 main_v127 (mulf : (⟨S1049600x128, .f32⟩ : BufTy).Contents (Elt F) → (⟨S1049600x128, .f32⟩ : BufTy).Contents (Elt F) → (⟨S1049600x128, .f32⟩ : BufTy).Contents (Elt F)),
    StableHlo.nullary main_cst_30 (constant S_ .f32 0x00000000#32),
    StableHlo.unary main_cst_30 main_v128 (broadcastInDim S1024x128 ![] bcast_S_S1024x128 : (⟨S_, .f32⟩ : BufTy).Contents (Elt F) → (⟨S1024x128, .f32⟩ : BufTy).Contents (Elt F)),
    StableHlo.nullary main_c_31 (constantI S_ 32 0#32),
    StableHlo.unary main_c_31 main_v129 (broadcastInDim S1049600 ![] bcast_S_S1049600 : (⟨S_, .i32⟩ : BufTy).Contents (Elt F) → (⟨S1049600, .i32⟩ : BufTy).Contents (Elt F)),
    StableHlo.binary main_v84 main_v129 main_v130 (cmpi .slt : (⟨S1049600, .i32⟩ : BufTy).Contents (Elt F) → (⟨S1049600, .i32⟩ : BufTy).Contents (Elt F) → (⟨S1049600, .i1⟩ : BufTy).Contents (Elt F)),
    StableHlo.nullary main_c_32 (constantI S_ 32 1024#32),
    StableHlo.unary main_c_32 main_v131 (broadcastInDim S1049600 ![] bcast_S_S1049600 : (⟨S_, .i32⟩ : BufTy).Contents (Elt F) → (⟨S1049600, .i32⟩ : BufTy).Contents (Elt F)),
    StableHlo.binary main_v84 main_v131 main_v132 (addi : (⟨S1049600, .i32⟩ : BufTy).Contents (Elt F) → (⟨S1049600, .i32⟩ : BufTy).Contents (Elt F) → (⟨S1049600, .i32⟩ : BufTy).Contents (Elt F)),
    StableHlo.ternary main_v130 main_v132 main_v84 main_v133 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v133 main_v134 (broadcastInDim S1049600x1 ![0] bcast_S1049600_S1049600x1_0 : (⟨S1049600, .i32⟩ : BufTy).Contents (Elt F) → (⟨S1049600x1, .i32⟩ : BufTy).Contents (Elt F)),
    StableHlo.ternary main_v128 main_v134 main_v127 main_v135 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg5 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S1024x128 ![0, 1] bcast_S1x128_S1024x128_0_1 : (⟨S1x128, .f32⟩ : BufTy).Contents (Elt F) → (⟨S1024x128, .f32⟩ : BufTy).Contents (Elt F)),
    StableHlo.binary main_v135 main_v137 main_v138 (addf : (⟨S1024x128, .f32⟩ : BufTy).Contents (Elt F) → (⟨S1024x128, .f32⟩ : BufTy).Contents (Elt F) → (⟨S1024x128, .f32⟩ : BufTy).Contents (Elt F)),
    StableHlo.TRef.nullary main_call5.cst (constant S_ .f32 0x00000000#32),
    StableHlo.TRef.unary main_call5.cst main_call5.v0 (broadcastInDim S1024x128 ![] bcast_S_S1024x128),
    StableHlo.TRef.binary (.of main_v138) main_call5.v0 main_call5.v1 maximumf ]

theorem q4_sub : (q4 : List (HloOp τ sig (Elt F))).Forall fun op => op.bufs ⊆ tcRefs τ sig :=
  ⟨StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q4_fresh : (q4 : List (HloOp τ sig (Elt F))).Forall fun op => op.fresh = ∅ := by
  simp only [List.Forall]; repeat' constructor

/-- Operations 219 … 223 of @main. -/
abbrev q5 : List (HloOp τ sig (Elt F)) :=
  [ StableHlo.unary main_v9 main_v140 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v140 main_v141 rfl shapeCasts_S1x1048576_S1048576,
    StableHlo.unary main_v9 main_v142 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v142 main_v143 rfl shapeCasts_S1x1048576_S1048576,
    StableHlo.nullary main_v144 (iotaInDim S1024 32 0) ]

theorem q5_sub : (q5 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub ..⟩

theorem q5_fresh : (q5 : List (HloOp τ sig (Elt F))).Forall fun op => op.fresh = ∅ := by
  simp only [List.Forall]; repeat' constructor

/-- Operations 224 … 285 of @main. -/
abbrev q6 : List (HloOp τ sig (Elt F)) :=
  [ StableHlo.binary main_v141 main_v144 main_v145 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v143 main_v144 main_v146 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_33 (constant S_ .f32 0x3F800000#32),
    StableHlo.unary main_cst_33 main_v147 (broadcastInDim S1024 ![] bcast_S_S1024 : (⟨S_, .f32⟩ : BufTy).Contents (Elt F) → (⟨S1024, .f32⟩ : BufTy).Contents (Elt F)),
    StableHlo.binary main_v15 main_v147 main_v148 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_34 (constant S_ .f32 0x00000000#32),
    StableHlo.unary main_cst_34 main_v149 (broadcastInDim S1024 ![] bcast_S_S1024 : (⟨S_, .f32⟩ : BufTy).Contents (Elt F) → (⟨S1024, .f32⟩ : BufTy).Contents (Elt F)),
    StableHlo.nullary main_c_35 (constantI S_ 32 0#32),
    StableHlo.unary main_c_35 main_v150 (broadcastInDim S1049600 ![] bcast_S_S1049600 : (⟨S_, .i32⟩ : BufTy).Contents (Elt F) → (⟨S1049600, .i32⟩ : BufTy).Contents (Elt F)),
    StableHlo.binary main_v146 main_v150 main_v151 (cmpi .slt : (⟨S1049600, .i32⟩ : BufTy).Contents (Elt F) → (⟨S1049600, .i32⟩ : BufTy).Contents (Elt F) → (⟨S1049600, .i1⟩ : BufTy).Contents (Elt F)),
    StableHlo.nullary main_c_36 (constantI S_ 32 1024#32),
    StableHlo.unary main_c_36 main_v152 (broadcastInDim S1049600 ![] bcast_S_S1049600 : (⟨S_, .i32⟩ : BufTy).Contents (Elt F) → (⟨S1049600, .i32⟩ : BufTy).Contents (Elt F)),
    StableHlo.binary main_v146 main_v152 main_v153 (addi : (⟨S1049600, .i32⟩ : BufTy).Contents (Elt F) → (⟨S1049600, .i32⟩ : BufTy).Contents (Elt F) → (⟨S1049600, .i32⟩ : BufTy).Contents (Elt F)),
    StableHlo.ternary main_v151 main_v153 main_v146 main_v154 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v154 main_v155 (broadcastInDim S1049600x1 ![0] bcast_S1049600_S1049600x1_0 : (⟨S1049600, .i32⟩ : BufTy).Contents (Elt F) → (⟨S1049600x1, .i32⟩ : BufTy).Contents (Elt F)),
    StableHlo.ternary main_v149 main_v155 main_v148 main_v156 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_37 (constant S_ .f32 0x00000000#32),
    StableHlo.unary main_cst_37 main_v157 (broadcastInDim S1024 ![] bcast_S_S1024 : (⟨S_, .f32⟩ : BufTy).Contents (Elt F) → (⟨S1024, .f32⟩ : BufTy).Contents (Elt F)),
    StableHlo.binary main_v156 main_v157 main_v158 (cmpf .ogt : (⟨S1024, .f32⟩ : BufTy).Contents (Elt F) → (⟨S1024, .f32⟩ : BufTy).Contents (Elt F) → (⟨S1024, .i1⟩ : BufTy).Contents (Elt F)),
    StableHlo.unary main_v156 main_v159 (Host.sqrt : (⟨S1024, .f32⟩ : BufTy).Contents (Elt F) → (⟨S1024, .f32⟩ : BufTy).Contents (Elt F)),
    StableHlo.nullary main_cst_38 (constant S_ .f32 0x3F800000#32),
    StableHlo.unary main_cst_38 main_v160 (broadcastInDim S1024 ![] bcast_S_S1024 : (⟨S_, .f32⟩ : BufTy).Contents (Elt F) → (⟨S1024, .f32⟩ : BufTy).Contents (Elt F)),
    StableHlo.binary main_v160 main_v159 main_v161 (Host.divf : (⟨S1024, .f32⟩ : BufTy).Contents (Elt F) → (⟨S1024, .f32⟩ : BufTy).Contents (Elt F) → (⟨S1024, .f32⟩ : BufTy).Contents (Elt F)),
    StableHlo.nullary main_cst_39 (constant S_ .f32 0x00000000#32),
    StableHlo.TRef.unary (.of main_cst_39) main_call6.v0 id,
    StableHlo.TRef.unary main_call6.v0 main_call6.v1 (broadcastInDim S1024 ![] bcast_S_S1024),
    StableHlo.TRef.ternary (.of main_v158) (.of main_v161) main_call6.v1 main_call6.v2 select,
    StableHlo.nullary main_c_40 (constantI S_ 32 0#32),
    StableHlo.unary main_c_40 main_v163 (broadcastInDim S1049600 ![] bcast_S_S1049600 : (⟨S_, .i32⟩ : BufTy).Contents (Elt F) → (⟨S1049600, .i32⟩ : BufTy).Contents (Elt F)),
    StableHlo.binary main_v145 main_v163 main_v164 (cmpi .slt : (⟨S1049600, .i32⟩ : BufTy).Contents (Elt F) → (⟨S1049600, .i32⟩ : BufTy).Contents (Elt F) → (⟨S1049600, .i1⟩ : BufTy).Contents (Elt F)),
    StableHlo.nullary main_c_41 (constantI S_ 32 1024#32),
    StableHlo.unary main_c_41 main_v165 (broadcastInDim S1049600 ![] bcast_S_S1049600 : (⟨S_, .i32⟩ : BufTy).Contents (Elt F) → (⟨S1049600, .i32⟩ : BufTy).Contents (Elt F)),
    StableHlo.binary main_v145 main_v165 main_v166 (addi : (⟨S1049600, .i32⟩ : BufTy).Contents (Elt F) → (⟨S1049600, .i32⟩ : BufTy).Contents (Elt F) → (⟨S1049600, .i32⟩ : BufTy).Contents (Elt F)),
    StableHlo.ternary main_v164 main_v166 main_v145 main_v167 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v167 main_v168 (broadcastInDim S1049600x1 ![0] bcast_S1049600_S1049600x1_0 : (⟨S1049600, .i32⟩ : BufTy).Contents (Elt F) → (⟨S1049600x1, .i32⟩ : BufTy).Contents (Elt F)),
    StableHlo.binary main_v162 main_v168 main_v169 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_42 (constantI S_ 32 0#32),
    StableHlo.unary main_c_42 main_v170 (broadcastInDim S1049600 ![] bcast_S_S1049600 : (⟨S_, .i32⟩ : BufTy).Contents (Elt F) → (⟨S1049600, .i32⟩ : BufTy).Contents (Elt F)),
    StableHlo.binary main_v146 main_v170 main_v171 (cmpi .slt : (⟨S1049600, .i32⟩ : BufTy).Contents (Elt F) → (⟨S1049600, .i32⟩ : BufTy).Contents (Elt F) → (⟨S1049600, .i1⟩ : BufTy).Contents (Elt F)),
    StableHlo.nullary main_c_43 (constantI S_ 32 1024#32),
    StableHlo.unary main_c_43 main_v172 (broadcastInDim S1049600 ![] bcast_S_S1049600 : (⟨S_, .i32⟩ : BufTy).Contents (Elt F) → (⟨S1049600, .i32⟩ : BufTy).Contents (Elt F)),
    StableHlo.binary main_v146 main_v172 main_v173 (addi : (⟨S1049600, .i32⟩ : BufTy).Contents (Elt F) → (⟨S1049600, .i32⟩ : BufTy).Contents (Elt F) → (⟨S1049600, .i32⟩ : BufTy).Contents (Elt F)),
    StableHlo.ternary main_v171 main_v173 main_v146 main_v174 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v174 main_v175 (broadcastInDim S1049600x1 ![0] bcast_S1049600_S1049600x1_0 : (⟨S1049600, .i32⟩ : BufTy).Contents (Elt F) → (⟨S1049600x1, .i32⟩ : BufTy).Contents (Elt F)),
    StableHlo.binary main_v162 main_v175 main_v176 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v169 main_v176 main_v177 (mulf : (⟨S1049600, .f32⟩ : BufTy).Contents (Elt F) → (⟨S1049600, .f32⟩ : BufTy).Contents (Elt F) → (⟨S1049600, .f32⟩ : BufTy).Contents (Elt F)),
    StableHlo.binary main_v177 main_v148 main_v178 (mulf : (⟨S1049600, .f32⟩ : BufTy).Contents (Elt F) → (⟨S1049600, .f32⟩ : BufTy).Contents (Elt F) → (⟨S1049600, .f32⟩ : BufTy).Contents (Elt F)),
    StableHlo.binary main_v139 main_arg6 main_v179 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_44 (constantI S_ 32 0#32),
    StableHlo.unary main_c_44 main_v180 (broadcastInDim S1049600 ![] bcast_S_S1049600 : (⟨S_, .i32⟩ : BufTy).Contents (Elt F) → (⟨S1049600, .i32⟩ : BufTy).Contents (Elt F)),
    StableHlo.binary main_v145 main_v180 main_v181 (cmpi .slt : (⟨S1049600, .i32⟩ : BufTy).Contents (Elt F) → (⟨S1049600, .i32⟩ : BufTy).Contents (Elt F) → (⟨S1049600, .i1⟩ : BufTy).Contents (Elt F)),
    StableHlo.nullary main_c_45 (constantI S_ 32 1024#32),
    StableHlo.unary main_c_45 main_v182 (broadcastInDim S1049600 ![] bcast_S_S1049600 : (⟨S_, .i32⟩ : BufTy).Contents (Elt F) → (⟨S1049600, .i32⟩ : BufTy).Contents (Elt F)),
    StableHlo.binary main_v145 main_v182 main_v183 (addi : (⟨S1049600, .i32⟩ : BufTy).Contents (Elt F) → (⟨S1049600, .i32⟩ : BufTy).Contents (Elt F) → (⟨S1049600, .i32⟩ : BufTy).Contents (Elt F)),
    StableHlo.ternary main_v181 main_v183 main_v145 main_v184 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v184 main_v185 (broadcastInDim S1049600x1 ![0] bcast_S1049600_S1049600x1_0 : (⟨S1049600, .i32⟩ : BufTy).Contents (Elt F) → (⟨S1049600x1, .i32⟩ : BufTy).Contents (Elt F)),
    StableHlo.binary main_v179 main_v185 main_v186 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v178 main_v187 (broadcastInDim S1049600x1 ![0] bcast_S1049600_S1049600x1_0 : (⟨S1049600, .f32⟩ : BufTy).Contents (Elt F) → (⟨S1049600x1, .f32⟩ : BufTy).Contents (Elt F)),
    StableHlo.unary main_v187 main_v188 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v186 main_v188 main_v189 (mulf : (⟨S1049600x128, .f32⟩ : BufTy).Contents (Elt F) → (⟨S1049600x128, .f32⟩ : BufTy).Contents (Elt F) → (⟨S1049600x128, .f32⟩ : BufTy).Contents (Elt F)),
    StableHlo.nullary main_cst_46 (constant S_ .f32 0x00000000#32),
    StableHlo.unary main_cst_46 main_v190 (broadcastInDim S1024x128 ![] bcast_S_S1024x128 : (⟨S_, .f32⟩ : BufTy).Contents (Elt F) → (⟨S1024x128, .f32⟩ : BufTy).Contents (Elt F)) ]

theorem q6_sub : (q6 : List (HloOp τ sig (Elt F))).Forall fun op => op.bufs ⊆ tcRefs τ sig :=
  ⟨StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub ..⟩

theorem q6_fresh : (q6 : List (HloOp τ sig (Elt F))).Forall fun op => op.fresh = ∅ := by
  simp only [List.Forall]; repeat' constructor

/-- Operations 286 … 300 of @main. -/
abbrev q7 : List (HloOp τ sig (Elt F)) :=
  [ StableHlo.nullary main_c_47 (constantI S_ 32 0#32),
    StableHlo.unary main_c_47 main_v191 (broadcastInDim S1049600 ![] bcast_S_S1049600 : (⟨S_, .i32⟩ : BufTy).Contents (Elt F) → (⟨S1049600, .i32⟩ : BufTy).Contents (Elt F)),
    StableHlo.binary main_v146 main_v191 main_v192 (cmpi .slt : (⟨S1049600, .i32⟩ : BufTy).Contents (Elt F) → (⟨S1049600, .i32⟩ : BufTy).Contents (Elt F) → (⟨S1049600, .i1⟩ : BufTy).Contents (Elt F)),
    StableHlo.nullary main_c_48 (constantI S_ 32 1024#32),
    StableHlo.unary main_c_48 main_v193 (broadcastInDim S1049600 ![] bcast_S_S1049600 : (⟨S_, .i32⟩ : BufTy).Contents (Elt F) → (⟨S1049600, .i32⟩ : BufTy).Contents (Elt F)),
    StableHlo.binary main_v146 main_v193 main_v194 (addi : (⟨S1049600, .i32⟩ : BufTy).Contents (Elt F) → (⟨S1049600, .i32⟩ : BufTy).Contents (Elt F) → (⟨S1049600, .i32⟩ : BufTy).Contents (Elt F)),
    StableHlo.ternary main_v192 main_v194 main_v146 main_v195 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v195 main_v196 (broadcastInDim S1049600x1 ![0] bcast_S1049600_S1049600x1_0 : (⟨S1049600, .i32⟩ : BufTy).Contents (Elt F) → (⟨S1049600x1, .i32⟩ : BufTy).Contents (Elt F)),
    StableHlo.ternary main_v190 main_v196 main_v189 main_v197 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg7 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S1024x128 ![0, 1] bcast_S1x128_S1024x128_0_1 : (⟨S1x128, .f32⟩ : BufTy).Contents (Elt F) → (⟨S1024x128, .f32⟩ : BufTy).Contents (Elt F)),
    StableHlo.binary main_v197 main_v199 main_v200 (addf : (⟨S1024x128, .f32⟩ : BufTy).Contents (Elt F) → (⟨S1024x128, .f32⟩ : BufTy).Contents (Elt F) → (⟨S1024x128, .f32⟩ : BufTy).Contents (Elt F)),
    StableHlo.TRef.nullary main_call7.cst (constant S_ .f32 0x00000000#32),
    StableHlo.TRef.unary main_call7.cst main_call7.v0 (broadcastInDim S1024x128 ![] bcast_S_S1024x128),
    StableHlo.TRef.binary (.of main_v200) main_call7.v0 main_call7.v1 maximumf ]

theorem q7_sub : (q7 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q7_fresh : (q7 : List (HloOp τ sig (Elt F))).Forall fun op => op.fresh = ∅ := by
  simp only [List.Forall]; repeat' constructor

/-- Operations 301 … 349 of @main. -/
abbrev q8 : List (HloOp τ sig (Elt F)) :=
  [ StableHlo.unary main_v9 main_v202 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v202 main_v203 rfl shapeCasts_S1x1048576_S1048576,
    StableHlo.unary main_v9 main_v204 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v204 main_v205 rfl shapeCasts_S1x1048576_S1048576,
    StableHlo.nullary main_v206 (iotaInDim S1024 32 0),
    StableHlo.binary main_v203 main_v206 main_v207 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v205 main_v206 main_v208 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_49 (constant S_ .f32 0x3F800000#32),
    StableHlo.unary main_cst_49 main_v209 (broadcastInDim S1024 ![] bcast_S_S1024 : (⟨S_, .f32⟩ : BufTy).Contents (Elt F) → (⟨S1024, .f32⟩ : BufTy).Contents (Elt F)),
    StableHlo.binary main_v15 main_v209 main_v210 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_50 (constant S_ .f32 0x00000000#32),
    StableHlo.unary main_cst_50 main_v211 (broadcastInDim S1024 ![] bcast_S_S1024 : (⟨S_, .f32⟩ : BufTy).Contents (Elt F) → (⟨S1024, .f32⟩ : BufTy).Contents (Elt F)),
    StableHlo.nullary main_c_51 (constantI S_ 32 0#32),
    StableHlo.unary main_c_51 main_v212 (broadcastInDim S1049600 ![] bcast_S_S1049600 : (⟨S_, .i32⟩ : BufTy).Contents (Elt F) → (⟨S1049600, .i32⟩ : BufTy).Contents (Elt F)),
    StableHlo.binary main_v208 main_v212 main_v213 (cmpi .slt : (⟨S1049600, .i32⟩ : BufTy).Contents (Elt F) → (⟨S1049600, .i32⟩ : BufTy).Contents (Elt F) → (⟨S1049600, .i1⟩ : BufTy).Contents (Elt F)),
    StableHlo.nullary main_c_52 (constantI S_ 32 1024#32),
    StableHlo.unary main_c_52 main_v214 (broadcastInDim S1049600 ![] bcast_S_S1049600 : (⟨S_, .i32⟩ : BufTy).Contents (Elt F) → (⟨S1049600, .i32⟩ : BufTy).Contents (Elt F)),
    StableHlo.binary main_v208 main_v214 main_v215 (addi : (⟨S1049600, .i32⟩ : BufTy).Contents (Elt F) → (⟨S1049600, .i32⟩ : BufTy).Contents (Elt F) → (⟨S1049600, .i32⟩ : BufTy).Contents (Elt F)),
    StableHlo.ternary main_v213 main_v215 main_v208 main_v216 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v216 main_v217 (broadcastInDim S1049600x1 ![0] bcast_S1049600_S1049600x1_0 : (⟨S1049600, .i32⟩ : BufTy).Contents (Elt F) → (⟨S1049600x1, .i32⟩ : BufTy).Contents (Elt F)),
    StableHlo.ternary main_v211 main_v217 main_v210 main_v218 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_53 (constant S_ .f32 0x00000000#32),
    StableHlo.unary main_cst_53 main_v219 (broadcastInDim S1024 ![] bcast_S_S1024 : (⟨S_, .f32⟩ : BufTy).Contents (Elt F) → (⟨S1024, .f32⟩ : BufTy).Contents (Elt F)),
    StableHlo.binary main_v218 main_v219 main_v220 (cmpf .ogt : (⟨S1024, .f32⟩ : BufTy).Contents (Elt F) → (⟨S1024, .f32⟩ : BufTy).Contents (Elt F) → (⟨S1024, .i1⟩ : BufTy).Contents (Elt F)),
    StableHlo.unary main_v218 main_v221 (Host.sqrt : (⟨S1024, .f32⟩ : BufTy).Contents (Elt F) → (⟨S1024, .f32⟩ : BufTy).Contents (Elt F)),
    StableHlo.nullary main_cst_54 (constant S_ .f32 0x3F800000#32),
    StableHlo.unary main_cst_54 main_v222 (broadcastInDim S1024 ![] bcast_S_S1024 : (⟨S_, .f32⟩ : BufTy).Contents (Elt F) → (⟨S1024, .f32⟩ : BufTy).Contents (Elt F)),
    StableHlo.binary main_v222 main_v221 main_v223 (Host.divf : (⟨S1024, .f32⟩ : BufTy).Contents (Elt F) → (⟨S1024, .f32⟩ : BufTy).Contents (Elt F) → (⟨S1024, .f32⟩ : BufTy).Contents (Elt F)),
    StableHlo.nullary main_cst_55 (constant S_ .f32 0x00000000#32),
    StableHlo.TRef.unary (.of main_cst_55) main_call8.v0 id,
    StableHlo.TRef.unary main_call8.v0 main_call8.v1 (broadcastInDim S1024 ![] bcast_S_S1024),
    StableHlo.TRef.ternary (.of main_v220) (.of main_v223) main_call8.v1 main_call8.v2 select,
    StableHlo.nullary main_c_56 (constantI S_ 32 0#32),
    StableHlo.unary main_c_56 main_v225 (broadcastInDim S1049600 ![] bcast_S_S1049600 : (⟨S_, .i32⟩ : BufTy).Contents (Elt F) → (⟨S1049600, .i32⟩ : BufTy).Contents (Elt F)),
    StableHlo.binary main_v207 main_v225 main_v226 (cmpi .slt : (⟨S1049600, .i32⟩ : BufTy).Contents (Elt F) → (⟨S1049600, .i32⟩ : BufTy).Contents (Elt F) → (⟨S1049600, .i1⟩ : BufTy).Contents (Elt F)),
    StableHlo.nullary main_c_57 (constantI S_ 32 1024#32),
    StableHlo.unary main_c_57 main_v227 (broadcastInDim S1049600 ![] bcast_S_S1049600 : (⟨S_, .i32⟩ : BufTy).Contents (Elt F) → (⟨S1049600, .i32⟩ : BufTy).Contents (Elt F)),
    StableHlo.binary main_v207 main_v227 main_v228 (addi : (⟨S1049600, .i32⟩ : BufTy).Contents (Elt F) → (⟨S1049600, .i32⟩ : BufTy).Contents (Elt F) → (⟨S1049600, .i32⟩ : BufTy).Contents (Elt F)),
    StableHlo.ternary main_v226 main_v228 main_v207 main_v229 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v229 main_v230 (broadcastInDim S1049600x1 ![0] bcast_S1049600_S1049600x1_0 : (⟨S1049600, .i32⟩ : BufTy).Contents (Elt F) → (⟨S1049600x1, .i32⟩ : BufTy).Contents (Elt F)),
    StableHlo.binary main_v224 main_v230 main_v231 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_58 (constantI S_ 32 0#32),
    StableHlo.unary main_c_58 main_v232 (broadcastInDim S1049600 ![] bcast_S_S1049600 : (⟨S_, .i32⟩ : BufTy).Contents (Elt F) → (⟨S1049600, .i32⟩ : BufTy).Contents (Elt F)),
    StableHlo.binary main_v208 main_v232 main_v233 (cmpi .slt : (⟨S1049600, .i32⟩ : BufTy).Contents (Elt F) → (⟨S1049600, .i32⟩ : BufTy).Contents (Elt F) → (⟨S1049600, .i1⟩ : BufTy).Contents (Elt F)),
    StableHlo.nullary main_c_59 (constantI S_ 32 1024#32),
    StableHlo.unary main_c_59 main_v234 (broadcastInDim S1049600 ![] bcast_S_S1049600 : (⟨S_, .i32⟩ : BufTy).Contents (Elt F) → (⟨S1049600, .i32⟩ : BufTy).Contents (Elt F)),
    StableHlo.binary main_v208 main_v234 main_v235 (addi : (⟨S1049600, .i32⟩ : BufTy).Contents (Elt F) → (⟨S1049600, .i32⟩ : BufTy).Contents (Elt F) → (⟨S1049600, .i32⟩ : BufTy).Contents (Elt F)),
    StableHlo.ternary main_v233 main_v235 main_v208 main_v236 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v236 main_v237 (broadcastInDim S1049600x1 ![0] bcast_S1049600_S1049600x1_0 : (⟨S1049600, .i32⟩ : BufTy).Contents (Elt F) → (⟨S1049600x1, .i32⟩ : BufTy).Contents (Elt F)) ]

theorem q8_sub : (q8 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩

theorem q8_fresh : (q8 : List (HloOp τ sig (Elt F))).Forall fun op => op.fresh = ∅ := by
  simp only [List.Forall]; repeat' constructor

/-- Operations 350 … 382 of @main. -/
abbrev q9 : List (HloOp τ sig (Elt F)) :=
  [ StableHlo.binary main_v224 main_v237 main_v238 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v231 main_v238 main_v239 (mulf : (⟨S1049600, .f32⟩ : BufTy).Contents (Elt F) → (⟨S1049600, .f32⟩ : BufTy).Contents (Elt F) → (⟨S1049600, .f32⟩ : BufTy).Contents (Elt F)),
    StableHlo.binary main_v239 main_v210 main_v240 (mulf : (⟨S1049600, .f32⟩ : BufTy).Contents (Elt F) → (⟨S1049600, .f32⟩ : BufTy).Contents (Elt F) → (⟨S1049600, .f32⟩ : BufTy).Contents (Elt F)),
    StableHlo.binary main_v201 main_arg8 main_v241 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_60 (constantI S_ 32 0#32),
    StableHlo.unary main_c_60 main_v242 (broadcastInDim S1049600 ![] bcast_S_S1049600 : (⟨S_, .i32⟩ : BufTy).Contents (Elt F) → (⟨S1049600, .i32⟩ : BufTy).Contents (Elt F)),
    StableHlo.binary main_v207 main_v242 main_v243 (cmpi .slt : (⟨S1049600, .i32⟩ : BufTy).Contents (Elt F) → (⟨S1049600, .i32⟩ : BufTy).Contents (Elt F) → (⟨S1049600, .i1⟩ : BufTy).Contents (Elt F)),
    StableHlo.nullary main_c_61 (constantI S_ 32 1024#32),
    StableHlo.unary main_c_61 main_v244 (broadcastInDim S1049600 ![] bcast_S_S1049600 : (⟨S_, .i32⟩ : BufTy).Contents (Elt F) → (⟨S1049600, .i32⟩ : BufTy).Contents (Elt F)),
    StableHlo.binary main_v207 main_v244 main_v245 (addi : (⟨S1049600, .i32⟩ : BufTy).Contents (Elt F) → (⟨S1049600, .i32⟩ : BufTy).Contents (Elt F) → (⟨S1049600, .i32⟩ : BufTy).Contents (Elt F)),
    StableHlo.ternary main_v243 main_v245 main_v207 main_v246 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v246 main_v247 (broadcastInDim S1049600x1 ![0] bcast_S1049600_S1049600x1_0 : (⟨S1049600, .i32⟩ : BufTy).Contents (Elt F) → (⟨S1049600x1, .i32⟩ : BufTy).Contents (Elt F)),
    StableHlo.binary main_v241 main_v247 main_v248 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v240 main_v249 (broadcastInDim S1049600x1 ![0] bcast_S1049600_S1049600x1_0 : (⟨S1049600, .f32⟩ : BufTy).Contents (Elt F) → (⟨S1049600x1, .f32⟩ : BufTy).Contents (Elt F)),
    StableHlo.unary main_v249 main_v250 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v248 main_v250 main_v251 (mulf : (⟨S1049600x128, .f32⟩ : BufTy).Contents (Elt F) → (⟨S1049600x128, .f32⟩ : BufTy).Contents (Elt F) → (⟨S1049600x128, .f32⟩ : BufTy).Contents (Elt F)),
    StableHlo.nullary main_cst_62 (constant S_ .f32 0x00000000#32),
    StableHlo.unary main_cst_62 main_v252 (broadcastInDim S1024x128 ![] bcast_S_S1024x128 : (⟨S_, .f32⟩ : BufTy).Contents (Elt F) → (⟨S1024x128, .f32⟩ : BufTy).Contents (Elt F)),
    StableHlo.nullary main_c_63 (constantI S_ 32 0#32),
    StableHlo.unary main_c_63 main_v253 (broadcastInDim S1049600 ![] bcast_S_S1049600 : (⟨S_, .i32⟩ : BufTy).Contents (Elt F) → (⟨S1049600, .i32⟩ : BufTy).Contents (Elt F)),
    StableHlo.binary main_v208 main_v253 main_v254 (cmpi .slt : (⟨S1049600, .i32⟩ : BufTy).Contents (Elt F) → (⟨S1049600, .i32⟩ : BufTy).Contents (Elt F) → (⟨S1049600, .i1⟩ : BufTy).Contents (Elt F)),
    StableHlo.nullary main_c_64 (constantI S_ 32 1024#32),
    StableHlo.unary main_c_64 main_v255 (broadcastInDim S1049600 ![] bcast_S_S1049600 : (⟨S_, .i32⟩ : BufTy).Contents (Elt F) → (⟨S1049600, .i32⟩ : BufTy).Contents (Elt F)),
    StableHlo.binary main_v208 main_v255 main_v256 (addi : (⟨S1049600, .i32⟩ : BufTy).Contents (Elt F) → (⟨S1049600, .i32⟩ : BufTy).Contents (Elt F) → (⟨S1049600, .i32⟩ : BufTy).Contents (Elt F)),
    StableHlo.ternary main_v254 main_v256 main_v208 main_v257 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v257 main_v258 (broadcastInDim S1049600x1 ![0] bcast_S1049600_S1049600x1_0 : (⟨S1049600, .i32⟩ : BufTy).Contents (Elt F) → (⟨S1049600x1, .i32⟩ : BufTy).Contents (Elt F)),
    StableHlo.ternary main_v252 main_v258 main_v251 main_v259 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg9 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S1024x128 ![0, 1] bcast_S1x128_S1024x128_0_1 : (⟨S1x128, .f32⟩ : BufTy).Contents (Elt F) → (⟨S1024x128, .f32⟩ : BufTy).Contents (Elt F)),
    StableHlo.binary main_v259 main_v261 main_v262 (addf : (⟨S1024x128, .f32⟩ : BufTy).Contents (Elt F) → (⟨S1024x128, .f32⟩ : BufTy).Contents (Elt F) → (⟨S1024x128, .f32⟩ : BufTy).Contents (Elt F)),
    StableHlo.TRef.nullary main_call9.cst (constant S_ .f32 0x00000000#32),
    StableHlo.TRef.unary main_call9.cst main_call9.v0 (broadcastInDim S1024x128 ![] bcast_S_S1024x128),
    StableHlo.TRef.binary (.of main_v262) main_call9.v0 main_call9.v1 maximumf ]

theorem q9_sub : (q9 : List (HloOp τ sig (Elt F))).Forall fun op => op.bufs ⊆ tcRefs τ sig :=
  ⟨StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q9_fresh : (q9 : List (HloOp τ sig (Elt F))).Forall fun op => op.fresh = ∅ := by
  simp only [List.Forall]; repeat' constructor

/-- Operations 383 … 392 of @main. -/
abbrev q10 : List (HloOp τ sig (Elt F)) :=
  [ StableHlo.unary main_v77 main_v264 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v139 main_v265 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v201 main_v266 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v263 main_v267 (broadcastInDim S1x1024x128 ![1, 2] bcast_S1024x128_S1x1024x128_1_2 : (⟨S1024x128, .f32⟩ : BufTy).Contents (Elt F) → (⟨S1x1024x128, .f32⟩ : BufTy).Contents (Elt F)),
    StableHlo.nary ![main_v264, main_v265, main_v266, main_v267] main_v268 (fun u => concatenate S4x1024x128 0 [⟨S1x1024x128, u 0⟩, ⟨S1x1024x128, u 1⟩, ⟨S1x1024x128, u 2⟩, ⟨S1x1024x128, u 3⟩] concatenates_S1x1024x128_S1x1024x128_S1x1024x128_S1x1024x128_S4x1024x128_d0),
    StableHlo.nullary main_cst_65 (constant S_ .f32 0x00000000#32),
    StableHlo.binary main_v268 main_cst_65 main_v269 ((fun x v => Host.reduceAdd x v reducesTo_S4x1024x128_S1024x128_d0 h_S_) : (⟨S4x1024x128, .f32⟩ : BufTy).Contents (Elt F) → (⟨S_, .f32⟩ : BufTy).Contents (Elt F) → (⟨S1024x128, .f32⟩ : BufTy).Contents (Elt F)),
    StableHlo.nullary main_cst_66 (constant S_ .f32 0x40800000#32),
    StableHlo.unary main_cst_66 main_v270 (broadcastInDim S1024x128 ![] bcast_S_S1024x128 : (⟨S_, .f32⟩ : BufTy).Contents (Elt F) → (⟨S1024x128, .f32⟩ : BufTy).Contents (Elt F)),
    StableHlo.binary main_v269 main_v270 main_v271 (Host.divf : (⟨S1024x128, .f32⟩ : BufTy).Contents (Elt F) → (⟨S1024x128, .f32⟩ : BufTy).Contents (Elt F) → (⟨S1024x128, .f32⟩ : BufTy).Contents (Elt F)) ]

theorem q10_sub : (q10 : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.nary_bufs_sub .., StableHlo.nullary_bufs_sub .., StableHlo.binary_bufs_sub .., StableHlo.nullary_bufs_sub .., StableHlo.unary_bufs_sub .., StableHlo.binary_bufs_sub ..⟩

theorem q10_fresh : (q10 : List (HloOp τ sig (Elt F))).Forall fun op => op.fresh = ∅ := by
  simp only [List.Forall]; repeat' constructor

/-- Operations 393 … 447 of @main. -/
abbrev q11 : List (HloOp τ sig (Elt F)) :=
  [ StableHlo.unary main_arg0 main_v272 ((extractStridedSlice S1x1024x128 ![1, 0, 0] · slices_S2x1024x128_S1x1024x128_1_0_0) : (⟨S2x1024x128, .f32⟩ : BufTy).Contents (Elt F) → (⟨S1x1024x128, .f32⟩ : BufTy).Contents (Elt F)),
    StableHlo.reshape main_v272 main_v273 rfl shapeCasts_S1x1024x128_S1024x128,
    StableHlo.unary main_arg1 main_v274 ((extractStridedSlice S1x1024x1024 ![1, 0, 0] · slices_S2x1024x1024_S1x1024x1024_1_0_0) : (⟨S2x1024x1024, .i32⟩ : BufTy).Contents (Elt F) → (⟨S1x1024x1024, .i32⟩ : BufTy).Contents (Elt F)),
    StableHlo.reshape main_v274 main_v275 rfl shapeCasts_S1x1024x1024_S1024x1024,
    StableHlo.nullary main_v276 (iotaInDim S1048576 32 0),
    StableHlo.nullary main_c_67 (constantI S_ 32 1024#32),
    StableHlo.TRef.unary (.of main_c_67) main_call10.v0 id,
    StableHlo.TRef.unary main_call10.v0 main_call10.v1 (broadcastInDim S1048576 ![] bcast_S_S1048576),
    StableHlo.TRef.binary (.of main_v276) main_call10.v1 main_call10.v2 Host.divsi,
    StableHlo.TRef.unary (.of main_v276) main_call10.v3 signi,
    StableHlo.TRef.unary main_call10.v0 main_call10.v4 signi,
    StableHlo.TRef.unary main_call10.v4 main_call10.v5 (broadcastInDim S1048576 ![] bcast_S_S1048576),
    StableHlo.TRef.binary main_call10.v3 main_call10.v5 main_call10.v6 (cmpi .ne),
    StableHlo.TRef.unary main_call10.v0 main_call10.v7 (broadcastInDim S1048576 ![] bcast_S_S1048576),
    StableHlo.TRef.binary (.of main_v276) main_call10.v7 main_call10.v8 Host.remsi,
    StableHlo.TRef.nullary main_call10.c (constantI S_ 32 0#32),
    StableHlo.TRef.unary main_call10.c main_call10.v9 (broadcastInDim S1048576 ![] bcast_S_S1048576),
    StableHlo.TRef.binary main_call10.v8 main_call10.v9 main_call10.v10 (cmpi .ne),
    StableHlo.TRef.binary main_call10.v6 main_call10.v10 main_call10.v11 andi,
    StableHlo.TRef.nullary main_call10.c_0 (constantI S_ 32 1#32),
    StableHlo.TRef.unary main_call10.c_0 main_call10.v12 (broadcastInDim S1048576 ![] bcast_S_S1048576),
    StableHlo.TRef.binary main_call10.v2 main_call10.v12 main_call10.v13 subi,
    StableHlo.TRef.ternary main_call10.v11 main_call10.v13 main_call10.v2 main_call10.call0.v0 select,
    StableHlo.nullary main_c_68 (constantI S_ 32 1024#32),
    StableHlo.TRef.unary (.of main_c_68) main_call11.v0 id,
    StableHlo.TRef.nullary main_call11.c (constantI S_ 32 0#32),
    StableHlo.TRef.binary main_call11.v0 main_call11.c main_call11.v1 (cmpi .eq),
    StableHlo.TRef.nullary main_call11.c_0 (constantI S_ 32 1#32),
    StableHlo.TRef.ternary main_call11.v1 main_call11.c_0 main_call11.v0 main_call11.call0.v0 select,
    StableHlo.TRef.unary main_call11.call0.v0 main_call11.v3 (broadcastInDim S1048576 ![] bcast_S_S1048576),
    StableHlo.TRef.binary (.of main_v276) main_call11.v3 main_call11.v4 Host.remsi,
    StableHlo.TRef.nullary main_call11.c_1 (constantI S_ 32 0#32),
    StableHlo.TRef.unary main_call11.c_1 main_call11.v5 (broadcastInDim S1048576 ![] bcast_S_S1048576),
    StableHlo.TRef.binary main_call11.v4 main_call11.v5 main_call11.v6 (cmpi .ne),
    StableHlo.TRef.nullary main_call11.c_2 (constantI S_ 32 0#32),
    StableHlo.TRef.unary main_call11.c_2 main_call11.v7 (broadcastInDim S1048576 ![] bcast_S_S1048576),
    StableHlo.TRef.binary main_call11.v4 main_call11.v7 main_call11.v8 (cmpi .slt),
    StableHlo.TRef.nullary main_call11.c_3 (constantI S_ 32 0#32),
    StableHlo.TRef.binary main_call11.call0.v0 main_call11.c_3 main_call11.v9 (cmpi .slt),
    StableHlo.TRef.unary main_call11.v9 main_call11.v10 (broadcastInDim S1048576 ![] bcast_S_S1048576),
    StableHlo.TRef.binary main_call11.v8 main_call11.v10 main_call11.v11 (cmpi .ne),
    StableHlo.TRef.binary main_call11.v11 main_call11.v6 main_call11.v12 andi,
    StableHlo.TRef.unary main_call11.call0.v0 main_call11.v13 (broadcastInDim S1048576 ![] bcast_S_S1048576),
    StableHlo.TRef.binary main_call11.v4 main_call11.v13 main_call11.v14 addi,
    StableHlo.TRef.ternary main_call11.v12 main_call11.v14 main_call11.v4 main_call11.v15 select,
    StableHlo.unary main_v277 main_v279 (broadcastInDim S1x1048576 ![1] bcast_S1048576_S1x1048576_1 : (⟨S1048576, .i32⟩ : BufTy).Contents (Elt F) → (⟨S1x1048576, .i32⟩ : BufTy).Contents (Elt F)),
    StableHlo.unary main_v278 main_v280 (broadcastInDim S1x1048576 ![1] bcast_S1048576_S1x1048576_1 : (⟨S1048576, .i32⟩ : BufTy).Contents (Elt F) → (⟨S1x1048576, .i32⟩ : BufTy).Contents (Elt F)),
    StableHlo.binary main_v279 main_v280 main_v281 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)),
    StableHlo.reshape main_v275 main_v282 rfl shapeCasts_S1024x1024_S1048576,
    StableHlo.nullary main_c_69 (constantI S_ 32 0#32),
    StableHlo.unary main_c_69 main_v283 (broadcastInDim S1048576 ![] bcast_S_S1048576 : (⟨S_, .i32⟩ : BufTy).Contents (Elt F) → (⟨S1048576, .i32⟩ : BufTy).Contents (Elt F)),
    StableHlo.binary main_v282 main_v283 main_v284 (cmpi .ne : (⟨S1048576, .i32⟩ : BufTy).Contents (Elt F) → (⟨S1048576, .i32⟩ : BufTy).Contents (Elt F) → (⟨S1048576, .i1⟩ : BufTy).Contents (Elt F)),
    StableHlo.binary main_v277 main_v278 main_v285 (cmpi .ne : (⟨S1048576, .i32⟩ : BufTy).Contents (Elt F) → (⟨S1048576, .i32⟩ : BufTy).Contents (Elt F) → (⟨S1048576, .i1⟩ : BufTy).Contents (Elt F)),
    StableHlo.binary main_v284 main_v285 main_v286 (andi : (⟨S1048576, .i1⟩ : BufTy).Contents (Elt F) → (⟨S1048576, .i1⟩ : BufTy).Contents (Elt F) → (⟨S1048576, .i1⟩ : BufTy).Contents (Elt F)),
    StableHlo.unary main_v286 main_v287 (uitofp .f32 : (⟨S1048576, .i1⟩ : BufTy).Contents (Elt F) → (⟨S1048576, .f32⟩ : BufTy).Contents (Elt F)) ]

theorem q11_sub : (q11 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub ..⟩

theorem q11_fresh : (q11 : List (HloOp τ sig (Elt F))).Forall fun op => op.fresh = ∅ := by
  simp only [List.Forall]; repeat' constructor

/-- Operations 448 … 509 of @main. -/
abbrev q12 : List (HloOp τ sig (Elt F)) :=
  [ StableHlo.unary main_v281 main_v288 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v288 main_v289 rfl shapeCasts_S1x1048576_S1048576,
    StableHlo.unary main_v281 main_v290 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v290 main_v291 rfl shapeCasts_S1x1048576_S1048576,
    StableHlo.nullary main_v292 (iotaInDim S1024 32 0),
    StableHlo.binary main_v289 main_v292 main_v293 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v291 main_v292 main_v294 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_70 (constant S_ .f32 0x3F800000#32),
    StableHlo.unary main_cst_70 main_v295 (broadcastInDim S1024 ![] bcast_S_S1024 : (⟨S_, .f32⟩ : BufTy).Contents (Elt F) → (⟨S1024, .f32⟩ : BufTy).Contents (Elt F)),
    StableHlo.binary main_v287 main_v295 main_v296 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_71 (constant S_ .f32 0x00000000#32),
    StableHlo.unary main_cst_71 main_v297 (broadcastInDim S1024 ![] bcast_S_S1024 : (⟨S_, .f32⟩ : BufTy).Contents (Elt F) → (⟨S1024, .f32⟩ : BufTy).Contents (Elt F)),
    StableHlo.nullary main_c_72 (constantI S_ 32 0#32),
    StableHlo.unary main_c_72 main_v298 (broadcastInDim S1049600 ![] bcast_S_S1049600 : (⟨S_, .i32⟩ : BufTy).Contents (Elt F) → (⟨S1049600, .i32⟩ : BufTy).Contents (Elt F)),
    StableHlo.binary main_v294 main_v298 main_v299 (cmpi .slt : (⟨S1049600, .i32⟩ : BufTy).Contents (Elt F) → (⟨S1049600, .i32⟩ : BufTy).Contents (Elt F) → (⟨S1049600, .i1⟩ : BufTy).Contents (Elt F)),
    StableHlo.nullary main_c_73 (constantI S_ 32 1024#32),
    StableHlo.unary main_c_73 main_v300 (broadcastInDim S1049600 ![] bcast_S_S1049600 : (⟨S_, .i32⟩ : BufTy).Contents (Elt F) → (⟨S1049600, .i32⟩ : BufTy).Contents (Elt F)),
    StableHlo.binary main_v294 main_v300 main_v301 (addi : (⟨S1049600, .i32⟩ : BufTy).Contents (Elt F) → (⟨S1049600, .i32⟩ : BufTy).Contents (Elt F) → (⟨S1049600, .i32⟩ : BufTy).Contents (Elt F)),
    StableHlo.ternary main_v299 main_v301 main_v294 main_v302 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v302 main_v303 (broadcastInDim S1049600x1 ![0] bcast_S1049600_S1049600x1_0 : (⟨S1049600, .i32⟩ : BufTy).Contents (Elt F) → (⟨S1049600x1, .i32⟩ : BufTy).Contents (Elt F)),
    StableHlo.ternary main_v297 main_v303 main_v296 main_v304 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_74 (constant S_ .f32 0x00000000#32),
    StableHlo.unary main_cst_74 main_v305 (broadcastInDim S1024 ![] bcast_S_S1024 : (⟨S_, .f32⟩ : BufTy).Contents (Elt F) → (⟨S1024, .f32⟩ : BufTy).Contents (Elt F)),
    StableHlo.binary main_v304 main_v305 main_v306 (cmpf .ogt : (⟨S1024, .f32⟩ : BufTy).Contents (Elt F) → (⟨S1024, .f32⟩ : BufTy).Contents (Elt F) → (⟨S1024, .i1⟩ : BufTy).Contents (Elt F)),
    StableHlo.unary main_v304 main_v307 (Host.sqrt : (⟨S1024, .f32⟩ : BufTy).Contents (Elt F) → (⟨S1024, .f32⟩ : BufTy).Contents (Elt F)),
    StableHlo.nullary main_cst_75 (constant S_ .f32 0x3F800000#32),
    StableHlo.unary main_cst_75 main_v308 (broadcastInDim S1024 ![] bcast_S_S1024 : (⟨S_, .f32⟩ : BufTy).Contents (Elt F) → (⟨S1024, .f32⟩ : BufTy).Contents (Elt F)),
    StableHlo.binary main_v308 main_v307 main_v309 (Host.divf : (⟨S1024, .f32⟩ : BufTy).Contents (Elt F) → (⟨S1024, .f32⟩ : BufTy).Contents (Elt F) → (⟨S1024, .f32⟩ : BufTy).Contents (Elt F)),
    StableHlo.nullary main_cst_76 (constant S_ .f32 0x00000000#32),
    StableHlo.TRef.unary (.of main_cst_76) main_call12.v0 id,
    StableHlo.TRef.unary main_call12.v0 main_call12.v1 (broadcastInDim S1024 ![] bcast_S_S1024),
    StableHlo.TRef.ternary (.of main_v306) (.of main_v309) main_call12.v1 main_call12.v2 select,
    StableHlo.nullary main_c_77 (constantI S_ 32 0#32),
    StableHlo.unary main_c_77 main_v311 (broadcastInDim S1049600 ![] bcast_S_S1049600 : (⟨S_, .i32⟩ : BufTy).Contents (Elt F) → (⟨S1049600, .i32⟩ : BufTy).Contents (Elt F)),
    StableHlo.binary main_v293 main_v311 main_v312 (cmpi .slt : (⟨S1049600, .i32⟩ : BufTy).Contents (Elt F) → (⟨S1049600, .i32⟩ : BufTy).Contents (Elt F) → (⟨S1049600, .i1⟩ : BufTy).Contents (Elt F)),
    StableHlo.nullary main_c_78 (constantI S_ 32 1024#32),
    StableHlo.unary main_c_78 main_v313 (broadcastInDim S1049600 ![] bcast_S_S1049600 : (⟨S_, .i32⟩ : BufTy).Contents (Elt F) → (⟨S1049600, .i32⟩ : BufTy).Contents (Elt F)),
    StableHlo.binary main_v293 main_v313 main_v314 (addi : (⟨S1049600, .i32⟩ : BufTy).Contents (Elt F) → (⟨S1049600, .i32⟩ : BufTy).Contents (Elt F) → (⟨S1049600, .i32⟩ : BufTy).Contents (Elt F)),
    StableHlo.ternary main_v312 main_v314 main_v293 main_v315 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v315 main_v316 (broadcastInDim S1049600x1 ![0] bcast_S1049600_S1049600x1_0 : (⟨S1049600, .i32⟩ : BufTy).Contents (Elt F) → (⟨S1049600x1, .i32⟩ : BufTy).Contents (Elt F)),
    StableHlo.binary main_v310 main_v316 main_v317 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_79 (constantI S_ 32 0#32),
    StableHlo.unary main_c_79 main_v318 (broadcastInDim S1049600 ![] bcast_S_S1049600 : (⟨S_, .i32⟩ : BufTy).Contents (Elt F) → (⟨S1049600, .i32⟩ : BufTy).Contents (Elt F)),
    StableHlo.binary main_v294 main_v318 main_v319 (cmpi .slt : (⟨S1049600, .i32⟩ : BufTy).Contents (Elt F) → (⟨S1049600, .i32⟩ : BufTy).Contents (Elt F) → (⟨S1049600, .i1⟩ : BufTy).Contents (Elt F)),
    StableHlo.nullary main_c_80 (constantI S_ 32 1024#32),
    StableHlo.unary main_c_80 main_v320 (broadcastInDim S1049600 ![] bcast_S_S1049600 : (⟨S_, .i32⟩ : BufTy).Contents (Elt F) → (⟨S1049600, .i32⟩ : BufTy).Contents (Elt F)),
    StableHlo.binary main_v294 main_v320 main_v321 (addi : (⟨S1049600, .i32⟩ : BufTy).Contents (Elt F) → (⟨S1049600, .i32⟩ : BufTy).Contents (Elt F) → (⟨S1049600, .i32⟩ : BufTy).Contents (Elt F)),
    StableHlo.ternary main_v319 main_v321 main_v294 main_v322 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v322 main_v323 (broadcastInDim S1049600x1 ![0] bcast_S1049600_S1049600x1_0 : (⟨S1049600, .i32⟩ : BufTy).Contents (Elt F) → (⟨S1049600x1, .i32⟩ : BufTy).Contents (Elt F)),
    StableHlo.binary main_v310 main_v323 main_v324 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v317 main_v324 main_v325 (mulf : (⟨S1049600, .f32⟩ : BufTy).Contents (Elt F) → (⟨S1049600, .f32⟩ : BufTy).Contents (Elt F) → (⟨S1049600, .f32⟩ : BufTy).Contents (Elt F)),
    StableHlo.binary main_v325 main_v296 main_v326 (mulf : (⟨S1049600, .f32⟩ : BufTy).Contents (Elt F) → (⟨S1049600, .f32⟩ : BufTy).Contents (Elt F) → (⟨S1049600, .f32⟩ : BufTy).Contents (Elt F)),
    StableHlo.binary main_v273 main_arg2 main_v327 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_81 (constantI S_ 32 0#32),
    StableHlo.unary main_c_81 main_v328 (broadcastInDim S1049600 ![] bcast_S_S1049600 : (⟨S_, .i32⟩ : BufTy).Contents (Elt F) → (⟨S1049600, .i32⟩ : BufTy).Contents (Elt F)),
    StableHlo.binary main_v293 main_v328 main_v329 (cmpi .slt : (⟨S1049600, .i32⟩ : BufTy).Contents (Elt F) → (⟨S1049600, .i32⟩ : BufTy).Contents (Elt F) → (⟨S1049600, .i1⟩ : BufTy).Contents (Elt F)),
    StableHlo.nullary main_c_82 (constantI S_ 32 1024#32),
    StableHlo.unary main_c_82 main_v330 (broadcastInDim S1049600 ![] bcast_S_S1049600 : (⟨S_, .i32⟩ : BufTy).Contents (Elt F) → (⟨S1049600, .i32⟩ : BufTy).Contents (Elt F)),
    StableHlo.binary main_v293 main_v330 main_v331 (addi : (⟨S1049600, .i32⟩ : BufTy).Contents (Elt F) → (⟨S1049600, .i32⟩ : BufTy).Contents (Elt F) → (⟨S1049600, .i32⟩ : BufTy).Contents (Elt F)),
    StableHlo.ternary main_v329 main_v331 main_v293 main_v332 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v332 main_v333 (broadcastInDim S1049600x1 ![0] bcast_S1049600_S1049600x1_0 : (⟨S1049600, .i32⟩ : BufTy).Contents (Elt F) → (⟨S1049600x1, .i32⟩ : BufTy).Contents (Elt F)),
    StableHlo.binary main_v327 main_v333 main_v334 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)) ]

theorem q12_sub : (q12 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem q12_fresh : (q12 : List (HloOp τ sig (Elt F))).Forall fun op => op.fresh = ∅ := by
  simp only [List.Forall]; repeat' constructor

/-- Operations 510 … 529 of @main. -/
abbrev q13 : List (HloOp τ sig (Elt F)) :=
  [ StableHlo.unary main_v326 main_v335 (broadcastInDim S1049600x1 ![0] bcast_S1049600_S1049600x1_0 : (⟨S1049600, .f32⟩ : BufTy).Contents (Elt F) → (⟨S1049600x1, .f32⟩ : BufTy).Contents (Elt F)),
    StableHlo.unary main_v335 main_v336 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v334 main_v336 main_v337 (mulf : (⟨S1049600x128, .f32⟩ : BufTy).Contents (Elt F) → (⟨S1049600x128, .f32⟩ : BufTy).Contents (Elt F) → (⟨S1049600x128, .f32⟩ : BufTy).Contents (Elt F)),
    StableHlo.nullary main_cst_83 (constant S_ .f32 0x00000000#32),
    StableHlo.unary main_cst_83 main_v338 (broadcastInDim S1024x128 ![] bcast_S_S1024x128 : (⟨S_, .f32⟩ : BufTy).Contents (Elt F) → (⟨S1024x128, .f32⟩ : BufTy).Contents (Elt F)),
    StableHlo.nullary main_c_84 (constantI S_ 32 0#32),
    StableHlo.unary main_c_84 main_v339 (broadcastInDim S1049600 ![] bcast_S_S1049600 : (⟨S_, .i32⟩ : BufTy).Contents (Elt F) → (⟨S1049600, .i32⟩ : BufTy).Contents (Elt F)),
    StableHlo.binary main_v294 main_v339 main_v340 (cmpi .slt : (⟨S1049600, .i32⟩ : BufTy).Contents (Elt F) → (⟨S1049600, .i32⟩ : BufTy).Contents (Elt F) → (⟨S1049600, .i1⟩ : BufTy).Contents (Elt F)),
    StableHlo.nullary main_c_85 (constantI S_ 32 1024#32),
    StableHlo.unary main_c_85 main_v341 (broadcastInDim S1049600 ![] bcast_S_S1049600 : (⟨S_, .i32⟩ : BufTy).Contents (Elt F) → (⟨S1049600, .i32⟩ : BufTy).Contents (Elt F)),
    StableHlo.binary main_v294 main_v341 main_v342 (addi : (⟨S1049600, .i32⟩ : BufTy).Contents (Elt F) → (⟨S1049600, .i32⟩ : BufTy).Contents (Elt F) → (⟨S1049600, .i32⟩ : BufTy).Contents (Elt F)),
    StableHlo.ternary main_v340 main_v342 main_v294 main_v343 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v343 main_v344 (broadcastInDim S1049600x1 ![0] bcast_S1049600_S1049600x1_0 : (⟨S1049600, .i32⟩ : BufTy).Contents (Elt F) → (⟨S1049600x1, .i32⟩ : BufTy).Contents (Elt F)),
    StableHlo.ternary main_v338 main_v344 main_v337 main_v345 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg3 main_v346 (broadcastInDim S1x128 ![1] bcast_S128_S1x128_1 : (⟨S128, .f32⟩ : BufTy).Contents (Elt F) → (⟨S1x128, .f32⟩ : BufTy).Contents (Elt F)),
    StableHlo.unary main_v346 main_v347 (broadcastInDim S1024x128 ![0, 1] bcast_S1x128_S1024x128_0_1 : (⟨S1x128, .f32⟩ : BufTy).Contents (Elt F) → (⟨S1024x128, .f32⟩ : BufTy).Contents (Elt F)),
    StableHlo.binary main_v345 main_v347 main_v348 (addf : (⟨S1024x128, .f32⟩ : BufTy).Contents (Elt F) → (⟨S1024x128, .f32⟩ : BufTy).Contents (Elt F) → (⟨S1024x128, .f32⟩ : BufTy).Contents (Elt F)),
    StableHlo.TRef.nullary main_call13.cst (constant S_ .f32 0x00000000#32),
    StableHlo.TRef.unary main_call13.cst main_call13.v0 (broadcastInDim S1024x128 ![] bcast_S_S1024x128),
    StableHlo.TRef.binary (.of main_v348) main_call13.v0 main_call13.v1 maximumf ]

theorem q13_sub : (q13 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q13_fresh : (q13 : List (HloOp τ sig (Elt F))).Forall fun op => op.fresh = ∅ := by
  simp only [List.Forall]; repeat' constructor

/-- Operations 530 … 573 of @main. -/
abbrev q14 : List (HloOp τ sig (Elt F)) :=
  [ StableHlo.unary main_v281 main_v350 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v350 main_v351 rfl shapeCasts_S1x1048576_S1048576,
    StableHlo.unary main_v281 main_v352 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v352 main_v353 rfl shapeCasts_S1x1048576_S1048576,
    StableHlo.nullary main_v354 (iotaInDim S1024 32 0),
    StableHlo.binary main_v351 main_v354 main_v355 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v353 main_v354 main_v356 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_86 (constant S_ .f32 0x3F800000#32),
    StableHlo.unary main_cst_86 main_v357 (broadcastInDim S1024 ![] bcast_S_S1024 : (⟨S_, .f32⟩ : BufTy).Contents (Elt F) → (⟨S1024, .f32⟩ : BufTy).Contents (Elt F)),
    StableHlo.binary main_v287 main_v357 main_v358 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_87 (constant S_ .f32 0x00000000#32),
    StableHlo.unary main_cst_87 main_v359 (broadcastInDim S1024 ![] bcast_S_S1024 : (⟨S_, .f32⟩ : BufTy).Contents (Elt F) → (⟨S1024, .f32⟩ : BufTy).Contents (Elt F)),
    StableHlo.nullary main_c_88 (constantI S_ 32 0#32),
    StableHlo.unary main_c_88 main_v360 (broadcastInDim S1049600 ![] bcast_S_S1049600 : (⟨S_, .i32⟩ : BufTy).Contents (Elt F) → (⟨S1049600, .i32⟩ : BufTy).Contents (Elt F)),
    StableHlo.binary main_v356 main_v360 main_v361 (cmpi .slt : (⟨S1049600, .i32⟩ : BufTy).Contents (Elt F) → (⟨S1049600, .i32⟩ : BufTy).Contents (Elt F) → (⟨S1049600, .i1⟩ : BufTy).Contents (Elt F)),
    StableHlo.nullary main_c_89 (constantI S_ 32 1024#32),
    StableHlo.unary main_c_89 main_v362 (broadcastInDim S1049600 ![] bcast_S_S1049600 : (⟨S_, .i32⟩ : BufTy).Contents (Elt F) → (⟨S1049600, .i32⟩ : BufTy).Contents (Elt F)),
    StableHlo.binary main_v356 main_v362 main_v363 (addi : (⟨S1049600, .i32⟩ : BufTy).Contents (Elt F) → (⟨S1049600, .i32⟩ : BufTy).Contents (Elt F) → (⟨S1049600, .i32⟩ : BufTy).Contents (Elt F)),
    StableHlo.ternary main_v361 main_v363 main_v356 main_v364 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v364 main_v365 (broadcastInDim S1049600x1 ![0] bcast_S1049600_S1049600x1_0 : (⟨S1049600, .i32⟩ : BufTy).Contents (Elt F) → (⟨S1049600x1, .i32⟩ : BufTy).Contents (Elt F)),
    StableHlo.ternary main_v359 main_v365 main_v358 main_v366 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_90 (constant S_ .f32 0x00000000#32),
    StableHlo.unary main_cst_90 main_v367 (broadcastInDim S1024 ![] bcast_S_S1024 : (⟨S_, .f32⟩ : BufTy).Contents (Elt F) → (⟨S1024, .f32⟩ : BufTy).Contents (Elt F)),
    StableHlo.binary main_v366 main_v367 main_v368 (cmpf .ogt : (⟨S1024, .f32⟩ : BufTy).Contents (Elt F) → (⟨S1024, .f32⟩ : BufTy).Contents (Elt F) → (⟨S1024, .i1⟩ : BufTy).Contents (Elt F)),
    StableHlo.unary main_v366 main_v369 (Host.sqrt : (⟨S1024, .f32⟩ : BufTy).Contents (Elt F) → (⟨S1024, .f32⟩ : BufTy).Contents (Elt F)),
    StableHlo.nullary main_cst_91 (constant S_ .f32 0x3F800000#32),
    StableHlo.unary main_cst_91 main_v370 (broadcastInDim S1024 ![] bcast_S_S1024 : (⟨S_, .f32⟩ : BufTy).Contents (Elt F) → (⟨S1024, .f32⟩ : BufTy).Contents (Elt F)),
    StableHlo.binary main_v370 main_v369 main_v371 (Host.divf : (⟨S1024, .f32⟩ : BufTy).Contents (Elt F) → (⟨S1024, .f32⟩ : BufTy).Contents (Elt F) → (⟨S1024, .f32⟩ : BufTy).Contents (Elt F)),
    StableHlo.nullary main_cst_92 (constant S_ .f32 0x00000000#32),
    StableHlo.TRef.unary (.of main_cst_92) main_call14.v0 id,
    StableHlo.TRef.unary main_call14.v0 main_call14.v1 (broadcastInDim S1024 ![] bcast_S_S1024),
    StableHlo.TRef.ternary (.of main_v368) (.of main_v371) main_call14.v1 main_call14.v2 select,
    StableHlo.nullary main_c_93 (constantI S_ 32 0#32),
    StableHlo.unary main_c_93 main_v373 (broadcastInDim S1049600 ![] bcast_S_S1049600 : (⟨S_, .i32⟩ : BufTy).Contents (Elt F) → (⟨S1049600, .i32⟩ : BufTy).Contents (Elt F)),
    StableHlo.binary main_v355 main_v373 main_v374 (cmpi .slt : (⟨S1049600, .i32⟩ : BufTy).Contents (Elt F) → (⟨S1049600, .i32⟩ : BufTy).Contents (Elt F) → (⟨S1049600, .i1⟩ : BufTy).Contents (Elt F)),
    StableHlo.nullary main_c_94 (constantI S_ 32 1024#32),
    StableHlo.unary main_c_94 main_v375 (broadcastInDim S1049600 ![] bcast_S_S1049600 : (⟨S_, .i32⟩ : BufTy).Contents (Elt F) → (⟨S1049600, .i32⟩ : BufTy).Contents (Elt F)),
    StableHlo.binary main_v355 main_v375 main_v376 (addi : (⟨S1049600, .i32⟩ : BufTy).Contents (Elt F) → (⟨S1049600, .i32⟩ : BufTy).Contents (Elt F) → (⟨S1049600, .i32⟩ : BufTy).Contents (Elt F)),
    StableHlo.ternary main_v374 main_v376 main_v355 main_v377 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v377 main_v378 (broadcastInDim S1049600x1 ![0] bcast_S1049600_S1049600x1_0 : (⟨S1049600, .i32⟩ : BufTy).Contents (Elt F) → (⟨S1049600x1, .i32⟩ : BufTy).Contents (Elt F)),
    StableHlo.binary main_v372 main_v378 main_v379 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_95 (constantI S_ 32 0#32),
    StableHlo.unary main_c_95 main_v380 (broadcastInDim S1049600 ![] bcast_S_S1049600 : (⟨S_, .i32⟩ : BufTy).Contents (Elt F) → (⟨S1049600, .i32⟩ : BufTy).Contents (Elt F)),
    StableHlo.binary main_v356 main_v380 main_v381 (cmpi .slt : (⟨S1049600, .i32⟩ : BufTy).Contents (Elt F) → (⟨S1049600, .i32⟩ : BufTy).Contents (Elt F) → (⟨S1049600, .i1⟩ : BufTy).Contents (Elt F)) ]

theorem q14_sub : (q14 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub ..⟩

theorem q14_fresh : (q14 : List (HloOp τ sig (Elt F))).Forall fun op => op.fresh = ∅ := by
  simp only [List.Forall]; repeat' constructor

/-- Operations 574 … 611 of @main. -/
abbrev q15 : List (HloOp τ sig (Elt F)) :=
  [ StableHlo.nullary main_c_96 (constantI S_ 32 1024#32),
    StableHlo.unary main_c_96 main_v382 (broadcastInDim S1049600 ![] bcast_S_S1049600 : (⟨S_, .i32⟩ : BufTy).Contents (Elt F) → (⟨S1049600, .i32⟩ : BufTy).Contents (Elt F)),
    StableHlo.binary main_v356 main_v382 main_v383 (addi : (⟨S1049600, .i32⟩ : BufTy).Contents (Elt F) → (⟨S1049600, .i32⟩ : BufTy).Contents (Elt F) → (⟨S1049600, .i32⟩ : BufTy).Contents (Elt F)),
    StableHlo.ternary main_v381 main_v383 main_v356 main_v384 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v384 main_v385 (broadcastInDim S1049600x1 ![0] bcast_S1049600_S1049600x1_0 : (⟨S1049600, .i32⟩ : BufTy).Contents (Elt F) → (⟨S1049600x1, .i32⟩ : BufTy).Contents (Elt F)),
    StableHlo.binary main_v372 main_v385 main_v386 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v379 main_v386 main_v387 (mulf : (⟨S1049600, .f32⟩ : BufTy).Contents (Elt F) → (⟨S1049600, .f32⟩ : BufTy).Contents (Elt F) → (⟨S1049600, .f32⟩ : BufTy).Contents (Elt F)),
    StableHlo.binary main_v387 main_v358 main_v388 (mulf : (⟨S1049600, .f32⟩ : BufTy).Contents (Elt F) → (⟨S1049600, .f32⟩ : BufTy).Contents (Elt F) → (⟨S1049600, .f32⟩ : BufTy).Contents (Elt F)),
    StableHlo.binary main_v349 main_arg4 main_v389 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_97 (constantI S_ 32 0#32),
    StableHlo.unary main_c_97 main_v390 (broadcastInDim S1049600 ![] bcast_S_S1049600 : (⟨S_, .i32⟩ : BufTy).Contents (Elt F) → (⟨S1049600, .i32⟩ : BufTy).Contents (Elt F)),
    StableHlo.binary main_v355 main_v390 main_v391 (cmpi .slt : (⟨S1049600, .i32⟩ : BufTy).Contents (Elt F) → (⟨S1049600, .i32⟩ : BufTy).Contents (Elt F) → (⟨S1049600, .i1⟩ : BufTy).Contents (Elt F)),
    StableHlo.nullary main_c_98 (constantI S_ 32 1024#32),
    StableHlo.unary main_c_98 main_v392 (broadcastInDim S1049600 ![] bcast_S_S1049600 : (⟨S_, .i32⟩ : BufTy).Contents (Elt F) → (⟨S1049600, .i32⟩ : BufTy).Contents (Elt F)),
    StableHlo.binary main_v355 main_v392 main_v393 (addi : (⟨S1049600, .i32⟩ : BufTy).Contents (Elt F) → (⟨S1049600, .i32⟩ : BufTy).Contents (Elt F) → (⟨S1049600, .i32⟩ : BufTy).Contents (Elt F)),
    StableHlo.ternary main_v391 main_v393 main_v355 main_v394 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v394 main_v395 (broadcastInDim S1049600x1 ![0] bcast_S1049600_S1049600x1_0 : (⟨S1049600, .i32⟩ : BufTy).Contents (Elt F) → (⟨S1049600x1, .i32⟩ : BufTy).Contents (Elt F)),
    StableHlo.binary main_v389 main_v395 main_v396 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v388 main_v397 (broadcastInDim S1049600x1 ![0] bcast_S1049600_S1049600x1_0 : (⟨S1049600, .f32⟩ : BufTy).Contents (Elt F) → (⟨S1049600x1, .f32⟩ : BufTy).Contents (Elt F)),
    StableHlo.unary main_v397 main_v398 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v396 main_v398 main_v399 (mulf : (⟨S1049600x128, .f32⟩ : BufTy).Contents (Elt F) → (⟨S1049600x128, .f32⟩ : BufTy).Contents (Elt F) → (⟨S1049600x128, .f32⟩ : BufTy).Contents (Elt F)),
    StableHlo.nullary main_cst_99 (constant S_ .f32 0x00000000#32),
    StableHlo.unary main_cst_99 main_v400 (broadcastInDim S1024x128 ![] bcast_S_S1024x128 : (⟨S_, .f32⟩ : BufTy).Contents (Elt F) → (⟨S1024x128, .f32⟩ : BufTy).Contents (Elt F)),
    StableHlo.nullary main_c_100 (constantI S_ 32 0#32),
    StableHlo.unary main_c_100 main_v401 (broadcastInDim S1049600 ![] bcast_S_S1049600 : (⟨S_, .i32⟩ : BufTy).Contents (Elt F) → (⟨S1049600, .i32⟩ : BufTy).Contents (Elt F)),
    StableHlo.binary main_v356 main_v401 main_v402 (cmpi .slt : (⟨S1049600, .i32⟩ : BufTy).Contents (Elt F) → (⟨S1049600, .i32⟩ : BufTy).Contents (Elt F) → (⟨S1049600, .i1⟩ : BufTy).Contents (Elt F)),
    StableHlo.nullary main_c_101 (constantI S_ 32 1024#32),
    StableHlo.unary main_c_101 main_v403 (broadcastInDim S1049600 ![] bcast_S_S1049600 : (⟨S_, .i32⟩ : BufTy).Contents (Elt F) → (⟨S1049600, .i32⟩ : BufTy).Contents (Elt F)),
    StableHlo.binary main_v356 main_v403 main_v404 (addi : (⟨S1049600, .i32⟩ : BufTy).Contents (Elt F) → (⟨S1049600, .i32⟩ : BufTy).Contents (Elt F) → (⟨S1049600, .i32⟩ : BufTy).Contents (Elt F)),
    StableHlo.ternary main_v402 main_v404 main_v356 main_v405 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v405 main_v406 (broadcastInDim S1049600x1 ![0] bcast_S1049600_S1049600x1_0 : (⟨S1049600, .i32⟩ : BufTy).Contents (Elt F) → (⟨S1049600x1, .i32⟩ : BufTy).Contents (Elt F)),
    StableHlo.ternary main_v400 main_v406 main_v399 main_v407 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg5 main_v408 (broadcastInDim S1x128 ![1] bcast_S128_S1x128_1 : (⟨S128, .f32⟩ : BufTy).Contents (Elt F) → (⟨S1x128, .f32⟩ : BufTy).Contents (Elt F)),
    StableHlo.unary main_v408 main_v409 (broadcastInDim S1024x128 ![0, 1] bcast_S1x128_S1024x128_0_1 : (⟨S1x128, .f32⟩ : BufTy).Contents (Elt F) → (⟨S1024x128, .f32⟩ : BufTy).Contents (Elt F)),
    StableHlo.binary main_v407 main_v409 main_v410 (addf : (⟨S1024x128, .f32⟩ : BufTy).Contents (Elt F) → (⟨S1024x128, .f32⟩ : BufTy).Contents (Elt F) → (⟨S1024x128, .f32⟩ : BufTy).Contents (Elt F)),
    StableHlo.TRef.nullary main_call15.cst (constant S_ .f32 0x00000000#32),
    StableHlo.TRef.unary main_call15.cst main_call15.v0 (broadcastInDim S1024x128 ![] bcast_S_S1024x128),
    StableHlo.TRef.binary (.of main_v410) main_call15.v0 main_call15.v1 maximumf ]

theorem q15_sub : (q15 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q15_fresh : (q15 : List (HloOp τ sig (Elt F))).Forall fun op => op.fresh = ∅ := by
  simp only [List.Forall]; repeat' constructor

/-- Operations 612 … 635 of @main. -/
abbrev q16 : List (HloOp τ sig (Elt F)) :=
  [ StableHlo.unary main_v281 main_v412 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v412 main_v413 rfl shapeCasts_S1x1048576_S1048576,
    StableHlo.unary main_v281 main_v414 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v414 main_v415 rfl shapeCasts_S1x1048576_S1048576,
    StableHlo.nullary main_v416 (iotaInDim S1024 32 0),
    StableHlo.binary main_v413 main_v416 main_v417 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v415 main_v416 main_v418 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_102 (constant S_ .f32 0x3F800000#32),
    StableHlo.unary main_cst_102 main_v419 (broadcastInDim S1024 ![] bcast_S_S1024 : (⟨S_, .f32⟩ : BufTy).Contents (Elt F) → (⟨S1024, .f32⟩ : BufTy).Contents (Elt F)),
    StableHlo.binary main_v287 main_v419 main_v420 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_103 (constant S_ .f32 0x00000000#32),
    StableHlo.unary main_cst_103 main_v421 (broadcastInDim S1024 ![] bcast_S_S1024 : (⟨S_, .f32⟩ : BufTy).Contents (Elt F) → (⟨S1024, .f32⟩ : BufTy).Contents (Elt F)),
    StableHlo.nullary main_c_104 (constantI S_ 32 0#32),
    StableHlo.unary main_c_104 main_v422 (broadcastInDim S1049600 ![] bcast_S_S1049600 : (⟨S_, .i32⟩ : BufTy).Contents (Elt F) → (⟨S1049600, .i32⟩ : BufTy).Contents (Elt F)),
    StableHlo.binary main_v418 main_v422 main_v423 (cmpi .slt : (⟨S1049600, .i32⟩ : BufTy).Contents (Elt F) → (⟨S1049600, .i32⟩ : BufTy).Contents (Elt F) → (⟨S1049600, .i1⟩ : BufTy).Contents (Elt F)),
    StableHlo.nullary main_c_105 (constantI S_ 32 1024#32),
    StableHlo.unary main_c_105 main_v424 (broadcastInDim S1049600 ![] bcast_S_S1049600 : (⟨S_, .i32⟩ : BufTy).Contents (Elt F) → (⟨S1049600, .i32⟩ : BufTy).Contents (Elt F)),
    StableHlo.binary main_v418 main_v424 main_v425 (addi : (⟨S1049600, .i32⟩ : BufTy).Contents (Elt F) → (⟨S1049600, .i32⟩ : BufTy).Contents (Elt F) → (⟨S1049600, .i32⟩ : BufTy).Contents (Elt F)),
    StableHlo.ternary main_v423 main_v425 main_v418 main_v426 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v426 main_v427 (broadcastInDim S1049600x1 ![0] bcast_S1049600_S1049600x1_0 : (⟨S1049600, .i32⟩ : BufTy).Contents (Elt F) → (⟨S1049600x1, .i32⟩ : BufTy).Contents (Elt F)),
    StableHlo.ternary main_v421 main_v427 main_v420 main_v428 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_106 (constant S_ .f32 0x00000000#32),
    StableHlo.unary main_cst_106 main_v429 (broadcastInDim S1024 ![] bcast_S_S1024 : (⟨S_, .f32⟩ : BufTy).Contents (Elt F) → (⟨S1024, .f32⟩ : BufTy).Contents (Elt F)),
    StableHlo.binary main_v428 main_v429 main_v430 (cmpf .ogt : (⟨S1024, .f32⟩ : BufTy).Contents (Elt F) → (⟨S1024, .f32⟩ : BufTy).Contents (Elt F) → (⟨S1024, .i1⟩ : BufTy).Contents (Elt F)) ]

theorem q16_sub : (q16 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub ..⟩

theorem q16_fresh : (q16 : List (HloOp τ sig (Elt F))).Forall fun op => op.fresh = ∅ := by
  simp only [List.Forall]; repeat' constructor

/-- Operations 636 … 693 of @main. -/
abbrev q17 : List (HloOp τ sig (Elt F)) :=
  [ StableHlo.unary main_v428 main_v431 (Host.sqrt : (⟨S1024, .f32⟩ : BufTy).Contents (Elt F) → (⟨S1024, .f32⟩ : BufTy).Contents (Elt F)),
    StableHlo.nullary main_cst_107 (constant S_ .f32 0x3F800000#32),
    StableHlo.unary main_cst_107 main_v432 (broadcastInDim S1024 ![] bcast_S_S1024 : (⟨S_, .f32⟩ : BufTy).Contents (Elt F) → (⟨S1024, .f32⟩ : BufTy).Contents (Elt F)),
    StableHlo.binary main_v432 main_v431 main_v433 (Host.divf : (⟨S1024, .f32⟩ : BufTy).Contents (Elt F) → (⟨S1024, .f32⟩ : BufTy).Contents (Elt F) → (⟨S1024, .f32⟩ : BufTy).Contents (Elt F)),
    StableHlo.nullary main_cst_108 (constant S_ .f32 0x00000000#32),
    StableHlo.TRef.unary (.of main_cst_108) main_call16.v0 id,
    StableHlo.TRef.unary main_call16.v0 main_call16.v1 (broadcastInDim S1024 ![] bcast_S_S1024),
    StableHlo.TRef.ternary (.of main_v430) (.of main_v433) main_call16.v1 main_call16.v2 select,
    StableHlo.nullary main_c_109 (constantI S_ 32 0#32),
    StableHlo.unary main_c_109 main_v435 (broadcastInDim S1049600 ![] bcast_S_S1049600 : (⟨S_, .i32⟩ : BufTy).Contents (Elt F) → (⟨S1049600, .i32⟩ : BufTy).Contents (Elt F)),
    StableHlo.binary main_v417 main_v435 main_v436 (cmpi .slt : (⟨S1049600, .i32⟩ : BufTy).Contents (Elt F) → (⟨S1049600, .i32⟩ : BufTy).Contents (Elt F) → (⟨S1049600, .i1⟩ : BufTy).Contents (Elt F)),
    StableHlo.nullary main_c_110 (constantI S_ 32 1024#32),
    StableHlo.unary main_c_110 main_v437 (broadcastInDim S1049600 ![] bcast_S_S1049600 : (⟨S_, .i32⟩ : BufTy).Contents (Elt F) → (⟨S1049600, .i32⟩ : BufTy).Contents (Elt F)),
    StableHlo.binary main_v417 main_v437 main_v438 (addi : (⟨S1049600, .i32⟩ : BufTy).Contents (Elt F) → (⟨S1049600, .i32⟩ : BufTy).Contents (Elt F) → (⟨S1049600, .i32⟩ : BufTy).Contents (Elt F)),
    StableHlo.ternary main_v436 main_v438 main_v417 main_v439 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v439 main_v440 (broadcastInDim S1049600x1 ![0] bcast_S1049600_S1049600x1_0 : (⟨S1049600, .i32⟩ : BufTy).Contents (Elt F) → (⟨S1049600x1, .i32⟩ : BufTy).Contents (Elt F)),
    StableHlo.binary main_v434 main_v440 main_v441 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_111 (constantI S_ 32 0#32),
    StableHlo.unary main_c_111 main_v442 (broadcastInDim S1049600 ![] bcast_S_S1049600 : (⟨S_, .i32⟩ : BufTy).Contents (Elt F) → (⟨S1049600, .i32⟩ : BufTy).Contents (Elt F)),
    StableHlo.binary main_v418 main_v442 main_v443 (cmpi .slt : (⟨S1049600, .i32⟩ : BufTy).Contents (Elt F) → (⟨S1049600, .i32⟩ : BufTy).Contents (Elt F) → (⟨S1049600, .i1⟩ : BufTy).Contents (Elt F)),
    StableHlo.nullary main_c_112 (constantI S_ 32 1024#32),
    StableHlo.unary main_c_112 main_v444 (broadcastInDim S1049600 ![] bcast_S_S1049600 : (⟨S_, .i32⟩ : BufTy).Contents (Elt F) → (⟨S1049600, .i32⟩ : BufTy).Contents (Elt F)),
    StableHlo.binary main_v418 main_v444 main_v445 (addi : (⟨S1049600, .i32⟩ : BufTy).Contents (Elt F) → (⟨S1049600, .i32⟩ : BufTy).Contents (Elt F) → (⟨S1049600, .i32⟩ : BufTy).Contents (Elt F)),
    StableHlo.ternary main_v443 main_v445 main_v418 main_v446 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v446 main_v447 (broadcastInDim S1049600x1 ![0] bcast_S1049600_S1049600x1_0 : (⟨S1049600, .i32⟩ : BufTy).Contents (Elt F) → (⟨S1049600x1, .i32⟩ : BufTy).Contents (Elt F)),
    StableHlo.binary main_v434 main_v447 main_v448 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v441 main_v448 main_v449 (mulf : (⟨S1049600, .f32⟩ : BufTy).Contents (Elt F) → (⟨S1049600, .f32⟩ : BufTy).Contents (Elt F) → (⟨S1049600, .f32⟩ : BufTy).Contents (Elt F)),
    StableHlo.binary main_v449 main_v420 main_v450 (mulf : (⟨S1049600, .f32⟩ : BufTy).Contents (Elt F) → (⟨S1049600, .f32⟩ : BufTy).Contents (Elt F) → (⟨S1049600, .f32⟩ : BufTy).Contents (Elt F)),
    StableHlo.binary main_v411 main_arg6 main_v451 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_113 (constantI S_ 32 0#32),
    StableHlo.unary main_c_113 main_v452 (broadcastInDim S1049600 ![] bcast_S_S1049600 : (⟨S_, .i32⟩ : BufTy).Contents (Elt F) → (⟨S1049600, .i32⟩ : BufTy).Contents (Elt F)),
    StableHlo.binary main_v417 main_v452 main_v453 (cmpi .slt : (⟨S1049600, .i32⟩ : BufTy).Contents (Elt F) → (⟨S1049600, .i32⟩ : BufTy).Contents (Elt F) → (⟨S1049600, .i1⟩ : BufTy).Contents (Elt F)),
    StableHlo.nullary main_c_114 (constantI S_ 32 1024#32),
    StableHlo.unary main_c_114 main_v454 (broadcastInDim S1049600 ![] bcast_S_S1049600 : (⟨S_, .i32⟩ : BufTy).Contents (Elt F) → (⟨S1049600, .i32⟩ : BufTy).Contents (Elt F)),
    StableHlo.binary main_v417 main_v454 main_v455 (addi : (⟨S1049600, .i32⟩ : BufTy).Contents (Elt F) → (⟨S1049600, .i32⟩ : BufTy).Contents (Elt F) → (⟨S1049600, .i32⟩ : BufTy).Contents (Elt F)),
    StableHlo.ternary main_v453 main_v455 main_v417 main_v456 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v456 main_v457 (broadcastInDim S1049600x1 ![0] bcast_S1049600_S1049600x1_0 : (⟨S1049600, .i32⟩ : BufTy).Contents (Elt F) → (⟨S1049600x1, .i32⟩ : BufTy).Contents (Elt F)),
    StableHlo.binary main_v451 main_v457 main_v458 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v450 main_v459 (broadcastInDim S1049600x1 ![0] bcast_S1049600_S1049600x1_0 : (⟨S1049600, .f32⟩ : BufTy).Contents (Elt F) → (⟨S1049600x1, .f32⟩ : BufTy).Contents (Elt F)),
    StableHlo.unary main_v459 main_v460 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v458 main_v460 main_v461 (mulf : (⟨S1049600x128, .f32⟩ : BufTy).Contents (Elt F) → (⟨S1049600x128, .f32⟩ : BufTy).Contents (Elt F) → (⟨S1049600x128, .f32⟩ : BufTy).Contents (Elt F)),
    StableHlo.nullary main_cst_115 (constant S_ .f32 0x00000000#32),
    StableHlo.unary main_cst_115 main_v462 (broadcastInDim S1024x128 ![] bcast_S_S1024x128 : (⟨S_, .f32⟩ : BufTy).Contents (Elt F) → (⟨S1024x128, .f32⟩ : BufTy).Contents (Elt F)),
    StableHlo.nullary main_c_116 (constantI S_ 32 0#32),
    StableHlo.unary main_c_116 main_v463 (broadcastInDim S1049600 ![] bcast_S_S1049600 : (⟨S_, .i32⟩ : BufTy).Contents (Elt F) → (⟨S1049600, .i32⟩ : BufTy).Contents (Elt F)),
    StableHlo.binary main_v418 main_v463 main_v464 (cmpi .slt : (⟨S1049600, .i32⟩ : BufTy).Contents (Elt F) → (⟨S1049600, .i32⟩ : BufTy).Contents (Elt F) → (⟨S1049600, .i1⟩ : BufTy).Contents (Elt F)),
    StableHlo.nullary main_c_117 (constantI S_ 32 1024#32),
    StableHlo.unary main_c_117 main_v465 (broadcastInDim S1049600 ![] bcast_S_S1049600 : (⟨S_, .i32⟩ : BufTy).Contents (Elt F) → (⟨S1049600, .i32⟩ : BufTy).Contents (Elt F)),
    StableHlo.binary main_v418 main_v465 main_v466 (addi : (⟨S1049600, .i32⟩ : BufTy).Contents (Elt F) → (⟨S1049600, .i32⟩ : BufTy).Contents (Elt F) → (⟨S1049600, .i32⟩ : BufTy).Contents (Elt F)),
    StableHlo.ternary main_v464 main_v466 main_v418 main_v467 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v467 main_v468 (broadcastInDim S1049600x1 ![0] bcast_S1049600_S1049600x1_0 : (⟨S1049600, .i32⟩ : BufTy).Contents (Elt F) → (⟨S1049600x1, .i32⟩ : BufTy).Contents (Elt F)),
    StableHlo.ternary main_v462 main_v468 main_v461 main_v469 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg7 main_v470 (broadcastInDim S1x128 ![1] bcast_S128_S1x128_1 : (⟨S128, .f32⟩ : BufTy).Contents (Elt F) → (⟨S1x128, .f32⟩ : BufTy).Contents (Elt F)),
    StableHlo.unary main_v470 main_v471 (broadcastInDim S1024x128 ![0, 1] bcast_S1x128_S1024x128_0_1 : (⟨S1x128, .f32⟩ : BufTy).Contents (Elt F) → (⟨S1024x128, .f32⟩ : BufTy).Contents (Elt F)),
    StableHlo.binary main_v469 main_v471 main_v472 (addf : (⟨S1024x128, .f32⟩ : BufTy).Contents (Elt F) → (⟨S1024x128, .f32⟩ : BufTy).Contents (Elt F) → (⟨S1024x128, .f32⟩ : BufTy).Contents (Elt F)),
    StableHlo.TRef.nullary main_call17.cst (constant S_ .f32 0x00000000#32),
    StableHlo.TRef.unary main_call17.cst main_call17.v0 (broadcastInDim S1024x128 ![] bcast_S_S1024x128),
    StableHlo.TRef.binary (.of main_v472) main_call17.v0 main_call17.v1 maximumf ]

theorem q17_sub : (q17 : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q17_fresh : (q17 : List (HloOp τ sig (Elt F))).Forall fun op => op.fresh = ∅ := by
  simp only [List.Forall]; repeat' constructor

/-- Operations 694 … 699 of @main. -/
abbrev q18 : List (HloOp τ sig (Elt F)) :=
  [ StableHlo.unary main_v281 main_v474 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v474 main_v475 rfl shapeCasts_S1x1048576_S1048576,
    StableHlo.unary main_v281 main_v476 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v476 main_v477 rfl shapeCasts_S1x1048576_S1048576,
    StableHlo.nullary main_v478 (iotaInDim S1024 32 0),
    StableHlo.binary main_v475 main_v478 main_v479 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)) ]

theorem q18_sub : (q18 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub ..⟩

theorem q18_fresh : (q18 : List (HloOp τ sig (Elt F))).Forall fun op => op.fresh = ∅ := by
  simp only [List.Forall]; repeat' constructor

/-- Operations 700 … 761 of @main. -/
abbrev q19 : List (HloOp τ sig (Elt F)) :=
  [ StableHlo.binary main_v477 main_v478 main_v480 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_118 (constant S_ .f32 0x3F800000#32),
    StableHlo.unary main_cst_118 main_v481 (broadcastInDim S1024 ![] bcast_S_S1024 : (⟨S_, .f32⟩ : BufTy).Contents (Elt F) → (⟨S1024, .f32⟩ : BufTy).Contents (Elt F)),
    StableHlo.binary main_v287 main_v481 main_v482 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_119 (constant S_ .f32 0x00000000#32),
    StableHlo.unary main_cst_119 main_v483 (broadcastInDim S1024 ![] bcast_S_S1024 : (⟨S_, .f32⟩ : BufTy).Contents (Elt F) → (⟨S1024, .f32⟩ : BufTy).Contents (Elt F)),
    StableHlo.nullary main_c_120 (constantI S_ 32 0#32),
    StableHlo.unary main_c_120 main_v484 (broadcastInDim S1049600 ![] bcast_S_S1049600 : (⟨S_, .i32⟩ : BufTy).Contents (Elt F) → (⟨S1049600, .i32⟩ : BufTy).Contents (Elt F)),
    StableHlo.binary main_v480 main_v484 main_v485 (cmpi .slt : (⟨S1049600, .i32⟩ : BufTy).Contents (Elt F) → (⟨S1049600, .i32⟩ : BufTy).Contents (Elt F) → (⟨S1049600, .i1⟩ : BufTy).Contents (Elt F)),
    StableHlo.nullary main_c_121 (constantI S_ 32 1024#32),
    StableHlo.unary main_c_121 main_v486 (broadcastInDim S1049600 ![] bcast_S_S1049600 : (⟨S_, .i32⟩ : BufTy).Contents (Elt F) → (⟨S1049600, .i32⟩ : BufTy).Contents (Elt F)),
    StableHlo.binary main_v480 main_v486 main_v487 (addi : (⟨S1049600, .i32⟩ : BufTy).Contents (Elt F) → (⟨S1049600, .i32⟩ : BufTy).Contents (Elt F) → (⟨S1049600, .i32⟩ : BufTy).Contents (Elt F)),
    StableHlo.ternary main_v485 main_v487 main_v480 main_v488 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v488 main_v489 (broadcastInDim S1049600x1 ![0] bcast_S1049600_S1049600x1_0 : (⟨S1049600, .i32⟩ : BufTy).Contents (Elt F) → (⟨S1049600x1, .i32⟩ : BufTy).Contents (Elt F)),
    StableHlo.ternary main_v483 main_v489 main_v482 main_v490 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_122 (constant S_ .f32 0x00000000#32),
    StableHlo.unary main_cst_122 main_v491 (broadcastInDim S1024 ![] bcast_S_S1024 : (⟨S_, .f32⟩ : BufTy).Contents (Elt F) → (⟨S1024, .f32⟩ : BufTy).Contents (Elt F)),
    StableHlo.binary main_v490 main_v491 main_v492 (cmpf .ogt : (⟨S1024, .f32⟩ : BufTy).Contents (Elt F) → (⟨S1024, .f32⟩ : BufTy).Contents (Elt F) → (⟨S1024, .i1⟩ : BufTy).Contents (Elt F)),
    StableHlo.unary main_v490 main_v493 (Host.sqrt : (⟨S1024, .f32⟩ : BufTy).Contents (Elt F) → (⟨S1024, .f32⟩ : BufTy).Contents (Elt F)),
    StableHlo.nullary main_cst_123 (constant S_ .f32 0x3F800000#32),
    StableHlo.unary main_cst_123 main_v494 (broadcastInDim S1024 ![] bcast_S_S1024 : (⟨S_, .f32⟩ : BufTy).Contents (Elt F) → (⟨S1024, .f32⟩ : BufTy).Contents (Elt F)),
    StableHlo.binary main_v494 main_v493 main_v495 (Host.divf : (⟨S1024, .f32⟩ : BufTy).Contents (Elt F) → (⟨S1024, .f32⟩ : BufTy).Contents (Elt F) → (⟨S1024, .f32⟩ : BufTy).Contents (Elt F)),
    StableHlo.nullary main_cst_124 (constant S_ .f32 0x00000000#32),
    StableHlo.TRef.unary (.of main_cst_124) main_call18.v0 id,
    StableHlo.TRef.unary main_call18.v0 main_call18.v1 (broadcastInDim S1024 ![] bcast_S_S1024),
    StableHlo.TRef.ternary (.of main_v492) (.of main_v495) main_call18.v1 main_call18.v2 select,
    StableHlo.nullary main_c_125 (constantI S_ 32 0#32),
    StableHlo.unary main_c_125 main_v497 (broadcastInDim S1049600 ![] bcast_S_S1049600 : (⟨S_, .i32⟩ : BufTy).Contents (Elt F) → (⟨S1049600, .i32⟩ : BufTy).Contents (Elt F)),
    StableHlo.binary main_v479 main_v497 main_v498 (cmpi .slt : (⟨S1049600, .i32⟩ : BufTy).Contents (Elt F) → (⟨S1049600, .i32⟩ : BufTy).Contents (Elt F) → (⟨S1049600, .i1⟩ : BufTy).Contents (Elt F)),
    StableHlo.nullary main_c_126 (constantI S_ 32 1024#32),
    StableHlo.unary main_c_126 main_v499 (broadcastInDim S1049600 ![] bcast_S_S1049600 : (⟨S_, .i32⟩ : BufTy).Contents (Elt F) → (⟨S1049600, .i32⟩ : BufTy).Contents (Elt F)),
    StableHlo.binary main_v479 main_v499 main_v500 (addi : (⟨S1049600, .i32⟩ : BufTy).Contents (Elt F) → (⟨S1049600, .i32⟩ : BufTy).Contents (Elt F) → (⟨S1049600, .i32⟩ : BufTy).Contents (Elt F)),
    StableHlo.ternary main_v498 main_v500 main_v479 main_v501 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v501 main_v502 (broadcastInDim S1049600x1 ![0] bcast_S1049600_S1049600x1_0 : (⟨S1049600, .i32⟩ : BufTy).Contents (Elt F) → (⟨S1049600x1, .i32⟩ : BufTy).Contents (Elt F)),
    StableHlo.binary main_v496 main_v502 main_v503 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_127 (constantI S_ 32 0#32),
    StableHlo.unary main_c_127 main_v504 (broadcastInDim S1049600 ![] bcast_S_S1049600 : (⟨S_, .i32⟩ : BufTy).Contents (Elt F) → (⟨S1049600, .i32⟩ : BufTy).Contents (Elt F)),
    StableHlo.binary main_v480 main_v504 main_v505 (cmpi .slt : (⟨S1049600, .i32⟩ : BufTy).Contents (Elt F) → (⟨S1049600, .i32⟩ : BufTy).Contents (Elt F) → (⟨S1049600, .i1⟩ : BufTy).Contents (Elt F)),
    StableHlo.nullary main_c_128 (constantI S_ 32 1024#32),
    StableHlo.unary main_c_128 main_v506 (broadcastInDim S1049600 ![] bcast_S_S1049600 : (⟨S_, .i32⟩ : BufTy).Contents (Elt F) → (⟨S1049600, .i32⟩ : BufTy).Contents (Elt F)),
    StableHlo.binary main_v480 main_v506 main_v507 (addi : (⟨S1049600, .i32⟩ : BufTy).Contents (Elt F) → (⟨S1049600, .i32⟩ : BufTy).Contents (Elt F) → (⟨S1049600, .i32⟩ : BufTy).Contents (Elt F)),
    StableHlo.ternary main_v505 main_v507 main_v480 main_v508 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v508 main_v509 (broadcastInDim S1049600x1 ![0] bcast_S1049600_S1049600x1_0 : (⟨S1049600, .i32⟩ : BufTy).Contents (Elt F) → (⟨S1049600x1, .i32⟩ : BufTy).Contents (Elt F)),
    StableHlo.binary main_v496 main_v509 main_v510 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v503 main_v510 main_v511 (mulf : (⟨S1049600, .f32⟩ : BufTy).Contents (Elt F) → (⟨S1049600, .f32⟩ : BufTy).Contents (Elt F) → (⟨S1049600, .f32⟩ : BufTy).Contents (Elt F)),
    StableHlo.binary main_v511 main_v482 main_v512 (mulf : (⟨S1049600, .f32⟩ : BufTy).Contents (Elt F) → (⟨S1049600, .f32⟩ : BufTy).Contents (Elt F) → (⟨S1049600, .f32⟩ : BufTy).Contents (Elt F)),
    StableHlo.binary main_v473 main_arg8 main_v513 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_129 (constantI S_ 32 0#32),
    StableHlo.unary main_c_129 main_v514 (broadcastInDim S1049600 ![] bcast_S_S1049600 : (⟨S_, .i32⟩ : BufTy).Contents (Elt F) → (⟨S1049600, .i32⟩ : BufTy).Contents (Elt F)),
    StableHlo.binary main_v479 main_v514 main_v515 (cmpi .slt : (⟨S1049600, .i32⟩ : BufTy).Contents (Elt F) → (⟨S1049600, .i32⟩ : BufTy).Contents (Elt F) → (⟨S1049600, .i1⟩ : BufTy).Contents (Elt F)),
    StableHlo.nullary main_c_130 (constantI S_ 32 1024#32),
    StableHlo.unary main_c_130 main_v516 (broadcastInDim S1049600 ![] bcast_S_S1049600 : (⟨S_, .i32⟩ : BufTy).Contents (Elt F) → (⟨S1049600, .i32⟩ : BufTy).Contents (Elt F)),
    StableHlo.binary main_v479 main_v516 main_v517 (addi : (⟨S1049600, .i32⟩ : BufTy).Contents (Elt F) → (⟨S1049600, .i32⟩ : BufTy).Contents (Elt F) → (⟨S1049600, .i32⟩ : BufTy).Contents (Elt F)),
    StableHlo.ternary main_v515 main_v517 main_v479 main_v518 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v518 main_v519 (broadcastInDim S1049600x1 ![0] bcast_S1049600_S1049600x1_0 : (⟨S1049600, .i32⟩ : BufTy).Contents (Elt F) → (⟨S1049600x1, .i32⟩ : BufTy).Contents (Elt F)),
    StableHlo.binary main_v513 main_v519 main_v520 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v512 main_v521 (broadcastInDim S1049600x1 ![0] bcast_S1049600_S1049600x1_0 : (⟨S1049600, .f32⟩ : BufTy).Contents (Elt F) → (⟨S1049600x1, .f32⟩ : BufTy).Contents (Elt F)),
    StableHlo.unary main_v521 main_v522 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v520 main_v522 main_v523 (mulf : (⟨S1049600x128, .f32⟩ : BufTy).Contents (Elt F) → (⟨S1049600x128, .f32⟩ : BufTy).Contents (Elt F) → (⟨S1049600x128, .f32⟩ : BufTy).Contents (Elt F)),
    StableHlo.nullary main_cst_131 (constant S_ .f32 0x00000000#32),
    StableHlo.unary main_cst_131 main_v524 (broadcastInDim S1024x128 ![] bcast_S_S1024x128 : (⟨S_, .f32⟩ : BufTy).Contents (Elt F) → (⟨S1024x128, .f32⟩ : BufTy).Contents (Elt F)),
    StableHlo.nullary main_c_132 (constantI S_ 32 0#32) ]

theorem q19_sub : (q19 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub ..⟩

theorem q19_fresh : (q19 : List (HloOp τ sig (Elt F))).Forall fun op => op.fresh = ∅ := by
  simp only [List.Forall]; repeat' constructor

/-- Operations 762 … 775 of @main. -/
abbrev q20 : List (HloOp τ sig (Elt F)) :=
  [ StableHlo.unary main_c_132 main_v525 (broadcastInDim S1049600 ![] bcast_S_S1049600 : (⟨S_, .i32⟩ : BufTy).Contents (Elt F) → (⟨S1049600, .i32⟩ : BufTy).Contents (Elt F)),
    StableHlo.binary main_v480 main_v525 main_v526 (cmpi .slt : (⟨S1049600, .i32⟩ : BufTy).Contents (Elt F) → (⟨S1049600, .i32⟩ : BufTy).Contents (Elt F) → (⟨S1049600, .i1⟩ : BufTy).Contents (Elt F)),
    StableHlo.nullary main_c_133 (constantI S_ 32 1024#32),
    StableHlo.unary main_c_133 main_v527 (broadcastInDim S1049600 ![] bcast_S_S1049600 : (⟨S_, .i32⟩ : BufTy).Contents (Elt F) → (⟨S1049600, .i32⟩ : BufTy).Contents (Elt F)),
    StableHlo.binary main_v480 main_v527 main_v528 (addi : (⟨S1049600, .i32⟩ : BufTy).Contents (Elt F) → (⟨S1049600, .i32⟩ : BufTy).Contents (Elt F) → (⟨S1049600, .i32⟩ : BufTy).Contents (Elt F)),
    StableHlo.ternary main_v526 main_v528 main_v480 main_v529 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v529 main_v530 (broadcastInDim S1049600x1 ![0] bcast_S1049600_S1049600x1_0 : (⟨S1049600, .i32⟩ : BufTy).Contents (Elt F) → (⟨S1049600x1, .i32⟩ : BufTy).Contents (Elt F)),
    StableHlo.ternary main_v524 main_v530 main_v523 main_v531 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg9 main_v532 (broadcastInDim S1x128 ![1] bcast_S128_S1x128_1 : (⟨S128, .f32⟩ : BufTy).Contents (Elt F) → (⟨S1x128, .f32⟩ : BufTy).Contents (Elt F)),
    StableHlo.unary main_v532 main_v533 (broadcastInDim S1024x128 ![0, 1] bcast_S1x128_S1024x128_0_1 : (⟨S1x128, .f32⟩ : BufTy).Contents (Elt F) → (⟨S1024x128, .f32⟩ : BufTy).Contents (Elt F)),
    StableHlo.binary main_v531 main_v533 main_v534 (addf : (⟨S1024x128, .f32⟩ : BufTy).Contents (Elt F) → (⟨S1024x128, .f32⟩ : BufTy).Contents (Elt F) → (⟨S1024x128, .f32⟩ : BufTy).Contents (Elt F)),
    StableHlo.TRef.nullary main_call19.cst (constant S_ .f32 0x00000000#32),
    StableHlo.TRef.unary main_call19.cst main_call19.v0 (broadcastInDim S1024x128 ![] bcast_S_S1024x128),
    StableHlo.TRef.binary (.of main_v534) main_call19.v0 main_call19.v1 maximumf ]

theorem q20_sub : (q20 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

theorem q20_fresh : (q20 : List (HloOp τ sig (Elt F))).Forall fun op => op.fresh = ∅ := by
  simp only [List.Forall]; repeat' constructor

/-- Operations 776 … 785 of @main. -/
abbrev q21 : List (HloOp τ sig (Elt F)) :=
  [ StableHlo.unary main_v349 main_v536 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v411 main_v537 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v473 main_v538 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v535 main_v539 (broadcastInDim S1x1024x128 ![1, 2] bcast_S1024x128_S1x1024x128_1_2 : (⟨S1024x128, .f32⟩ : BufTy).Contents (Elt F) → (⟨S1x1024x128, .f32⟩ : BufTy).Contents (Elt F)),
    StableHlo.nary ![main_v536, main_v537, main_v538, main_v539] main_v540 (fun u => concatenate S4x1024x128 0 [⟨S1x1024x128, u 0⟩, ⟨S1x1024x128, u 1⟩, ⟨S1x1024x128, u 2⟩, ⟨S1x1024x128, u 3⟩] concatenates_S1x1024x128_S1x1024x128_S1x1024x128_S1x1024x128_S4x1024x128_d0),
    StableHlo.nullary main_cst_134 (constant S_ .f32 0x00000000#32),
    StableHlo.binary main_v540 main_cst_134 main_v541 ((fun x v => Host.reduceAdd x v reducesTo_S4x1024x128_S1024x128_d0 h_S_) : (⟨S4x1024x128, .f32⟩ : BufTy).Contents (Elt F) → (⟨S_, .f32⟩ : BufTy).Contents (Elt F) → (⟨S1024x128, .f32⟩ : BufTy).Contents (Elt F)),
    StableHlo.nullary main_cst_135 (constant S_ .f32 0x40800000#32),
    StableHlo.unary main_cst_135 main_v542 (broadcastInDim S1024x128 ![] bcast_S_S1024x128 : (⟨S_, .f32⟩ : BufTy).Contents (Elt F) → (⟨S1024x128, .f32⟩ : BufTy).Contents (Elt F)),
    StableHlo.binary main_v541 main_v542 main_v543 (Host.divf : (⟨S1024x128, .f32⟩ : BufTy).Contents (Elt F) → (⟨S1024x128, .f32⟩ : BufTy).Contents (Elt F) → (⟨S1024x128, .f32⟩ : BufTy).Contents (Elt F)) ]

theorem q21_sub : (q21 : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.nary_bufs_sub .., StableHlo.nullary_bufs_sub .., StableHlo.binary_bufs_sub .., StableHlo.nullary_bufs_sub .., StableHlo.unary_bufs_sub .., StableHlo.binary_bufs_sub ..⟩

theorem q21_fresh : (q21 : List (HloOp τ sig (Elt F))).Forall fun op => op.fresh = ∅ := by
  simp only [List.Forall]; repeat' constructor

/-- Operations 786 … 788 of @main. -/
abbrev q22 : List (HloOp τ sig (Elt F)) :=
  [ StableHlo.unary main_v271 main_v544 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v543 main_v545 (broadcastInDim S1x1024x128 ![1, 2] bcast_S1024x128_S1x1024x128_1_2 : (⟨S1024x128, .f32⟩ : BufTy).Contents (Elt F) → (⟨S1x1024x128, .f32⟩ : BufTy).Contents (Elt F)),
    StableHlo.binary main_v544 main_v545 main_v546 ((fun a b => concatenate S2x1024x128 0 [⟨S1x1024x128, a⟩, ⟨S1x1024x128, b⟩] concatenates_S1x1024x128_S1x1024x128_S2x1024x128_d0) : (⟨S1x1024x128, .f32⟩ : BufTy).Contents (Elt F) → (⟨S1x1024x128, .f32⟩ : BufTy).Contents (Elt F) → (⟨S2x1024x128, .f32⟩ : BufTy).Contents (Elt F)) ]

theorem q22_sub : (q22 : List (HloOp τ sig (Elt F))).Forall fun op => op.bufs ⊆ tcRefs τ sig :=
  ⟨StableHlo.unary_bufs_sub .., StableHlo.unary_bufs_sub .., StableHlo.binary_bufs_sub ..⟩

theorem q22_fresh : (q22 : List (HloOp τ sig (Elt F))).Forall fun op => op.fresh = ∅ := by
  simp only [List.Forall]; repeat' constructor

set_option maxRecDepth 200000 in
set_option maxHeartbeats 4000000 in
theorem part0_eq (c : Dev nD) : main_part0 (F := F) c = seq (q0 ++ (q1)) := by
  simp only [seq_append]
  rfl

set_option maxRecDepth 200000 in
set_option maxHeartbeats 4000000 in
theorem part1_eq (c : Dev nD) : main_part1 (F := F) c = seq (q2 ++ (q3)) := by
  simp only [seq_append]
  rfl

set_option maxRecDepth 200000 in
set_option maxHeartbeats 4000000 in
theorem part2_eq (c : Dev nD) : main_part2 (F := F) c = seq (q4 ++ (q5)) := by
  simp only [seq_append]
  rfl

set_option maxRecDepth 200000 in
set_option maxHeartbeats 4000000 in
theorem part3_eq (c : Dev nD) : main_part3 (F := F) c = seq (q6) := by
  rfl

set_option maxRecDepth 200000 in
set_option maxHeartbeats 4000000 in
theorem part4_eq (c : Dev nD) : main_part4 (F := F) c = seq (q7 ++ (q8)) := by
  simp only [seq_append]
  rfl

set_option maxRecDepth 200000 in
set_option maxHeartbeats 4000000 in
theorem part5_eq (c : Dev nD) : main_part5 (F := F) c = seq (q9 ++ (q10 ++ (q11))) := by
  simp only [seq_append]
  rfl

set_option maxRecDepth 200000 in
set_option maxHeartbeats 4000000 in
theorem part6_eq (c : Dev nD) : main_part6 (F := F) c = seq (q12) := by
  rfl

set_option maxRecDepth 200000 in
set_option maxHeartbeats 4000000 in
theorem part7_eq (c : Dev nD) : main_part7 (F := F) c = seq (q13 ++ (q14)) := by
  simp only [seq_append]
  rfl

set_option maxRecDepth 200000 in
set_option maxHeartbeats 4000000 in
theorem part8_eq (c : Dev nD) : main_part8 (F := F) c = seq (q15 ++ (q16)) := by
  simp only [seq_append]
  rfl

set_option maxRecDepth 200000 in
set_option maxHeartbeats 4000000 in
theorem part9_eq (c : Dev nD) : main_part9 (F := F) c = seq (q17 ++ (q18)) := by
  simp only [seq_append]
  rfl

set_option maxRecDepth 200000 in
set_option maxHeartbeats 4000000 in
theorem part10_eq (c : Dev nD) : main_part10 (F := F) c = seq (q19) := by
  rfl

set_option maxRecDepth 200000 in
set_option maxHeartbeats 4000000 in
theorem part11_eq (c : Dev nD) : main_part11 (F := F) c = seq (q20 ++ (q21 ++ (q22))) := by
  simp only [seq_append]
  rfl

/-- @main's operations, in order. -/
abbrev ops : List (HloOp τ sig (Elt F)) :=
  q0 ++ (q1 ++ (q2 ++ (q3 ++ (q4 ++ (q5 ++ (q6 ++ (q7 ++ (q8 ++ (q9 ++ (q10 ++ (q11 ++ (q12 ++ (q13 ++ (q14 ++ (q15 ++ (q16 ++ (q17 ++ (q18 ++ (q19 ++ (q20 ++ (q21 ++ (q22))))))))))))))))))))))

theorem main_eq (c : Dev nD) : main (F := F) c = seq ops := by
  simp only [main, part0_eq, part1_eq, part2_eq, part3_eq, part4_eq, part5_eq, part6_eq, part7_eq, part8_eq, part9_eq, part10_eq, part11_eq, ops, seq_append, bind_assoc]

theorem ops_sub : (ops : List (HloOp τ sig (Elt F))).Forall fun op => op.bufs ⊆ tcRefs τ sig :=
  forall_append q0_sub (forall_append q1_sub (forall_append q2_sub (forall_append q3_sub (forall_append q4_sub (forall_append q5_sub (forall_append q6_sub (forall_append q7_sub (forall_append q8_sub (forall_append q9_sub (forall_append q10_sub (forall_append q11_sub (forall_append q12_sub (forall_append q13_sub (forall_append q14_sub (forall_append q15_sub (forall_append q16_sub (forall_append q17_sub (forall_append q18_sub (forall_append q19_sub (forall_append q20_sub (forall_append q21_sub (q22_sub))))))))))))))))))))))

theorem ops_fresh : (ops : List (HloOp τ sig (Elt F))).Forall fun op => op.fresh = ∅ :=
  forall_append q0_fresh (forall_append q1_fresh (forall_append q2_fresh (forall_append q3_fresh (forall_append q4_fresh (forall_append q5_fresh (forall_append q6_fresh (forall_append q7_fresh (forall_append q8_fresh (forall_append q9_fresh (forall_append q10_fresh (forall_append q11_fresh (forall_append q12_fresh (forall_append q13_fresh (forall_append q14_fresh (forall_append q15_fresh (forall_append q16_fresh (forall_append q17_fresh (forall_append q18_fresh (forall_append q19_fresh (forall_append q20_fresh (forall_append q21_fresh (q22_fresh))))))))))))))))))))))

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

end Cert.ReferenceIdeal.RefRun

end
-- ==== Proof.RefFoldA0.lean ====
/- (operations 0 … 54 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sA0 : List (HloOp τ sig (Elt F)) :=
  [ StableHlo.unary main_arg0 main_v0 ((extractStridedSlice S1x1024x128 ![0, 0, 0] · slices_S2x1024x128_S1x1024x128_0_0_0) : (⟨S2x1024x128, .f32⟩ : BufTy).Contents (Elt F) → (⟨S1x1024x128, .f32⟩ : BufTy).Contents (Elt F)),
    StableHlo.reshape main_v0 main_v1 rfl shapeCasts_S1x1024x128_S1024x128,
    StableHlo.unary main_arg1 main_v2 ((extractStridedSlice S1x1024x1024 ![0, 0, 0] · slices_S2x1024x1024_S1x1024x1024_0_0_0) : (⟨S2x1024x1024, .i32⟩ : BufTy).Contents (Elt F) → (⟨S1x1024x1024, .i32⟩ : BufTy).Contents (Elt F)),
    StableHlo.reshape main_v2 main_v3 rfl shapeCasts_S1x1024x1024_S1024x1024,
    StableHlo.nullary main_v4 (iotaInDim S1048576 32 0),
    StableHlo.nullary main_c (constantI S_ 32 1024#32),
    StableHlo.TRef.unary (.of main_c) main_call0.v0 id,
    StableHlo.TRef.unary main_call0.v0 main_call0.v1 (broadcastInDim S1048576 ![] bcast_S_S1048576),
    StableHlo.TRef.binary (.of main_v4) main_call0.v1 main_call0.v2 Host.divsi,
    StableHlo.TRef.unary (.of main_v4) main_call0.v3 signi,
    StableHlo.TRef.unary main_call0.v0 main_call0.v4 signi,
    StableHlo.TRef.unary main_call0.v4 main_call0.v5 (broadcastInDim S1048576 ![] bcast_S_S1048576),
    StableHlo.TRef.binary main_call0.v3 main_call0.v5 main_call0.v6 (cmpi .ne),
    StableHlo.TRef.unary main_call0.v0 main_call0.v7 (broadcastInDim S1048576 ![] bcast_S_S1048576),
    StableHlo.TRef.binary (.of main_v4) main_call0.v7 main_call0.v8 Host.remsi,
    StableHlo.TRef.nullary main_call0.c (constantI S_ 32 0#32),
    StableHlo.TRef.unary main_call0.c main_call0.v9 (broadcastInDim S1048576 ![] bcast_S_S1048576),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1048576 ![] bcast_S_S1048576),
    StableHlo.TRef.binary main_call0.v2 main_call0.v12 main_call0.v13 subi,
    StableHlo.TRef.ternary main_call0.v11 main_call0.v13 main_call0.v2 main_call0.call0.v0 select,
    StableHlo.nullary main_c_0 (constantI S_ 32 1024#32),
    StableHlo.TRef.unary (.of main_c_0) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S1048576 ![] bcast_S_S1048576),
    StableHlo.TRef.binary (.of main_v4) main_call1.v3 main_call1.v4 Host.remsi,
    StableHlo.TRef.nullary main_call1.c_1 (constantI S_ 32 0#32),
    StableHlo.TRef.unary main_call1.c_1 main_call1.v5 (broadcastInDim S1048576 ![] bcast_S_S1048576),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S1048576 ![] bcast_S_S1048576),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S1048576 ![] bcast_S_S1048576),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S1048576 ![] bcast_S_S1048576),
    StableHlo.TRef.binary main_call1.v4 main_call1.v13 main_call1.v14 addi,
    StableHlo.TRef.ternary main_call1.v12 main_call1.v14 main_call1.v4 main_call1.v15 select,
    StableHlo.unary main_v5 main_v7 (broadcastInDim S1x1048576 ![1] bcast_S1048576_S1x1048576_1 : (⟨S1048576, .i32⟩ : BufTy).Contents (Elt F) → (⟨S1x1048576, .i32⟩ : BufTy).Contents (Elt F)),
    StableHlo.unary main_v6 main_v8 (broadcastInDim S1x1048576 ![1] bcast_S1048576_S1x1048576_1 : (⟨S1048576, .i32⟩ : BufTy).Contents (Elt F) → (⟨S1x1048576, .i32⟩ : BufTy).Contents (Elt F)),
    StableHlo.binary main_v7 main_v8 main_v9 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)),
    StableHlo.reshape main_v3 main_v10 rfl shapeCasts_S1024x1024_S1048576,
    StableHlo.nullary main_c_1 (constantI S_ 32 0#32),
    StableHlo.unary main_c_1 main_v11 (broadcastInDim S1048576 ![] bcast_S_S1048576 : (⟨S_, .i32⟩ : BufTy).Contents (Elt F) → (⟨S1048576, .i32⟩ : BufTy).Contents (Elt F)),
    StableHlo.binary main_v10 main_v11 main_v12 (cmpi .ne : (⟨S1048576, .i32⟩ : BufTy).Contents (Elt F) → (⟨S1048576, .i32⟩ : BufTy).Contents (Elt F) → (⟨S1048576, .i1⟩ : BufTy).Contents (Elt F)),
    StableHlo.binary main_v5 main_v6 main_v13 (cmpi .ne : (⟨S1048576, .i32⟩ : BufTy).Contents (Elt F) → (⟨S1048576, .i32⟩ : BufTy).Contents (Elt F) → (⟨S1048576, .i1⟩ : BufTy).Contents (Elt F)),
    StableHlo.binary main_v12 main_v13 main_v14 (andi : (⟨S1048576, .i1⟩ : BufTy).Contents (Elt F) → (⟨S1048576, .i1⟩ : BufTy).Contents (Elt F) → (⟨S1048576, .i1⟩ : BufTy).Contents (Elt F)),
    StableHlo.unary main_v14 main_v15 (uitofp .f32 : (⟨S1048576, .i1⟩ : BufTy).Contents (Elt F) → (⟨S1048576, .f32⟩ : BufTy).Contents (Elt F)) ]

/-- The buffers the stretch writes. -/
def WA0 : List (Ref sig .tc) :=
  [main_v0, main_v1, main_v2, main_v3, main_v4, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v5, main_c_0, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v6, main_v7, main_v8, main_v9, main_v10, main_c_1, main_v11, main_v12, main_v13, main_v14, main_v15]

theorem sA0_writes : (sA0 : List (HloOp τ sig (Elt F))).Forall fun op => op.writes ⊆ ((WA0).map (Proc.devRef (τ := τ) .tc)).toFinset := by
  simp only [sA0, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem A0_keep (W : Valuation τ sig (Elt F)) {r : Ref sig .tc} (hr : r ∉ WA0) :
    after (sA0 : List (HloOp τ sig (Elt F))) W (no_index (Proc.devRef .tc r)) = W (Proc.devRef .tc r) :=
  after_of_writes_sub _ W sA0_writes hr

set_option maxHeartbeats 8000000 in
set_option maxRecDepth 100000 in
/-- What the stretch leaves in `main_v1`. -/
theorem A0_x (W : Valuation τ sig (Elt F)) :
    after (sA0 : List (HloOp τ sig (Elt F))) W (no_index (Proc.devRef .tc main_v1)) = RefDefs.xOf0 (F := F) (W (Proc.devRef .tc main_arg0)) := by
  unfold sA0
  after_results_simp
  rfl

set_option maxHeartbeats 8000000 in
set_option maxRecDepth 100000 in
/-- What the stretch leaves in `main_v9`. -/
theorem A0_ei (W : Valuation τ sig (Elt F)) :
    after (sA0 : List (HloOp τ sig (Elt F))) W (no_index (Proc.devRef .tc main_v9)) = RefDefs.eiOf (F := F) RefDefs.srcV RefDefs.dstV := by
  unfold sA0
  after_results_simp
  rfl

set_option maxHeartbeats 8000000 in
set_option maxRecDepth 100000 in
/-- What the stretch leaves in `main_v15`. -/
theorem A0_w (W : Valuation τ sig (Elt F)) :
    after (sA0 : List (HloOp τ sig (Elt F))) W (no_index (Proc.devRef .tc main_v15)) = RefDefs.wOf (F := F) (RefDefs.rpaOf0 (F := F) (W (Proc.devRef .tc main_arg1))) RefDefs.srcV RefDefs.dstV := by
  unfold sA0
  after_results_simp
  rfl

end Cert.ReferenceIdeal.RefFold

end
-- ==== Proof.RefFoldL00.lean ====
/- (operations 55 … 136 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL00 : List (HloOp τ sig (Elt F)) :=
  [ StableHlo.unary main_v9 main_v16 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v16 main_v17 rfl shapeCasts_S1x1048576_S1048576,
    StableHlo.unary main_v9 main_v18 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v18 main_v19 rfl shapeCasts_S1x1048576_S1048576,
    StableHlo.nullary main_v20 (iotaInDim S1024 32 0),
    StableHlo.binary main_v17 main_v20 main_v21 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v19 main_v20 main_v22 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst (constant S_ .f32 0x3F800000#32),
    StableHlo.unary main_cst main_v23 (broadcastInDim S1024 ![] bcast_S_S1024 : (⟨S_, .f32⟩ : BufTy).Contents (Elt F) → (⟨S1024, .f32⟩ : BufTy).Contents (Elt F)),
    StableHlo.binary main_v15 main_v23 main_v24 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_2 (constant S_ .f32 0x00000000#32),
    StableHlo.unary main_cst_2 main_v25 (broadcastInDim S1024 ![] bcast_S_S1024 : (⟨S_, .f32⟩ : BufTy).Contents (Elt F) → (⟨S1024, .f32⟩ : BufTy).Contents (Elt F)),
    StableHlo.nullary main_c_3 (constantI S_ 32 0#32),
    StableHlo.unary main_c_3 main_v26 (broadcastInDim S1049600 ![] bcast_S_S1049600 : (⟨S_, .i32⟩ : BufTy).Contents (Elt F) → (⟨S1049600, .i32⟩ : BufTy).Contents (Elt F)),
    StableHlo.binary main_v22 main_v26 main_v27 (cmpi .slt : (⟨S1049600, .i32⟩ : BufTy).Contents (Elt F) → (⟨S1049600, .i32⟩ : BufTy).Contents (Elt F) → (⟨S1049600, .i1⟩ : BufTy).Contents (Elt F)),
    StableHlo.nullary main_c_4 (constantI S_ 32 1024#32),
    StableHlo.unary main_c_4 main_v28 (broadcastInDim S1049600 ![] bcast_S_S1049600 : (⟨S_, .i32⟩ : BufTy).Contents (Elt F) → (⟨S1049600, .i32⟩ : BufTy).Contents (Elt F)),
    StableHlo.binary main_v22 main_v28 main_v29 (addi : (⟨S1049600, .i32⟩ : BufTy).Contents (Elt F) → (⟨S1049600, .i32⟩ : BufTy).Contents (Elt F) → (⟨S1049600, .i32⟩ : BufTy).Contents (Elt F)),
    StableHlo.ternary main_v27 main_v29 main_v22 main_v30 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v30 main_v31 (broadcastInDim S1049600x1 ![0] bcast_S1049600_S1049600x1_0 : (⟨S1049600, .i32⟩ : BufTy).Contents (Elt F) → (⟨S1049600x1, .i32⟩ : BufTy).Contents (Elt F)),
    StableHlo.ternary main_v25 main_v31 main_v24 main_v32 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_5 (constant S_ .f32 0x00000000#32),
    StableHlo.unary main_cst_5 main_v33 (broadcastInDim S1024 ![] bcast_S_S1024 : (⟨S_, .f32⟩ : BufTy).Contents (Elt F) → (⟨S1024, .f32⟩ : BufTy).Contents (Elt F)),
    StableHlo.binary main_v32 main_v33 main_v34 (cmpf .ogt : (⟨S1024, .f32⟩ : BufTy).Contents (Elt F) → (⟨S1024, .f32⟩ : BufTy).Contents (Elt F) → (⟨S1024, .i1⟩ : BufTy).Contents (Elt F)),
    StableHlo.unary main_v32 main_v35 (Host.sqrt : (⟨S1024, .f32⟩ : BufTy).Contents (Elt F) → (⟨S1024, .f32⟩ : BufTy).Contents (Elt F)),
    StableHlo.nullary main_cst_6 (constant S_ .f32 0x3F800000#32),
    StableHlo.unary main_cst_6 main_v36 (broadcastInDim S1024 ![] bcast_S_S1024 : (⟨S_, .f32⟩ : BufTy).Contents (Elt F) → (⟨S1024, .f32⟩ : BufTy).Contents (Elt F)),
    StableHlo.binary main_v36 main_v35 main_v37 (Host.divf : (⟨S1024, .f32⟩ : BufTy).Contents (Elt F) → (⟨S1024, .f32⟩ : BufTy).Contents (Elt F) → (⟨S1024, .f32⟩ : BufTy).Contents (Elt F)),
    StableHlo.nullary main_cst_7 (constant S_ .f32 0x00000000#32),
    StableHlo.TRef.unary (.of main_cst_7) main_call2.v0 id,
    StableHlo.TRef.unary main_call2.v0 main_call2.v1 (broadcastInDim S1024 ![] bcast_S_S1024),
    StableHlo.TRef.ternary (.of main_v34) (.of main_v37) main_call2.v1 main_call2.v2 select,
    StableHlo.nullary main_c_8 (constantI S_ 32 0#32),
    StableHlo.unary main_c_8 main_v39 (broadcastInDim S1049600 ![] bcast_S_S1049600 : (⟨S_, .i32⟩ : BufTy).Contents (Elt F) → (⟨S1049600, .i32⟩ : BufTy).Contents (Elt F)),
    StableHlo.binary main_v21 main_v39 main_v40 (cmpi .slt : (⟨S1049600, .i32⟩ : BufTy).Contents (Elt F) → (⟨S1049600, .i32⟩ : BufTy).Contents (Elt F) → (⟨S1049600, .i1⟩ : BufTy).Contents (Elt F)),
    StableHlo.nullary main_c_9 (constantI S_ 32 1024#32),
    StableHlo.unary main_c_9 main_v41 (broadcastInDim S1049600 ![] bcast_S_S1049600 : (⟨S_, .i32⟩ : BufTy).Contents (Elt F) → (⟨S1049600, .i32⟩ : BufTy).Contents (Elt F)),
    StableHlo.binary main_v21 main_v41 main_v42 (addi : (⟨S1049600, .i32⟩ : BufTy).Contents (Elt F) → (⟨S1049600, .i32⟩ : BufTy).Contents (Elt F) → (⟨S1049600, .i32⟩ : BufTy).Contents (Elt F)),
    StableHlo.ternary main_v40 main_v42 main_v21 main_v43 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v43 main_v44 (broadcastInDim S1049600x1 ![0] bcast_S1049600_S1049600x1_0 : (⟨S1049600, .i32⟩ : BufTy).Contents (Elt F) → (⟨S1049600x1, .i32⟩ : BufTy).Contents (Elt F)),
    StableHlo.binary main_v38 main_v44 main_v45 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_10 (constantI S_ 32 0#32),
    StableHlo.unary main_c_10 main_v46 (broadcastInDim S1049600 ![] bcast_S_S1049600 : (⟨S_, .i32⟩ : BufTy).Contents (Elt F) → (⟨S1049600, .i32⟩ : BufTy).Contents (Elt F)),
    StableHlo.binary main_v22 main_v46 main_v47 (cmpi .slt : (⟨S1049600, .i32⟩ : BufTy).Contents (Elt F) → (⟨S1049600, .i32⟩ : BufTy).Contents (Elt F) → (⟨S1049600, .i1⟩ : BufTy).Contents (Elt F)),
    StableHlo.nullary main_c_11 (constantI S_ 32 1024#32),
    StableHlo.unary main_c_11 main_v48 (broadcastInDim S1049600 ![] bcast_S_S1049600 : (⟨S_, .i32⟩ : BufTy).Contents (Elt F) → (⟨S1049600, .i32⟩ : BufTy).Contents (Elt F)),
    StableHlo.binary main_v22 main_v48 main_v49 (addi : (⟨S1049600, .i32⟩ : BufTy).Contents (Elt F) → (⟨S1049600, .i32⟩ : BufTy).Contents (Elt F) → (⟨S1049600, .i32⟩ : BufTy).Contents (Elt F)),
    StableHlo.ternary main_v47 main_v49 main_v22 main_v50 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v50 main_v51 (broadcastInDim S1049600x1 ![0] bcast_S1049600_S1049600x1_0 : (⟨S1049600, .i32⟩ : BufTy).Contents (Elt F) → (⟨S1049600x1, .i32⟩ : BufTy).Contents (Elt F)),
    StableHlo.binary main_v38 main_v51 main_v52 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v45 main_v52 main_v53 (mulf : (⟨S1049600, .f32⟩ : BufTy).Contents (Elt F) → (⟨S1049600, .f32⟩ : BufTy).Contents (Elt F) → (⟨S1049600, .f32⟩ : BufTy).Contents (Elt F)),
    StableHlo.binary main_v53 main_v24 main_v54 (mulf : (⟨S1049600, .f32⟩ : BufTy).Contents (Elt F) → (⟨S1049600, .f32⟩ : BufTy).Contents (Elt F) → (⟨S1049600, .f32⟩ : BufTy).Contents (Elt F)),
    StableHlo.binary main_v1 main_arg2 main_v55 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_12 (constantI S_ 32 0#32),
    StableHlo.unary main_c_12 main_v56 (broadcastInDim S1049600 ![] bcast_S_S1049600 : (⟨S_, .i32⟩ : BufTy).Contents (Elt F) → (⟨S1049600, .i32⟩ : BufTy).Contents (Elt F)),
    StableHlo.binary main_v21 main_v56 main_v57 (cmpi .slt : (⟨S1049600, .i32⟩ : BufTy).Contents (Elt F) → (⟨S1049600, .i32⟩ : BufTy).Contents (Elt F) → (⟨S1049600, .i1⟩ : BufTy).Contents (Elt F)),
    StableHlo.nullary main_c_13 (constantI S_ 32 1024#32),
    StableHlo.unary main_c_13 main_v58 (broadcastInDim S1049600 ![] bcast_S_S1049600 : (⟨S_, .i32⟩ : BufTy).Contents (Elt F) → (⟨S1049600, .i32⟩ : BufTy).Contents (Elt F)),
    StableHlo.binary main_v21 main_v58 main_v59 (addi : (⟨S1049600, .i32⟩ : BufTy).Contents (Elt F) → (⟨S1049600, .i32⟩ : BufTy).Contents (Elt F) → (⟨S1049600, .i32⟩ : BufTy).Contents (Elt F)),
    StableHlo.ternary main_v57 main_v59 main_v21 main_v60 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v60 main_v61 (broadcastInDim S1049600x1 ![0] bcast_S1049600_S1049600x1_0 : (⟨S1049600, .i32⟩ : BufTy).Contents (Elt F) → (⟨S1049600x1, .i32⟩ : BufTy).Contents (Elt F)),
    StableHlo.binary main_v55 main_v61 main_v62 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v54 main_v63 (broadcastInDim S1049600x1 ![0] bcast_S1049600_S1049600x1_0 : (⟨S1049600, .f32⟩ : BufTy).Contents (Elt F) → (⟨S1049600x1, .f32⟩ : BufTy).Contents (Elt F)),
    StableHlo.unary main_v63 main_v64 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v62 main_v64 main_v65 (mulf : (⟨S1049600x128, .f32⟩ : BufTy).Contents (Elt F) → (⟨S1049600x128, .f32⟩ : BufTy).Contents (Elt F) → (⟨S1049600x128, .f32⟩ : BufTy).Contents (Elt F)),
    StableHlo.nullary main_cst_14 (constant S_ .f32 0x00000000#32),
    StableHlo.unary main_cst_14 main_v66 (broadcastInDim S1024x128 ![] bcast_S_S1024x128 : (⟨S_, .f32⟩ : BufTy).Contents (Elt F) → (⟨S1024x128, .f32⟩ : BufTy).Contents (Elt F)),
    StableHlo.nullary main_c_15 (constantI S_ 32 0#32),
    StableHlo.unary main_c_15 main_v67 (broadcastInDim S1049600 ![] bcast_S_S1049600 : (⟨S_, .i32⟩ : BufTy).Contents (Elt F) → (⟨S1049600, .i32⟩ : BufTy).Contents (Elt F)),
    StableHlo.binary main_v22 main_v67 main_v68 (cmpi .slt : (⟨S1049600, .i32⟩ : BufTy).Contents (Elt F) → (⟨S1049600, .i32⟩ : BufTy).Contents (Elt F) → (⟨S1049600, .i1⟩ : BufTy).Contents (Elt F)),
    StableHlo.nullary main_c_16 (constantI S_ 32 1024#32),
    StableHlo.unary main_c_16 main_v69 (broadcastInDim S1049600 ![] bcast_S_S1049600 : (⟨S_, .i32⟩ : BufTy).Contents (Elt F) → (⟨S1049600, .i32⟩ : BufTy).Contents (Elt F)),
    StableHlo.binary main_v22 main_v69 main_v70 (addi : (⟨S1049600, .i32⟩ : BufTy).Contents (Elt F) → (⟨S1049600, .i32⟩ : BufTy).Contents (Elt F) → (⟨S1049600, .i32⟩ : BufTy).Contents (Elt F)),
    StableHlo.ternary main_v68 main_v70 main_v22 main_v71 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v71 main_v72 (broadcastInDim S1049600x1 ![0] bcast_S1049600_S1049600x1_0 : (⟨S1049600, .i32⟩ : BufTy).Contents (Elt F) → (⟨S1049600x1, .i32⟩ : BufTy).Contents (Elt F)),
    StableHlo.ternary main_v66 main_v72 main_v65 main_v73 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg3 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S1024x128 ![0, 1] bcast_S1x128_S1024x128_0_1 : (⟨S1x128, .f32⟩ : BufTy).Contents (Elt F) → (⟨S1024x128, .f32⟩ : BufTy).Contents (Elt F)),
    StableHlo.binary main_v73 main_v75 main_v76 (addf : (⟨S1024x128, .f32⟩ : BufTy).Contents (Elt F) → (⟨S1024x128, .f32⟩ : BufTy).Contents (Elt F) → (⟨S1024x128, .f32⟩ : BufTy).Contents (Elt F)),
    StableHlo.TRef.nullary main_call3.cst (constant S_ .f32 0x00000000#32),
    StableHlo.TRef.unary main_call3.cst main_call3.v0 (broadcastInDim S1024x128 ![] bcast_S_S1024x128),
    StableHlo.TRef.binary (.of main_v76) main_call3.v0 main_call3.v1 maximumf ]

/-- The buffers the stretch writes. -/
def WL00 : List (Ref sig .tc) :=
  [main_v16, main_v17, main_v18, main_v19, main_v20, main_v21, main_v22, main_cst, main_v23, main_v24, main_cst_2, main_v25, main_c_3, main_v26, main_v27, main_c_4, main_v28, main_v29, main_v30, main_v31, main_v32, main_cst_5, main_v33, main_v34, main_v35, main_cst_6, main_v36, main_v37, main_cst_7, main_call2_v0, main_call2_v1, main_v38, main_c_8, main_v39, main_v40, main_c_9, main_v41, main_v42, main_v43, main_v44, main_v45, main_c_10, main_v46, main_v47, main_c_11, main_v48, main_v49, main_v50, main_v51, main_v52, main_v53, main_v54, main_v55, main_c_12, main_v56, main_v57, main_c_13, main_v58, main_v59, main_v60, main_v61, main_v62, main_v63, main_v64, main_v65, main_cst_14, main_v66, main_c_15, main_v67, main_v68, main_c_16, main_v69, main_v70, main_v71, main_v72, main_v73, main_v74, main_v75, main_v76, main_call3_cst, main_call3_v0, main_v77]

theorem sL00_writes : (sL00 : List (HloOp τ sig (Elt F))).Forall fun op => op.writes ⊆ ((WL00).map (Proc.devRef (τ := τ) .tc)).toFinset := by
  simp only [sL00, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L00_keep (W : Valuation τ sig (Elt F)) {r : Ref sig .tc} (hr : r ∉ WL00) :
    after (sL00 : List (HloOp τ sig (Elt F))) W (no_index (Proc.devRef .tc r)) = W (Proc.devRef .tc r) :=
  after_of_writes_sub _ W sL00_writes hr

set_option maxHeartbeats 8000000 in
set_option maxRecDepth 100000 in
/-- What the stretch leaves in `main_v77`. -/
theorem L00_out (W : Valuation τ sig (Elt F)) :
    after (sL00 : List (HloOp τ sig (Elt F))) W (no_index (Proc.devRef .tc main_v77)) = RefDefs.layerFn (F := F) (W (Proc.devRef .tc main_v1)) (W (Proc.devRef .tc main_v9)) (W (Proc.devRef .tc main_v15)) (W (Proc.devRef .tc main_arg2)) (W (Proc.devRef .tc main_arg3)) := by
  unfold sL00
  after_results_simp
  rfl

end Cert.ReferenceIdeal.RefFold

end
-- ==== Proof.RefFoldL01.lean ====
/- (operations 137 … 218 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL01 : List (HloOp τ sig (Elt F)) :=
  [ StableHlo.unary main_v9 main_v78 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v78 main_v79 rfl shapeCasts_S1x1048576_S1048576,
    StableHlo.unary main_v9 main_v80 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v80 main_v81 rfl shapeCasts_S1x1048576_S1048576,
    StableHlo.nullary main_v82 (iotaInDim S1024 32 0),
    StableHlo.binary main_v79 main_v82 main_v83 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v81 main_v82 main_v84 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_17 (constant S_ .f32 0x3F800000#32),
    StableHlo.unary main_cst_17 main_v85 (broadcastInDim S1024 ![] bcast_S_S1024 : (⟨S_, .f32⟩ : BufTy).Contents (Elt F) → (⟨S1024, .f32⟩ : BufTy).Contents (Elt F)),
    StableHlo.binary main_v15 main_v85 main_v86 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_18 (constant S_ .f32 0x00000000#32),
    StableHlo.unary main_cst_18 main_v87 (broadcastInDim S1024 ![] bcast_S_S1024 : (⟨S_, .f32⟩ : BufTy).Contents (Elt F) → (⟨S1024, .f32⟩ : BufTy).Contents (Elt F)),
    StableHlo.nullary main_c_19 (constantI S_ 32 0#32),
    StableHlo.unary main_c_19 main_v88 (broadcastInDim S1049600 ![] bcast_S_S1049600 : (⟨S_, .i32⟩ : BufTy).Contents (Elt F) → (⟨S1049600, .i32⟩ : BufTy).Contents (Elt F)),
    StableHlo.binary main_v84 main_v88 main_v89 (cmpi .slt : (⟨S1049600, .i32⟩ : BufTy).Contents (Elt F) → (⟨S1049600, .i32⟩ : BufTy).Contents (Elt F) → (⟨S1049600, .i1⟩ : BufTy).Contents (Elt F)),
    StableHlo.nullary main_c_20 (constantI S_ 32 1024#32),
    StableHlo.unary main_c_20 main_v90 (broadcastInDim S1049600 ![] bcast_S_S1049600 : (⟨S_, .i32⟩ : BufTy).Contents (Elt F) → (⟨S1049600, .i32⟩ : BufTy).Contents (Elt F)),
    StableHlo.binary main_v84 main_v90 main_v91 (addi : (⟨S1049600, .i32⟩ : BufTy).Contents (Elt F) → (⟨S1049600, .i32⟩ : BufTy).Contents (Elt F) → (⟨S1049600, .i32⟩ : BufTy).Contents (Elt F)),
    StableHlo.ternary main_v89 main_v91 main_v84 main_v92 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v92 main_v93 (broadcastInDim S1049600x1 ![0] bcast_S1049600_S1049600x1_0 : (⟨S1049600, .i32⟩ : BufTy).Contents (Elt F) → (⟨S1049600x1, .i32⟩ : BufTy).Contents (Elt F)),
    StableHlo.ternary main_v87 main_v93 main_v86 main_v94 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_21 (constant S_ .f32 0x00000000#32),
    StableHlo.unary main_cst_21 main_v95 (broadcastInDim S1024 ![] bcast_S_S1024 : (⟨S_, .f32⟩ : BufTy).Contents (Elt F) → (⟨S1024, .f32⟩ : BufTy).Contents (Elt F)),
    StableHlo.binary main_v94 main_v95 main_v96 (cmpf .ogt : (⟨S1024, .f32⟩ : BufTy).Contents (Elt F) → (⟨S1024, .f32⟩ : BufTy).Contents (Elt F) → (⟨S1024, .i1⟩ : BufTy).Contents (Elt F)),
    StableHlo.unary main_v94 main_v97 (Host.sqrt : (⟨S1024, .f32⟩ : BufTy).Contents (Elt F) → (⟨S1024, .f32⟩ : BufTy).Contents (Elt F)),
    StableHlo.nullary main_cst_22 (constant S_ .f32 0x3F800000#32),
    StableHlo.unary main_cst_22 main_v98 (broadcastInDim S1024 ![] bcast_S_S1024 : (⟨S_, .f32⟩ : BufTy).Contents (Elt F) → (⟨S1024, .f32⟩ : BufTy).Contents (Elt F)),
    StableHlo.binary main_v98 main_v97 main_v99 (Host.divf : (⟨S1024, .f32⟩ : BufTy).Contents (Elt F) → (⟨S1024, .f32⟩ : BufTy).Contents (Elt F) → (⟨S1024, .f32⟩ : BufTy).Contents (Elt F)),
    StableHlo.nullary main_cst_23 (constant S_ .f32 0x00000000#32),
    StableHlo.TRef.unary (.of main_cst_23) main_call4.v0 id,
    StableHlo.TRef.unary main_call4.v0 main_call4.v1 (broadcastInDim S1024 ![] bcast_S_S1024),
    StableHlo.TRef.ternary (.of main_v96) (.of main_v99) main_call4.v1 main_call4.v2 select,
    StableHlo.nullary main_c_24 (constantI S_ 32 0#32),
    StableHlo.unary main_c_24 main_v101 (broadcastInDim S1049600 ![] bcast_S_S1049600 : (⟨S_, .i32⟩ : BufTy).Contents (Elt F) → (⟨S1049600, .i32⟩ : BufTy).Contents (Elt F)),
    StableHlo.binary main_v83 main_v101 main_v102 (cmpi .slt : (⟨S1049600, .i32⟩ : BufTy).Contents (Elt F) → (⟨S1049600, .i32⟩ : BufTy).Contents (Elt F) → (⟨S1049600, .i1⟩ : BufTy).Contents (Elt F)),
    StableHlo.nullary main_c_25 (constantI S_ 32 1024#32),
    StableHlo.unary main_c_25 main_v103 (broadcastInDim S1049600 ![] bcast_S_S1049600 : (⟨S_, .i32⟩ : BufTy).Contents (Elt F) → (⟨S1049600, .i32⟩ : BufTy).Contents (Elt F)),
    StableHlo.binary main_v83 main_v103 main_v104 (addi : (⟨S1049600, .i32⟩ : BufTy).Contents (Elt F) → (⟨S1049600, .i32⟩ : BufTy).Contents (Elt F) → (⟨S1049600, .i32⟩ : BufTy).Contents (Elt F)),
    StableHlo.ternary main_v102 main_v104 main_v83 main_v105 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v105 main_v106 (broadcastInDim S1049600x1 ![0] bcast_S1049600_S1049600x1_0 : (⟨S1049600, .i32⟩ : BufTy).Contents (Elt F) → (⟨S1049600x1, .i32⟩ : BufTy).Contents (Elt F)),
    StableHlo.binary main_v100 main_v106 main_v107 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_26 (constantI S_ 32 0#32),
    StableHlo.unary main_c_26 main_v108 (broadcastInDim S1049600 ![] bcast_S_S1049600 : (⟨S_, .i32⟩ : BufTy).Contents (Elt F) → (⟨S1049600, .i32⟩ : BufTy).Contents (Elt F)),
    StableHlo.binary main_v84 main_v108 main_v109 (cmpi .slt : (⟨S1049600, .i32⟩ : BufTy).Contents (Elt F) → (⟨S1049600, .i32⟩ : BufTy).Contents (Elt F) → (⟨S1049600, .i1⟩ : BufTy).Contents (Elt F)),
    StableHlo.nullary main_c_27 (constantI S_ 32 1024#32),
    StableHlo.unary main_c_27 main_v110 (broadcastInDim S1049600 ![] bcast_S_S1049600 : (⟨S_, .i32⟩ : BufTy).Contents (Elt F) → (⟨S1049600, .i32⟩ : BufTy).Contents (Elt F)),
    StableHlo.binary main_v84 main_v110 main_v111 (addi : (⟨S1049600, .i32⟩ : BufTy).Contents (Elt F) → (⟨S1049600, .i32⟩ : BufTy).Contents (Elt F) → (⟨S1049600, .i32⟩ : BufTy).Contents (Elt F)),
    StableHlo.ternary main_v109 main_v111 main_v84 main_v112 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v112 main_v113 (broadcastInDim S1049600x1 ![0] bcast_S1049600_S1049600x1_0 : (⟨S1049600, .i32⟩ : BufTy).Contents (Elt F) → (⟨S1049600x1, .i32⟩ : BufTy).Contents (Elt F)),
    StableHlo.binary main_v100 main_v113 main_v114 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v107 main_v114 main_v115 (mulf : (⟨S1049600, .f32⟩ : BufTy).Contents (Elt F) → (⟨S1049600, .f32⟩ : BufTy).Contents (Elt F) → (⟨S1049600, .f32⟩ : BufTy).Contents (Elt F)),
    StableHlo.binary main_v115 main_v86 main_v116 (mulf : (⟨S1049600, .f32⟩ : BufTy).Contents (Elt F) → (⟨S1049600, .f32⟩ : BufTy).Contents (Elt F) → (⟨S1049600, .f32⟩ : BufTy).Contents (Elt F)),
    StableHlo.binary main_v77 main_arg4 main_v117 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_28 (constantI S_ 32 0#32),
    StableHlo.unary main_c_28 main_v118 (broadcastInDim S1049600 ![] bcast_S_S1049600 : (⟨S_, .i32⟩ : BufTy).Contents (Elt F) → (⟨S1049600, .i32⟩ : BufTy).Contents (Elt F)),
    StableHlo.binary main_v83 main_v118 main_v119 (cmpi .slt : (⟨S1049600, .i32⟩ : BufTy).Contents (Elt F) → (⟨S1049600, .i32⟩ : BufTy).Contents (Elt F) → (⟨S1049600, .i1⟩ : BufTy).Contents (Elt F)),
    StableHlo.nullary main_c_29 (constantI S_ 32 1024#32),
    StableHlo.unary main_c_29 main_v120 (broadcastInDim S1049600 ![] bcast_S_S1049600 : (⟨S_, .i32⟩ : BufTy).Contents (Elt F) → (⟨S1049600, .i32⟩ : BufTy).Contents (Elt F)),
    StableHlo.binary main_v83 main_v120 main_v121 (addi : (⟨S1049600, .i32⟩ : BufTy).Contents (Elt F) → (⟨S1049600, .i32⟩ : BufTy).Contents (Elt F) → (⟨S1049600, .i32⟩ : BufTy).Contents (Elt F)),
    StableHlo.ternary main_v119 main_v121 main_v83 main_v122 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v122 main_v123 (broadcastInDim S1049600x1 ![0] bcast_S1049600_S1049600x1_0 : (⟨S1049600, .i32⟩ : BufTy).Contents (Elt F) → (⟨S1049600x1, .i32⟩ : BufTy).Contents (Elt F)),
    StableHlo.binary main_v117 main_v123 main_v124 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v116 main_v125 (broadcastInDim S1049600x1 ![0] bcast_S1049600_S1049600x1_0 : (⟨S1049600, .f32⟩ : BufTy).Contents (Elt F) → (⟨S1049600x1, .f32⟩ : BufTy).Contents (Elt F)),
    StableHlo.unary main_v125 main_v126 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v124 main_v126 main_v127 (mulf : (⟨S1049600x128, .f32⟩ : BufTy).Contents (Elt F) → (⟨S1049600x128, .f32⟩ : BufTy).Contents (Elt F) → (⟨S1049600x128, .f32⟩ : BufTy).Contents (Elt F)),
    StableHlo.nullary main_cst_30 (constant S_ .f32 0x00000000#32),
    StableHlo.unary main_cst_30 main_v128 (broadcastInDim S1024x128 ![] bcast_S_S1024x128 : (⟨S_, .f32⟩ : BufTy).Contents (Elt F) → (⟨S1024x128, .f32⟩ : BufTy).Contents (Elt F)),
    StableHlo.nullary main_c_31 (constantI S_ 32 0#32),
    StableHlo.unary main_c_31 main_v129 (broadcastInDim S1049600 ![] bcast_S_S1049600 : (⟨S_, .i32⟩ : BufTy).Contents (Elt F) → (⟨S1049600, .i32⟩ : BufTy).Contents (Elt F)),
    StableHlo.binary main_v84 main_v129 main_v130 (cmpi .slt : (⟨S1049600, .i32⟩ : BufTy).Contents (Elt F) → (⟨S1049600, .i32⟩ : BufTy).Contents (Elt F) → (⟨S1049600, .i1⟩ : BufTy).Contents (Elt F)),
    StableHlo.nullary main_c_32 (constantI S_ 32 1024#32),
    StableHlo.unary main_c_32 main_v131 (broadcastInDim S1049600 ![] bcast_S_S1049600 : (⟨S_, .i32⟩ : BufTy).Contents (Elt F) → (⟨S1049600, .i32⟩ : BufTy).Contents (Elt F)),
    StableHlo.binary main_v84 main_v131 main_v132 (addi : (⟨S1049600, .i32⟩ : BufTy).Contents (Elt F) → (⟨S1049600, .i32⟩ : BufTy).Contents (Elt F) → (⟨S1049600, .i32⟩ : BufTy).Contents (Elt F)),
    StableHlo.ternary main_v130 main_v132 main_v84 main_v133 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v133 main_v134 (broadcastInDim S1049600x1 ![0] bcast_S1049600_S1049600x1_0 : (⟨S1049600, .i32⟩ : BufTy).Contents (Elt F) → (⟨S1049600x1, .i32⟩ : BufTy).Contents (Elt F)),
    StableHlo.ternary main_v128 main_v134 main_v127 main_v135 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg5 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S1024x128 ![0, 1] bcast_S1x128_S1024x128_0_1 : (⟨S1x128, .f32⟩ : BufTy).Contents (Elt F) → (⟨S1024x128, .f32⟩ : BufTy).Contents (Elt F)),
    StableHlo.binary main_v135 main_v137 main_v138 (addf : (⟨S1024x128, .f32⟩ : BufTy).Contents (Elt F) → (⟨S1024x128, .f32⟩ : BufTy).Contents (Elt F) → (⟨S1024x128, .f32⟩ : BufTy).Contents (Elt F)),
    StableHlo.TRef.nullary main_call5.cst (constant S_ .f32 0x00000000#32),
    StableHlo.TRef.unary main_call5.cst main_call5.v0 (broadcastInDim S1024x128 ![] bcast_S_S1024x128),
    StableHlo.TRef.binary (.of main_v138) main_call5.v0 main_call5.v1 maximumf ]

/-- The buffers the stretch writes. -/
def WL01 : List (Ref sig .tc) :=
  [main_v78, main_v79, main_v80, main_v81, main_v82, main_v83, main_v84, main_cst_17, main_v85, main_v86, main_cst_18, main_v87, main_c_19, main_v88, main_v89, main_c_20, main_v90, main_v91, main_v92, main_v93, main_v94, main_cst_21, main_v95, main_v96, main_v97, main_cst_22, main_v98, main_v99, main_cst_23, main_call4_v0, main_call4_v1, main_v100, main_c_24, main_v101, main_v102, main_c_25, main_v103, main_v104, main_v105, main_v106, main_v107, main_c_26, main_v108, main_v109, main_c_27, main_v110, main_v111, main_v112, main_v113, main_v114, main_v115, main_v116, main_v117, main_c_28, main_v118, main_v119, main_c_29, main_v120, main_v121, main_v122, main_v123, main_v124, main_v125, main_v126, main_v127, main_cst_30, main_v128, main_c_31, main_v129, main_v130, main_c_32, main_v131, main_v132, main_v133, main_v134, main_v135, main_v136, main_v137, main_v138, main_call5_cst, main_call5_v0, main_v139]

theorem sL01_writes : (sL01 : List (HloOp τ sig (Elt F))).Forall fun op => op.writes ⊆ ((WL01).map (Proc.devRef (τ := τ) .tc)).toFinset := by
  simp only [sL01, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L01_keep (W : Valuation τ sig (Elt F)) {r : Ref sig .tc} (hr : r ∉ WL01) :
    after (sL01 : List (HloOp τ sig (Elt F))) W (no_index (Proc.devRef .tc r)) = W (Proc.devRef .tc r) :=
  after_of_writes_sub _ W sL01_writes hr

set_option maxHeartbeats 8000000 in
set_option maxRecDepth 100000 in
/-- What the stretch leaves in `main_v139`. -/
theorem L01_out (W : Valuation τ sig (Elt F)) :
    after (sL01 : List (HloOp τ sig (Elt F))) W (no_index (Proc.devRef .tc main_v139)) = RefDefs.layerFn (F := F) (W (Proc.devRef .tc main_v77)) (W (Proc.devRef .tc main_v9)) (W (Proc.devRef .tc main_v15)) (W (Proc.devRef .tc main_arg4)) (W (Proc.devRef .tc main_arg5)) := by
  unfold sL01
  after_results_simp
  rfl

end Cert.ReferenceIdeal.RefFold

end
-- ==== Proof.RefFoldL02.lean ====
/- (operations 219 … 300 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL02 : List (HloOp τ sig (Elt F)) :=
  [ StableHlo.unary main_v9 main_v140 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v140 main_v141 rfl shapeCasts_S1x1048576_S1048576,
    StableHlo.unary main_v9 main_v142 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v142 main_v143 rfl shapeCasts_S1x1048576_S1048576,
    StableHlo.nullary main_v144 (iotaInDim S1024 32 0),
    StableHlo.binary main_v141 main_v144 main_v145 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v143 main_v144 main_v146 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_33 (constant S_ .f32 0x3F800000#32),
    StableHlo.unary main_cst_33 main_v147 (broadcastInDim S1024 ![] bcast_S_S1024 : (⟨S_, .f32⟩ : BufTy).Contents (Elt F) → (⟨S1024, .f32⟩ : BufTy).Contents (Elt F)),
    StableHlo.binary main_v15 main_v147 main_v148 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_34 (constant S_ .f32 0x00000000#32),
    StableHlo.unary main_cst_34 main_v149 (broadcastInDim S1024 ![] bcast_S_S1024 : (⟨S_, .f32⟩ : BufTy).Contents (Elt F) → (⟨S1024, .f32⟩ : BufTy).Contents (Elt F)),
    StableHlo.nullary main_c_35 (constantI S_ 32 0#32),
    StableHlo.unary main_c_35 main_v150 (broadcastInDim S1049600 ![] bcast_S_S1049600 : (⟨S_, .i32⟩ : BufTy).Contents (Elt F) → (⟨S1049600, .i32⟩ : BufTy).Contents (Elt F)),
    StableHlo.binary main_v146 main_v150 main_v151 (cmpi .slt : (⟨S1049600, .i32⟩ : BufTy).Contents (Elt F) → (⟨S1049600, .i32⟩ : BufTy).Contents (Elt F) → (⟨S1049600, .i1⟩ : BufTy).Contents (Elt F)),
    StableHlo.nullary main_c_36 (constantI S_ 32 1024#32),
    StableHlo.unary main_c_36 main_v152 (broadcastInDim S1049600 ![] bcast_S_S1049600 : (⟨S_, .i32⟩ : BufTy).Contents (Elt F) → (⟨S1049600, .i32⟩ : BufTy).Contents (Elt F)),
    StableHlo.binary main_v146 main_v152 main_v153 (addi : (⟨S1049600, .i32⟩ : BufTy).Contents (Elt F) → (⟨S1049600, .i32⟩ : BufTy).Contents (Elt F) → (⟨S1049600, .i32⟩ : BufTy).Contents (Elt F)),
    StableHlo.ternary main_v151 main_v153 main_v146 main_v154 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v154 main_v155 (broadcastInDim S1049600x1 ![0] bcast_S1049600_S1049600x1_0 : (⟨S1049600, .i32⟩ : BufTy).Contents (Elt F) → (⟨S1049600x1, .i32⟩ : BufTy).Contents (Elt F)),
    StableHlo.ternary main_v149 main_v155 main_v148 main_v156 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_37 (constant S_ .f32 0x00000000#32),
    StableHlo.unary main_cst_37 main_v157 (broadcastInDim S1024 ![] bcast_S_S1024 : (⟨S_, .f32⟩ : BufTy).Contents (Elt F) → (⟨S1024, .f32⟩ : BufTy).Contents (Elt F)),
    StableHlo.binary main_v156 main_v157 main_v158 (cmpf .ogt : (⟨S1024, .f32⟩ : BufTy).Contents (Elt F) → (⟨S1024, .f32⟩ : BufTy).Contents (Elt F) → (⟨S1024, .i1⟩ : BufTy).Contents (Elt F)),
    StableHlo.unary main_v156 main_v159 (Host.sqrt : (⟨S1024, .f32⟩ : BufTy).Contents (Elt F) → (⟨S1024, .f32⟩ : BufTy).Contents (Elt F)),
    StableHlo.nullary main_cst_38 (constant S_ .f32 0x3F800000#32),
    StableHlo.unary main_cst_38 main_v160 (broadcastInDim S1024 ![] bcast_S_S1024 : (⟨S_, .f32⟩ : BufTy).Contents (Elt F) → (⟨S1024, .f32⟩ : BufTy).Contents (Elt F)),
    StableHlo.binary main_v160 main_v159 main_v161 (Host.divf : (⟨S1024, .f32⟩ : BufTy).Contents (Elt F) → (⟨S1024, .f32⟩ : BufTy).Contents (Elt F) → (⟨S1024, .f32⟩ : BufTy).Contents (Elt F)),
    StableHlo.nullary main_cst_39 (constant S_ .f32 0x00000000#32),
    StableHlo.TRef.unary (.of main_cst_39) main_call6.v0 id,
    StableHlo.TRef.unary main_call6.v0 main_call6.v1 (broadcastInDim S1024 ![] bcast_S_S1024),
    StableHlo.TRef.ternary (.of main_v158) (.of main_v161) main_call6.v1 main_call6.v2 select,
    StableHlo.nullary main_c_40 (constantI S_ 32 0#32),
    StableHlo.unary main_c_40 main_v163 (broadcastInDim S1049600 ![] bcast_S_S1049600 : (⟨S_, .i32⟩ : BufTy).Contents (Elt F) → (⟨S1049600, .i32⟩ : BufTy).Contents (Elt F)),
    StableHlo.binary main_v145 main_v163 main_v164 (cmpi .slt : (⟨S1049600, .i32⟩ : BufTy).Contents (Elt F) → (⟨S1049600, .i32⟩ : BufTy).Contents (Elt F) → (⟨S1049600, .i1⟩ : BufTy).Contents (Elt F)),
    StableHlo.nullary main_c_41 (constantI S_ 32 1024#32),
    StableHlo.unary main_c_41 main_v165 (broadcastInDim S1049600 ![] bcast_S_S1049600 : (⟨S_, .i32⟩ : BufTy).Contents (Elt F) → (⟨S1049600, .i32⟩ : BufTy).Contents (Elt F)),
    StableHlo.binary main_v145 main_v165 main_v166 (addi : (⟨S1049600, .i32⟩ : BufTy).Contents (Elt F) → (⟨S1049600, .i32⟩ : BufTy).Contents (Elt F) → (⟨S1049600, .i32⟩ : BufTy).Contents (Elt F)),
    StableHlo.ternary main_v164 main_v166 main_v145 main_v167 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v167 main_v168 (broadcastInDim S1049600x1 ![0] bcast_S1049600_S1049600x1_0 : (⟨S1049600, .i32⟩ : BufTy).Contents (Elt F) → (⟨S1049600x1, .i32⟩ : BufTy).Contents (Elt F)),
    StableHlo.binary main_v162 main_v168 main_v169 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_42 (constantI S_ 32 0#32),
    StableHlo.unary main_c_42 main_v170 (broadcastInDim S1049600 ![] bcast_S_S1049600 : (⟨S_, .i32⟩ : BufTy).Contents (Elt F) → (⟨S1049600, .i32⟩ : BufTy).Contents (Elt F)),
    StableHlo.binary main_v146 main_v170 main_v171 (cmpi .slt : (⟨S1049600, .i32⟩ : BufTy).Contents (Elt F) → (⟨S1049600, .i32⟩ : BufTy).Contents (Elt F) → (⟨S1049600, .i1⟩ : BufTy).Contents (Elt F)),
    StableHlo.nullary main_c_43 (constantI S_ 32 1024#32),
    StableHlo.unary main_c_43 main_v172 (broadcastInDim S1049600 ![] bcast_S_S1049600 : (⟨S_, .i32⟩ : BufTy).Contents (Elt F) → (⟨S1049600, .i32⟩ : BufTy).Contents (Elt F)),
    StableHlo.binary main_v146 main_v172 main_v173 (addi : (⟨S1049600, .i32⟩ : BufTy).Contents (Elt F) → (⟨S1049600, .i32⟩ : BufTy).Contents (Elt F) → (⟨S1049600, .i32⟩ : BufTy).Contents (Elt F)),
    StableHlo.ternary main_v171 main_v173 main_v146 main_v174 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v174 main_v175 (broadcastInDim S1049600x1 ![0] bcast_S1049600_S1049600x1_0 : (⟨S1049600, .i32⟩ : BufTy).Contents (Elt F) → (⟨S1049600x1, .i32⟩ : BufTy).Contents (Elt F)),
    StableHlo.binary main_v162 main_v175 main_v176 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v169 main_v176 main_v177 (mulf : (⟨S1049600, .f32⟩ : BufTy).Contents (Elt F) → (⟨S1049600, .f32⟩ : BufTy).Contents (Elt F) → (⟨S1049600, .f32⟩ : BufTy).Contents (Elt F)),
    StableHlo.binary main_v177 main_v148 main_v178 (mulf : (⟨S1049600, .f32⟩ : BufTy).Contents (Elt F) → (⟨S1049600, .f32⟩ : BufTy).Contents (Elt F) → (⟨S1049600, .f32⟩ : BufTy).Contents (Elt F)),
    StableHlo.binary main_v139 main_arg6 main_v179 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_44 (constantI S_ 32 0#32),
    StableHlo.unary main_c_44 main_v180 (broadcastInDim S1049600 ![] bcast_S_S1049600 : (⟨S_, .i32⟩ : BufTy).Contents (Elt F) → (⟨S1049600, .i32⟩ : BufTy).Contents (Elt F)),
    StableHlo.binary main_v145 main_v180 main_v181 (cmpi .slt : (⟨S1049600, .i32⟩ : BufTy).Contents (Elt F) → (⟨S1049600, .i32⟩ : BufTy).Contents (Elt F) → (⟨S1049600, .i1⟩ : BufTy).Contents (Elt F)),
    StableHlo.nullary main_c_45 (constantI S_ 32 1024#32),
    StableHlo.unary main_c_45 main_v182 (broadcastInDim S1049600 ![] bcast_S_S1049600 : (⟨S_, .i32⟩ : BufTy).Contents (Elt F) → (⟨S1049600, .i32⟩ : BufTy).Contents (Elt F)),
    StableHlo.binary main_v145 main_v182 main_v183 (addi : (⟨S1049600, .i32⟩ : BufTy).Contents (Elt F) → (⟨S1049600, .i32⟩ : BufTy).Contents (Elt F) → (⟨S1049600, .i32⟩ : BufTy).Contents (Elt F)),
    StableHlo.ternary main_v181 main_v183 main_v145 main_v184 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v184 main_v185 (broadcastInDim S1049600x1 ![0] bcast_S1049600_S1049600x1_0 : (⟨S1049600, .i32⟩ : BufTy).Contents (Elt F) → (⟨S1049600x1, .i32⟩ : BufTy).Contents (Elt F)),
    StableHlo.binary main_v179 main_v185 main_v186 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v178 main_v187 (broadcastInDim S1049600x1 ![0] bcast_S1049600_S1049600x1_0 : (⟨S1049600, .f32⟩ : BufTy).Contents (Elt F) → (⟨S1049600x1, .f32⟩ : BufTy).Contents (Elt F)),
    StableHlo.unary main_v187 main_v188 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v186 main_v188 main_v189 (mulf : (⟨S1049600x128, .f32⟩ : BufTy).Contents (Elt F) → (⟨S1049600x128, .f32⟩ : BufTy).Contents (Elt F) → (⟨S1049600x128, .f32⟩ : BufTy).Contents (Elt F)),
    StableHlo.nullary main_cst_46 (constant S_ .f32 0x00000000#32),
    StableHlo.unary main_cst_46 main_v190 (broadcastInDim S1024x128 ![] bcast_S_S1024x128 : (⟨S_, .f32⟩ : BufTy).Contents (Elt F) → (⟨S1024x128, .f32⟩ : BufTy).Contents (Elt F)),
    StableHlo.nullary main_c_47 (constantI S_ 32 0#32),
    StableHlo.unary main_c_47 main_v191 (broadcastInDim S1049600 ![] bcast_S_S1049600 : (⟨S_, .i32⟩ : BufTy).Contents (Elt F) → (⟨S1049600, .i32⟩ : BufTy).Contents (Elt F)),
    StableHlo.binary main_v146 main_v191 main_v192 (cmpi .slt : (⟨S1049600, .i32⟩ : BufTy).Contents (Elt F) → (⟨S1049600, .i32⟩ : BufTy).Contents (Elt F) → (⟨S1049600, .i1⟩ : BufTy).Contents (Elt F)),
    StableHlo.nullary main_c_48 (constantI S_ 32 1024#32),
    StableHlo.unary main_c_48 main_v193 (broadcastInDim S1049600 ![] bcast_S_S1049600 : (⟨S_, .i32⟩ : BufTy).Contents (Elt F) → (⟨S1049600, .i32⟩ : BufTy).Contents (Elt F)),
    StableHlo.binary main_v146 main_v193 main_v194 (addi : (⟨S1049600, .i32⟩ : BufTy).Contents (Elt F) → (⟨S1049600, .i32⟩ : BufTy).Contents (Elt F) → (⟨S1049600, .i32⟩ : BufTy).Contents (Elt F)),
    StableHlo.ternary main_v192 main_v194 main_v146 main_v195 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v195 main_v196 (broadcastInDim S1049600x1 ![0] bcast_S1049600_S1049600x1_0 : (⟨S1049600, .i32⟩ : BufTy).Contents (Elt F) → (⟨S1049600x1, .i32⟩ : BufTy).Contents (Elt F)),
    StableHlo.ternary main_v190 main_v196 main_v189 main_v197 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg7 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S1024x128 ![0, 1] bcast_S1x128_S1024x128_0_1 : (⟨S1x128, .f32⟩ : BufTy).Contents (Elt F) → (⟨S1024x128, .f32⟩ : BufTy).Contents (Elt F)),
    StableHlo.binary main_v197 main_v199 main_v200 (addf : (⟨S1024x128, .f32⟩ : BufTy).Contents (Elt F) → (⟨S1024x128, .f32⟩ : BufTy).Contents (Elt F) → (⟨S1024x128, .f32⟩ : BufTy).Contents (Elt F)),
    StableHlo.TRef.nullary main_call7.cst (constant S_ .f32 0x00000000#32),
    StableHlo.TRef.unary main_call7.cst main_call7.v0 (broadcastInDim S1024x128 ![] bcast_S_S1024x128),
    StableHlo.TRef.binary (.of main_v200) main_call7.v0 main_call7.v1 maximumf ]

/-- The buffers the stretch writes. -/
def WL02 : List (Ref sig .tc) :=
  [main_v140, main_v141, main_v142, main_v143, main_v144, main_v145, main_v146, main_cst_33, main_v147, main_v148, main_cst_34, main_v149, main_c_35, main_v150, main_v151, main_c_36, main_v152, main_v153, main_v154, main_v155, main_v156, main_cst_37, main_v157, main_v158, main_v159, main_cst_38, main_v160, main_v161, main_cst_39, main_call6_v0, main_call6_v1, main_v162, main_c_40, main_v163, main_v164, main_c_41, main_v165, main_v166, main_v167, main_v168, main_v169, main_c_42, main_v170, main_v171, main_c_43, main_v172, main_v173, main_v174, main_v175, main_v176, main_v177, main_v178, main_v179, main_c_44, main_v180, main_v181, main_c_45, main_v182, main_v183, main_v184, main_v185, main_v186, main_v187, main_v188, main_v189, main_cst_46, main_v190, main_c_47, main_v191, main_v192, main_c_48, main_v193, main_v194, main_v195, main_v196, main_v197, main_v198, main_v199, main_v200, main_call7_cst, main_call7_v0, main_v201]

theorem sL02_writes : (sL02 : List (HloOp τ sig (Elt F))).Forall fun op => op.writes ⊆ ((WL02).map (Proc.devRef (τ := τ) .tc)).toFinset := by
  simp only [sL02, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L02_keep (W : Valuation τ sig (Elt F)) {r : Ref sig .tc} (hr : r ∉ WL02) :
    after (sL02 : List (HloOp τ sig (Elt F))) W (no_index (Proc.devRef .tc r)) = W (Proc.devRef .tc r) :=
  after_of_writes_sub _ W sL02_writes hr

set_option maxHeartbeats 8000000 in
set_option maxRecDepth 100000 in
/-- What the stretch leaves in `main_v201`. -/
theorem L02_out (W : Valuation τ sig (Elt F)) :
    after (sL02 : List (HloOp τ sig (Elt F))) W (no_index (Proc.devRef .tc main_v201)) = RefDefs.layerFn (F := F) (W (Proc.devRef .tc main_v139)) (W (Proc.devRef .tc main_v9)) (W (Proc.devRef .tc main_v15)) (W (Proc.devRef .tc main_arg6)) (W (Proc.devRef .tc main_arg7)) := by
  unfold sL02
  after_results_simp
  rfl

end Cert.ReferenceIdeal.RefFold

end
-- ==== Proof.RefFoldL03.lean ====
/- (operations 301 … 382 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL03 : List (HloOp τ sig (Elt F)) :=
  [ StableHlo.unary main_v9 main_v202 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v202 main_v203 rfl shapeCasts_S1x1048576_S1048576,
    StableHlo.unary main_v9 main_v204 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v204 main_v205 rfl shapeCasts_S1x1048576_S1048576,
    StableHlo.nullary main_v206 (iotaInDim S1024 32 0),
    StableHlo.binary main_v203 main_v206 main_v207 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v205 main_v206 main_v208 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_49 (constant S_ .f32 0x3F800000#32),
    StableHlo.unary main_cst_49 main_v209 (broadcastInDim S1024 ![] bcast_S_S1024 : (⟨S_, .f32⟩ : BufTy).Contents (Elt F) → (⟨S1024, .f32⟩ : BufTy).Contents (Elt F)),
    StableHlo.binary main_v15 main_v209 main_v210 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_50 (constant S_ .f32 0x00000000#32),
    StableHlo.unary main_cst_50 main_v211 (broadcastInDim S1024 ![] bcast_S_S1024 : (⟨S_, .f32⟩ : BufTy).Contents (Elt F) → (⟨S1024, .f32⟩ : BufTy).Contents (Elt F)),
    StableHlo.nullary main_c_51 (constantI S_ 32 0#32),
    StableHlo.unary main_c_51 main_v212 (broadcastInDim S1049600 ![] bcast_S_S1049600 : (⟨S_, .i32⟩ : BufTy).Contents (Elt F) → (⟨S1049600, .i32⟩ : BufTy).Contents (Elt F)),
    StableHlo.binary main_v208 main_v212 main_v213 (cmpi .slt : (⟨S1049600, .i32⟩ : BufTy).Contents (Elt F) → (⟨S1049600, .i32⟩ : BufTy).Contents (Elt F) → (⟨S1049600, .i1⟩ : BufTy).Contents (Elt F)),
    StableHlo.nullary main_c_52 (constantI S_ 32 1024#32),
    StableHlo.unary main_c_52 main_v214 (broadcastInDim S1049600 ![] bcast_S_S1049600 : (⟨S_, .i32⟩ : BufTy).Contents (Elt F) → (⟨S1049600, .i32⟩ : BufTy).Contents (Elt F)),
    StableHlo.binary main_v208 main_v214 main_v215 (addi : (⟨S1049600, .i32⟩ : BufTy).Contents (Elt F) → (⟨S1049600, .i32⟩ : BufTy).Contents (Elt F) → (⟨S1049600, .i32⟩ : BufTy).Contents (Elt F)),
    StableHlo.ternary main_v213 main_v215 main_v208 main_v216 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v216 main_v217 (broadcastInDim S1049600x1 ![0] bcast_S1049600_S1049600x1_0 : (⟨S1049600, .i32⟩ : BufTy).Contents (Elt F) → (⟨S1049600x1, .i32⟩ : BufTy).Contents (Elt F)),
    StableHlo.ternary main_v211 main_v217 main_v210 main_v218 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_53 (constant S_ .f32 0x00000000#32),
    StableHlo.unary main_cst_53 main_v219 (broadcastInDim S1024 ![] bcast_S_S1024 : (⟨S_, .f32⟩ : BufTy).Contents (Elt F) → (⟨S1024, .f32⟩ : BufTy).Contents (Elt F)),
    StableHlo.binary main_v218 main_v219 main_v220 (cmpf .ogt : (⟨S1024, .f32⟩ : BufTy).Contents (Elt F) → (⟨S1024, .f32⟩ : BufTy).Contents (Elt F) → (⟨S1024, .i1⟩ : BufTy).Contents (Elt F)),
    StableHlo.unary main_v218 main_v221 (Host.sqrt : (⟨S1024, .f32⟩ : BufTy).Contents (Elt F) → (⟨S1024, .f32⟩ : BufTy).Contents (Elt F)),
    StableHlo.nullary main_cst_54 (constant S_ .f32 0x3F800000#32),
    StableHlo.unary main_cst_54 main_v222 (broadcastInDim S1024 ![] bcast_S_S1024 : (⟨S_, .f32⟩ : BufTy).Contents (Elt F) → (⟨S1024, .f32⟩ : BufTy).Contents (Elt F)),
    StableHlo.binary main_v222 main_v221 main_v223 (Host.divf : (⟨S1024, .f32⟩ : BufTy).Contents (Elt F) → (⟨S1024, .f32⟩ : BufTy).Contents (Elt F) → (⟨S1024, .f32⟩ : BufTy).Contents (Elt F)),
    StableHlo.nullary main_cst_55 (constant S_ .f32 0x00000000#32),
    StableHlo.TRef.unary (.of main_cst_55) main_call8.v0 id,
    StableHlo.TRef.unary main_call8.v0 main_call8.v1 (broadcastInDim S1024 ![] bcast_S_S1024),
    StableHlo.TRef.ternary (.of main_v220) (.of main_v223) main_call8.v1 main_call8.v2 select,
    StableHlo.nullary main_c_56 (constantI S_ 32 0#32),
    StableHlo.unary main_c_56 main_v225 (broadcastInDim S1049600 ![] bcast_S_S1049600 : (⟨S_, .i32⟩ : BufTy).Contents (Elt F) → (⟨S1049600, .i32⟩ : BufTy).Contents (Elt F)),
    StableHlo.binary main_v207 main_v225 main_v226 (cmpi .slt : (⟨S1049600, .i32⟩ : BufTy).Contents (Elt F) → (⟨S1049600, .i32⟩ : BufTy).Contents (Elt F) → (⟨S1049600, .i1⟩ : BufTy).Contents (Elt F)),
    StableHlo.nullary main_c_57 (constantI S_ 32 1024#32),
    StableHlo.unary main_c_57 main_v227 (broadcastInDim S1049600 ![] bcast_S_S1049600 : (⟨S_, .i32⟩ : BufTy).Contents (Elt F) → (⟨S1049600, .i32⟩ : BufTy).Contents (Elt F)),
    StableHlo.binary main_v207 main_v227 main_v228 (addi : (⟨S1049600, .i32⟩ : BufTy).Contents (Elt F) → (⟨S1049600, .i32⟩ : BufTy).Contents (Elt F) → (⟨S1049600, .i32⟩ : BufTy).Contents (Elt F)),
    StableHlo.ternary main_v226 main_v228 main_v207 main_v229 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v229 main_v230 (broadcastInDim S1049600x1 ![0] bcast_S1049600_S1049600x1_0 : (⟨S1049600, .i32⟩ : BufTy).Contents (Elt F) → (⟨S1049600x1, .i32⟩ : BufTy).Contents (Elt F)),
    StableHlo.binary main_v224 main_v230 main_v231 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_58 (constantI S_ 32 0#32),
    StableHlo.unary main_c_58 main_v232 (broadcastInDim S1049600 ![] bcast_S_S1049600 : (⟨S_, .i32⟩ : BufTy).Contents (Elt F) → (⟨S1049600, .i32⟩ : BufTy).Contents (Elt F)),
    StableHlo.binary main_v208 main_v232 main_v233 (cmpi .slt : (⟨S1049600, .i32⟩ : BufTy).Contents (Elt F) → (⟨S1049600, .i32⟩ : BufTy).Contents (Elt F) → (⟨S1049600, .i1⟩ : BufTy).Contents (Elt F)),
    StableHlo.nullary main_c_59 (constantI S_ 32 1024#32),
    StableHlo.unary main_c_59 main_v234 (broadcastInDim S1049600 ![] bcast_S_S1049600 : (⟨S_, .i32⟩ : BufTy).Contents (Elt F) → (⟨S1049600, .i32⟩ : BufTy).Contents (Elt F)),
    StableHlo.binary main_v208 main_v234 main_v235 (addi : (⟨S1049600, .i32⟩ : BufTy).Contents (Elt F) → (⟨S1049600, .i32⟩ : BufTy).Contents (Elt F) → (⟨S1049600, .i32⟩ : BufTy).Contents (Elt F)),
    StableHlo.ternary main_v233 main_v235 main_v208 main_v236 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v236 main_v237 (broadcastInDim S1049600x1 ![0] bcast_S1049600_S1049600x1_0 : (⟨S1049600, .i32⟩ : BufTy).Contents (Elt F) → (⟨S1049600x1, .i32⟩ : BufTy).Contents (Elt F)),
    StableHlo.binary main_v224 main_v237 main_v238 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v231 main_v238 main_v239 (mulf : (⟨S1049600, .f32⟩ : BufTy).Contents (Elt F) → (⟨S1049600, .f32⟩ : BufTy).Contents (Elt F) → (⟨S1049600, .f32⟩ : BufTy).Contents (Elt F)),
    StableHlo.binary main_v239 main_v210 main_v240 (mulf : (⟨S1049600, .f32⟩ : BufTy).Contents (Elt F) → (⟨S1049600, .f32⟩ : BufTy).Contents (Elt F) → (⟨S1049600, .f32⟩ : BufTy).Contents (Elt F)),
    StableHlo.binary main_v201 main_arg8 main_v241 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_60 (constantI S_ 32 0#32),
    StableHlo.unary main_c_60 main_v242 (broadcastInDim S1049600 ![] bcast_S_S1049600 : (⟨S_, .i32⟩ : BufTy).Contents (Elt F) → (⟨S1049600, .i32⟩ : BufTy).Contents (Elt F)),
    StableHlo.binary main_v207 main_v242 main_v243 (cmpi .slt : (⟨S1049600, .i32⟩ : BufTy).Contents (Elt F) → (⟨S1049600, .i32⟩ : BufTy).Contents (Elt F) → (⟨S1049600, .i1⟩ : BufTy).Contents (Elt F)),
    StableHlo.nullary main_c_61 (constantI S_ 32 1024#32),
    StableHlo.unary main_c_61 main_v244 (broadcastInDim S1049600 ![] bcast_S_S1049600 : (⟨S_, .i32⟩ : BufTy).Contents (Elt F) → (⟨S1049600, .i32⟩ : BufTy).Contents (Elt F)),
    StableHlo.binary main_v207 main_v244 main_v245 (addi : (⟨S1049600, .i32⟩ : BufTy).Contents (Elt F) → (⟨S1049600, .i32⟩ : BufTy).Contents (Elt F) → (⟨S1049600, .i32⟩ : BufTy).Contents (Elt F)),
    StableHlo.ternary main_v243 main_v245 main_v207 main_v246 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v246 main_v247 (broadcastInDim S1049600x1 ![0] bcast_S1049600_S1049600x1_0 : (⟨S1049600, .i32⟩ : BufTy).Contents (Elt F) → (⟨S1049600x1, .i32⟩ : BufTy).Contents (Elt F)),
    StableHlo.binary main_v241 main_v247 main_v248 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v240 main_v249 (broadcastInDim S1049600x1 ![0] bcast_S1049600_S1049600x1_0 : (⟨S1049600, .f32⟩ : BufTy).Contents (Elt F) → (⟨S1049600x1, .f32⟩ : BufTy).Contents (Elt F)),
    StableHlo.unary main_v249 main_v250 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v248 main_v250 main_v251 (mulf : (⟨S1049600x128, .f32⟩ : BufTy).Contents (Elt F) → (⟨S1049600x128, .f32⟩ : BufTy).Contents (Elt F) → (⟨S1049600x128, .f32⟩ : BufTy).Contents (Elt F)),
    StableHlo.nullary main_cst_62 (constant S_ .f32 0x00000000#32),
    StableHlo.unary main_cst_62 main_v252 (broadcastInDim S1024x128 ![] bcast_S_S1024x128 : (⟨S_, .f32⟩ : BufTy).Contents (Elt F) → (⟨S1024x128, .f32⟩ : BufTy).Contents (Elt F)),
    StableHlo.nullary main_c_63 (constantI S_ 32 0#32),
    StableHlo.unary main_c_63 main_v253 (broadcastInDim S1049600 ![] bcast_S_S1049600 : (⟨S_, .i32⟩ : BufTy).Contents (Elt F) → (⟨S1049600, .i32⟩ : BufTy).Contents (Elt F)),
    StableHlo.binary main_v208 main_v253 main_v254 (cmpi .slt : (⟨S1049600, .i32⟩ : BufTy).Contents (Elt F) → (⟨S1049600, .i32⟩ : BufTy).Contents (Elt F) → (⟨S1049600, .i1⟩ : BufTy).Contents (Elt F)),
    StableHlo.nullary main_c_64 (constantI S_ 32 1024#32),
    StableHlo.unary main_c_64 main_v255 (broadcastInDim S1049600 ![] bcast_S_S1049600 : (⟨S_, .i32⟩ : BufTy).Contents (Elt F) → (⟨S1049600, .i32⟩ : BufTy).Contents (Elt F)),
    StableHlo.binary main_v208 main_v255 main_v256 (addi : (⟨S1049600, .i32⟩ : BufTy).Contents (Elt F) → (⟨S1049600, .i32⟩ : BufTy).Contents (Elt F) → (⟨S1049600, .i32⟩ : BufTy).Contents (Elt F)),
    StableHlo.ternary main_v254 main_v256 main_v208 main_v257 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v257 main_v258 (broadcastInDim S1049600x1 ![0] bcast_S1049600_S1049600x1_0 : (⟨S1049600, .i32⟩ : BufTy).Contents (Elt F) → (⟨S1049600x1, .i32⟩ : BufTy).Contents (Elt F)),
    StableHlo.ternary main_v252 main_v258 main_v251 main_v259 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg9 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S1024x128 ![0, 1] bcast_S1x128_S1024x128_0_1 : (⟨S1x128, .f32⟩ : BufTy).Contents (Elt F) → (⟨S1024x128, .f32⟩ : BufTy).Contents (Elt F)),
    StableHlo.binary main_v259 main_v261 main_v262 (addf : (⟨S1024x128, .f32⟩ : BufTy).Contents (Elt F) → (⟨S1024x128, .f32⟩ : BufTy).Contents (Elt F) → (⟨S1024x128, .f32⟩ : BufTy).Contents (Elt F)),
    StableHlo.TRef.nullary main_call9.cst (constant S_ .f32 0x00000000#32),
    StableHlo.TRef.unary main_call9.cst main_call9.v0 (broadcastInDim S1024x128 ![] bcast_S_S1024x128),
    StableHlo.TRef.binary (.of main_v262) main_call9.v0 main_call9.v1 maximumf ]

/-- The buffers the stretch writes. -/
def WL03 : List (Ref sig .tc) :=
  [main_v202, main_v203, main_v204, main_v205, main_v206, main_v207, main_v208, main_cst_49, main_v209, main_v210, main_cst_50, main_v211, main_c_51, main_v212, main_v213, main_c_52, main_v214, main_v215, main_v216, main_v217, main_v218, main_cst_53, main_v219, main_v220, main_v221, main_cst_54, main_v222, main_v223, main_cst_55, main_call8_v0, main_call8_v1, main_v224, main_c_56, main_v225, main_v226, main_c_57, main_v227, main_v228, main_v229, main_v230, main_v231, main_c_58, main_v232, main_v233, main_c_59, main_v234, main_v235, main_v236, main_v237, main_v238, main_v239, main_v240, main_v241, main_c_60, main_v242, main_v243, main_c_61, main_v244, main_v245, main_v246, main_v247, main_v248, main_v249, main_v250, main_v251, main_cst_62, main_v252, main_c_63, main_v253, main_v254, main_c_64, main_v255, main_v256, main_v257, main_v258, main_v259, main_v260, main_v261, main_v262, main_call9_cst, main_call9_v0, main_v263]

theorem sL03_writes : (sL03 : List (HloOp τ sig (Elt F))).Forall fun op => op.writes ⊆ ((WL03).map (Proc.devRef (τ := τ) .tc)).toFinset := by
  simp only [sL03, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L03_keep (W : Valuation τ sig (Elt F)) {r : Ref sig .tc} (hr : r ∉ WL03) :
    after (sL03 : List (HloOp τ sig (Elt F))) W (no_index (Proc.devRef .tc r)) = W (Proc.devRef .tc r) :=
  after_of_writes_sub _ W sL03_writes hr

set_option maxHeartbeats 8000000 in
set_option maxRecDepth 100000 in
/-- What the stretch leaves in `main_v263`. -/
theorem L03_out (W : Valuation τ sig (Elt F)) :
    after (sL03 : List (HloOp τ sig (Elt F))) W (no_index (Proc.devRef .tc main_v263)) = RefDefs.layerFn (F := F) (W (Proc.devRef .tc main_v201)) (W (Proc.devRef .tc main_v9)) (W (Proc.devRef .tc main_v15)) (W (Proc.devRef .tc main_arg8)) (W (Proc.devRef .tc main_arg9)) := by
  unfold sL03
  after_results_simp
  rfl

end Cert.ReferenceIdeal.RefFold

end
-- ==== Proof.RefFoldM0.lean ====
/- (operations 383 … 392 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sM0 : List (HloOp τ sig (Elt F)) :=
  [ StableHlo.unary main_v77 main_v264 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v139 main_v265 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v201 main_v266 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v263 main_v267 (broadcastInDim S1x1024x128 ![1, 2] bcast_S1024x128_S1x1024x128_1_2 : (⟨S1024x128, .f32⟩ : BufTy).Contents (Elt F) → (⟨S1x1024x128, .f32⟩ : BufTy).Contents (Elt F)),
    StableHlo.nary ![main_v264, main_v265, main_v266, main_v267] main_v268 (fun u => concatenate S4x1024x128 0 [⟨S1x1024x128, u 0⟩, ⟨S1x1024x128, u 1⟩, ⟨S1x1024x128, u 2⟩, ⟨S1x1024x128, u 3⟩] concatenates_S1x1024x128_S1x1024x128_S1x1024x128_S1x1024x128_S4x1024x128_d0),
    StableHlo.nullary main_cst_65 (constant S_ .f32 0x00000000#32),
    StableHlo.binary main_v268 main_cst_65 main_v269 ((fun x v => Host.reduceAdd x v reducesTo_S4x1024x128_S1024x128_d0 h_S_) : (⟨S4x1024x128, .f32⟩ : BufTy).Contents (Elt F) → (⟨S_, .f32⟩ : BufTy).Contents (Elt F) → (⟨S1024x128, .f32⟩ : BufTy).Contents (Elt F)),
    StableHlo.nullary main_cst_66 (constant S_ .f32 0x40800000#32),
    StableHlo.unary main_cst_66 main_v270 (broadcastInDim S1024x128 ![] bcast_S_S1024x128 : (⟨S_, .f32⟩ : BufTy).Contents (Elt F) → (⟨S1024x128, .f32⟩ : BufTy).Contents (Elt F)),
    StableHlo.binary main_v269 main_v270 main_v271 (Host.divf : (⟨S1024x128, .f32⟩ : BufTy).Contents (Elt F) → (⟨S1024x128, .f32⟩ : BufTy).Contents (Elt F) → (⟨S1024x128, .f32⟩ : BufTy).Contents (Elt F)) ]

/-- The buffers the stretch writes. -/
def WM0 : List (Ref sig .tc) :=
  [main_v264, main_v265, main_v266, main_v267, main_v268, main_cst_65, main_v269, main_cst_66, main_v270, main_v271]

theorem sM0_writes : (sM0 : List (HloOp τ sig (Elt F))).Forall fun op => op.writes ⊆ ((WM0).map (Proc.devRef (τ := τ) .tc)).toFinset := by
  simp only [sM0, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem M0_keep (W : Valuation τ sig (Elt F)) {r : Ref sig .tc} (hr : r ∉ WM0) :
    after (sM0 : List (HloOp τ sig (Elt F))) W (no_index (Proc.devRef .tc r)) = W (Proc.devRef .tc r) :=
  after_of_writes_sub _ W sM0_writes hr

set_option maxHeartbeats 8000000 in
set_option maxRecDepth 100000 in
/-- What the stretch leaves in `main_v271`. -/
theorem M0_out (W : Valuation τ sig (Elt F)) :
    after (sM0 : List (HloOp τ sig (Elt F))) W (no_index (Proc.devRef .tc main_v271)) = RefDefs.meanFn (F := F) (W (Proc.devRef .tc main_v77)) (W (Proc.devRef .tc main_v139)) (W (Proc.devRef .tc main_v201)) (W (Proc.devRef .tc main_v263)) := by
  unfold sM0
  after_results_simp
  rfl

end Cert.ReferenceIdeal.RefFold

end
-- ==== Proof.RefFoldA1.lean ====
/- (operations 393 … 447 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sA1 : List (HloOp τ sig (Elt F)) :=
  [ StableHlo.unary main_arg0 main_v272 ((extractStridedSlice S1x1024x128 ![1, 0, 0] · slices_S2x1024x128_S1x1024x128_1_0_0) : (⟨S2x1024x128, .f32⟩ : BufTy).Contents (Elt F) → (⟨S1x1024x128, .f32⟩ : BufTy).Contents (Elt F)),
    StableHlo.reshape main_v272 main_v273 rfl shapeCasts_S1x1024x128_S1024x128,
    StableHlo.unary main_arg1 main_v274 ((extractStridedSlice S1x1024x1024 ![1, 0, 0] · slices_S2x1024x1024_S1x1024x1024_1_0_0) : (⟨S2x1024x1024, .i32⟩ : BufTy).Contents (Elt F) → (⟨S1x1024x1024, .i32⟩ : BufTy).Contents (Elt F)),
    StableHlo.reshape main_v274 main_v275 rfl shapeCasts_S1x1024x1024_S1024x1024,
    StableHlo.nullary main_v276 (iotaInDim S1048576 32 0),
    StableHlo.nullary main_c_67 (constantI S_ 32 1024#32),
    StableHlo.TRef.unary (.of main_c_67) main_call10.v0 id,
    StableHlo.TRef.unary main_call10.v0 main_call10.v1 (broadcastInDim S1048576 ![] bcast_S_S1048576),
    StableHlo.TRef.binary (.of main_v276) main_call10.v1 main_call10.v2 Host.divsi,
    StableHlo.TRef.unary (.of main_v276) main_call10.v3 signi,
    StableHlo.TRef.unary main_call10.v0 main_call10.v4 signi,
    StableHlo.TRef.unary main_call10.v4 main_call10.v5 (broadcastInDim S1048576 ![] bcast_S_S1048576),
    StableHlo.TRef.binary main_call10.v3 main_call10.v5 main_call10.v6 (cmpi .ne),
    StableHlo.TRef.unary main_call10.v0 main_call10.v7 (broadcastInDim S1048576 ![] bcast_S_S1048576),
    StableHlo.TRef.binary (.of main_v276) main_call10.v7 main_call10.v8 Host.remsi,
    StableHlo.TRef.nullary main_call10.c (constantI S_ 32 0#32),
    StableHlo.TRef.unary main_call10.c main_call10.v9 (broadcastInDim S1048576 ![] bcast_S_S1048576),
    StableHlo.TRef.binary main_call10.v8 main_call10.v9 main_call10.v10 (cmpi .ne),
    StableHlo.TRef.binary main_call10.v6 main_call10.v10 main_call10.v11 andi,
    StableHlo.TRef.nullary main_call10.c_0 (constantI S_ 32 1#32),
    StableHlo.TRef.unary main_call10.c_0 main_call10.v12 (broadcastInDim S1048576 ![] bcast_S_S1048576),
    StableHlo.TRef.binary main_call10.v2 main_call10.v12 main_call10.v13 subi,
    StableHlo.TRef.ternary main_call10.v11 main_call10.v13 main_call10.v2 main_call10.call0.v0 select,
    StableHlo.nullary main_c_68 (constantI S_ 32 1024#32),
    StableHlo.TRef.unary (.of main_c_68) main_call11.v0 id,
    StableHlo.TRef.nullary main_call11.c (constantI S_ 32 0#32),
    StableHlo.TRef.binary main_call11.v0 main_call11.c main_call11.v1 (cmpi .eq),
    StableHlo.TRef.nullary main_call11.c_0 (constantI S_ 32 1#32),
    StableHlo.TRef.ternary main_call11.v1 main_call11.c_0 main_call11.v0 main_call11.call0.v0 select,
    StableHlo.TRef.unary main_call11.call0.v0 main_call11.v3 (broadcastInDim S1048576 ![] bcast_S_S1048576),
    StableHlo.TRef.binary (.of main_v276) main_call11.v3 main_call11.v4 Host.remsi,
    StableHlo.TRef.nullary main_call11.c_1 (constantI S_ 32 0#32),
    StableHlo.TRef.unary main_call11.c_1 main_call11.v5 (broadcastInDim S1048576 ![] bcast_S_S1048576),
    StableHlo.TRef.binary main_call11.v4 main_call11.v5 main_call11.v6 (cmpi .ne),
    StableHlo.TRef.nullary main_call11.c_2 (constantI S_ 32 0#32),
    StableHlo.TRef.unary main_call11.c_2 main_call11.v7 (broadcastInDim S1048576 ![] bcast_S_S1048576),
    StableHlo.TRef.binary main_call11.v4 main_call11.v7 main_call11.v8 (cmpi .slt),
    StableHlo.TRef.nullary main_call11.c_3 (constantI S_ 32 0#32),
    StableHlo.TRef.binary main_call11.call0.v0 main_call11.c_3 main_call11.v9 (cmpi .slt),
    StableHlo.TRef.unary main_call11.v9 main_call11.v10 (broadcastInDim S1048576 ![] bcast_S_S1048576),
    StableHlo.TRef.binary main_call11.v8 main_call11.v10 main_call11.v11 (cmpi .ne),
    StableHlo.TRef.binary main_call11.v11 main_call11.v6 main_call11.v12 andi,
    StableHlo.TRef.unary main_call11.call0.v0 main_call11.v13 (broadcastInDim S1048576 ![] bcast_S_S1048576),
    StableHlo.TRef.binary main_call11.v4 main_call11.v13 main_call11.v14 addi,
    StableHlo.TRef.ternary main_call11.v12 main_call11.v14 main_call11.v4 main_call11.v15 select,
    StableHlo.unary main_v277 main_v279 (broadcastInDim S1x1048576 ![1] bcast_S1048576_S1x1048576_1 : (⟨S1048576, .i32⟩ : BufTy).Contents (Elt F) → (⟨S1x1048576, .i32⟩ : BufTy).Contents (Elt F)),
    StableHlo.unary main_v278 main_v280 (broadcastInDim S1x1048576 ![1] bcast_S1048576_S1x1048576_1 : (⟨S1048576, .i32⟩ : BufTy).Contents (Elt F) → (⟨S1x1048576, .i32⟩ : BufTy).Contents (Elt F)),
    StableHlo.binary main_v279 main_v280 main_v281 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)),
    StableHlo.reshape main_v275 main_v282 rfl shapeCasts_S1024x1024_S1048576,
    StableHlo.nullary main_c_69 (constantI S_ 32 0#32),
    StableHlo.unary main_c_69 main_v283 (broadcastInDim S1048576 ![] bcast_S_S1048576 : (⟨S_, .i32⟩ : BufTy).Contents (Elt F) → (⟨S1048576, .i32⟩ : BufTy).Contents (Elt F)),
    StableHlo.binary main_v282 main_v283 main_v284 (cmpi .ne : (⟨S1048576, .i32⟩ : BufTy).Contents (Elt F) → (⟨S1048576, .i32⟩ : BufTy).Contents (Elt F) → (⟨S1048576, .i1⟩ : BufTy).Contents (Elt F)),
    StableHlo.binary main_v277 main_v278 main_v285 (cmpi .ne : (⟨S1048576, .i32⟩ : BufTy).Contents (Elt F) → (⟨S1048576, .i32⟩ : BufTy).Contents (Elt F) → (⟨S1048576, .i1⟩ : BufTy).Contents (Elt F)),
    StableHlo.binary main_v284 main_v285 main_v286 (andi : (⟨S1048576, .i1⟩ : BufTy).Contents (Elt F) → (⟨S1048576, .i1⟩ : BufTy).Contents (Elt F) → (⟨S1048576, .i1⟩ : BufTy).Contents (Elt F)),
    StableHlo.unary main_v286 main_v287 (uitofp .f32 : (⟨S1048576, .i1⟩ : BufTy).Contents (Elt F) → (⟨S1048576, .f32⟩ : BufTy).Contents (Elt F)) ]

/-- The buffers the stretch writes. -/
def WA1 : List (Ref sig .tc) :=
  [main_v272, main_v273, main_v274, main_v275, main_v276, main_c_67, main_call10_v0, main_call10_v1, main_call10_v2, main_call10_v3, main_call10_v4, main_call10_v5, main_call10_v6, main_call10_v7, main_call10_v8, main_call10_c, main_call10_v9, main_call10_v10, main_call10_v11, main_call10_c_0, main_call10_v12, main_call10_v13, main_v277, main_c_68, main_call11_v0, main_call11_c, main_call11_v1, main_call11_c_0, main_call11_v2, main_call11_v3, main_call11_v4, main_call11_c_1, main_call11_v5, main_call11_v6, main_call11_c_2, main_call11_v7, main_call11_v8, main_call11_c_3, main_call11_v9, main_call11_v10, main_call11_v11, main_call11_v12, main_call11_v13, main_call11_v14, main_v278, main_v279, main_v280, main_v281, main_v282, main_c_69, main_v283, main_v284, main_v285, main_v286, main_v287]

theorem sA1_writes : (sA1 : List (HloOp τ sig (Elt F))).Forall fun op => op.writes ⊆ ((WA1).map (Proc.devRef (τ := τ) .tc)).toFinset := by
  simp only [sA1, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem A1_keep (W : Valuation τ sig (Elt F)) {r : Ref sig .tc} (hr : r ∉ WA1) :
    after (sA1 : List (HloOp τ sig (Elt F))) W (no_index (Proc.devRef .tc r)) = W (Proc.devRef .tc r) :=
  after_of_writes_sub _ W sA1_writes hr

set_option maxHeartbeats 8000000 in
set_option maxRecDepth 100000 in
/-- What the stretch leaves in `main_v273`. -/
theorem A1_x (W : Valuation τ sig (Elt F)) :
    after (sA1 : List (HloOp τ sig (Elt F))) W (no_index (Proc.devRef .tc main_v273)) = RefDefs.xOf1 (F := F) (W (Proc.devRef .tc main_arg0)) := by
  unfold sA1
  after_results_simp
  rfl

set_option maxHeartbeats 8000000 in
set_option maxRecDepth 100000 in
/-- What the stretch leaves in `main_v281`. -/
theorem A1_ei (W : Valuation τ sig (Elt F)) :
    after (sA1 : List (HloOp τ sig (Elt F))) W (no_index (Proc.devRef .tc main_v281)) = RefDefs.eiOf (F := F) RefDefs.srcV RefDefs.dstV := by
  unfold sA1
  after_results_simp
  rfl

set_option maxHeartbeats 8000000 in
set_option maxRecDepth 100000 in
/-- What the stretch leaves in `main_v287`. -/
theorem A1_w (W : Valuation τ sig (Elt F)) :
    after (sA1 : List (HloOp τ sig (Elt F))) W (no_index (Proc.devRef .tc main_v287)) = RefDefs.wOf (F := F) (RefDefs.rpaOf1 (F := F) (W (Proc.devRef .tc main_arg1))) RefDefs.srcV RefDefs.dstV := by
  unfold sA1
  after_results_simp
  rfl

end Cert.ReferenceIdeal.RefFold

end
-- ==== Proof.RefFoldL10.lean ====
/- (operations 448 … 529 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL10 : List (HloOp τ sig (Elt F)) :=
  [ StableHlo.unary main_v281 main_v288 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v288 main_v289 rfl shapeCasts_S1x1048576_S1048576,
    StableHlo.unary main_v281 main_v290 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v290 main_v291 rfl shapeCasts_S1x1048576_S1048576,
    StableHlo.nullary main_v292 (iotaInDim S1024 32 0),
    StableHlo.binary main_v289 main_v292 main_v293 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v291 main_v292 main_v294 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_70 (constant S_ .f32 0x3F800000#32),
    StableHlo.unary main_cst_70 main_v295 (broadcastInDim S1024 ![] bcast_S_S1024 : (⟨S_, .f32⟩ : BufTy).Contents (Elt F) → (⟨S1024, .f32⟩ : BufTy).Contents (Elt F)),
    StableHlo.binary main_v287 main_v295 main_v296 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_71 (constant S_ .f32 0x00000000#32),
    StableHlo.unary main_cst_71 main_v297 (broadcastInDim S1024 ![] bcast_S_S1024 : (⟨S_, .f32⟩ : BufTy).Contents (Elt F) → (⟨S1024, .f32⟩ : BufTy).Contents (Elt F)),
    StableHlo.nullary main_c_72 (constantI S_ 32 0#32),
    StableHlo.unary main_c_72 main_v298 (broadcastInDim S1049600 ![] bcast_S_S1049600 : (⟨S_, .i32⟩ : BufTy).Contents (Elt F) → (⟨S1049600, .i32⟩ : BufTy).Contents (Elt F)),
    StableHlo.binary main_v294 main_v298 main_v299 (cmpi .slt : (⟨S1049600, .i32⟩ : BufTy).Contents (Elt F) → (⟨S1049600, .i32⟩ : BufTy).Contents (Elt F) → (⟨S1049600, .i1⟩ : BufTy).Contents (Elt F)),
    StableHlo.nullary main_c_73 (constantI S_ 32 1024#32),
    StableHlo.unary main_c_73 main_v300 (broadcastInDim S1049600 ![] bcast_S_S1049600 : (⟨S_, .i32⟩ : BufTy).Contents (Elt F) → (⟨S1049600, .i32⟩ : BufTy).Contents (Elt F)),
    StableHlo.binary main_v294 main_v300 main_v301 (addi : (⟨S1049600, .i32⟩ : BufTy).Contents (Elt F) → (⟨S1049600, .i32⟩ : BufTy).Contents (Elt F) → (⟨S1049600, .i32⟩ : BufTy).Contents (Elt F)),
    StableHlo.ternary main_v299 main_v301 main_v294 main_v302 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v302 main_v303 (broadcastInDim S1049600x1 ![0] bcast_S1049600_S1049600x1_0 : (⟨S1049600, .i32⟩ : BufTy).Contents (Elt F) → (⟨S1049600x1, .i32⟩ : BufTy).Contents (Elt F)),
    StableHlo.ternary main_v297 main_v303 main_v296 main_v304 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_74 (constant S_ .f32 0x00000000#32),
    StableHlo.unary main_cst_74 main_v305 (broadcastInDim S1024 ![] bcast_S_S1024 : (⟨S_, .f32⟩ : BufTy).Contents (Elt F) → (⟨S1024, .f32⟩ : BufTy).Contents (Elt F)),
    StableHlo.binary main_v304 main_v305 main_v306 (cmpf .ogt : (⟨S1024, .f32⟩ : BufTy).Contents (Elt F) → (⟨S1024, .f32⟩ : BufTy).Contents (Elt F) → (⟨S1024, .i1⟩ : BufTy).Contents (Elt F)),
    StableHlo.unary main_v304 main_v307 (Host.sqrt : (⟨S1024, .f32⟩ : BufTy).Contents (Elt F) → (⟨S1024, .f32⟩ : BufTy).Contents (Elt F)),
    StableHlo.nullary main_cst_75 (constant S_ .f32 0x3F800000#32),
    StableHlo.unary main_cst_75 main_v308 (broadcastInDim S1024 ![] bcast_S_S1024 : (⟨S_, .f32⟩ : BufTy).Contents (Elt F) → (⟨S1024, .f32⟩ : BufTy).Contents (Elt F)),
    StableHlo.binary main_v308 main_v307 main_v309 (Host.divf : (⟨S1024, .f32⟩ : BufTy).Contents (Elt F) → (⟨S1024, .f32⟩ : BufTy).Contents (Elt F) → (⟨S1024, .f32⟩ : BufTy).Contents (Elt F)),
    StableHlo.nullary main_cst_76 (constant S_ .f32 0x00000000#32),
    StableHlo.TRef.unary (.of main_cst_76) main_call12.v0 id,
    StableHlo.TRef.unary main_call12.v0 main_call12.v1 (broadcastInDim S1024 ![] bcast_S_S1024),
    StableHlo.TRef.ternary (.of main_v306) (.of main_v309) main_call12.v1 main_call12.v2 select,
    StableHlo.nullary main_c_77 (constantI S_ 32 0#32),
    StableHlo.unary main_c_77 main_v311 (broadcastInDim S1049600 ![] bcast_S_S1049600 : (⟨S_, .i32⟩ : BufTy).Contents (Elt F) → (⟨S1049600, .i32⟩ : BufTy).Contents (Elt F)),
    StableHlo.binary main_v293 main_v311 main_v312 (cmpi .slt : (⟨S1049600, .i32⟩ : BufTy).Contents (Elt F) → (⟨S1049600, .i32⟩ : BufTy).Contents (Elt F) → (⟨S1049600, .i1⟩ : BufTy).Contents (Elt F)),
    StableHlo.nullary main_c_78 (constantI S_ 32 1024#32),
    StableHlo.unary main_c_78 main_v313 (broadcastInDim S1049600 ![] bcast_S_S1049600 : (⟨S_, .i32⟩ : BufTy).Contents (Elt F) → (⟨S1049600, .i32⟩ : BufTy).Contents (Elt F)),
    StableHlo.binary main_v293 main_v313 main_v314 (addi : (⟨S1049600, .i32⟩ : BufTy).Contents (Elt F) → (⟨S1049600, .i32⟩ : BufTy).Contents (Elt F) → (⟨S1049600, .i32⟩ : BufTy).Contents (Elt F)),
    StableHlo.ternary main_v312 main_v314 main_v293 main_v315 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v315 main_v316 (broadcastInDim S1049600x1 ![0] bcast_S1049600_S1049600x1_0 : (⟨S1049600, .i32⟩ : BufTy).Contents (Elt F) → (⟨S1049600x1, .i32⟩ : BufTy).Contents (Elt F)),
    StableHlo.binary main_v310 main_v316 main_v317 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_79 (constantI S_ 32 0#32),
    StableHlo.unary main_c_79 main_v318 (broadcastInDim S1049600 ![] bcast_S_S1049600 : (⟨S_, .i32⟩ : BufTy).Contents (Elt F) → (⟨S1049600, .i32⟩ : BufTy).Contents (Elt F)),
    StableHlo.binary main_v294 main_v318 main_v319 (cmpi .slt : (⟨S1049600, .i32⟩ : BufTy).Contents (Elt F) → (⟨S1049600, .i32⟩ : BufTy).Contents (Elt F) → (⟨S1049600, .i1⟩ : BufTy).Contents (Elt F)),
    StableHlo.nullary main_c_80 (constantI S_ 32 1024#32),
    StableHlo.unary main_c_80 main_v320 (broadcastInDim S1049600 ![] bcast_S_S1049600 : (⟨S_, .i32⟩ : BufTy).Contents (Elt F) → (⟨S1049600, .i32⟩ : BufTy).Contents (Elt F)),
    StableHlo.binary main_v294 main_v320 main_v321 (addi : (⟨S1049600, .i32⟩ : BufTy).Contents (Elt F) → (⟨S1049600, .i32⟩ : BufTy).Contents (Elt F) → (⟨S1049600, .i32⟩ : BufTy).Contents (Elt F)),
    StableHlo.ternary main_v319 main_v321 main_v294 main_v322 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v322 main_v323 (broadcastInDim S1049600x1 ![0] bcast_S1049600_S1049600x1_0 : (⟨S1049600, .i32⟩ : BufTy).Contents (Elt F) → (⟨S1049600x1, .i32⟩ : BufTy).Contents (Elt F)),
    StableHlo.binary main_v310 main_v323 main_v324 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v317 main_v324 main_v325 (mulf : (⟨S1049600, .f32⟩ : BufTy).Contents (Elt F) → (⟨S1049600, .f32⟩ : BufTy).Contents (Elt F) → (⟨S1049600, .f32⟩ : BufTy).Contents (Elt F)),
    StableHlo.binary main_v325 main_v296 main_v326 (mulf : (⟨S1049600, .f32⟩ : BufTy).Contents (Elt F) → (⟨S1049600, .f32⟩ : BufTy).Contents (Elt F) → (⟨S1049600, .f32⟩ : BufTy).Contents (Elt F)),
    StableHlo.binary main_v273 main_arg2 main_v327 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_81 (constantI S_ 32 0#32),
    StableHlo.unary main_c_81 main_v328 (broadcastInDim S1049600 ![] bcast_S_S1049600 : (⟨S_, .i32⟩ : BufTy).Contents (Elt F) → (⟨S1049600, .i32⟩ : BufTy).Contents (Elt F)),
    StableHlo.binary main_v293 main_v328 main_v329 (cmpi .slt : (⟨S1049600, .i32⟩ : BufTy).Contents (Elt F) → (⟨S1049600, .i32⟩ : BufTy).Contents (Elt F) → (⟨S1049600, .i1⟩ : BufTy).Contents (Elt F)),
    StableHlo.nullary main_c_82 (constantI S_ 32 1024#32),
    StableHlo.unary main_c_82 main_v330 (broadcastInDim S1049600 ![] bcast_S_S1049600 : (⟨S_, .i32⟩ : BufTy).Contents (Elt F) → (⟨S1049600, .i32⟩ : BufTy).Contents (Elt F)),
    StableHlo.binary main_v293 main_v330 main_v331 (addi : (⟨S1049600, .i32⟩ : BufTy).Contents (Elt F) → (⟨S1049600, .i32⟩ : BufTy).Contents (Elt F) → (⟨S1049600, .i32⟩ : BufTy).Contents (Elt F)),
    StableHlo.ternary main_v329 main_v331 main_v293 main_v332 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v332 main_v333 (broadcastInDim S1049600x1 ![0] bcast_S1049600_S1049600x1_0 : (⟨S1049600, .i32⟩ : BufTy).Contents (Elt F) → (⟨S1049600x1, .i32⟩ : BufTy).Contents (Elt F)),
    StableHlo.binary main_v327 main_v333 main_v334 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v326 main_v335 (broadcastInDim S1049600x1 ![0] bcast_S1049600_S1049600x1_0 : (⟨S1049600, .f32⟩ : BufTy).Contents (Elt F) → (⟨S1049600x1, .f32⟩ : BufTy).Contents (Elt F)),
    StableHlo.unary main_v335 main_v336 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v334 main_v336 main_v337 (mulf : (⟨S1049600x128, .f32⟩ : BufTy).Contents (Elt F) → (⟨S1049600x128, .f32⟩ : BufTy).Contents (Elt F) → (⟨S1049600x128, .f32⟩ : BufTy).Contents (Elt F)),
    StableHlo.nullary main_cst_83 (constant S_ .f32 0x00000000#32),
    StableHlo.unary main_cst_83 main_v338 (broadcastInDim S1024x128 ![] bcast_S_S1024x128 : (⟨S_, .f32⟩ : BufTy).Contents (Elt F) → (⟨S1024x128, .f32⟩ : BufTy).Contents (Elt F)),
    StableHlo.nullary main_c_84 (constantI S_ 32 0#32),
    StableHlo.unary main_c_84 main_v339 (broadcastInDim S1049600 ![] bcast_S_S1049600 : (⟨S_, .i32⟩ : BufTy).Contents (Elt F) → (⟨S1049600, .i32⟩ : BufTy).Contents (Elt F)),
    StableHlo.binary main_v294 main_v339 main_v340 (cmpi .slt : (⟨S1049600, .i32⟩ : BufTy).Contents (Elt F) → (⟨S1049600, .i32⟩ : BufTy).Contents (Elt F) → (⟨S1049600, .i1⟩ : BufTy).Contents (Elt F)),
    StableHlo.nullary main_c_85 (constantI S_ 32 1024#32),
    StableHlo.unary main_c_85 main_v341 (broadcastInDim S1049600 ![] bcast_S_S1049600 : (⟨S_, .i32⟩ : BufTy).Contents (Elt F) → (⟨S1049600, .i32⟩ : BufTy).Contents (Elt F)),
    StableHlo.binary main_v294 main_v341 main_v342 (addi : (⟨S1049600, .i32⟩ : BufTy).Contents (Elt F) → (⟨S1049600, .i32⟩ : BufTy).Contents (Elt F) → (⟨S1049600, .i32⟩ : BufTy).Contents (Elt F)),
    StableHlo.ternary main_v340 main_v342 main_v294 main_v343 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v343 main_v344 (broadcastInDim S1049600x1 ![0] bcast_S1049600_S1049600x1_0 : (⟨S1049600, .i32⟩ : BufTy).Contents (Elt F) → (⟨S1049600x1, .i32⟩ : BufTy).Contents (Elt F)),
    StableHlo.ternary main_v338 main_v344 main_v337 main_v345 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg3 main_v346 (broadcastInDim S1x128 ![1] bcast_S128_S1x128_1 : (⟨S128, .f32⟩ : BufTy).Contents (Elt F) → (⟨S1x128, .f32⟩ : BufTy).Contents (Elt F)),
    StableHlo.unary main_v346 main_v347 (broadcastInDim S1024x128 ![0, 1] bcast_S1x128_S1024x128_0_1 : (⟨S1x128, .f32⟩ : BufTy).Contents (Elt F) → (⟨S1024x128, .f32⟩ : BufTy).Contents (Elt F)),
    StableHlo.binary main_v345 main_v347 main_v348 (addf : (⟨S1024x128, .f32⟩ : BufTy).Contents (Elt F) → (⟨S1024x128, .f32⟩ : BufTy).Contents (Elt F) → (⟨S1024x128, .f32⟩ : BufTy).Contents (Elt F)),
    StableHlo.TRef.nullary main_call13.cst (constant S_ .f32 0x00000000#32),
    StableHlo.TRef.unary main_call13.cst main_call13.v0 (broadcastInDim S1024x128 ![] bcast_S_S1024x128),
    StableHlo.TRef.binary (.of main_v348) main_call13.v0 main_call13.v1 maximumf ]

/-- The buffers the stretch writes. -/
def WL10 : List (Ref sig .tc) :=
  [main_v288, main_v289, main_v290, main_v291, main_v292, main_v293, main_v294, main_cst_70, main_v295, main_v296, main_cst_71, main_v297, main_c_72, main_v298, main_v299, main_c_73, main_v300, main_v301, main_v302, main_v303, main_v304, main_cst_74, main_v305, main_v306, main_v307, main_cst_75, main_v308, main_v309, main_cst_76, main_call12_v0, main_call12_v1, main_v310, main_c_77, main_v311, main_v312, main_c_78, main_v313, main_v314, main_v315, main_v316, main_v317, main_c_79, main_v318, main_v319, main_c_80, main_v320, main_v321, main_v322, main_v323, main_v324, main_v325, main_v326, main_v327, main_c_81, main_v328, main_v329, main_c_82, main_v330, main_v331, main_v332, main_v333, main_v334, main_v335, main_v336, main_v337, main_cst_83, main_v338, main_c_84, main_v339, main_v340, main_c_85, main_v341, main_v342, main_v343, main_v344, main_v345, main_v346, main_v347, main_v348, main_call13_cst, main_call13_v0, main_v349]

theorem sL10_writes : (sL10 : List (HloOp τ sig (Elt F))).Forall fun op => op.writes ⊆ ((WL10).map (Proc.devRef (τ := τ) .tc)).toFinset := by
  simp only [sL10, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L10_keep (W : Valuation τ sig (Elt F)) {r : Ref sig .tc} (hr : r ∉ WL10) :
    after (sL10 : List (HloOp τ sig (Elt F))) W (no_index (Proc.devRef .tc r)) = W (Proc.devRef .tc r) :=
  after_of_writes_sub _ W sL10_writes hr

set_option maxHeartbeats 8000000 in
set_option maxRecDepth 100000 in
/-- What the stretch leaves in `main_v349`. -/
theorem L10_out (W : Valuation τ sig (Elt F)) :
    after (sL10 : List (HloOp τ sig (Elt F))) W (no_index (Proc.devRef .tc main_v349)) = RefDefs.layerFn (F := F) (W (Proc.devRef .tc main_v273)) (W (Proc.devRef .tc main_v281)) (W (Proc.devRef .tc main_v287)) (W (Proc.devRef .tc main_arg2)) (W (Proc.devRef .tc main_arg3)) := by
  unfold sL10
  after_results_simp
  rfl

end Cert.ReferenceIdeal.RefFold

end
-- ==== Proof.RefFoldL11.lean ====
/- (operations 530 … 611 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL11 : List (HloOp τ sig (Elt F)) :=
  [ StableHlo.unary main_v281 main_v350 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v350 main_v351 rfl shapeCasts_S1x1048576_S1048576,
    StableHlo.unary main_v281 main_v352 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v352 main_v353 rfl shapeCasts_S1x1048576_S1048576,
    StableHlo.nullary main_v354 (iotaInDim S1024 32 0),
    StableHlo.binary main_v351 main_v354 main_v355 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v353 main_v354 main_v356 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_86 (constant S_ .f32 0x3F800000#32),
    StableHlo.unary main_cst_86 main_v357 (broadcastInDim S1024 ![] bcast_S_S1024 : (⟨S_, .f32⟩ : BufTy).Contents (Elt F) → (⟨S1024, .f32⟩ : BufTy).Contents (Elt F)),
    StableHlo.binary main_v287 main_v357 main_v358 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_87 (constant S_ .f32 0x00000000#32),
    StableHlo.unary main_cst_87 main_v359 (broadcastInDim S1024 ![] bcast_S_S1024 : (⟨S_, .f32⟩ : BufTy).Contents (Elt F) → (⟨S1024, .f32⟩ : BufTy).Contents (Elt F)),
    StableHlo.nullary main_c_88 (constantI S_ 32 0#32),
    StableHlo.unary main_c_88 main_v360 (broadcastInDim S1049600 ![] bcast_S_S1049600 : (⟨S_, .i32⟩ : BufTy).Contents (Elt F) → (⟨S1049600, .i32⟩ : BufTy).Contents (Elt F)),
    StableHlo.binary main_v356 main_v360 main_v361 (cmpi .slt : (⟨S1049600, .i32⟩ : BufTy).Contents (Elt F) → (⟨S1049600, .i32⟩ : BufTy).Contents (Elt F) → (⟨S1049600, .i1⟩ : BufTy).Contents (Elt F)),
    StableHlo.nullary main_c_89 (constantI S_ 32 1024#32),
    StableHlo.unary main_c_89 main_v362 (broadcastInDim S1049600 ![] bcast_S_S1049600 : (⟨S_, .i32⟩ : BufTy).Contents (Elt F) → (⟨S1049600, .i32⟩ : BufTy).Contents (Elt F)),
    StableHlo.binary main_v356 main_v362 main_v363 (addi : (⟨S1049600, .i32⟩ : BufTy).Contents (Elt F) → (⟨S1049600, .i32⟩ : BufTy).Contents (Elt F) → (⟨S1049600, .i32⟩ : BufTy).Contents (Elt F)),
    StableHlo.ternary main_v361 main_v363 main_v356 main_v364 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v364 main_v365 (broadcastInDim S1049600x1 ![0] bcast_S1049600_S1049600x1_0 : (⟨S1049600, .i32⟩ : BufTy).Contents (Elt F) → (⟨S1049600x1, .i32⟩ : BufTy).Contents (Elt F)),
    StableHlo.ternary main_v359 main_v365 main_v358 main_v366 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_90 (constant S_ .f32 0x00000000#32),
    StableHlo.unary main_cst_90 main_v367 (broadcastInDim S1024 ![] bcast_S_S1024 : (⟨S_, .f32⟩ : BufTy).Contents (Elt F) → (⟨S1024, .f32⟩ : BufTy).Contents (Elt F)),
    StableHlo.binary main_v366 main_v367 main_v368 (cmpf .ogt : (⟨S1024, .f32⟩ : BufTy).Contents (Elt F) → (⟨S1024, .f32⟩ : BufTy).Contents (Elt F) → (⟨S1024, .i1⟩ : BufTy).Contents (Elt F)),
    StableHlo.unary main_v366 main_v369 (Host.sqrt : (⟨S1024, .f32⟩ : BufTy).Contents (Elt F) → (⟨S1024, .f32⟩ : BufTy).Contents (Elt F)),
    StableHlo.nullary main_cst_91 (constant S_ .f32 0x3F800000#32),
    StableHlo.unary main_cst_91 main_v370 (broadcastInDim S1024 ![] bcast_S_S1024 : (⟨S_, .f32⟩ : BufTy).Contents (Elt F) → (⟨S1024, .f32⟩ : BufTy).Contents (Elt F)),
    StableHlo.binary main_v370 main_v369 main_v371 (Host.divf : (⟨S1024, .f32⟩ : BufTy).Contents (Elt F) → (⟨S1024, .f32⟩ : BufTy).Contents (Elt F) → (⟨S1024, .f32⟩ : BufTy).Contents (Elt F)),
    StableHlo.nullary main_cst_92 (constant S_ .f32 0x00000000#32),
    StableHlo.TRef.unary (.of main_cst_92) main_call14.v0 id,
    StableHlo.TRef.unary main_call14.v0 main_call14.v1 (broadcastInDim S1024 ![] bcast_S_S1024),
    StableHlo.TRef.ternary (.of main_v368) (.of main_v371) main_call14.v1 main_call14.v2 select,
    StableHlo.nullary main_c_93 (constantI S_ 32 0#32),
    StableHlo.unary main_c_93 main_v373 (broadcastInDim S1049600 ![] bcast_S_S1049600 : (⟨S_, .i32⟩ : BufTy).Contents (Elt F) → (⟨S1049600, .i32⟩ : BufTy).Contents (Elt F)),
    StableHlo.binary main_v355 main_v373 main_v374 (cmpi .slt : (⟨S1049600, .i32⟩ : BufTy).Contents (Elt F) → (⟨S1049600, .i32⟩ : BufTy).Contents (Elt F) → (⟨S1049600, .i1⟩ : BufTy).Contents (Elt F)),
    StableHlo.nullary main_c_94 (constantI S_ 32 1024#32),
    StableHlo.unary main_c_94 main_v375 (broadcastInDim S1049600 ![] bcast_S_S1049600 : (⟨S_, .i32⟩ : BufTy).Contents (Elt F) → (⟨S1049600, .i32⟩ : BufTy).Contents (Elt F)),
    StableHlo.binary main_v355 main_v375 main_v376 (addi : (⟨S1049600, .i32⟩ : BufTy).Contents (Elt F) → (⟨S1049600, .i32⟩ : BufTy).Contents (Elt F) → (⟨S1049600, .i32⟩ : BufTy).Contents (Elt F)),
    StableHlo.ternary main_v374 main_v376 main_v355 main_v377 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v377 main_v378 (broadcastInDim S1049600x1 ![0] bcast_S1049600_S1049600x1_0 : (⟨S1049600, .i32⟩ : BufTy).Contents (Elt F) → (⟨S1049600x1, .i32⟩ : BufTy).Contents (Elt F)),
    StableHlo.binary main_v372 main_v378 main_v379 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_95 (constantI S_ 32 0#32),
    StableHlo.unary main_c_95 main_v380 (broadcastInDim S1049600 ![] bcast_S_S1049600 : (⟨S_, .i32⟩ : BufTy).Contents (Elt F) → (⟨S1049600, .i32⟩ : BufTy).Contents (Elt F)),
    StableHlo.binary main_v356 main_v380 main_v381 (cmpi .slt : (⟨S1049600, .i32⟩ : BufTy).Contents (Elt F) → (⟨S1049600, .i32⟩ : BufTy).Contents (Elt F) → (⟨S1049600, .i1⟩ : BufTy).Contents (Elt F)),
    StableHlo.nullary main_c_96 (constantI S_ 32 1024#32),
    StableHlo.unary main_c_96 main_v382 (broadcastInDim S1049600 ![] bcast_S_S1049600 : (⟨S_, .i32⟩ : BufTy).Contents (Elt F) → (⟨S1049600, .i32⟩ : BufTy).Contents (Elt F)),
    StableHlo.binary main_v356 main_v382 main_v383 (addi : (⟨S1049600, .i32⟩ : BufTy).Contents (Elt F) → (⟨S1049600, .i32⟩ : BufTy).Contents (Elt F) → (⟨S1049600, .i32⟩ : BufTy).Contents (Elt F)),
    StableHlo.ternary main_v381 main_v383 main_v356 main_v384 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v384 main_v385 (broadcastInDim S1049600x1 ![0] bcast_S1049600_S1049600x1_0 : (⟨S1049600, .i32⟩ : BufTy).Contents (Elt F) → (⟨S1049600x1, .i32⟩ : BufTy).Contents (Elt F)),
    StableHlo.binary main_v372 main_v385 main_v386 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v379 main_v386 main_v387 (mulf : (⟨S1049600, .f32⟩ : BufTy).Contents (Elt F) → (⟨S1049600, .f32⟩ : BufTy).Contents (Elt F) → (⟨S1049600, .f32⟩ : BufTy).Contents (Elt F)),
    StableHlo.binary main_v387 main_v358 main_v388 (mulf : (⟨S1049600, .f32⟩ : BufTy).Contents (Elt F) → (⟨S1049600, .f32⟩ : BufTy).Contents (Elt F) → (⟨S1049600, .f32⟩ : BufTy).Contents (Elt F)),
    StableHlo.binary main_v349 main_arg4 main_v389 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_97 (constantI S_ 32 0#32),
    StableHlo.unary main_c_97 main_v390 (broadcastInDim S1049600 ![] bcast_S_S1049600 : (⟨S_, .i32⟩ : BufTy).Contents (Elt F) → (⟨S1049600, .i32⟩ : BufTy).Contents (Elt F)),
    StableHlo.binary main_v355 main_v390 main_v391 (cmpi .slt : (⟨S1049600, .i32⟩ : BufTy).Contents (Elt F) → (⟨S1049600, .i32⟩ : BufTy).Contents (Elt F) → (⟨S1049600, .i1⟩ : BufTy).Contents (Elt F)),
    StableHlo.nullary main_c_98 (constantI S_ 32 1024#32),
    StableHlo.unary main_c_98 main_v392 (broadcastInDim S1049600 ![] bcast_S_S1049600 : (⟨S_, .i32⟩ : BufTy).Contents (Elt F) → (⟨S1049600, .i32⟩ : BufTy).Contents (Elt F)),
    StableHlo.binary main_v355 main_v392 main_v393 (addi : (⟨S1049600, .i32⟩ : BufTy).Contents (Elt F) → (⟨S1049600, .i32⟩ : BufTy).Contents (Elt F) → (⟨S1049600, .i32⟩ : BufTy).Contents (Elt F)),
    StableHlo.ternary main_v391 main_v393 main_v355 main_v394 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v394 main_v395 (broadcastInDim S1049600x1 ![0] bcast_S1049600_S1049600x1_0 : (⟨S1049600, .i32⟩ : BufTy).Contents (Elt F) → (⟨S1049600x1, .i32⟩ : BufTy).Contents (Elt F)),
    StableHlo.binary main_v389 main_v395 main_v396 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v388 main_v397 (broadcastInDim S1049600x1 ![0] bcast_S1049600_S1049600x1_0 : (⟨S1049600, .f32⟩ : BufTy).Contents (Elt F) → (⟨S1049600x1, .f32⟩ : BufTy).Contents (Elt F)),
    StableHlo.unary main_v397 main_v398 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v396 main_v398 main_v399 (mulf : (⟨S1049600x128, .f32⟩ : BufTy).Contents (Elt F) → (⟨S1049600x128, .f32⟩ : BufTy).Contents (Elt F) → (⟨S1049600x128, .f32⟩ : BufTy).Contents (Elt F)),
    StableHlo.nullary main_cst_99 (constant S_ .f32 0x00000000#32),
    StableHlo.unary main_cst_99 main_v400 (broadcastInDim S1024x128 ![] bcast_S_S1024x128 : (⟨S_, .f32⟩ : BufTy).Contents (Elt F) → (⟨S1024x128, .f32⟩ : BufTy).Contents (Elt F)),
    StableHlo.nullary main_c_100 (constantI S_ 32 0#32),
    StableHlo.unary main_c_100 main_v401 (broadcastInDim S1049600 ![] bcast_S_S1049600 : (⟨S_, .i32⟩ : BufTy).Contents (Elt F) → (⟨S1049600, .i32⟩ : BufTy).Contents (Elt F)),
    StableHlo.binary main_v356 main_v401 main_v402 (cmpi .slt : (⟨S1049600, .i32⟩ : BufTy).Contents (Elt F) → (⟨S1049600, .i32⟩ : BufTy).Contents (Elt F) → (⟨S1049600, .i1⟩ : BufTy).Contents (Elt F)),
    StableHlo.nullary main_c_101 (constantI S_ 32 1024#32),
    StableHlo.unary main_c_101 main_v403 (broadcastInDim S1049600 ![] bcast_S_S1049600 : (⟨S_, .i32⟩ : BufTy).Contents (Elt F) → (⟨S1049600, .i32⟩ : BufTy).Contents (Elt F)),
    StableHlo.binary main_v356 main_v403 main_v404 (addi : (⟨S1049600, .i32⟩ : BufTy).Contents (Elt F) → (⟨S1049600, .i32⟩ : BufTy).Contents (Elt F) → (⟨S1049600, .i32⟩ : BufTy).Contents (Elt F)),
    StableHlo.ternary main_v402 main_v404 main_v356 main_v405 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v405 main_v406 (broadcastInDim S1049600x1 ![0] bcast_S1049600_S1049600x1_0 : (⟨S1049600, .i32⟩ : BufTy).Contents (Elt F) → (⟨S1049600x1, .i32⟩ : BufTy).Contents (Elt F)),
    StableHlo.ternary main_v400 main_v406 main_v399 main_v407 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg5 main_v408 (broadcastInDim S1x128 ![1] bcast_S128_S1x128_1 : (⟨S128, .f32⟩ : BufTy).Contents (Elt F) → (⟨S1x128, .f32⟩ : BufTy).Contents (Elt F)),
    StableHlo.unary main_v408 main_v409 (broadcastInDim S1024x128 ![0, 1] bcast_S1x128_S1024x128_0_1 : (⟨S1x128, .f32⟩ : BufTy).Contents (Elt F) → (⟨S1024x128, .f32⟩ : BufTy).Contents (Elt F)),
    StableHlo.binary main_v407 main_v409 main_v410 (addf : (⟨S1024x128, .f32⟩ : BufTy).Contents (Elt F) → (⟨S1024x128, .f32⟩ : BufTy).Contents (Elt F) → (⟨S1024x128, .f32⟩ : BufTy).Contents (Elt F)),
    StableHlo.TRef.nullary main_call15.cst (constant S_ .f32 0x00000000#32),
    StableHlo.TRef.unary main_call15.cst main_call15.v0 (broadcastInDim S1024x128 ![] bcast_S_S1024x128),
    StableHlo.TRef.binary (.of main_v410) main_call15.v0 main_call15.v1 maximumf ]

/-- The buffers the stretch writes. -/
def WL11 : List (Ref sig .tc) :=
  [main_v350, main_v351, main_v352, main_v353, main_v354, main_v355, main_v356, main_cst_86, main_v357, main_v358, main_cst_87, main_v359, main_c_88, main_v360, main_v361, main_c_89, main_v362, main_v363, main_v364, main_v365, main_v366, main_cst_90, main_v367, main_v368, main_v369, main_cst_91, main_v370, main_v371, main_cst_92, main_call14_v0, main_call14_v1, main_v372, main_c_93, main_v373, main_v374, main_c_94, main_v375, main_v376, main_v377, main_v378, main_v379, main_c_95, main_v380, main_v381, main_c_96, main_v382, main_v383, main_v384, main_v385, main_v386, main_v387, main_v388, main_v389, main_c_97, main_v390, main_v391, main_c_98, main_v392, main_v393, main_v394, main_v395, main_v396, main_v397, main_v398, main_v399, main_cst_99, main_v400, main_c_100, main_v401, main_v402, main_c_101, main_v403, main_v404, main_v405, main_v406, main_v407, main_v408, main_v409, main_v410, main_call15_cst, main_call15_v0, main_v411]

theorem sL11_writes : (sL11 : List (HloOp τ sig (Elt F))).Forall fun op => op.writes ⊆ ((WL11).map (Proc.devRef (τ := τ) .tc)).toFinset := by
  simp only [sL11, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L11_keep (W : Valuation τ sig (Elt F)) {r : Ref sig .tc} (hr : r ∉ WL11) :
    after (sL11 : List (HloOp τ sig (Elt F))) W (no_index (Proc.devRef .tc r)) = W (Proc.devRef .tc r) :=
  after_of_writes_sub _ W sL11_writes hr

set_option maxHeartbeats 8000000 in
set_option maxRecDepth 100000 in
/-- What the stretch leaves in `main_v411`. -/
theorem L11_out (W : Valuation τ sig (Elt F)) :
    after (sL11 : List (HloOp τ sig (Elt F))) W (no_index (Proc.devRef .tc main_v411)) = RefDefs.layerFn (F := F) (W (Proc.devRef .tc main_v349)) (W (Proc.devRef .tc main_v281)) (W (Proc.devRef .tc main_v287)) (W (Proc.devRef .tc main_arg4)) (W (Proc.devRef .tc main_arg5)) := by
  unfold sL11
  after_results_simp
  rfl

end Cert.ReferenceIdeal.RefFold

end
-- ==== Proof.RefFoldL12.lean ====
/- (operations 612 … 693 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL12 : List (HloOp τ sig (Elt F)) :=
  [ StableHlo.unary main_v281 main_v412 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v412 main_v413 rfl shapeCasts_S1x1048576_S1048576,
    StableHlo.unary main_v281 main_v414 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v414 main_v415 rfl shapeCasts_S1x1048576_S1048576,
    StableHlo.nullary main_v416 (iotaInDim S1024 32 0),
    StableHlo.binary main_v413 main_v416 main_v417 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v415 main_v416 main_v418 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_102 (constant S_ .f32 0x3F800000#32),
    StableHlo.unary main_cst_102 main_v419 (broadcastInDim S1024 ![] bcast_S_S1024 : (⟨S_, .f32⟩ : BufTy).Contents (Elt F) → (⟨S1024, .f32⟩ : BufTy).Contents (Elt F)),
    StableHlo.binary main_v287 main_v419 main_v420 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_103 (constant S_ .f32 0x00000000#32),
    StableHlo.unary main_cst_103 main_v421 (broadcastInDim S1024 ![] bcast_S_S1024 : (⟨S_, .f32⟩ : BufTy).Contents (Elt F) → (⟨S1024, .f32⟩ : BufTy).Contents (Elt F)),
    StableHlo.nullary main_c_104 (constantI S_ 32 0#32),
    StableHlo.unary main_c_104 main_v422 (broadcastInDim S1049600 ![] bcast_S_S1049600 : (⟨S_, .i32⟩ : BufTy).Contents (Elt F) → (⟨S1049600, .i32⟩ : BufTy).Contents (Elt F)),
    StableHlo.binary main_v418 main_v422 main_v423 (cmpi .slt : (⟨S1049600, .i32⟩ : BufTy).Contents (Elt F) → (⟨S1049600, .i32⟩ : BufTy).Contents (Elt F) → (⟨S1049600, .i1⟩ : BufTy).Contents (Elt F)),
    StableHlo.nullary main_c_105 (constantI S_ 32 1024#32),
    StableHlo.unary main_c_105 main_v424 (broadcastInDim S1049600 ![] bcast_S_S1049600 : (⟨S_, .i32⟩ : BufTy).Contents (Elt F) → (⟨S1049600, .i32⟩ : BufTy).Contents (Elt F)),
    StableHlo.binary main_v418 main_v424 main_v425 (addi : (⟨S1049600, .i32⟩ : BufTy).Contents (Elt F) → (⟨S1049600, .i32⟩ : BufTy).Contents (Elt F) → (⟨S1049600, .i32⟩ : BufTy).Contents (Elt F)),
    StableHlo.ternary main_v423 main_v425 main_v418 main_v426 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v426 main_v427 (broadcastInDim S1049600x1 ![0] bcast_S1049600_S1049600x1_0 : (⟨S1049600, .i32⟩ : BufTy).Contents (Elt F) → (⟨S1049600x1, .i32⟩ : BufTy).Contents (Elt F)),
    StableHlo.ternary main_v421 main_v427 main_v420 main_v428 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_106 (constant S_ .f32 0x00000000#32),
    StableHlo.unary main_cst_106 main_v429 (broadcastInDim S1024 ![] bcast_S_S1024 : (⟨S_, .f32⟩ : BufTy).Contents (Elt F) → (⟨S1024, .f32⟩ : BufTy).Contents (Elt F)),
    StableHlo.binary main_v428 main_v429 main_v430 (cmpf .ogt : (⟨S1024, .f32⟩ : BufTy).Contents (Elt F) → (⟨S1024, .f32⟩ : BufTy).Contents (Elt F) → (⟨S1024, .i1⟩ : BufTy).Contents (Elt F)),
    StableHlo.unary main_v428 main_v431 (Host.sqrt : (⟨S1024, .f32⟩ : BufTy).Contents (Elt F) → (⟨S1024, .f32⟩ : BufTy).Contents (Elt F)),
    StableHlo.nullary main_cst_107 (constant S_ .f32 0x3F800000#32),
    StableHlo.unary main_cst_107 main_v432 (broadcastInDim S1024 ![] bcast_S_S1024 : (⟨S_, .f32⟩ : BufTy).Contents (Elt F) → (⟨S1024, .f32⟩ : BufTy).Contents (Elt F)),
    StableHlo.binary main_v432 main_v431 main_v433 (Host.divf : (⟨S1024, .f32⟩ : BufTy).Contents (Elt F) → (⟨S1024, .f32⟩ : BufTy).Contents (Elt F) → (⟨S1024, .f32⟩ : BufTy).Contents (Elt F)),
    StableHlo.nullary main_cst_108 (constant S_ .f32 0x00000000#32),
    StableHlo.TRef.unary (.of main_cst_108) main_call16.v0 id,
    StableHlo.TRef.unary main_call16.v0 main_call16.v1 (broadcastInDim S1024 ![] bcast_S_S1024),
    StableHlo.TRef.ternary (.of main_v430) (.of main_v433) main_call16.v1 main_call16.v2 select,
    StableHlo.nullary main_c_109 (constantI S_ 32 0#32),
    StableHlo.unary main_c_109 main_v435 (broadcastInDim S1049600 ![] bcast_S_S1049600 : (⟨S_, .i32⟩ : BufTy).Contents (Elt F) → (⟨S1049600, .i32⟩ : BufTy).Contents (Elt F)),
    StableHlo.binary main_v417 main_v435 main_v436 (cmpi .slt : (⟨S1049600, .i32⟩ : BufTy).Contents (Elt F) → (⟨S1049600, .i32⟩ : BufTy).Contents (Elt F) → (⟨S1049600, .i1⟩ : BufTy).Contents (Elt F)),
    StableHlo.nullary main_c_110 (constantI S_ 32 1024#32),
    StableHlo.unary main_c_110 main_v437 (broadcastInDim S1049600 ![] bcast_S_S1049600 : (⟨S_, .i32⟩ : BufTy).Contents (Elt F) → (⟨S1049600, .i32⟩ : BufTy).Contents (Elt F)),
    StableHlo.binary main_v417 main_v437 main_v438 (addi : (⟨S1049600, .i32⟩ : BufTy).Contents (Elt F) → (⟨S1049600, .i32⟩ : BufTy).Contents (Elt F) → (⟨S1049600, .i32⟩ : BufTy).Contents (Elt F)),
    StableHlo.ternary main_v436 main_v438 main_v417 main_v439 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v439 main_v440 (broadcastInDim S1049600x1 ![0] bcast_S1049600_S1049600x1_0 : (⟨S1049600, .i32⟩ : BufTy).Contents (Elt F) → (⟨S1049600x1, .i32⟩ : BufTy).Contents (Elt F)),
    StableHlo.binary main_v434 main_v440 main_v441 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_111 (constantI S_ 32 0#32),
    StableHlo.unary main_c_111 main_v442 (broadcastInDim S1049600 ![] bcast_S_S1049600 : (⟨S_, .i32⟩ : BufTy).Contents (Elt F) → (⟨S1049600, .i32⟩ : BufTy).Contents (Elt F)),
    StableHlo.binary main_v418 main_v442 main_v443 (cmpi .slt : (⟨S1049600, .i32⟩ : BufTy).Contents (Elt F) → (⟨S1049600, .i32⟩ : BufTy).Contents (Elt F) → (⟨S1049600, .i1⟩ : BufTy).Contents (Elt F)),
    StableHlo.nullary main_c_112 (constantI S_ 32 1024#32),
    StableHlo.unary main_c_112 main_v444 (broadcastInDim S1049600 ![] bcast_S_S1049600 : (⟨S_, .i32⟩ : BufTy).Contents (Elt F) → (⟨S1049600, .i32⟩ : BufTy).Contents (Elt F)),
    StableHlo.binary main_v418 main_v444 main_v445 (addi : (⟨S1049600, .i32⟩ : BufTy).Contents (Elt F) → (⟨S1049600, .i32⟩ : BufTy).Contents (Elt F) → (⟨S1049600, .i32⟩ : BufTy).Contents (Elt F)),
    StableHlo.ternary main_v443 main_v445 main_v418 main_v446 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v446 main_v447 (broadcastInDim S1049600x1 ![0] bcast_S1049600_S1049600x1_0 : (⟨S1049600, .i32⟩ : BufTy).Contents (Elt F) → (⟨S1049600x1, .i32⟩ : BufTy).Contents (Elt F)),
    StableHlo.binary main_v434 main_v447 main_v448 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v441 main_v448 main_v449 (mulf : (⟨S1049600, .f32⟩ : BufTy).Contents (Elt F) → (⟨S1049600, .f32⟩ : BufTy).Contents (Elt F) → (⟨S1049600, .f32⟩ : BufTy).Contents (Elt F)),
    StableHlo.binary main_v449 main_v420 main_v450 (mulf : (⟨S1049600, .f32⟩ : BufTy).Contents (Elt F) → (⟨S1049600, .f32⟩ : BufTy).Contents (Elt F) → (⟨S1049600, .f32⟩ : BufTy).Contents (Elt F)),
    StableHlo.binary main_v411 main_arg6 main_v451 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_113 (constantI S_ 32 0#32),
    StableHlo.unary main_c_113 main_v452 (broadcastInDim S1049600 ![] bcast_S_S1049600 : (⟨S_, .i32⟩ : BufTy).Contents (Elt F) → (⟨S1049600, .i32⟩ : BufTy).Contents (Elt F)),
    StableHlo.binary main_v417 main_v452 main_v453 (cmpi .slt : (⟨S1049600, .i32⟩ : BufTy).Contents (Elt F) → (⟨S1049600, .i32⟩ : BufTy).Contents (Elt F) → (⟨S1049600, .i1⟩ : BufTy).Contents (Elt F)),
    StableHlo.nullary main_c_114 (constantI S_ 32 1024#32),
    StableHlo.unary main_c_114 main_v454 (broadcastInDim S1049600 ![] bcast_S_S1049600 : (⟨S_, .i32⟩ : BufTy).Contents (Elt F) → (⟨S1049600, .i32⟩ : BufTy).Contents (Elt F)),
    StableHlo.binary main_v417 main_v454 main_v455 (addi : (⟨S1049600, .i32⟩ : BufTy).Contents (Elt F) → (⟨S1049600, .i32⟩ : BufTy).Contents (Elt F) → (⟨S1049600, .i32⟩ : BufTy).Contents (Elt F)),
    StableHlo.ternary main_v453 main_v455 main_v417 main_v456 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v456 main_v457 (broadcastInDim S1049600x1 ![0] bcast_S1049600_S1049600x1_0 : (⟨S1049600, .i32⟩ : BufTy).Contents (Elt F) → (⟨S1049600x1, .i32⟩ : BufTy).Contents (Elt F)),
    StableHlo.binary main_v451 main_v457 main_v458 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v450 main_v459 (broadcastInDim S1049600x1 ![0] bcast_S1049600_S1049600x1_0 : (⟨S1049600, .f32⟩ : BufTy).Contents (Elt F) → (⟨S1049600x1, .f32⟩ : BufTy).Contents (Elt F)),
    StableHlo.unary main_v459 main_v460 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v458 main_v460 main_v461 (mulf : (⟨S1049600x128, .f32⟩ : BufTy).Contents (Elt F) → (⟨S1049600x128, .f32⟩ : BufTy).Contents (Elt F) → (⟨S1049600x128, .f32⟩ : BufTy).Contents (Elt F)),
    StableHlo.nullary main_cst_115 (constant S_ .f32 0x00000000#32),
    StableHlo.unary main_cst_115 main_v462 (broadcastInDim S1024x128 ![] bcast_S_S1024x128 : (⟨S_, .f32⟩ : BufTy).Contents (Elt F) → (⟨S1024x128, .f32⟩ : BufTy).Contents (Elt F)),
    StableHlo.nullary main_c_116 (constantI S_ 32 0#32),
    StableHlo.unary main_c_116 main_v463 (broadcastInDim S1049600 ![] bcast_S_S1049600 : (⟨S_, .i32⟩ : BufTy).Contents (Elt F) → (⟨S1049600, .i32⟩ : BufTy).Contents (Elt F)),
    StableHlo.binary main_v418 main_v463 main_v464 (cmpi .slt : (⟨S1049600, .i32⟩ : BufTy).Contents (Elt F) → (⟨S1049600, .i32⟩ : BufTy).Contents (Elt F) → (⟨S1049600, .i1⟩ : BufTy).Contents (Elt F)),
    StableHlo.nullary main_c_117 (constantI S_ 32 1024#32),
    StableHlo.unary main_c_117 main_v465 (broadcastInDim S1049600 ![] bcast_S_S1049600 : (⟨S_, .i32⟩ : BufTy).Contents (Elt F) → (⟨S1049600, .i32⟩ : BufTy).Contents (Elt F)),
    StableHlo.binary main_v418 main_v465 main_v466 (addi : (⟨S1049600, .i32⟩ : BufTy).Contents (Elt F) → (⟨S1049600, .i32⟩ : BufTy).Contents (Elt F) → (⟨S1049600, .i32⟩ : BufTy).Contents (Elt F)),
    StableHlo.ternary main_v464 main_v466 main_v418 main_v467 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v467 main_v468 (broadcastInDim S1049600x1 ![0] bcast_S1049600_S1049600x1_0 : (⟨S1049600, .i32⟩ : BufTy).Contents (Elt F) → (⟨S1049600x1, .i32⟩ : BufTy).Contents (Elt F)),
    StableHlo.ternary main_v462 main_v468 main_v461 main_v469 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg7 main_v470 (broadcastInDim S1x128 ![1] bcast_S128_S1x128_1 : (⟨S128, .f32⟩ : BufTy).Contents (Elt F) → (⟨S1x128, .f32⟩ : BufTy).Contents (Elt F)),
    StableHlo.unary main_v470 main_v471 (broadcastInDim S1024x128 ![0, 1] bcast_S1x128_S1024x128_0_1 : (⟨S1x128, .f32⟩ : BufTy).Contents (Elt F) → (⟨S1024x128, .f32⟩ : BufTy).Contents (Elt F)),
    StableHlo.binary main_v469 main_v471 main_v472 (addf : (⟨S1024x128, .f32⟩ : BufTy).Contents (Elt F) → (⟨S1024x128, .f32⟩ : BufTy).Contents (Elt F) → (⟨S1024x128, .f32⟩ : BufTy).Contents (Elt F)),
    StableHlo.TRef.nullary main_call17.cst (constant S_ .f32 0x00000000#32),
    StableHlo.TRef.unary main_call17.cst main_call17.v0 (broadcastInDim S1024x128 ![] bcast_S_S1024x128),
    StableHlo.TRef.binary (.of main_v472) main_call17.v0 main_call17.v1 maximumf ]

/-- The buffers the stretch writes. -/
def WL12 : List (Ref sig .tc) :=
  [main_v412, main_v413, main_v414, main_v415, main_v416, main_v417, main_v418, main_cst_102, main_v419, main_v420, main_cst_103, main_v421, main_c_104, main_v422, main_v423, main_c_105, main_v424, main_v425, main_v426, main_v427, main_v428, main_cst_106, main_v429, main_v430, main_v431, main_cst_107, main_v432, main_v433, main_cst_108, main_call16_v0, main_call16_v1, main_v434, main_c_109, main_v435, main_v436, main_c_110, main_v437, main_v438, main_v439, main_v440, main_v441, main_c_111, main_v442, main_v443, main_c_112, main_v444, main_v445, main_v446, main_v447, main_v448, main_v449, main_v450, main_v451, main_c_113, main_v452, main_v453, main_c_114, main_v454, main_v455, main_v456, main_v457, main_v458, main_v459, main_v460, main_v461, main_cst_115, main_v462, main_c_116, main_v463, main_v464, main_c_117, main_v465, main_v466, main_v467, main_v468, main_v469, main_v470, main_v471, main_v472, main_call17_cst, main_call17_v0, main_v473]

theorem sL12_writes : (sL12 : List (HloOp τ sig (Elt F))).Forall fun op => op.writes ⊆ ((WL12).map (Proc.devRef (τ := τ) .tc)).toFinset := by
  simp only [sL12, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L12_keep (W : Valuation τ sig (Elt F)) {r : Ref sig .tc} (hr : r ∉ WL12) :
    after (sL12 : List (HloOp τ sig (Elt F))) W (no_index (Proc.devRef .tc r)) = W (Proc.devRef .tc r) :=
  after_of_writes_sub _ W sL12_writes hr

set_option maxHeartbeats 8000000 in
set_option maxRecDepth 100000 in
/-- What the stretch leaves in `main_v473`. -/
theorem L12_out (W : Valuation τ sig (Elt F)) :
    after (sL12 : List (HloOp τ sig (Elt F))) W (no_index (Proc.devRef .tc main_v473)) = RefDefs.layerFn (F := F) (W (Proc.devRef .tc main_v411)) (W (Proc.devRef .tc main_v281)) (W (Proc.devRef .tc main_v287)) (W (Proc.devRef .tc main_arg6)) (W (Proc.devRef .tc main_arg7)) := by
  unfold sL12
  after_results_simp
  rfl

end Cert.ReferenceIdeal.RefFold

end
-- ==== Proof.RefFoldL13.lean ====
/- (operations 694 … 775 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sL13 : List (HloOp τ sig (Elt F)) :=
  [ StableHlo.unary main_v281 main_v474 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v474 main_v475 rfl shapeCasts_S1x1048576_S1048576,
    StableHlo.unary main_v281 main_v476 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v476 main_v477 rfl shapeCasts_S1x1048576_S1048576,
    StableHlo.nullary main_v478 (iotaInDim S1024 32 0),
    StableHlo.binary main_v475 main_v478 main_v479 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v477 main_v478 main_v480 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_118 (constant S_ .f32 0x3F800000#32),
    StableHlo.unary main_cst_118 main_v481 (broadcastInDim S1024 ![] bcast_S_S1024 : (⟨S_, .f32⟩ : BufTy).Contents (Elt F) → (⟨S1024, .f32⟩ : BufTy).Contents (Elt F)),
    StableHlo.binary main_v287 main_v481 main_v482 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_119 (constant S_ .f32 0x00000000#32),
    StableHlo.unary main_cst_119 main_v483 (broadcastInDim S1024 ![] bcast_S_S1024 : (⟨S_, .f32⟩ : BufTy).Contents (Elt F) → (⟨S1024, .f32⟩ : BufTy).Contents (Elt F)),
    StableHlo.nullary main_c_120 (constantI S_ 32 0#32),
    StableHlo.unary main_c_120 main_v484 (broadcastInDim S1049600 ![] bcast_S_S1049600 : (⟨S_, .i32⟩ : BufTy).Contents (Elt F) → (⟨S1049600, .i32⟩ : BufTy).Contents (Elt F)),
    StableHlo.binary main_v480 main_v484 main_v485 (cmpi .slt : (⟨S1049600, .i32⟩ : BufTy).Contents (Elt F) → (⟨S1049600, .i32⟩ : BufTy).Contents (Elt F) → (⟨S1049600, .i1⟩ : BufTy).Contents (Elt F)),
    StableHlo.nullary main_c_121 (constantI S_ 32 1024#32),
    StableHlo.unary main_c_121 main_v486 (broadcastInDim S1049600 ![] bcast_S_S1049600 : (⟨S_, .i32⟩ : BufTy).Contents (Elt F) → (⟨S1049600, .i32⟩ : BufTy).Contents (Elt F)),
    StableHlo.binary main_v480 main_v486 main_v487 (addi : (⟨S1049600, .i32⟩ : BufTy).Contents (Elt F) → (⟨S1049600, .i32⟩ : BufTy).Contents (Elt F) → (⟨S1049600, .i32⟩ : BufTy).Contents (Elt F)),
    StableHlo.ternary main_v485 main_v487 main_v480 main_v488 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v488 main_v489 (broadcastInDim S1049600x1 ![0] bcast_S1049600_S1049600x1_0 : (⟨S1049600, .i32⟩ : BufTy).Contents (Elt F) → (⟨S1049600x1, .i32⟩ : BufTy).Contents (Elt F)),
    StableHlo.ternary main_v483 main_v489 main_v482 main_v490 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_122 (constant S_ .f32 0x00000000#32),
    StableHlo.unary main_cst_122 main_v491 (broadcastInDim S1024 ![] bcast_S_S1024 : (⟨S_, .f32⟩ : BufTy).Contents (Elt F) → (⟨S1024, .f32⟩ : BufTy).Contents (Elt F)),
    StableHlo.binary main_v490 main_v491 main_v492 (cmpf .ogt : (⟨S1024, .f32⟩ : BufTy).Contents (Elt F) → (⟨S1024, .f32⟩ : BufTy).Contents (Elt F) → (⟨S1024, .i1⟩ : BufTy).Contents (Elt F)),
    StableHlo.unary main_v490 main_v493 (Host.sqrt : (⟨S1024, .f32⟩ : BufTy).Contents (Elt F) → (⟨S1024, .f32⟩ : BufTy).Contents (Elt F)),
    StableHlo.nullary main_cst_123 (constant S_ .f32 0x3F800000#32),
    StableHlo.unary main_cst_123 main_v494 (broadcastInDim S1024 ![] bcast_S_S1024 : (⟨S_, .f32⟩ : BufTy).Contents (Elt F) → (⟨S1024, .f32⟩ : BufTy).Contents (Elt F)),
    StableHlo.binary main_v494 main_v493 main_v495 (Host.divf : (⟨S1024, .f32⟩ : BufTy).Contents (Elt F) → (⟨S1024, .f32⟩ : BufTy).Contents (Elt F) → (⟨S1024, .f32⟩ : BufTy).Contents (Elt F)),
    StableHlo.nullary main_cst_124 (constant S_ .f32 0x00000000#32),
    StableHlo.TRef.unary (.of main_cst_124) main_call18.v0 id,
    StableHlo.TRef.unary main_call18.v0 main_call18.v1 (broadcastInDim S1024 ![] bcast_S_S1024),
    StableHlo.TRef.ternary (.of main_v492) (.of main_v495) main_call18.v1 main_call18.v2 select,
    StableHlo.nullary main_c_125 (constantI S_ 32 0#32),
    StableHlo.unary main_c_125 main_v497 (broadcastInDim S1049600 ![] bcast_S_S1049600 : (⟨S_, .i32⟩ : BufTy).Contents (Elt F) → (⟨S1049600, .i32⟩ : BufTy).Contents (Elt F)),
    StableHlo.binary main_v479 main_v497 main_v498 (cmpi .slt : (⟨S1049600, .i32⟩ : BufTy).Contents (Elt F) → (⟨S1049600, .i32⟩ : BufTy).Contents (Elt F) → (⟨S1049600, .i1⟩ : BufTy).Contents (Elt F)),
    StableHlo.nullary main_c_126 (constantI S_ 32 1024#32),
    StableHlo.unary main_c_126 main_v499 (broadcastInDim S1049600 ![] bcast_S_S1049600 : (⟨S_, .i32⟩ : BufTy).Contents (Elt F) → (⟨S1049600, .i32⟩ : BufTy).Contents (Elt F)),
    StableHlo.binary main_v479 main_v499 main_v500 (addi : (⟨S1049600, .i32⟩ : BufTy).Contents (Elt F) → (⟨S1049600, .i32⟩ : BufTy).Contents (Elt F) → (⟨S1049600, .i32⟩ : BufTy).Contents (Elt F)),
    StableHlo.ternary main_v498 main_v500 main_v479 main_v501 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v501 main_v502 (broadcastInDim S1049600x1 ![0] bcast_S1049600_S1049600x1_0 : (⟨S1049600, .i32⟩ : BufTy).Contents (Elt F) → (⟨S1049600x1, .i32⟩ : BufTy).Contents (Elt F)),
    StableHlo.binary main_v496 main_v502 main_v503 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_127 (constantI S_ 32 0#32),
    StableHlo.unary main_c_127 main_v504 (broadcastInDim S1049600 ![] bcast_S_S1049600 : (⟨S_, .i32⟩ : BufTy).Contents (Elt F) → (⟨S1049600, .i32⟩ : BufTy).Contents (Elt F)),
    StableHlo.binary main_v480 main_v504 main_v505 (cmpi .slt : (⟨S1049600, .i32⟩ : BufTy).Contents (Elt F) → (⟨S1049600, .i32⟩ : BufTy).Contents (Elt F) → (⟨S1049600, .i1⟩ : BufTy).Contents (Elt F)),
    StableHlo.nullary main_c_128 (constantI S_ 32 1024#32),
    StableHlo.unary main_c_128 main_v506 (broadcastInDim S1049600 ![] bcast_S_S1049600 : (⟨S_, .i32⟩ : BufTy).Contents (Elt F) → (⟨S1049600, .i32⟩ : BufTy).Contents (Elt F)),
    StableHlo.binary main_v480 main_v506 main_v507 (addi : (⟨S1049600, .i32⟩ : BufTy).Contents (Elt F) → (⟨S1049600, .i32⟩ : BufTy).Contents (Elt F) → (⟨S1049600, .i32⟩ : BufTy).Contents (Elt F)),
    StableHlo.ternary main_v505 main_v507 main_v480 main_v508 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v508 main_v509 (broadcastInDim S1049600x1 ![0] bcast_S1049600_S1049600x1_0 : (⟨S1049600, .i32⟩ : BufTy).Contents (Elt F) → (⟨S1049600x1, .i32⟩ : BufTy).Contents (Elt F)),
    StableHlo.binary main_v496 main_v509 main_v510 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v503 main_v510 main_v511 (mulf : (⟨S1049600, .f32⟩ : BufTy).Contents (Elt F) → (⟨S1049600, .f32⟩ : BufTy).Contents (Elt F) → (⟨S1049600, .f32⟩ : BufTy).Contents (Elt F)),
    StableHlo.binary main_v511 main_v482 main_v512 (mulf : (⟨S1049600, .f32⟩ : BufTy).Contents (Elt F) → (⟨S1049600, .f32⟩ : BufTy).Contents (Elt F) → (⟨S1049600, .f32⟩ : BufTy).Contents (Elt F)),
    StableHlo.binary main_v473 main_arg8 main_v513 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.nullary main_c_129 (constantI S_ 32 0#32),
    StableHlo.unary main_c_129 main_v514 (broadcastInDim S1049600 ![] bcast_S_S1049600 : (⟨S_, .i32⟩ : BufTy).Contents (Elt F) → (⟨S1049600, .i32⟩ : BufTy).Contents (Elt F)),
    StableHlo.binary main_v479 main_v514 main_v515 (cmpi .slt : (⟨S1049600, .i32⟩ : BufTy).Contents (Elt F) → (⟨S1049600, .i32⟩ : BufTy).Contents (Elt F) → (⟨S1049600, .i1⟩ : BufTy).Contents (Elt F)),
    StableHlo.nullary main_c_130 (constantI S_ 32 1024#32),
    StableHlo.unary main_c_130 main_v516 (broadcastInDim S1049600 ![] bcast_S_S1049600 : (⟨S_, .i32⟩ : BufTy).Contents (Elt F) → (⟨S1049600, .i32⟩ : BufTy).Contents (Elt F)),
    StableHlo.binary main_v479 main_v516 main_v517 (addi : (⟨S1049600, .i32⟩ : BufTy).Contents (Elt F) → (⟨S1049600, .i32⟩ : BufTy).Contents (Elt F) → (⟨S1049600, .i32⟩ : BufTy).Contents (Elt F)),
    StableHlo.ternary main_v515 main_v517 main_v479 main_v518 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v518 main_v519 (broadcastInDim S1049600x1 ![0] bcast_S1049600_S1049600x1_0 : (⟨S1049600, .i32⟩ : BufTy).Contents (Elt F) → (⟨S1049600x1, .i32⟩ : BufTy).Contents (Elt F)),
    StableHlo.binary main_v513 main_v519 main_v520 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v512 main_v521 (broadcastInDim S1049600x1 ![0] bcast_S1049600_S1049600x1_0 : (⟨S1049600, .f32⟩ : BufTy).Contents (Elt F) → (⟨S1049600x1, .f32⟩ : BufTy).Contents (Elt F)),
    StableHlo.unary main_v521 main_v522 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v520 main_v522 main_v523 (mulf : (⟨S1049600x128, .f32⟩ : BufTy).Contents (Elt F) → (⟨S1049600x128, .f32⟩ : BufTy).Contents (Elt F) → (⟨S1049600x128, .f32⟩ : BufTy).Contents (Elt F)),
    StableHlo.nullary main_cst_131 (constant S_ .f32 0x00000000#32),
    StableHlo.unary main_cst_131 main_v524 (broadcastInDim S1024x128 ![] bcast_S_S1024x128 : (⟨S_, .f32⟩ : BufTy).Contents (Elt F) → (⟨S1024x128, .f32⟩ : BufTy).Contents (Elt F)),
    StableHlo.nullary main_c_132 (constantI S_ 32 0#32),
    StableHlo.unary main_c_132 main_v525 (broadcastInDim S1049600 ![] bcast_S_S1049600 : (⟨S_, .i32⟩ : BufTy).Contents (Elt F) → (⟨S1049600, .i32⟩ : BufTy).Contents (Elt F)),
    StableHlo.binary main_v480 main_v525 main_v526 (cmpi .slt : (⟨S1049600, .i32⟩ : BufTy).Contents (Elt F) → (⟨S1049600, .i32⟩ : BufTy).Contents (Elt F) → (⟨S1049600, .i1⟩ : BufTy).Contents (Elt F)),
    StableHlo.nullary main_c_133 (constantI S_ 32 1024#32),
    StableHlo.unary main_c_133 main_v527 (broadcastInDim S1049600 ![] bcast_S_S1049600 : (⟨S_, .i32⟩ : BufTy).Contents (Elt F) → (⟨S1049600, .i32⟩ : BufTy).Contents (Elt F)),
    StableHlo.binary main_v480 main_v527 main_v528 (addi : (⟨S1049600, .i32⟩ : BufTy).Contents (Elt F) → (⟨S1049600, .i32⟩ : BufTy).Contents (Elt F) → (⟨S1049600, .i32⟩ : BufTy).Contents (Elt F)),
    StableHlo.ternary main_v526 main_v528 main_v480 main_v529 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v529 main_v530 (broadcastInDim S1049600x1 ![0] bcast_S1049600_S1049600x1_0 : (⟨S1049600, .i32⟩ : BufTy).Contents (Elt F) → (⟨S1049600x1, .i32⟩ : BufTy).Contents (Elt F)),
    StableHlo.ternary main_v524 main_v530 main_v523 main_v531 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg9 main_v532 (broadcastInDim S1x128 ![1] bcast_S128_S1x128_1 : (⟨S128, .f32⟩ : BufTy).Contents (Elt F) → (⟨S1x128, .f32⟩ : BufTy).Contents (Elt F)),
    StableHlo.unary main_v532 main_v533 (broadcastInDim S1024x128 ![0, 1] bcast_S1x128_S1024x128_0_1 : (⟨S1x128, .f32⟩ : BufTy).Contents (Elt F) → (⟨S1024x128, .f32⟩ : BufTy).Contents (Elt F)),
    StableHlo.binary main_v531 main_v533 main_v534 (addf : (⟨S1024x128, .f32⟩ : BufTy).Contents (Elt F) → (⟨S1024x128, .f32⟩ : BufTy).Contents (Elt F) → (⟨S1024x128, .f32⟩ : BufTy).Contents (Elt F)),
    StableHlo.TRef.nullary main_call19.cst (constant S_ .f32 0x00000000#32),
    StableHlo.TRef.unary main_call19.cst main_call19.v0 (broadcastInDim S1024x128 ![] bcast_S_S1024x128),
    StableHlo.TRef.binary (.of main_v534) main_call19.v0 main_call19.v1 maximumf ]

/-- The buffers the stretch writes. -/
def WL13 : List (Ref sig .tc) :=
  [main_v474, main_v475, main_v476, main_v477, main_v478, main_v479, main_v480, main_cst_118, main_v481, main_v482, main_cst_119, main_v483, main_c_120, main_v484, main_v485, main_c_121, main_v486, main_v487, main_v488, main_v489, main_v490, main_cst_122, main_v491, main_v492, main_v493, main_cst_123, main_v494, main_v495, main_cst_124, main_call18_v0, main_call18_v1, main_v496, main_c_125, main_v497, main_v498, main_c_126, main_v499, main_v500, main_v501, main_v502, main_v503, main_c_127, main_v504, main_v505, main_c_128, main_v506, main_v507, main_v508, main_v509, main_v510, main_v511, main_v512, main_v513, main_c_129, main_v514, main_v515, main_c_130, main_v516, main_v517, main_v518, main_v519, main_v520, main_v521, main_v522, main_v523, main_cst_131, main_v524, main_c_132, main_v525, main_v526, main_c_133, main_v527, main_v528, main_v529, main_v530, main_v531, main_v532, main_v533, main_v534, main_call19_cst, main_call19_v0, main_v535]

theorem sL13_writes : (sL13 : List (HloOp τ sig (Elt F))).Forall fun op => op.writes ⊆ ((WL13).map (Proc.devRef (τ := τ) .tc)).toFinset := by
  simp only [sL13, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem L13_keep (W : Valuation τ sig (Elt F)) {r : Ref sig .tc} (hr : r ∉ WL13) :
    after (sL13 : List (HloOp τ sig (Elt F))) W (no_index (Proc.devRef .tc r)) = W (Proc.devRef .tc r) :=
  after_of_writes_sub _ W sL13_writes hr

set_option maxHeartbeats 8000000 in
set_option maxRecDepth 100000 in
/-- What the stretch leaves in `main_v535`. -/
theorem L13_out (W : Valuation τ sig (Elt F)) :
    after (sL13 : List (HloOp τ sig (Elt F))) W (no_index (Proc.devRef .tc main_v535)) = RefDefs.layerFn (F := F) (W (Proc.devRef .tc main_v473)) (W (Proc.devRef .tc main_v281)) (W (Proc.devRef .tc main_v287)) (W (Proc.devRef .tc main_arg8)) (W (Proc.devRef .tc main_arg9)) := by
  unfold sL13
  after_results_simp
  rfl

end Cert.ReferenceIdeal.RefFold

end
-- ==== Proof.RefFoldM1.lean ====
/- (operations 776 … 785 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sM1 : List (HloOp τ sig (Elt F)) :=
  [ StableHlo.unary main_v349 main_v536 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v411 main_v537 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v473 main_v538 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v535 main_v539 (broadcastInDim S1x1024x128 ![1, 2] bcast_S1024x128_S1x1024x128_1_2 : (⟨S1024x128, .f32⟩ : BufTy).Contents (Elt F) → (⟨S1x1024x128, .f32⟩ : BufTy).Contents (Elt F)),
    StableHlo.nary ![main_v536, main_v537, main_v538, main_v539] main_v540 (fun u => concatenate S4x1024x128 0 [⟨S1x1024x128, u 0⟩, ⟨S1x1024x128, u 1⟩, ⟨S1x1024x128, u 2⟩, ⟨S1x1024x128, u 3⟩] concatenates_S1x1024x128_S1x1024x128_S1x1024x128_S1x1024x128_S4x1024x128_d0),
    StableHlo.nullary main_cst_134 (constant S_ .f32 0x00000000#32),
    StableHlo.binary main_v540 main_cst_134 main_v541 ((fun x v => Host.reduceAdd x v reducesTo_S4x1024x128_S1024x128_d0 h_S_) : (⟨S4x1024x128, .f32⟩ : BufTy).Contents (Elt F) → (⟨S_, .f32⟩ : BufTy).Contents (Elt F) → (⟨S1024x128, .f32⟩ : BufTy).Contents (Elt F)),
    StableHlo.nullary main_cst_135 (constant S_ .f32 0x40800000#32),
    StableHlo.unary main_cst_135 main_v542 (broadcastInDim S1024x128 ![] bcast_S_S1024x128 : (⟨S_, .f32⟩ : BufTy).Contents (Elt F) → (⟨S1024x128, .f32⟩ : BufTy).Contents (Elt F)),
    StableHlo.binary main_v541 main_v542 main_v543 (Host.divf : (⟨S1024x128, .f32⟩ : BufTy).Contents (Elt F) → (⟨S1024x128, .f32⟩ : BufTy).Contents (Elt F) → (⟨S1024x128, .f32⟩ : BufTy).Contents (Elt F)) ]

/-- The buffers the stretch writes. -/
def WM1 : List (Ref sig .tc) :=
  [main_v536, main_v537, main_v538, main_v539, main_v540, main_cst_134, main_v541, main_cst_135, main_v542, main_v543]

theorem sM1_writes : (sM1 : List (HloOp τ sig (Elt F))).Forall fun op => op.writes ⊆ ((WM1).map (Proc.devRef (τ := τ) .tc)).toFinset := by
  simp only [sM1, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem M1_keep (W : Valuation τ sig (Elt F)) {r : Ref sig .tc} (hr : r ∉ WM1) :
    after (sM1 : List (HloOp τ sig (Elt F))) W (no_index (Proc.devRef .tc r)) = W (Proc.devRef .tc r) :=
  after_of_writes_sub _ W sM1_writes hr

set_option maxHeartbeats 8000000 in
set_option maxRecDepth 100000 in
/-- What the stretch leaves in `main_v543`. -/
theorem M1_out (W : Valuation τ sig (Elt F)) :
    after (sM1 : List (HloOp τ sig (Elt F))) W (no_index (Proc.devRef .tc main_v543)) = RefDefs.meanFn (F := F) (W (Proc.devRef .tc main_v349)) (W (Proc.devRef .tc main_v411)) (W (Proc.devRef .tc main_v473)) (W (Proc.devRef .tc main_v535)) := by
  unfold sM1
  after_results_simp
  rfl

end Cert.ReferenceIdeal.RefFold

end
-- ==== Proof.RefFoldF.lean ====
/- (operations 786 … 788 of the reference's @main, the buffers they write, and what the stretch leaves in its result buffers) -/
import proofs.«154241_g14164802142580_cont_sun_m_321_17_alg».proof.Proof.Gen.ReferenceIdeal
import proofs.«154241_g14164802142580_cont_sun_m_321_17_alg».proof.Proof.RefDefs
import Idealize.ShloMosaic.Lib.StableHlo.Run

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The stretch's operations, in order. -/
def sF : List (HloOp τ sig (Elt F)) :=
  [ StableHlo.unary main_v271 main_v544 (broadcastInDim S1x1024x128 ![1, 2] bcast_S1024x128_S1x1024x128_1_2 : (⟨S1024x128, .f32⟩ : BufTy).Contents (Elt F) → (⟨S1x1024x128, .f32⟩ : BufTy).Contents (Elt F)),
    StableHlo.unary main_v543 main_v545 (broadcastInDim S1x1024x128 ![1, 2] bcast_S1024x128_S1x1024x128_1_2 : (⟨S1024x128, .f32⟩ : BufTy).Contents (Elt F) → (⟨S1x1024x128, .f32⟩ : BufTy).Contents (Elt F)),
    StableHlo.binary main_v544 main_v545 main_v546 ((fun a b => concatenate S2x1024x128 0 [⟨S1x1024x128, a⟩, ⟨S1x1024x128, b⟩] concatenates_S1x1024x128_S1x1024x128_S2x1024x128_d0) : (⟨S1x1024x128, .f32⟩ : BufTy).Contents (Elt F) → (⟨S1x1024x128, .f32⟩ : BufTy).Contents (Elt F) → (⟨S2x1024x128, .f32⟩ : BufTy).Contents (Elt F)) ]

/-- The buffers the stretch writes. -/
def WF : List (Ref sig .tc) :=
  [main_v544, main_v545, main_v546]

theorem sF_writes : (sF : List (HloOp τ sig (Elt F))).Forall fun op => op.writes ⊆ ((WF).map (Proc.devRef (τ := τ) .tc)).toFinset := by
  simp only [sF, List.Forall, nullary_writes, unary_writes, binary_writes, ternary_writes, reshape_writes, nary_writes, Finset.singleton_subset_iff, List.mem_toFinset]
  repeat' apply And.intro
  all_goals exact List.mem_map_of_mem (by decide)

/-- A buffer the stretch does not write keeps its contents. -/
theorem F_keep (W : Valuation τ sig (Elt F)) {r : Ref sig .tc} (hr : r ∉ WF) :
    after (sF : List (HloOp τ sig (Elt F))) W (no_index (Proc.devRef .tc r)) = W (Proc.devRef .tc r) :=
  after_of_writes_sub _ W sF_writes hr

set_option maxHeartbeats 8000000 in
set_option maxRecDepth 100000 in
/-- What the stretch leaves in `main_v546`. -/
theorem F_out (W : Valuation τ sig (Elt F)) :
    after (sF : List (HloOp τ sig (Elt F))) W (no_index (Proc.devRef .tc main_v546)) = RefDefs.stackFn (F := F) (W (Proc.devRef .tc main_v271)) (W (Proc.devRef .tc main_v543)) := by
  unfold sF
  after_results_simp
  rfl

end Cert.ReferenceIdeal.RefFold

end
-- ==== Proof.RefChain.lean ====
/-
  The reference's run read back: its operations, cut into the stretches of the two graphs (prefix, four layers, mean)
  and the final stacking, leave in the result buffer the function `whole` of the ten argument arrays, and leave the
  argument arrays as they were. Each stretch's lemma says what it leaves in its result buffers and that it keeps
  every buffer it does not write; the run's fold is the stretches' folds in order.
-/
import proofs.«154241_g14164802142580_cont_sun_m_321_17_alg».proof.Proof.RefOps
import proofs.«154241_g14164802142580_cont_sun_m_321_17_alg».proof.Proof.RefFoldA0
import proofs.«154241_g14164802142580_cont_sun_m_321_17_alg».proof.Proof.RefFoldL00
import proofs.«154241_g14164802142580_cont_sun_m_321_17_alg».proof.Proof.RefFoldL01
import proofs.«154241_g14164802142580_cont_sun_m_321_17_alg».proof.Proof.RefFoldL02
import proofs.«154241_g14164802142580_cont_sun_m_321_17_alg».proof.Proof.RefFoldL03
import proofs.«154241_g14164802142580_cont_sun_m_321_17_alg».proof.Proof.RefFoldM0
import proofs.«154241_g14164802142580_cont_sun_m_321_17_alg».proof.Proof.RefFoldA1
import proofs.«154241_g14164802142580_cont_sun_m_321_17_alg».proof.Proof.RefFoldL10
import proofs.«154241_g14164802142580_cont_sun_m_321_17_alg».proof.Proof.RefFoldL11
import proofs.«154241_g14164802142580_cont_sun_m_321_17_alg».proof.Proof.RefFoldL12
import proofs.«154241_g14164802142580_cont_sun_m_321_17_alg».proof.Proof.RefFoldL13
import proofs.«154241_g14164802142580_cont_sun_m_321_17_alg».proof.Proof.RefFoldM1
import proofs.«154241_g14164802142580_cont_sun_m_321_17_alg».proof.Proof.RefFoldF
import proofs.«154241_g14164802142580_cont_sun_m_321_17_alg».proof.Proof.LibCat

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-- The operations of @main are the stretches' operations, in order. -/
theorem ops_eq : (RefRun.ops : List (HloOp τ sig (Elt F))) = sA0 ++ (sL00 ++ (sL01 ++ (sL02 ++ (sL03 ++ (sM0 ++ (sA1 ++ (sL10 ++ (sL11 ++ (sL12 ++ (sL13 ++ (sM1 ++ (sF)))))))))))) := rfl

set_option maxHeartbeats 4000000 in
/-- After all the operations the result buffer holds `whole` of the argument arrays. -/
theorem fold_out (V : Valuation τ sig (Elt F)) :
    after (RefRun.ops : List (HloOp τ sig (Elt F))) V (Proc.devRef .tc main_v546)
      = RefDefs.whole (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  rw [ops_eq]
  simp (disch := decide) only [Cert.Lib.after_append, A0_x, A0_ei, A0_w, A1_x, A1_ei, A1_w, L00_out, L01_out, L02_out, L03_out, M0_out, L10_out, L11_out, L12_out, L13_out, M1_out, F_out, A0_keep, L00_keep, L01_keep, L02_keep, L03_keep, M0_keep, A1_keep, L10_keep, L11_keep, L12_keep, L13_keep, M1_keep, F_keep]
  rfl

set_option maxHeartbeats 4000000 in
/-- No operation writes an argument array. -/
theorem fold_arg (V : Valuation τ sig (Elt F)) {r : Ref sig .tc}
    (hr : r ∈ [main_arg0, main_arg1, main_arg2, main_arg3, main_arg4, main_arg5, main_arg6, main_arg7, main_arg8, main_arg9]) :
    after (RefRun.ops : List (HloOp τ sig (Elt F))) V (Proc.devRef .tc r) = V (Proc.devRef .tc r) := by
  rw [ops_eq]
  simp only [List.mem_cons, List.not_mem_nil, or_false] at hr
  rcases hr with rfl | rfl | rfl | rfl | rfl | rfl | rfl | rfl | rfl | rfl <;>
    simp (disch := decide) only [Cert.Lib.after_append, A0_keep, L00_keep, L01_keep, L02_keep, L03_keep, M0_keep, A1_keep, L10_keep, L11_keep, L12_keep, L13_keep, M1_keep, F_keep]

end Cert.ReferenceIdeal.RefFold

end
-- ==== Proof.RefRunValue.lean ====
/-
  The reference program's run with its result named: every weakly fair execution terminates, the result buffer
  holds `whole` of the argument arrays as launched, and the argument arrays are unchanged.
-/
import proofs.«154241_g14164802142580_cont_sun_m_321_17_alg».proof.Proof.RefOps
import proofs.«154241_g14164802142580_cont_sun_m_321_17_alg».proof.Proof.RefChain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The run, read back through the fold of the operations. -/
theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v546)
        = RefDefs.whole (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c main_v546).trans (RefFold.fold_out (launchContents m c)),
      (h c main_arg0).trans (RefFold.fold_arg (launchContents m c) (by decide)),
      (h c main_arg1).trans (RefFold.fold_arg (launchContents m c) (by decide)),
      (h c main_arg2).trans (RefFold.fold_arg (launchContents m c) (by decide)),
      (h c main_arg3).trans (RefFold.fold_arg (launchContents m c) (by decide)),
      (h c main_arg4).trans (RefFold.fold_arg (launchContents m c) (by decide)),
      (h c main_arg5).trans (RefFold.fold_arg (launchContents m c) (by decide)),
      (h c main_arg6).trans (RefFold.fold_arg (launchContents m c) (by decide)),
      (h c main_arg7).trans (RefFold.fold_arg (launchContents m c) (by decide)),
      (h c main_arg8).trans (RefFold.fold_arg (launchContents m c) (by decide)),
      (h c main_arg9).trans (RefFold.fold_arg (launchContents m c) (by decide))⟩)
    (run_main (F := F) m ρ)

end Cert.ReferenceIdeal.RefRun

end
-- ==== Proof.Claims.lean ====
/-
  The five claims. The two kernel programs' frames are their generated frame runs; the reference's frame is its run
  with the result dropped; the idealization rewrote nothing; and at the extended reals both programs end with one
  array: the kernel's run leaves `KG` of the arguments, the reference's run leaves `whole` of the same arguments,
  and under the precondition (real entries, adjacency words 0 or 1) these are the same array.
-/
import proofs.«154241_g14164802142580_cont_sun_m_321_17_alg».proof.Defs
import proofs.«154241_g14164802142580_cont_sun_m_321_17_alg».proof.Proof.Gen.Kernel.Frame
import proofs.«154241_g14164802142580_cont_sun_m_321_17_alg».proof.Proof.Gen.KernelIdeal.Frame
import proofs.«154241_g14164802142580_cont_sun_m_321_17_alg».proof.Proof.Gen.ReferenceIdeal
import proofs.«154241_g14164802142580_cont_sun_m_321_17_alg».proof.Proof.Gen.Pre_finite_inputs
import proofs.«154241_g14164802142580_cont_sun_m_321_17_alg».proof.Proof.KBlocks
import proofs.«154241_g14164802142580_cont_sun_m_321_17_alg».proof.Proof.Bridge
import proofs.«154241_g14164802142580_cont_sun_m_321_17_alg».proof.Proof.RefRunValue

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2) (Cert.ReferenceIdeal.RefRun.run_whole (F := Ideal) m ρ)

theorem preserves : Cert.preserves_Kernel_KernelIdeal := trivial

/-- Both runs end, with the same result array: `KG` of the kernel's arguments. -/
theorem algebraic : Cert.algebraic_KernelIdeal_ReferenceIdeal := by
  intro m ρ m' ρ' hpre hagree
  refine ⟨_, Cert.KernelIdeal.GcnK.krun (F := Ideal) m ρ, ?_⟩
  refine (θ_run Cert.ReferenceIdeal.defs _ _).mono (fun _ h c => ⟨(h c).1.trans ?_, (h c).2⟩)
    (Cert.ReferenceIdeal.RefRun.run_whole (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact Cert.Bridge.whole_eq_KG _ _ _ _ _ _ _ _ _ _ (hpre c)

end Cert.Proof.Claims

end
-- ==== Proof.lean ====
/-
  The certificate of the fused four-layer graph convolution against its edge-list reference.

  The kernel treats the 0/1 adjacency words as numbers: with a 1 put on the diagonal they form a dense matrix `a`,
  the degrees are its column sums, and a layer is `max (dis · ((dis · (W^T x^T)) a) + b) 0` in feature-major layout;
  the reference enumerates all 1024·1024 ordered pairs as an edge list with weight 1 where the word is not zero off
  the diagonal, appends the self loops, and gathers / scatter-adds along it. On the extended reals, for real inputs
  and words in {0, 1}, both are the real function `Gcn.out` of Proof/Spec.lean: the sum over the edges into a node
  is the sum over the sources plus the self loop, and the factor `dis d` moves across the finite sum of reals.
  The claims are assembled in Proof/Claims.lean.
-/
import proofs.«154241_g14164802142580_cont_sun_m_321_17_alg».proof.Defs
import proofs.«154241_g14164802142580_cont_sun_m_321_17_alg».proof.Proof.Gen.Kernel
import proofs.«154241_g14164802142580_cont_sun_m_321_17_alg».proof.Proof.Gen.KernelIdeal
import proofs.«154241_g14164802142580_cont_sun_m_321_17_alg».proof.Proof.Gen.ReferenceIdeal
import proofs.«154241_g14164802142580_cont_sun_m_321_17_alg».proof.Proof.Gen.Pre_finite_inputs
import proofs.«154241_g14164802142580_cont_sun_m_321_17_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
